-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v193)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v193) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x10 .f32) (main_arg12 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S5x64 .f32) (main_arg7 : FVec F S5x64 .f32) (main_arg8 : FVec F S5x64 .f32) (main_arg9 : FVec F S64x64 .f32) (main_arg10 : FVec F S64 .f32) (main_arg11 : FVec F S64x10 .f32) (main_arg12 : FVec F S10 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64 .f32 := Host.absf main_arg6
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S5x64 .f32 := Host.absf main_arg7
  let main_cst_8 : FVec F S_ .f32 := constant S_ .f32 0x7F800000#32
  let main_v25 : FVec F S5x64 .f32 := broadcastInDim S5x64 ![] bcast_S_S5x64 main_cst_8
  let main_v26 : IVec S5x64 1 := cmpf .olt main_v24 main_v25
  let main_c_9 : IVec S_ 1 := constantI S_ 1 1#1
  let main_v27 : IVec S_ 1 := (fun x v => Host.reduce IntOp.andi x v reducesTo_S5x64_S_d0_1 h_S_) main_v26 main_c_9
  let main_v28 : IVec S_ 1 := andi main_v23 main_v27
  let main_v29 : FVec F S5x64 .f32 := Host.absf main_arg8
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S5x64x64 .f32) (main_arg4 : FVec F S5x64 .f32) (main_arg5 : FVec F S5x64x64 .f32) (main_arg6 : FVec F S5x64 .f32) (main_arg7 : FVec F S5x64 .f32) (main_arg8 : FVec F S5x64 .f32) (main_arg9 : FVec F S64x64 .f32) (main_arg10 : FVec F S64 .f32) (main_arg11 : FVec F S64x10 .f32) (main_arg12 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S5x64x64 .f32 := Host.absf main_arg3
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg4
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5x64x64 .f32 := Host.absf main_arg5
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S10000x64 : Shape := ⟨2, ![10000, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 241
  | .vmem => 116
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S5x64x64, .f32⟩
  | 4 => ⟨S5x64, .f32⟩
  | 5 => ⟨S5x64x64, .f32⟩
  | 6 => ⟨S5x64, .f32⟩
  | 7 => ⟨S5x64, .f32⟩
  | 8 => ⟨S5x64, .f32⟩
  | 9 => ⟨S64x64, .f32⟩
  | 10 => ⟨S64, .f32⟩
  | 11 => ⟨S64x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S1x64x64, .f32⟩
  | 36 => ⟨S64x64, .f32⟩
  | 37 => ⟨S1x64, .f32⟩
  | 38 => ⟨S64, .f32⟩
  | 39 => ⟨S1x64, .f32⟩
  | 40 => ⟨S100000x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S1x64, .f32⟩
  | 51 => ⟨S1x64, .f32⟩
  | 52 => ⟨S64, .f32⟩
  | 53 => ⟨S1x64, .f32⟩
  | 54 => ⟨S1x64, .f32⟩
  | 55 => ⟨S64, .f32⟩
  | 56 => ⟨S1x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S100000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S1x64, .f32⟩
  | 93 => ⟨S64, .f32⟩
  | 94 => ⟨S1x64, .f32⟩
  | 95 => ⟨S1x64, .f32⟩
  | 96 => ⟨S64, .f32⟩
  | 97 => ⟨S1x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S1x64x64, .f32⟩
  | 113 => ⟨S64x64, .f32⟩
  | 114 => ⟨S1x64, .f32⟩
  | 115 => ⟨S64, .f32⟩
  | 116 => ⟨S1x64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S100000x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S100000x64, .f32⟩

abbrev hbmTy0_1 (i : Nat) : BufTy := match i % 128 with
  | 0 => ⟨S_, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S64, .f32⟩
  | 7 => ⟨S1x64, .f32⟩
  | 8 => ⟨S1x64, .f32⟩
  | 9 => ⟨S64, .f32⟩
  | 10 => ⟨S1x64, .f32⟩
  | 11 => ⟨S100000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S100000x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S64, .f32⟩
  | 48 => ⟨S1x64, .f32⟩
  | 49 => ⟨S1x64, .f32⟩
  | 50 => ⟨S64, .f32⟩
  | 51 => ⟨S1x64, .f32⟩
  | 52 => ⟨S100000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S1x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S100000x64, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S64, .f32⟩
  | 89 => ⟨S1x64, .f32⟩
  | 90 => ⟨S1x64, .f32⟩
  | 91 => ⟨S64, .f32⟩
  | 92 => ⟨S1x64, .f32⟩
  | 93 => ⟨S100000x64, .f32⟩
  | 94 => ⟨S_, .f32⟩
  | 95 => ⟨S128x64, .f32⟩
  | 96 => ⟨S100000x1, .i32⟩
  | 97 => ⟨S128x64, .f32⟩
  | 98 => ⟨S_, .f32⟩
  | 99 => ⟨S100000, .f32⟩
  | 100 => ⟨S_, .f32⟩
  | 101 => ⟨S128, .f32⟩
  | 102 => ⟨S100000x1, .i32⟩
  | 103 => ⟨S128, .f32⟩
  | 104 => ⟨S_, .f32⟩
  | 105 => ⟨S128, .f32⟩
  | 106 => ⟨S128, .f32⟩
  | 107 => ⟨S128x1, .f32⟩
  | 108 => ⟨S128x64, .f32⟩
  | 109 => ⟨S128x64, .f32⟩
  | 110 => ⟨S1x64, .f32⟩
  | 111 => ⟨S1x10, .f32⟩
  | 112 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S64x64, .f32⟩
  | .local _ .vmem, ⟨49, _⟩ => ⟨S1x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S1x64, .f32⟩
  | .local _ .vmem, ⟨72, _⟩ => ⟨S64x64, .f32⟩
  | .local _ .vmem, ⟨73, _⟩ => ⟨S1x64, .f32⟩
  | .local _ .vmem, ⟨74, _⟩ => ⟨S10000x64, .f32⟩
  | .local _ .vmem, ⟨75, _⟩ => ⟨S10000x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S10000x64, .f32⟩
  | .local _ .vmem, ⟨81, _⟩ => ⟨S10000x64, .f32⟩
  | .local _ .vmem, ⟨82, _⟩ => ⟨S1x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S64x64, .f32⟩
  | .local _ .vmem, ⟨93, _⟩ => ⟨S1x64, .f32⟩
  | .local _ .vmem, ⟨94, _⟩ => ⟨S64x64, .f32⟩
  | .local _ .vmem, ⟨95, _⟩ => ⟨S1x64, .f32⟩
  | .local _ .vmem, ⟨96, _⟩ => ⟨S10000x64, .f32⟩
  | .local _ .vmem, ⟨97, _⟩ => ⟨S10000x64, .f32⟩
  | .local _ .vmem, ⟨98, _⟩ => ⟨S10000x64, .f32⟩
  | .local _ .vmem, ⟨99, _⟩ => ⟨S10000x64, .f32⟩
  | .local _ .vmem, ⟨100, _⟩ => ⟨S1x64, .f32⟩
  | .local _ .vmem, ⟨101, _⟩ => ⟨S1x64, .f32⟩
  | .local _ .vmem, ⟨102, _⟩ => ⟨S10000x64, .f32⟩
  | .local _ .vmem, ⟨103, _⟩ => ⟨S10000x64, .f32⟩
  | .local _ .vmem, ⟨104, _⟩ => ⟨S1x64, .f32⟩
  | .local _ .vmem, ⟨105, _⟩ => ⟨S1x64, .f32⟩
  | .local _ .vmem, ⟨106, _⟩ => ⟨S1x64, .f32⟩
  | .local _ .vmem, ⟨107, _⟩ => ⟨S1x64, .f32⟩
  | .local _ .vmem, ⟨108, _⟩ => ⟨S10000x64, .f32⟩
  | .local _ .vmem, ⟨109, _⟩ => ⟨S10000x64, .f32⟩
  | .local _ .vmem, ⟨110, _⟩ => ⟨S128x64, .f32⟩
  | .local _ .vmem, ⟨111, _⟩ => ⟨S64x64, .f32⟩
  | .local _ .vmem, ⟨112, _⟩ => ⟨S1x64, .f32⟩
  | .local _ .vmem, ⟨113, _⟩ => ⟨S64x10, .f32⟩
  | .local _ .vmem, ⟨114, _⟩ => ⟨S1x10, .f32⟩
  | .local _ .vmem, ⟨115, _⟩ => ⟨S128x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_cst_6 : Ref sig .tc := ⟨.hbm, 84, rfl⟩
abbrev main_v61 : Ref sig .tc := ⟨.hbm, 85, rfl⟩
abbrev main_v62 : Ref sig .tc := ⟨.hbm, 86, rfl⟩
abbrev main_cst_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_8 : Ref sig .tc := ⟨.hbm, 99, rfl⟩
abbrev main_v74 : Ref sig .tc := ⟨.hbm, 100, rfl⟩
abbrev main_v75 : Ref sig .tc := ⟨.hbm, 101, rfl⟩
abbrev main_c_9 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95_0 : Ref sig .tc := ⟨.hbm, 123, rfl⟩
abbrev main_v95_1 : Ref sig .tc := ⟨.hbm, 124, rfl⟩
abbrev main_cst_11 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_13 : Ref sig .tc := ⟨.hbm, 140, rfl⟩
abbrev main_v109 : Ref sig .tc := ⟨.hbm, 141, rfl⟩
abbrev main_v110 : Ref sig .tc := ⟨.hbm, 142, rfl⟩
abbrev main_c_14 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_15 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130_0 : Ref sig .tc := ⟨.hbm, 164, rfl⟩
abbrev main_v130_1 : Ref sig .tc := ⟨.hbm, 165, rfl⟩
abbrev main_cst_16 : Ref sig .tc := ⟨.hbm, 166, rfl⟩
abbrev main_v131 : Ref sig .tc := ⟨.hbm, 167, rfl⟩
abbrev main_v132 : Ref sig .tc := ⟨.hbm, 168, rfl⟩
abbrev main_cst_17 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_c_18 : Ref sig .tc := ⟨.hbm, 181, rfl⟩
abbrev main_v144 : Ref sig .tc := ⟨.hbm, 182, rfl⟩
abbrev main_v145 : Ref sig .tc := ⟨.hbm, 183, rfl⟩
abbrev main_c_19 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_20 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165_0 : Ref sig .tc := ⟨.hbm, 205, rfl⟩
abbrev main_v165_1 : Ref sig .tc := ⟨.hbm, 206, rfl⟩
abbrev main_cst_21 : Ref sig .tc := ⟨.hbm, 207, rfl⟩
abbrev main_v166 : Ref sig .tc := ⟨.hbm, 208, rfl⟩
abbrev main_v167 : Ref sig .tc := ⟨.hbm, 209, rfl⟩
abbrev main_cst_22 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_23 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_cst_24 : Ref sig .tc := ⟨.hbm, 226, rfl⟩
abbrev main_v182 : Ref sig .tc := ⟨.hbm, 227, rfl⟩
abbrev main_cst_25 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_cst_26 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg3_0 : Ref sig .tc := ⟨.vmem, 71, rfl⟩
abbrev cc9_stg4_0 : Ref sig .tc := ⟨.vmem, 72, rfl⟩
abbrev cc9_stg5_0 : Ref sig .tc := ⟨.vmem, 73, rfl⟩
abbrev cc9_stg6_0 : Ref sig .tc := ⟨.vmem, 74, rfl⟩
abbrev cc9_stg6_1 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg2_0 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg2_0 : Ref sig .tc := ⟨.vmem, 83, rfl⟩
abbrev cc11_stg3_0 : Ref sig .tc := ⟨.vmem, 84, rfl⟩
abbrev cc11_stg4_0 : Ref sig .tc := ⟨.vmem, 85, rfl⟩
abbrev cc11_stg5_0 : Ref sig .tc := ⟨.vmem, 86, rfl⟩
abbrev cc11_stg5_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg1_1 : Ref sig .tc := ⟨.vmem, 91, rfl⟩
abbrev cc12_stg2_0 : Ref sig .tc := ⟨.vmem, 92, rfl⟩
abbrev cc12_stg3_0 : Ref sig .tc := ⟨.vmem, 93, rfl⟩
abbrev cc12_stg4_0 : Ref sig .tc := ⟨.vmem, 94, rfl⟩
abbrev cc12_stg5_0 : Ref sig .tc := ⟨.vmem, 95, rfl⟩
abbrev cc12_stg6_0 : Ref sig .tc := ⟨.vmem, 96, rfl⟩
abbrev cc12_stg6_1 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg2_0 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg4_0 : Ref sig .tc := ⟨.vmem, 107, rfl⟩
abbrev cc14_stg5_0 : Ref sig .tc := ⟨.vmem, 108, rfl⟩
abbrev cc14_stg5_1 : Ref sig .tc := ⟨.vmem, 109, rfl⟩
abbrev cc15_stg0_0 : Ref sig .tc := ⟨.vmem, 110, rfl⟩
abbrev cc15_stg1_0 : Ref sig .tc := ⟨.vmem, 111, rfl⟩
abbrev cc15_stg2_0 : Ref sig .tc := ⟨.vmem, 112, rfl⟩
abbrev cc15_stg3_0 : Ref sig .tc := ⟨.vmem, 113, rfl⟩
abbrev cc15_stg4_0 : Ref sig .tc := ⟨.vmem, 114, rfl⟩
abbrev cc15_stg5_0 : Ref sig .tc := ⟨.vmem, 115, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem4_0 : DmaSem sig := 63
abbrev cc8_sem5_0 : DmaSem sig := 64
abbrev cc8_sem5_1 : DmaSem sig := 65
abbrev cc9_sem0_0 : DmaSem sig := 66
abbrev cc9_sem0_1 : DmaSem sig := 67
abbrev cc9_sem1_0 : DmaSem sig := 68
abbrev cc9_sem1_1 : DmaSem sig := 69
abbrev cc9_sem2_0 : DmaSem sig := 70
abbrev cc9_sem3_0 : DmaSem sig := 71
abbrev cc9_sem4_0 : DmaSem sig := 72
abbrev cc9_sem5_0 : DmaSem sig := 73
abbrev cc9_sem6_0 : DmaSem sig := 74
abbrev cc9_sem6_1 : DmaSem sig := 75
abbrev cc10_sem0_0 : DmaSem sig := 76
abbrev cc10_sem0_1 : DmaSem sig := 77
abbrev cc10_sem1_0 : DmaSem sig := 78
abbrev cc10_sem2_0 : DmaSem sig := 79
abbrev cc11_sem0_0 : DmaSem sig := 80
abbrev cc11_sem0_1 : DmaSem sig := 81
abbrev cc11_sem1_0 : DmaSem sig := 82
abbrev cc11_sem2_0 : DmaSem sig := 83
abbrev cc11_sem3_0 : DmaSem sig := 84
abbrev cc11_sem4_0 : DmaSem sig := 85
abbrev cc11_sem5_0 : DmaSem sig := 86
abbrev cc11_sem5_1 : DmaSem sig := 87
abbrev cc12_sem0_0 : DmaSem sig := 88
abbrev cc12_sem0_1 : DmaSem sig := 89
abbrev cc12_sem1_0 : DmaSem sig := 90
abbrev cc12_sem1_1 : DmaSem sig := 91
abbrev cc12_sem2_0 : DmaSem sig := 92
abbrev cc12_sem3_0 : DmaSem sig := 93
abbrev cc12_sem4_0 : DmaSem sig := 94
abbrev cc12_sem5_0 : DmaSem sig := 95
abbrev cc12_sem6_0 : DmaSem sig := 96
abbrev cc12_sem6_1 : DmaSem sig := 97
abbrev cc13_sem0_0 : DmaSem sig := 98
abbrev cc13_sem0_1 : DmaSem sig := 99
abbrev cc13_sem1_0 : DmaSem sig := 100
abbrev cc13_sem2_0 : DmaSem sig := 101
abbrev cc14_sem0_0 : DmaSem sig := 102
abbrev cc14_sem0_1 : DmaSem sig := 103
abbrev cc14_sem1_0 : DmaSem sig := 104
abbrev cc14_sem2_0 : DmaSem sig := 105
abbrev cc14_sem3_0 : DmaSem sig := 106
abbrev cc14_sem4_0 : DmaSem sig := 107
abbrev cc14_sem5_0 : DmaSem sig := 108
abbrev cc14_sem5_1 : DmaSem sig := 109
abbrev cc15_sem0_0 : DmaSem sig := 110
abbrev cc15_sem1_0 : DmaSem sig := 111
abbrev cc15_sem2_0 : DmaSem sig := 112
abbrev cc15_sem3_0 : DmaSem sig := 113
abbrev cc15_sem4_0 : DmaSem sig := 114
abbrev cc15_sem5_0 : DmaSem sig := 115

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x64 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 2 → Memref sig .tc .vmem S10000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S128x64 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![false]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S64x10 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x10 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S128x10 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S128x64 : S1x64.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x64.size a ≤ S1x64.size a
  hwx9_5 : ∀ i : grid9.Coords, EltTy.bits .f32 = 32 ∨ (Rect.block (s := S1x64) S1x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x64.size a ≤ S100000x64.size a
  hwx11_5 : ∀ i : grid11.Coords, EltTy.bits .f32 = 32 ∨ (Rect.block (s := S100000x64) S10000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x64.size a ≤ S100000x64.size a
  hwx12_1 : ∀ i : grid12.Coords, EltTy.bits .f32 = 32 ∨ (Rect.block (s := S100000x64) S10000x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x64.size a ≤ S64x64.size a
  hwx12_2 : ∀ i : grid12.Coords, EltTy.bits .f32 = 32 ∨ (Rect.block (s := S64x64) S64x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64x64.size a ≤ S64x64.size a
  hwx12_4 : ∀ i : grid12.Coords, EltTy.bits .f32 = 32 ∨ (Rect.block (s := S64x64) S64x64.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x64.size a ≤ S1x64.size a
  hwx12_5 : ∀ i : grid12.Coords, EltTy.bits .f32 = 32 ∨ (Rect.block (s := S1x64) S1x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S10000x64.size a ≤ S100000x64.size a
  hwx12_6 : ∀ i : grid12.Coords, EltTy.bits .f32 = 32 ∨ (Rect.block (s := S100000x64) S10000x64.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x64.size a ≤ S100000x64.size a
  hwx14_5 : ∀ i : grid14.Coords, EltTy.bits .f32 = 32 ∨ (Rect.block (s := S100000x64) S10000x64.size (cc14_transform_5 i) (hinb14_5 i)).WholeWords (EltTy.packing .f32)
  hrank15 : 0 < grid15.rank
  hstage15_0 : ∀ j, (stage15_0 j).IsWhole
  nbuf15_0 : grid15.bufCount reads15_0 true = 1
  hreads15_0 : ∀ i i' : grid15.Coords, (∀ a, reads15_0 a = true → i a = i' a) → cc15_transform_0 i = cc15_transform_0 i'
  hinb15_0 : ∀ (i : grid15.Coords) a, (cc15_transform_0 i a + 1) * S128x64.size a ≤ S128x64.size a
  hwx15_0 : ∀ i : grid15.Coords, EltTy.bits .f32 = 32 ∨ (Rect.block (s := S128x64) S128x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S64x10.size a ≤ S64x10.size a
  hwx15_3 : ∀ i : grid15.Coords, EltTy.bits .f32 = 32 ∨ (Rect.block (s := S64x10) S64x10.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x10.size a ≤ S1x10.size a
  hwx15_4 : ∀ i : grid15.Coords, EltTy.bits .f32 = 32 ∨ (Rect.block (s := S1x10) S1x10.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S128x10.size a ≤ S128x10.size a
  hwx15_5 : ∀ i : grid15.Coords, EltTy.bits .f32 = 32 ∨ (Rect.block (s := S128x10) S128x10.size (cc15_transform_5 i) (hinb15_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v73) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v73) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v85) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v93) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v94) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v94) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v101) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v104) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v107) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v108) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v108) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v120) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v123) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v125) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v128) S1x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v129) S10000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v129) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v130_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v130_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v129) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v132) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v136) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v139) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v142) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v143) S10000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v143) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v153) S10000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v155) S64x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v158) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v160) S64x64.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v163) S1x64.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v164) S10000x64.size cc12_transform_6 reads12_6 true false 2 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v164) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v165_0) S1x64.size cc13_transform_1 reads13_1 true true 1 stage13_1 sem13_1
    hrank13 hreads13_1 hinb13_1 nbuf13_1 (Memref.isWhole_whole _) hwx13_1 hstage13_1

abbrev win13_2 : Pipeline.Window sig grid13 :=
  Pipeline.Window.ofSpec (Memref.whole main_v165_1) S1x64.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v164) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v167) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v171) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v174) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v177) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v178) S10000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v190) S128x64.size cc15_transform_0 reads15_0 false true 1 stage15_0 sem15_0
    hrank15 hreads15_0 hinb15_0 nbuf15_0 (Memref.isWhole_whole _) hwx15_0 hstage15_0

abbrev win15_1 : Pipeline.Window sig grid15 :=
  Pipeline.Window.ofSpec (Memref.whole main_arg9) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v191) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg11) S64x10.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v192) S1x10.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v193) S128x10.size cc15_transform_5 reads15_5 true true 1 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S5x64x64 : Shape := ⟨3, ![5, 64, 64]⟩
abbrev S5x64 : Shape := ⟨2, ![5, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1x64 : Shape := ⟨2, ![1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 464
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S5x64x64, .f32⟩
  | 4 => ⟨S5x64, .f32⟩
  | 5 => ⟨S5x64x64, .f32⟩
  | 6 => ⟨S5x64, .f32⟩
  | 7 => ⟨S5x64, .f32⟩
  | 8 => ⟨S5x64, .f32⟩
  | 9 => ⟨S64x64, .f32⟩
  | 10 => ⟨S64, .f32⟩
  | 11 => ⟨S64x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S1x64x64, .f32⟩
  | 43 => ⟨S64x64, .f32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S64, .f32⟩
  | 44 => ⟨S64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S100000x64, .f32⟩
  | 103 => ⟨S100000x64, .f32⟩
  | 104 => ⟨S100000x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S64, .f32⟩
  | _ => ⟨S100000x64, .f32⟩

abbrev hbmTy0_2 (i : Nat) : BufTy := match i % 128 with
  | 0 => ⟨S64, .f32⟩
  | 1 => ⟨S64, .f32⟩
  | 2 => ⟨S1x64, .f32⟩
  | 3 => ⟨S100000x64, .f32⟩
  | 4 => ⟨S100000x64, .f32⟩
  | 5 => ⟨S1x64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S1x64x64, .f32⟩
  | 39 => ⟨S64x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S1x64, .f32⟩
  | 126 => ⟨S64, .f32⟩
  | 127 => ⟨S1x64, .f32⟩
  | _ => ⟨S100000x64, .f32⟩

abbrev hbmTy0_3 (i : Nat) : BufTy := match i % 128 with
  | 0 => ⟨S100000x64, .f32⟩
  | 1 => ⟨S100000x64, .f32⟩
  | 2 => ⟨S_, .f32⟩
  | 3 => ⟨S64, .f32⟩
  | 4 => ⟨S_, .f32⟩
  | 5 => ⟨S64, .f32⟩
  | 6 => ⟨S64, .f32⟩
  | 7 => ⟨S_, .i32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S100000x64, .f32⟩
  | 15 => ⟨S100000x64, .f32⟩
  | 16 => ⟨S100000x64, .f32⟩
  | 17 => ⟨S_, .f32⟩
  | 18 => ⟨S_, .f32⟩
  | 19 => ⟨S_, .f32⟩
  | 20 => ⟨S_, .f32⟩
  | 21 => ⟨S64, .f32⟩
  | 22 => ⟨S64, .f32⟩
  | 23 => ⟨S64, .f32⟩
  | 24 => ⟨S_, .f32⟩
  | 25 => ⟨S_, .i1⟩
  | 26 => ⟨S_, .f32⟩
  | 27 => ⟨S_, .f32⟩
  | 28 => ⟨S64, .f32⟩
  | 29 => ⟨S64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S64, .f32⟩
  | 40 => ⟨S64, .f32⟩
  | 41 => ⟨S64, .f32⟩
  | 42 => ⟨S1x64, .f32⟩
  | 43 => ⟨S100000x64, .f32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .f32⟩
  | 54 => ⟨S128x64, .f32⟩
  | 55 => ⟨S100000x1, .i32⟩
  | 56 => ⟨S128x64, .f32⟩
  | 57 => ⟨S_, .f32⟩
  | 58 => ⟨S100000, .f32⟩
  | 59 => ⟨S_, .f32⟩
  | 60 => ⟨S128, .f32⟩
  | 61 => ⟨S100000x1, .i32⟩
  | 62 => ⟨S128, .f32⟩
  | 63 => ⟨S_, .f32⟩
  | 64 => ⟨S128, .f32⟩
  | 65 => ⟨S128, .f32⟩
  | 66 => ⟨S128x1, .f32⟩
  | 67 => ⟨S128x64, .f32⟩
  | 68 => ⟨S128x64, .f32⟩
  | 69 => ⟨S128x64, .f32⟩
  | 70 => ⟨S1x64, .f32⟩
  | 71 => ⟨S128x64, .f32⟩
  | 72 => ⟨S128x64, .f32⟩
  | 73 => ⟨S_, .f32⟩
  | 74 => ⟨S128x64, .f32⟩
  | 75 => ⟨S128x64, .f32⟩
  | 76 => ⟨S128x10, .f32⟩
  | 77 => ⟨S1x10, .f32⟩
  | 78 => ⟨S128x10, .f32⟩
  | 79 => ⟨S128x10, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_cst_3 : Ref sig .tc := ⟨.hbm, 72, rfl⟩
abbrev main_call1_v12 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_4 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call2_cst : Ref sig .tc := ⟨.hbm, 98, rfl⟩
abbrev main_call2_v0 : Ref sig .tc := ⟨.hbm, 99, rfl⟩
abbrev main_v55 : Ref sig .tc := ⟨.hbm, 100, rfl⟩
abbrev main_c_5 : Ref sig .tc := ⟨.hbm, 101, rfl⟩
abbrev main_v56 : Ref sig .tc := ⟨.hbm, 102, rfl⟩
abbrev main_v57 : Ref sig .tc := ⟨.hbm, 103, rfl⟩
abbrev main_c_6 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_7 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_call3_cst : Ref sig .tc := ⟨.hbm, 123, rfl⟩
abbrev main_call3_v0 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_8 : Ref sig .tc := ⟨.hbm, 134, rfl⟩
abbrev main_v84 : Ref sig .tc := ⟨.hbm, 135, rfl⟩
abbrev main_cst_9 : Ref sig .tc := ⟨.hbm, 136, rfl⟩
abbrev main_v85 : Ref sig .tc := ⟨.hbm, 137, rfl⟩
abbrev main_v86 : Ref sig .tc := ⟨.hbm, 138, rfl⟩
abbrev main_c_10 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_cst_0 : Ref sig .tc := ⟨.hbm, 143, rfl⟩
abbrev main_call4_v2 : Ref sig .tc := ⟨.hbm, 144, rfl⟩
abbrev main_call4_v3 : Ref sig .tc := ⟨.hbm, 145, rfl⟩
abbrev main_call4_v4 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_cst_1 : Ref sig .tc := ⟨.hbm, 150, rfl⟩
abbrev main_call4_v8 : Ref sig .tc := ⟨.hbm, 151, rfl⟩
abbrev main_call4_cst_2 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst_3 : Ref sig .tc := ⟨.hbm, 156, rfl⟩
abbrev main_call4_v12 : Ref sig .tc := ⟨.hbm, 157, rfl⟩
abbrev main_call4_cst_4 : Ref sig .tc := ⟨.hbm, 158, rfl⟩
abbrev main_call4_call0_v0 : Ref sig .tc := ⟨.hbm, 159, rfl⟩
abbrev main_call4_call0_v1 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_cst_11 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_call5_cst : Ref sig .tc := ⟨.hbm, 182, rfl⟩
abbrev main_call5_v0 : Ref sig .tc := ⟨.hbm, 183, rfl⟩
abbrev main_v107 : Ref sig .tc := ⟨.hbm, 184, rfl⟩
abbrev main_c_12 : Ref sig .tc := ⟨.hbm, 185, rfl⟩
abbrev main_v108 : Ref sig .tc := ⟨.hbm, 186, rfl⟩
abbrev main_v109 : Ref sig .tc := ⟨.hbm, 187, rfl⟩
abbrev main_c_13 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_14 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call6_cst : Ref sig .tc := ⟨.hbm, 207, rfl⟩
abbrev main_call6_v0 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_15 : Ref sig .tc := ⟨.hbm, 218, rfl⟩
abbrev main_v136 : Ref sig .tc := ⟨.hbm, 219, rfl⟩
abbrev main_cst_16 : Ref sig .tc := ⟨.hbm, 220, rfl⟩
abbrev main_v137 : Ref sig .tc := ⟨.hbm, 221, rfl⟩
abbrev main_v138 : Ref sig .tc := ⟨.hbm, 222, rfl⟩
abbrev main_c_17 : Ref sig .tc := ⟨.hbm, 223, rfl⟩
abbrev main_call7_cst : Ref sig .tc := ⟨.hbm, 224, rfl⟩
abbrev main_call7_v0 : Ref sig .tc := ⟨.hbm, 225, rfl⟩
abbrev main_call7_v1 : Ref sig .tc := ⟨.hbm, 226, rfl⟩
abbrev main_call7_cst_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_v6 : Ref sig .tc := ⟨.hbm, 232, rfl⟩
abbrev main_call7_v7 : Ref sig .tc := ⟨.hbm, 233, rfl⟩
abbrev main_call7_cst_1 : Ref sig .tc := ⟨.hbm, 234, rfl⟩
abbrev main_call7_v8 : Ref sig .tc := ⟨.hbm, 235, rfl⟩
abbrev main_call7_cst_2 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_cst_3 : Ref sig .tc := ⟨.hbm, 240, rfl⟩
abbrev main_call7_v12 : Ref sig .tc := ⟨.hbm, 241, rfl⟩
abbrev main_call7_cst_4 : Ref sig .tc := ⟨.hbm, 242, rfl⟩
abbrev main_call7_call0_v0 : Ref sig .tc := ⟨.hbm, 243, rfl⟩
abbrev main_call7_call0_v1 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_cst_18 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_call8_cst : Ref sig .tc := ⟨.hbm, 266, rfl⟩
abbrev main_call8_v0 : Ref sig .tc := ⟨.hbm, 267, rfl⟩
abbrev main_v159 : Ref sig .tc := ⟨.hbm, 268, rfl⟩
abbrev main_c_19 : Ref sig .tc := ⟨.hbm, 269, rfl⟩
abbrev main_v160 : Ref sig .tc := ⟨.hbm, 270, rfl⟩
abbrev main_v161 : Ref sig .tc := ⟨.hbm, 271, rfl⟩
abbrev main_c_20 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_cst_21 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_call9_cst : Ref sig .tc := ⟨.hbm, 291, rfl⟩
abbrev main_call9_v0 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_cst_22 : Ref sig .tc := ⟨.hbm, 302, rfl⟩
abbrev main_v188 : Ref sig .tc := ⟨.hbm, 303, rfl⟩
abbrev main_cst_23 : Ref sig .tc := ⟨.hbm, 304, rfl⟩
abbrev main_v189 : Ref sig .tc := ⟨.hbm, 305, rfl⟩
abbrev main_v190 : Ref sig .tc := ⟨.hbm, 306, rfl⟩
abbrev main_c_24 : Ref sig .tc := ⟨.hbm, 307, rfl⟩
abbrev main_call10_cst : Ref sig .tc := ⟨.hbm, 308, rfl⟩
abbrev main_call10_v0 : Ref sig .tc := ⟨.hbm, 309, rfl⟩
abbrev main_call10_v1 : Ref sig .tc := ⟨.hbm, 310, rfl⟩
abbrev main_call10_cst_0 : Ref sig .tc := ⟨.hbm, 311, rfl⟩
abbrev main_call10_v2 : Ref sig .tc := ⟨.hbm, 312, rfl⟩
abbrev main_call10_v3 : Ref sig .tc := ⟨.hbm, 313, rfl⟩
abbrev main_call10_v4 : Ref sig .tc := ⟨.hbm, 314, rfl⟩
abbrev main_call10_v5 : Ref sig .tc := ⟨.hbm, 315, rfl⟩
abbrev main_call10_v6 : Ref sig .tc := ⟨.hbm, 316, rfl⟩
abbrev main_call10_v7 : Ref sig .tc := ⟨.hbm, 317, rfl⟩
abbrev main_call10_cst_1 : Ref sig .tc := ⟨.hbm, 318, rfl⟩
abbrev main_call10_v8 : Ref sig .tc := ⟨.hbm, 319, rfl⟩
abbrev main_call10_cst_2 : Ref sig .tc := ⟨.hbm, 320, rfl⟩
abbrev main_call10_v9 : Ref sig .tc := ⟨.hbm, 321, rfl⟩
abbrev main_call10_v10 : Ref sig .tc := ⟨.hbm, 322, rfl⟩
abbrev main_call10_v11 : Ref sig .tc := ⟨.hbm, 323, rfl⟩
abbrev main_call10_cst_3 : Ref sig .tc := ⟨.hbm, 324, rfl⟩
abbrev main_call10_v12 : Ref sig .tc := ⟨.hbm, 325, rfl⟩
abbrev main_call10_cst_4 : Ref sig .tc := ⟨.hbm, 326, rfl⟩
abbrev main_call10_call0_v0 : Ref sig .tc := ⟨.hbm, 327, rfl⟩
abbrev main_call10_call0_v1 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_v199 : Ref sig .tc := ⟨.hbm, 337, rfl⟩
abbrev main_cst_25 : Ref sig .tc := ⟨.hbm, 338, rfl⟩
abbrev main_v200 : Ref sig .tc := ⟨.hbm, 339, rfl⟩
abbrev main_v201 : Ref sig .tc := ⟨.hbm, 340, rfl⟩
abbrev main_v202 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_v210 : Ref sig .tc := ⟨.hbm, 349, rfl⟩
abbrev main_call11_cst : Ref sig .tc := ⟨.hbm, 350, rfl⟩
abbrev main_call11_v0 : Ref sig .tc := ⟨.hbm, 351, rfl⟩
abbrev main_v211 : Ref sig .tc := ⟨.hbm, 352, rfl⟩
abbrev main_c_26 : Ref sig .tc := ⟨.hbm, 353, rfl⟩
abbrev main_v212 : Ref sig .tc := ⟨.hbm, 354, rfl⟩
abbrev main_v213 : Ref sig .tc := ⟨.hbm, 355, rfl⟩
abbrev main_c_27 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_cst_28 : Ref sig .tc := ⟨.hbm, 362, rfl⟩
abbrev main_v219 : Ref sig .tc := ⟨.hbm, 363, rfl⟩
abbrev main_v220 : Ref sig .tc := ⟨.hbm, 364, rfl⟩
abbrev main_v221 : Ref sig .tc := ⟨.hbm, 365, rfl⟩
abbrev main_v222 : Ref sig .tc := ⟨.hbm, 366, rfl⟩
abbrev main_v223 : Ref sig .tc := ⟨.hbm, 367, rfl⟩
abbrev main_v224 : Ref sig .tc := ⟨.hbm, 368, rfl⟩
abbrev main_v225 : Ref sig .tc := ⟨.hbm, 369, rfl⟩
abbrev main_v226 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_v230 : Ref sig .tc := ⟨.hbm, 374, rfl⟩
abbrev main_call12_cst : Ref sig .tc := ⟨.hbm, 375, rfl⟩
abbrev main_call12_v0 : Ref sig .tc := ⟨.hbm, 376, rfl⟩
abbrev main_v231 : Ref sig .tc := ⟨.hbm, 377, rfl⟩
abbrev main_v232 : Ref sig .tc := ⟨.hbm, 378, rfl⟩
abbrev main_v233 : Ref sig .tc := ⟨.hbm, 379, rfl⟩
abbrev main_v234 : Ref sig .tc := ⟨.hbm, 380, rfl⟩
abbrev main_v235 : Ref sig .tc := ⟨.hbm, 381, rfl⟩
abbrev main_v236 : Ref sig .tc := ⟨.hbm, 382, rfl⟩
abbrev main_v237 : Ref sig .tc := ⟨.hbm, 383, rfl⟩
abbrev main_v238 : Ref sig .tc := ⟨.hbm, 384, rfl⟩
abbrev main_v239 : Ref sig .tc := ⟨.hbm, 385, rfl⟩
abbrev main_cst_29 : Ref sig .tc := ⟨.hbm, 386, rfl⟩
abbrev main_v240 : Ref sig .tc := ⟨.hbm, 387, rfl⟩
abbrev main_cst_30 : Ref sig .tc := ⟨.hbm, 388, rfl⟩
abbrev main_v241 : Ref sig .tc := ⟨.hbm, 389, rfl⟩
abbrev main_v242 : Ref sig .tc := ⟨.hbm, 390, rfl⟩
abbrev main_c_31 : Ref sig .tc := ⟨.hbm, 391, rfl⟩
abbrev main_call13_cst : Ref sig .tc := ⟨.hbm, 392, rfl⟩
abbrev main_call13_v0 : Ref sig .tc := ⟨.hbm, 393, rfl⟩
abbrev main_call13_v1 : Ref sig .tc := ⟨.hbm, 394, rfl⟩
abbrev main_call13_cst_0 : Ref sig .tc := ⟨.hbm, 395, rfl⟩
abbrev main_call13_v2 : Ref sig .tc := ⟨.hbm, 396, rfl⟩
abbrev main_call13_v3 : Ref sig .tc := ⟨.hbm, 397, rfl⟩
abbrev main_call13_v4 : Ref sig .tc := ⟨.hbm, 398, rfl⟩
abbrev main_call13_v5 : Ref sig .tc := ⟨.hbm, 399, rfl⟩
abbrev main_call13_v6 : Ref sig .tc := ⟨.hbm, 400, rfl⟩
abbrev main_call13_v7 : Ref sig .tc := ⟨.hbm, 401, rfl⟩
abbrev main_call13_cst_1 : Ref sig .tc := ⟨.hbm, 402, rfl⟩
abbrev main_call13_v8 : Ref sig .tc := ⟨.hbm, 403, rfl⟩
abbrev main_call13_cst_2 : Ref sig .tc := ⟨.hbm, 404, rfl⟩
abbrev main_call13_v9 : Ref sig .tc := ⟨.hbm, 405, rfl⟩
abbrev main_call13_v10 : Ref sig .tc := ⟨.hbm, 406, rfl⟩
abbrev main_call13_v11 : Ref sig .tc := ⟨.hbm, 407, rfl⟩
abbrev main_call13_cst_3 : Ref sig .tc := ⟨.hbm, 408, rfl⟩
abbrev main_call13_v12 : Ref sig .tc := ⟨.hbm, 409, rfl⟩
abbrev main_call13_cst_4 : Ref sig .tc := ⟨.hbm, 410, rfl⟩
abbrev main_call13_call0_v0 : Ref sig .tc := ⟨.hbm, 411, rfl⟩
abbrev main_call13_call0_v1 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_v246 : Ref sig .tc := ⟨.hbm, 416, rfl⟩
abbrev main_v247 : Ref sig .tc := ⟨.hbm, 417, rfl⟩
abbrev main_v248 : Ref sig .tc := ⟨.hbm, 418, rfl⟩
abbrev main_v249 : Ref sig .tc := ⟨.hbm, 419, rfl⟩
abbrev main_v250 : Ref sig .tc := ⟨.hbm, 420, rfl⟩
abbrev main_v251 : Ref sig .tc := ⟨.hbm, 421, rfl⟩
abbrev main_cst_32 : Ref sig .tc := ⟨.hbm, 422, rfl⟩
abbrev main_v252 : Ref sig .tc := ⟨.hbm, 423, rfl⟩
abbrev main_v253 : Ref sig .tc := ⟨.hbm, 424, rfl⟩
abbrev main_v254 : Ref sig .tc := ⟨.hbm, 425, rfl⟩
abbrev main_v255 : Ref sig .tc := ⟨.hbm, 426, rfl⟩
abbrev main_v256 : Ref sig .tc := ⟨.hbm, 427, rfl⟩
abbrev main_v257 : Ref sig .tc := ⟨.hbm, 428, rfl⟩
abbrev main_v258 : Ref sig .tc := ⟨.hbm, 429, rfl⟩
abbrev main_v259 : Ref sig .tc := ⟨.hbm, 430, rfl⟩
abbrev main_v260 : Ref sig .tc := ⟨.hbm, 431, rfl⟩
abbrev main_v261 : Ref sig .tc := ⟨.hbm, 432, rfl⟩
abbrev main_v262 : Ref sig .tc := ⟨.hbm, 433, rfl⟩
abbrev main_call14_cst : Ref sig .tc := ⟨.hbm, 434, rfl⟩
abbrev main_call14_v0 : Ref sig .tc := ⟨.hbm, 435, rfl⟩
abbrev main_v263 : Ref sig .tc := ⟨.hbm, 436, rfl⟩
abbrev main_cst_33 : Ref sig .tc := ⟨.hbm, 437, rfl⟩
abbrev main_v264 : Ref sig .tc := ⟨.hbm, 438, rfl⟩
abbrev main_v265 : Ref sig .tc := ⟨.hbm, 439, rfl⟩
abbrev main_v266 : Ref sig .tc := ⟨.hbm, 440, rfl⟩
abbrev main_cst_34 : Ref sig .tc := ⟨.hbm, 441, rfl⟩
abbrev main_v267 : Ref sig .tc := ⟨.hbm, 442, rfl⟩
abbrev main_cst_35 : Ref sig .tc := ⟨.hbm, 443, rfl⟩
abbrev main_v268 : Ref sig .tc := ⟨.hbm, 444, rfl⟩
abbrev main_v269 : Ref sig .tc := ⟨.hbm, 445, rfl⟩
abbrev main_v270 : Ref sig .tc := ⟨.hbm, 446, rfl⟩
abbrev main_cst_36 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_v274 : Ref sig .tc := ⟨.hbm, 451, rfl⟩
abbrev main_v275 : Ref sig .tc := ⟨.hbm, 452, rfl⟩
abbrev main_v276 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_call15_cst : Ref sig .tc := ⟨.hbm, 457, rfl⟩
abbrev main_call15_v0 : Ref sig .tc := ⟨.hbm, 458, rfl⟩
abbrev main_v280 : Ref sig .tc := ⟨.hbm, 459, rfl⟩
abbrev main_v281 : Ref sig .tc := ⟨.hbm, 460, rfl⟩
abbrev main_v282 : Ref sig .tc := ⟨.hbm, 461, rfl⟩
abbrev main_v283 : Ref sig .tc := ⟨.hbm, 462, rfl⟩
abbrev main_v284 : Ref sig .tc := ⟨.hbm, 463, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.KRun.lean ====
/-
  The idealized kernel's run with its result named: every weakly fair execution of the program terminates without a
  fault, leaves the thirteen argument arrays as launched, and leaves in the result buffer what the last segment
  boundary's contents hold there — the contents after the sixteenth kernel region, a fold of the host stretches and of
  the regions' write-backs from the launch memory.
-/
import proofs.«142526_j3951369912896_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the sixteen regions and the host stretches between them, with the result buffer read at the last
    boundary. -/
theorem run_value : θ_run defs (onTc (τ := τ) (main (F := F))) ⟨m, fun _ => 0, ρ⟩ (fun r => ∀ c : Dev nD,
      r.2.mem ((c.tc : Thread nD τ).loc main_v193) = W27 m ρ c (Proc.devRef .tc main_v193)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v193 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c),
       (h c _ (mem_uc main_arg7 (by decide))).trans (W27_main_arg7 m ρ c),
       (h c _ (mem_uc main_arg8 (by decide))).trans (W27_main_arg8 m ρ c),
       (h c _ (mem_uc main_arg9 (by decide))).trans (W27_main_arg9 m ρ c),
       (h c _ (mem_uc main_arg10 (by decide))).trans (W27_main_arg10 m ρ c),
       (h c _ (mem_uc main_arg11 (by decide))).trans (W27_main_arg11 m ρ c),
       (h c _ (mem_uc main_arg12 (by decide))).trans (W27_main_arg12 m ρ c)⟩)

end Cert.KernelIdeal.KRun

end
-- ==== Proof.Spec.lean ====
/-
  The pieces of one graph-isomorphism layer and of the classifier head, as functions of whole arrays on the
  extended reals, entry by entry.

  A layer takes the node features `x` (one row of 64 per node) and the neighbour sums `agg`, and computes
  `y = relu((x + agg) · W₁ + b₁) · W₂ + b₂` row by row (`mlpOut`); the column sums of `y` and of its squares
  (`colSum`, `colSumSq`) give the batch mean and variance; and the normalised, shifted and clipped rows
  `relu(γ · (y − mean) · rsqrt(var + ε) + β)` are the next layer's features (`bnOut`). The head is the same two-layer
  perceptron without the neighbour sum, on the 128 pooled rows, with 10 output columns.
  Every function here is a row-wise or column-wise formula with no reference to how the rows are tiled, so a block of
  rows of the result is the same formula on the block of rows of the operands.
-/
import Idealize.ShloMosaic.PureOps.Ideal
import Idealize.ShloMosaic.Lib.ValueIdx

noncomputable section

open scoped BigOperators

namespace Cert.Spec

open Idealize.ShloMosaic Idealize.ShloMosaic.ValueIdx

/-- An `a × b` matrix of extended reals. -/
abbrev Mat (a b : ℕ) := FVec Ideal ⟨2, ![a, b]⟩ .f32

/-- The float word of zero, as an extended real (it is `0`). -/
abbrev zero32 : EReal := Ideal.ofBits .f32 0x00000000#32
/-- The float word of the variance's guard `ε`, as an extended real. -/
abbrev eps32 : EReal := Ideal.ofBits .f32 0x3727C5AC#32

/-- Hidden unit `k` of the perceptron on a row `h`: `relu(∑ₖ' h k' · W₁(k', k) + b₁ k)`. -/
def hidden {a : ℕ} (h : Fin a → EReal) (w1 : Mat a 64) (b1 : Mat 1 64) (k : Fin 64) : EReal :=
  max ((∑ k' : Fin a, h k' * w1 (ix2 k' k)) + b1 (ix2 0 k)) zero32

/-- Output `j` of the perceptron on a row `h`: `∑ₖ hidden k · W₂(k, j) + b₂ j`. -/
def mlpRow {a d : ℕ} (h : Fin a → EReal) (w1 : Mat a 64) (b1 : Mat 1 64) (w2 : Mat 64 d) (b2 : Mat 1 d) (j : Fin d) : EReal :=
  (∑ k : Fin 64, hidden h w1 b1 k * w2 (ix2 k j)) + b2 (ix2 0 j)

/-- A layer's perceptron on every row of `x + agg`. -/
def mlpOut {n : ℕ} (x agg : Mat n 64) (w1 : Mat 64 64) (b1 : Mat 1 64) (w2 : Mat 64 64) (b2 : Mat 1 64) : Mat n 64 :=
  fun i => mlpRow (fun k => x (ix2 (i 0) k) + agg (ix2 (i 0) k)) w1 b1 w2 b2 (i 1)

/-- The head's perceptron on every pooled row. -/
def headOut {n d : ℕ} (p : Mat n 64) (w1 : Mat 64 64) (b1 : Mat 1 64) (w2 : Mat 64 d) (b2 : Mat 1 d) : Mat n d :=
  fun i => mlpRow (fun k => p (ix2 (i 0) k)) w1 b1 w2 b2 (i 1)

/-- Column sums, kept as a row. -/
def colSum {n : ℕ} (y : Mat n 64) : Mat 1 64 := fun i => ∑ r : Fin n, y (ix2 r (i 1))

/-- Column sums of the squares, kept as a row. -/
def colSumSq {n : ℕ} (y : Mat n 64) : Mat 1 64 := fun i => ∑ r : Fin n, y (ix2 r (i 1)) * y (ix2 r (i 1))

/-- Batch normalisation with given per-column mean and variance, then the clip at zero. -/
def bnOut {n : ℕ} (y : Mat n 64) (mean var gamma beta : Mat 1 64) : Mat n 64 :=
  fun i => max (gamma (ix2 0 (i 1)) * (y (ix2 (i 0) (i 1)) - mean (ix2 0 (i 1))) * Ideal.rsqrt (var (ix2 0 (i 1)) + eps32)
    + beta (ix2 0 (i 1))) zero32

end Cert.Spec

end
-- ==== Proof.LibLayoutRead.lean ====
/-
  Small layout steps read at coordinates: a row slice of a matrix, and the casts between a row [1, C] and a vector [C].
-/
import Idealize.ShloMosaic.Lib.ValueIdx
import Idealize.ShloMosaic.Lib.Pipeline.Value

noncomputable section

namespace Cert.Cheb.Layout

open Idealize.ShloMosaic Idealize.ShloMosaic.ValueIdx

variable {α : Type} {R C : Nat}

/-- Row `k` of an [R, C] matrix taken as the slice [1, C] reads, at (z, q), the matrix at (k, q). -/
theorem sliceRow_apply (k : Nat) (hk : k < R) (x : (⟨2, ![R, C]⟩ : Shape).Idx → α)
    (h : (⟨2, ![R, C]⟩ : Shape).Slices ![k, 0] ⟨2, ![1, C]⟩) (z : Fin 1) (q : Fin C) :
    extractStridedSlice ⟨2, ![1, C]⟩ ![k, 0] x h (ix2 z q) = x (ix2 ⟨k, hk⟩ q) := by
  refine extractStridedSlice_apply _ x h (ix2 z q) (ix2 ⟨k, hk⟩ q) fun a => ?_
  match a with
  | ⟨0, _⟩ =>
    show k = k + z.val
    have := z.isLt; omega
  | ⟨1, _⟩ =>
    show q.val = 0 + q.val
    omega

/-- A row [1, C] cast to the vector [C] reads, at q, the row at (0, q). -/
theorem castRowVec_apply (x : (⟨2, ![1, C]⟩ : Shape).Idx → α) (h : (⟨2, ![1, C]⟩ : Shape).ShapeCasts ⟨1, ![C]⟩) (q : Fin C) :
    shapeCast ⟨1, ![C]⟩ x h (ix1 q) = x (ix2 (0 : Fin 1) q) :=
  shapeCast_apply x h _ _ (by
    rw [Shape.rowMajor_val_one, Shape.rowMajor_val_two]
    show (0 : ℕ) * C + q.val = q.val
    omega)

/-- A vector [C] cast to the row [1, C] reads, at (z, q), the vector at q. -/
theorem castVecRow_apply (x : (⟨1, ![C]⟩ : Shape).Idx → α) (h : (⟨1, ![C]⟩ : Shape).ShapeCasts ⟨2, ![1, C]⟩) (z : Fin 1) (q : Fin C) :
    shapeCast ⟨2, ![1, C]⟩ x h (ix2 z q) = x (ix1 q) :=
  shapeCast_apply x h _ _ (by
    have hz : z.val = 0 := by omega
    rw [Shape.rowMajor_val_one, Shape.rowMajor_val_two]
    show q.val = z.val * C + q.val
    rw [hz]; omega)

/-- A vector [N] cast to the column [N, 1] reads, at (i, z), the vector at i. -/
theorem castVecCol_apply {N : Nat} (x : (⟨1, ![N]⟩ : Shape).Idx → α) (h : (⟨1, ![N]⟩ : Shape).ShapeCasts ⟨2, ![N, 1]⟩) (i : Fin N) (z : Fin 1) :
    shapeCast ⟨2, ![N, 1]⟩ x h (ix2 i z) = x (ix1 i) :=
  shapeCast_apply x h _ _ (by
    have hz : z.val = 0 := by omega
    rw [Shape.rowMajor_val_one, Shape.rowMajor_val_two]
    show i.val = i.val * 1 + z.val
    rw [hz]; omega)

end Cert.Cheb.Layout

end
-- ==== Proof.Layer.lean ====
/-
  One layer as a function of whole arrays, and the weight arrays of layer `l` read out of the stacked arguments.

  The stacked weights `[5, 64, 64]` and `[5, 64]` hold one matrix or one row per layer; `matAt a l` and `rowAt a l` are
  layer `l`'s. A layer's batch statistics are the column sums of `y` and of its squares divided by the number of rows;
  the mean is `s / N`, and the variance in its one-pass form is `q / N − (s / N)²`. A layer is then the perceptron on
  `x + agg` followed by the normalisation with those statistics (`layerWith`, for any way `var` of computing the
  variance row from `y`).
  The slices and casts that cut a layer's weights out of the stacked arrays are read at coordinates at the end.
-/
import proofs.«142526_j3951369912896_1_alg».proof.Proof.Spec
import proofs.«142526_j3951369912896_1_alg».proof.Proof.LibLayoutRead
import Idealize.ShloMosaic.Lib.ValueLayout

noncomputable section

open scoped BigOperators

namespace Cert.Spec

open Idealize.ShloMosaic Idealize.ShloMosaic.ValueIdx

/-- The float word of the row count `100000`, as an extended real. -/
abbrev cnt32 : EReal := Ideal.ofBits .f32 0x47C35000#32

/-- Layer `l`'s matrix out of the stacked `[5, 64, 64]` array. -/
def matAt (a : FVec Ideal ⟨3, ![5, 64, 64]⟩ .f32) (l : Fin 5) : Mat 64 64 := fun i => a (ix3 l (i 0) (i 1))

/-- Layer `l`'s row out of the stacked `[5, 64]` array, kept as a `[1, 64]` row. -/
def rowAt (a : FVec Ideal ⟨2, ![5, 64]⟩ .f32) (l : Fin 5) : Mat 1 64 := fun i => a (ix2 l (i 1))

/-- A vector `[d]` kept as a `[1, d]` row. -/
def rowOf {d : ℕ} (a : FVec Ideal ⟨1, ![d]⟩ .f32) : FVec Ideal ⟨2, ![1, d]⟩ .f32 := fun i => a (ix1 (i 1))

/-- The batch mean of each column: the column sum over the row count. -/
def meanOf {n : ℕ} (y : Mat n 64) : Mat 1 64 := fun i => Ideal.div (colSum y i) cnt32

/-- The batch variance of each column in one pass: the mean of the squares minus the square of the mean. -/
def varOnePass {n : ℕ} (y : Mat n 64) : Mat 1 64 :=
  fun i => Ideal.div (colSumSq y i) cnt32 - meanOf y i * meanOf y i

/-- A layer: the perceptron on `x + agg`, then the normalisation with the batch mean and the variance row `var y`. -/
def layerWith {n : ℕ} (var : Mat n 64 → Mat 1 64) (x agg : Mat n 64) (w1 : Mat 64 64) (b1 : Mat 1 64) (w2 : Mat 64 64)
    (b2 : Mat 1 64) (gamma beta : Mat 1 64) : Mat n 64 :=
  bnOut (mlpOut x agg w1 b1 w2 b2) (meanOf (mlpOut x agg w1 b1 w2 b2)) (var (mlpOut x agg w1 b1 w2 b2)) gamma beta

/-! ## The weight slices read at coordinates -/

variable {α : Type}

/-- Matrix `l` of a stacked `[L, a, b]` array, sliced out as `[1, a, b]` and cast to `[a, b]`, reads at `(i, j)` the
    stacked array at `(l, i, j)`. -/
theorem sliceMat_apply {L a b : ℕ} (l : ℕ) (hl : l < L) (x : (⟨3, ![L, a, b]⟩ : Shape).Idx → α)
    (h : (⟨3, ![L, a, b]⟩ : Shape).Slices ![l, 0, 0] ⟨3, ![1, a, b]⟩)
    (h' : (⟨3, ![1, a, b]⟩ : Shape).ShapeCasts ⟨2, ![a, b]⟩) (i : Fin a) (j : Fin b) :
    shapeCast ⟨2, ![a, b]⟩ (extractStridedSlice ⟨3, ![1, a, b]⟩ ![l, 0, 0] x h) h' (ix2 i j) = x (ix3 ⟨l, hl⟩ i j) := by
  rw [shapeCast_1ab_ab_apply]
  refine extractStridedSlice_apply _ x h _ (ix3 ⟨l, hl⟩ i j) fun d => ?_
  match d with
  | ⟨0, _⟩ => show l = l + 0; rfl
  | ⟨1, _⟩ => show i.val = 0 + i.val; omega
  | ⟨2, _⟩ => show j.val = 0 + j.val; omega

/-- Row `l` of a stacked `[L, d]` array, sliced out as `[1, d]`, cast to the vector `[d]` and back to the row
    `[1, d]`, reads at `(z, q)` the stacked array at `(l, q)`. -/
theorem sliceRow2_apply {L d : ℕ} (l : ℕ) (hl : l < L) (x : (⟨2, ![L, d]⟩ : Shape).Idx → α)
    (h : (⟨2, ![L, d]⟩ : Shape).Slices ![l, 0] ⟨2, ![1, d]⟩)
    (h1 : (⟨2, ![1, d]⟩ : Shape).ShapeCasts ⟨1, ![d]⟩) (h2 : (⟨1, ![d]⟩ : Shape).ShapeCasts ⟨2, ![1, d]⟩)
    (z : Fin 1) (q : Fin d) :
    shapeCast ⟨2, ![1, d]⟩ (shapeCast ⟨1, ![d]⟩ (extractStridedSlice ⟨2, ![1, d]⟩ ![l, 0] x h) h1) h2 (ix2 z q)
      = x (ix2 ⟨l, hl⟩ q) := by
  rw [Cert.Cheb.Layout.castVecRow_apply, Cert.Cheb.Layout.castRowVec_apply, Cert.Cheb.Layout.sliceRow_apply l hl]

end Cert.Spec

end
-- ==== Proof.LibBatchVar.lean ====
/-
  The two-pass and the one-pass batch variance agree.

  For real numbers x₁ … x_N (N > 0) with s = ∑ xᵢ and q = ∑ xᵢ², the one-pass form

      max (q · (1/N) − (s · (1/N))², 0)

  and the two-pass form

      (∑ (xᵢ − s / N)²) / N

  are the same real number: expanding the square, ∑ (xᵢ − μ)² = q − 2 μ s + N μ² with μ = s / N, which is q − s² / N;
  and the common value is a mean of squares, hence non-negative, so the clamp at 0 is the identity. The identity uses
  cancellation, which fails at the infinities: it is stated for real numbers read in the extended reals. The mean
  itself, s · (1/N) against s / N, needs nothing (`Ideal.div_coe`).
-/
import Idealize.ShloMosaic.PureOps.Ideal
import Mathlib.Algebra.BigOperators.Ring.Finset
import Mathlib.Algebra.Order.BigOperators.Ring.Finset
import Mathlib.Tactic.Ring
import Mathlib.Tactic.FieldSimp
import Mathlib.Tactic.Positivity

open Idealize.ShloMosaic

namespace Cert.Lib.BatchVar

variable {ι : Type*} [Fintype ι]

/-- The coercion of a finite real sum is the sum of the coercions. -/
theorem coe_sum' (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- ∑ (xᵢ − μ)² = q − 2 μ s + N μ², for any μ. -/
theorem sum_sq_dev (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h, Finset.sum_add_distrib, Finset.sum_sub_distrib, ← Finset.mul_sum, Finset.sum_const, Finset.card_univ,
    nsmul_eq_mul]
  ring

/-- The one-pass variance is the two-pass variance, on the reals. -/
theorem var_real (x : ι → ℝ) (n : ℝ) (hcard : (Fintype.card ι : ℝ) = n) (hn : n ≠ 0) :
    (∑ i, x i * x i) * (1 / n) - ((∑ i, x i) * (1 / n)) * ((∑ i, x i) * (1 / n))
      = (∑ i, (x i - (∑ i, x i) * (1 / n)) * (x i - (∑ i, x i) * (1 / n))) * (1 / n) := by
  rw [sum_sq_dev, hcard]
  field_simp
  ring

/-- The two-pass variance is non-negative. -/
theorem var_nonneg (x : ι → ℝ) (μ n : ℝ) (hn : 0 < n) : 0 ≤ (∑ i, (x i - μ) * (x i - μ)) * (1 / n) :=
  mul_nonneg (Finset.sum_nonneg fun i _ => mul_self_nonneg _) (by positivity)

/-- The mean: a real sum times the reciprocal of the count is the quotient by the count, on the extended reals. -/
theorem mean_eq (s : EReal) (n : ℝ) (hn : n ≠ 0) : s * ((1 / n : ℝ) : EReal) = Ideal.div s (n : EReal) :=
  (Ideal.div_coe hn s).symm

/-- The batch variance on the extended reals, for real entries: the one-pass form clamped at zero, over the sums
    `s = ∑ xᵢ` and `q = ∑ xᵢ²` taken in the extended reals, is the two-pass form about the quotient mean. -/
theorem var_eq (x : ι → ℝ) (n : ℝ) (hcard : (Fintype.card ι : ℝ) = n) (hn : 0 < n) :
    max ((∑ i, (x i : EReal) * (x i : EReal)) * ((1 / n : ℝ) : EReal)
          - ((∑ i, (x i : EReal)) * ((1 / n : ℝ) : EReal)) * ((∑ i, (x i : EReal)) * ((1 / n : ℝ) : EReal))) 0
      = Ideal.div (∑ i, ((x i : EReal) - Ideal.div (∑ i, (x i : EReal)) (n : EReal))
          * ((x i : EReal) - Ideal.div (∑ i, (x i : EReal)) (n : EReal))) (n : EReal) := by
  have hn0 : n ≠ 0 := ne_of_gt hn
  rw [Ideal.div_coe hn0, Ideal.div_coe hn0]
  simp only [← EReal.coe_mul, ← coe_sum', ← EReal.coe_sub]
  rw [var_real x n hcard hn0]
  exact max_eq_left (EReal.coe_nonneg.mpr (var_nonneg x _ n hn))

end Cert.Lib.BatchVar
-- ==== Proof.Algebra.lean ====
/-
  The law that joins the two programs: for a column of real numbers the one-pass variance `q / N − (s / N)²` is the
  two-pass variance `(∑ (yᵢ − s / N)²) / N`, both read on the extended reals with the quotients as the programs take
  them. Expanding the square gives `∑ (yᵢ − μ)² = q − 2 μ s + N μ²`, which at `μ = s / N` is `q − s² / N`; the step
  cancels, so it holds for real entries only — at an infinite entry the two sides differ. The common value is a mean of
  squares, so it is a non-negative real. Also here: the three float words the layer formulas spell, as real numbers.
-/
import proofs.«142526_j3951369912896_1_alg».proof.Proof.Layer
import proofs.«142526_j3951369912896_1_alg».proof.Proof.LibBatchVar

noncomputable section

open scoped BigOperators

namespace Cert.Spec

open Idealize.ShloMosaic Idealize.ShloMosaic.ValueIdx

/-- The word of `0.0` is the real `0`. -/
theorem zero32_eq : zero32 = 0 := by
  simp [zero32, Ideal.ofBits, Ideal.ieee]

/-- The word of `100000.0` is the real `100000`. -/
theorem cnt32_eq : cnt32 = ((100000 : ℝ) : EReal) := by
  simp [cnt32, Ideal.ofBits, Ideal.ieee, -EReal.coe_mul]; norm_num

/-- The variance's guard is a positive real. -/
theorem eps32_pos : ∃ e : ℝ, 0 < e ∧ eps32 = (e : EReal) := by
  refine ⟨(10995116 : ℝ) / 8388608 * (2 : ℝ) ^ (-17 : ℤ), by positivity, ?_⟩
  simp [eps32, Ideal.ofBits, Ideal.ieee, -EReal.coe_mul]; norm_num

/-- The two-pass variance row: the mean of the squared deviations from the batch mean. -/
def varTwoPass {n : ℕ} (y : Mat n 64) : Mat 1 64 :=
  fun i => Ideal.div (∑ r : Fin n, (y (ix2 r (i 1)) - meanOf y i) * (y (ix2 r (i 1)) - meanOf y i)) cnt32

/-- One-pass equals two-pass, for a real divisor equal to the number of terms. -/
theorem var_div_eq {ι : Type} [Fintype ι] (x : ι → ℝ) (n : ℝ) (hcard : (Fintype.card ι : ℝ) = n) (hn : n ≠ 0) :
    Ideal.div (∑ i, (x i : EReal) * (x i : EReal)) (n : EReal)
        - Ideal.div (∑ i, (x i : EReal)) (n : EReal) * Ideal.div (∑ i, (x i : EReal)) (n : EReal)
      = Ideal.div (∑ i, ((x i : EReal) - Ideal.div (∑ i, (x i : EReal)) (n : EReal))
          * ((x i : EReal) - Ideal.div (∑ i, (x i : EReal)) (n : EReal))) (n : EReal) := by
  simp only [Ideal.div_coe hn]
  simp only [← EReal.coe_mul, ← Cert.Lib.BatchVar.coe_sum', ← EReal.coe_sub]
  rw [Cert.Lib.BatchVar.var_real x n hcard hn]

/-- For a matrix of reals with 100000 rows the one-pass variance row is the two-pass one. -/
theorem varOnePass_eq_twoPass (y : Mat 100000 64) (hy : ∀ i, ∃ r : ℝ, y i = (r : EReal)) :
    varOnePass y = varTwoPass y := by
  choose f hf using hy
  funext i
  unfold varOnePass varTwoPass meanOf colSum colSumSq
  simp only [hf, cnt32_eq]
  exact var_div_eq (fun r : Fin 100000 => f (ix2 r (i 1))) 100000 (by simp) (by norm_num)

/-- The two-pass variance of a matrix of reals is a non-negative real. -/
theorem varTwoPass_real (y : Mat 100000 64) (hy : ∀ i, ∃ r : ℝ, y i = (r : EReal)) (i : (⟨2, ![1, 64]⟩ : Shape).Idx) :
    ∃ v : ℝ, 0 ≤ v ∧ varTwoPass y i = (v : EReal) := by
  choose f hf using hy
  refine ⟨(∑ r : Fin 100000, (f (ix2 r (i 1)) - (∑ r : Fin 100000, f (ix2 r (i 1))) * (1 / 100000))
      * (f (ix2 r (i 1)) - (∑ r : Fin 100000, f (ix2 r (i 1))) * (1 / 100000))) * (1 / 100000),
    Cert.Lib.BatchVar.var_nonneg _ _ _ (by norm_num), ?_⟩
  unfold varTwoPass meanOf colSum
  simp only [hf, cnt32_eq, Ideal.div_coe (by norm_num : (100000 : ℝ) ≠ 0)]
  simp only [← EReal.coe_mul, ← Cert.Lib.BatchVar.coe_sum', ← EReal.coe_sub]

/-- A layer computed with the one-pass variance is the layer computed with the two-pass variance, when the perceptron's
    output is real. -/
theorem layer_onePass_eq_twoPass (x agg : Mat 100000 64) (w1 : Mat 64 64) (b1 : Mat 1 64) (w2 : Mat 64 64) (b2 : Mat 1 64)
    (gamma beta : Mat 1 64) (hy : ∀ i, ∃ r : ℝ, mlpOut x agg w1 b1 w2 b2 i = (r : EReal)) :
    layerWith varOnePass x agg w1 b1 w2 b2 gamma beta = layerWith varTwoPass x agg w1 b1 w2 b2 gamma beta := by
  unfold layerWith
  rw [varOnePass_eq_twoPass _ hy]

end Cert.Spec

end
-- ==== Proof.Net.lean ====
/-
  The whole network as one function of the argument arrays, for any way of computing the variance row, any neighbour
  aggregation `agg` and any pooling `pool`: five layers, each with its own weights cut out of the stacked arguments,
  then the pooled rows through the head. The two programs are this function at the one-pass and at the two-pass
  variance, with the same aggregation and pooling; they agree when every layer's perceptron output is real, which
  holds when the inputs are real and the aggregation keeps the reals.
-/
import proofs.«142526_j3951369912896_1_alg».proof.Proof.Algebra

noncomputable section

namespace Cert.Spec

open Idealize.ShloMosaic Idealize.ShloMosaic.ValueIdx

/-- The stacked per-layer weights. -/
structure Weights where
  w1 : FVec Ideal ⟨3, ![5, 64, 64]⟩ .f32
  b1 : FVec Ideal ⟨2, ![5, 64]⟩ .f32
  w2 : FVec Ideal ⟨3, ![5, 64, 64]⟩ .f32
  b2 : FVec Ideal ⟨2, ![5, 64]⟩ .f32
  gamma : FVec Ideal ⟨2, ![5, 64]⟩ .f32
  beta : FVec Ideal ⟨2, ![5, 64]⟩ .f32

/-- Layer `l` of the network on features `x`. -/
def layerAt (var : Mat 100000 64 → Mat 1 64) (agg : Mat 100000 64 → Mat 100000 64) (P : Weights) (l : Fin 5)
    (x : Mat 100000 64) : Mat 100000 64 :=
  layerWith var x (agg x) (matAt P.w1 l) (rowAt P.b1 l) (matAt P.w2 l) (rowAt P.b2 l) (rowAt P.gamma l) (rowAt P.beta l)

/-- The features after the five layers. -/
def feats (var : Mat 100000 64 → Mat 1 64) (agg : Mat 100000 64 → Mat 100000 64) (P : Weights) (x : Mat 100000 64) :
    Mat 100000 64 :=
  layerAt var agg P 4 (layerAt var agg P 3 (layerAt var agg P 2 (layerAt var agg P 1 (layerAt var agg P 0 x))))

/-- Every entry is a real number. -/
def IsReal {S : Shape} (v : FVec Ideal S .f32) : Prop := ∀ i, ∃ r : ℝ, v i = (r : EReal)

/-- One layer agrees under the two variances, when the layer's perceptron output is real. -/
theorem layerAt_eq (agg : Mat 100000 64 → Mat 100000 64) (P : Weights) (l : Fin 5) (x : Mat 100000 64)
    (hy : IsReal (mlpOut x (agg x) (matAt P.w1 l) (rowAt P.b1 l) (matAt P.w2 l) (rowAt P.b2 l))) :
    layerAt varOnePass agg P l x = layerAt varTwoPass agg P l x :=
  layer_onePass_eq_twoPass _ _ _ _ _ _ _ _ hy

/-- The five layers agree under the two variances, when each layer keeps the reals: `hmlp` says the perceptron of a
    real feature matrix is real, `hlayer` that a whole two-pass layer of a real feature matrix is real. -/
theorem feats_eq (agg : Mat 100000 64 → Mat 100000 64) (P : Weights) (x : Mat 100000 64) (hx : IsReal x)
    (hmlp : ∀ (l : Fin 5) (z : Mat 100000 64), IsReal z →
      IsReal (mlpOut z (agg z) (matAt P.w1 l) (rowAt P.b1 l) (matAt P.w2 l) (rowAt P.b2 l)))
    (hlayer : ∀ (l : Fin 5) (z : Mat 100000 64), IsReal z → IsReal (layerAt varTwoPass agg P l z)) :
    feats varOnePass agg P x = feats varTwoPass agg P x := by
  unfold feats
  have h0 := hlayer 0 x hx
  have h1 := hlayer 1 _ h0
  have h2 := hlayer 2 _ h1
  have h3 := hlayer 3 _ h2
  rw [layerAt_eq agg P 0 x (hmlp 0 x hx), layerAt_eq agg P 1 _ (hmlp 1 _ h0), layerAt_eq agg P 2 _ (hmlp 2 _ h1),
    layerAt_eq agg P 3 _ (hmlp 3 _ h2), layerAt_eq agg P 4 _ (hmlp 4 _ h3)]

end Cert.Spec

end
-- ==== Proof.FinAgg.lean ====
/-
  The neighbour sum of one layer as a function of whole arrays.

  The edge list `ei : [2, E]` holds the edges' source nodes in its first row and their destination nodes in its second
  (`srcOf`, `dstOf`: the row taken by a slice and re-laid as a vector `[E]`). For node features `x : [N, 64]` the
  neighbour sum `aggRows x src dst` takes row `src[e]` of `x` for every edge `e` (a negative index wrapped once by `N`)
  and adds it onto row `dst[e]` of a zero `[N, 64]` array: `agg[i, k] = Σ over edges e with dst[e] = i of x[src[e], k]`.
  Here `N = 100000`, `E = 1600000`. The definitions are the composition of the program's own host operations, in
  order, with the program's own dimension records.
-/
import proofs.«142526_j3951369912896_1_alg».proof.KernelIdeal
import proofs.«142526_j3951369912896_1_alg».proof.Proof.Spec

noncomputable section

namespace Cert.Fin

open Idealize.ShloMosaic Cert.KernelIdeal Cert.KernelIdeal.Facts₀

variable [Cert.KernelIdeal.Facts₀]

/-- The edges' source nodes: row 0 of the edge list, as a vector. -/
def srcOf (ei : IVec S2x1600000 32) : IVec S1600000 32 :=
  shapeCast S1600000 (extractStridedSlice S1x1600000 ![0, 0] ei slices_S2x1600000_S1x1600000_0_0)
    shapeCasts_S1x1600000_S1600000

/-- The edges' destination nodes: row 1 of the edge list, as a vector. -/
def dstOf (ei : IVec S2x1600000 32) : IVec S1600000 32 :=
  shapeCast S1600000 (extractStridedSlice S1x1600000 ![1, 0] ei slices_S2x1600000_S1x1600000_1_0)
    shapeCasts_S1x1600000_S1600000

/-- The neighbour sum from the source and destination vectors: wrap a negative source by `N`, take those rows of `x`,
    add them onto a zero array at the destination rows. -/
def aggRows (x : Cert.Spec.Mat 100000 64) (src dst : IVec S1600000 32) : Cert.Spec.Mat 100000 64 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour sum from the edge list. -/
def aggOf (x : Cert.Spec.Mat 100000 64) (ei : IVec S2x1600000 32) : Cert.Spec.Mat 100000 64 :=
  aggRows x (srcOf ei) (dstOf ei)

end Cert.Fin

end
-- ==== Proof.Pool.lean ====
/-
  The mean pooling of the node features over the graphs of the batch, as a function of whole arrays.

  The batch vector `b : [N]` gives each node's graph. `poolOf x b` adds every row of the features `x : [N, 64]` onto
  the row of its graph in a zero `[128, 64]` array, counts the nodes of each graph by adding ones onto a zero `[128]`
  vector the same way, and divides each graph's row by its count, the count taken as at least one. The definition is
  the composition of the program's own host operations, in order, with the program's own dimension records; both
  programs apply it, so it is never opened.
-/
import proofs.«142526_j3951369912896_1_alg».proof.KernelIdeal
import proofs.«142526_j3951369912896_1_alg».proof.Proof.Spec

noncomputable section

namespace Cert.Fin

open Idealize.ShloMosaic Cert.KernelIdeal Cert.KernelIdeal.Facts₀

variable [Cert.KernelIdeal.Facts₀]

/-- The per-graph mean of the node features. -/
def poolOf (x : Cert.Spec.Mat 100000 64) (b : IVec S100000 32) : Cert.Spec.Mat 128 64 :=
  Host.divf
    (Host.scatterAdd scatter_S128x64_S100000x1_S100000x64_1_0_0_1
      (broadcastInDim S128x64 ![] bcast_S_S128x64 (constant (F := Ideal) S_ .f32 0x00000000#32))
      (broadcastInDim S100000x1 ![0] bcast_S100000_S100000x1_0 b) x)
    (broadcastInDim S128x64 ![0, 1] bcast_S128x1_S128x64_0_1
      (broadcastInDim S128x1 ![0] bcast_S128_S128x1_0
        (maximumf
          (Host.scatterAdd scatter_S128_S100000x1_S100000_n_0_0_1
            (broadcastInDim S128 ![] bcast_S_S128 (constant (F := Ideal) S_ .f32 0x00000000#32))
            (broadcastInDim S100000x1 ![0] bcast_S100000_S100000x1_0 b)
            (broadcastInDim S100000 ![] bcast_S_S100000 (constant (F := Ideal) S_ .f32 0x3F800000#32)))
          (broadcastInDim S128 ![] bcast_S_S128 (constant (F := Ideal) S_ .f32 0x3F800000#32)))))

end Cert.Fin

end
-- ==== Proof.KKeep.lean ====
/-
  Buffers that stay as they are from one segment boundary of the idealized kernel to the next: the stacked weight
  arguments, the batch vector and the two edge rows are written by no later host operation and are no region's array,
  so at every later boundary they hold what they held when first written (an argument: its launch contents).
-/
import proofs.«142526_j3951369912896_1_alg».proof.Proof.Gen.KernelIdeal.Frame
import proofs.«142526_j3951369912896_1_alg».proof.Proof.Layer

set_option maxRecDepth 16384

noncomputable section

namespace Cert.KernelIdeal.KKeep

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

theorem at0_arg3 : W0 m ρ c (Proc.devRef .tc main_arg3) = m ((c : Thread nD τ).loc main_arg3) := rfl
theorem at1_arg3 : W1 m ρ c (Proc.devRef .tc main_arg3) = m ((c : Thread nD τ).loc main_arg3) :=
  (show W1 m ρ c (Proc.devRef .tc main_arg3) = W0 m ρ c (Proc.devRef .tc main_arg3) from by host_keep hostOps0).trans (at0_arg3 m ρ c)
theorem at2_arg3 : W2 m ρ c (Proc.devRef .tc main_arg3) = m ((c : Thread nD τ).loc main_arg3) :=
  (W2_of_ne m ρ c main_arg3 (by decide)).trans (at1_arg3 m ρ c)
theorem at3_arg3 : W3 m ρ c (Proc.devRef .tc main_arg3) = m ((c : Thread nD τ).loc main_arg3) :=
  (W3_of_ne m ρ c main_arg3 (by decide)).trans (at2_arg3 m ρ c)
theorem at4_arg3 : W4 m ρ c (Proc.devRef .tc main_arg3) = m ((c : Thread nD τ).loc main_arg3) :=
  (show W4 m ρ c (Proc.devRef .tc main_arg3) = W3 m ρ c (Proc.devRef .tc main_arg3) from by host_keep hostOps2).trans (at3_arg3 m ρ c)
theorem at5_arg3 : W5 m ρ c (Proc.devRef .tc main_arg3) = m ((c : Thread nD τ).loc main_arg3) :=
  (W5_of_ne m ρ c main_arg3 (by decide)).trans (at4_arg3 m ρ c)
theorem at6_arg3 : W6 m ρ c (Proc.devRef .tc main_arg3) = m ((c : Thread nD τ).loc main_arg3) :=
  (show W6 m ρ c (Proc.devRef .tc main_arg3) = W5 m ρ c (Proc.devRef .tc main_arg3) from by host_keep hostOps3).trans (at5_arg3 m ρ c)
theorem at7_arg3 : W7 m ρ c (Proc.devRef .tc main_arg3) = m ((c : Thread nD τ).loc main_arg3) :=
  (W7_of_ne m ρ c main_arg3 (by decide)).trans (at6_arg3 m ρ c)
theorem at8_arg3 : W8 m ρ c (Proc.devRef .tc main_arg3) = m ((c : Thread nD τ).loc main_arg3) :=
  (W8_of_ne m ρ c main_arg3 (by decide)).trans (at7_arg3 m ρ c)
theorem at9_arg3 : W9 m ρ c (Proc.devRef .tc main_arg3) = m ((c : Thread nD τ).loc main_arg3) :=
  (show W9 m ρ c (Proc.devRef .tc main_arg3) = W8 m ρ c (Proc.devRef .tc main_arg3) from by host_keep hostOps5).trans (at8_arg3 m ρ c)
theorem at10_arg3 : W10 m ρ c (Proc.devRef .tc main_arg3) = m ((c : Thread nD τ).loc main_arg3) :=
  (W10_of_ne m ρ c main_arg3 (by decide)).trans (at9_arg3 m ρ c)
theorem at11_arg3 : W11 m ρ c (Proc.devRef .tc main_arg3) = m ((c : Thread nD τ).loc main_arg3) :=
  (show W11 m ρ c (Proc.devRef .tc main_arg3) = W10 m ρ c (Proc.devRef .tc main_arg3) from by host_keep hostOps6).trans (at10_arg3 m ρ c)
theorem at12_arg3 : W12 m ρ c (Proc.devRef .tc main_arg3) = m ((c : Thread nD τ).loc main_arg3) :=
  (W12_of_ne m ρ c main_arg3 (by decide)).trans (at11_arg3 m ρ c)
theorem at13_arg3 : W13 m ρ c (Proc.devRef .tc main_arg3) = m ((c : Thread nD τ).loc main_arg3) :=
  (W13_of_ne m ρ c main_arg3 (by decide)).trans (at12_arg3 m ρ c)
theorem at14_arg3 : W14 m ρ c (Proc.devRef .tc main_arg3) = m ((c : Thread nD τ).loc main_arg3) :=
  (show W14 m ρ c (Proc.devRef .tc main_arg3) = W13 m ρ c (Proc.devRef .tc main_arg3) from by host_keep hostOps8).trans (at13_arg3 m ρ c)
theorem at15_arg3 : W15 m ρ c (Proc.devRef .tc main_arg3) = m ((c : Thread nD τ).loc main_arg3) :=
  (W15_of_ne m ρ c main_arg3 (by decide)).trans (at14_arg3 m ρ c)
theorem at16_arg3 : W16 m ρ c (Proc.devRef .tc main_arg3) = m ((c : Thread nD τ).loc main_arg3) :=
  (show W16 m ρ c (Proc.devRef .tc main_arg3) = W15 m ρ c (Proc.devRef .tc main_arg3) from by host_keep hostOps9).trans (at15_arg3 m ρ c)
theorem at17_arg3 : W17 m ρ c (Proc.devRef .tc main_arg3) = m ((c : Thread nD τ).loc main_arg3) :=
  (W17_of_ne m ρ c main_arg3 (by decide)).trans (at16_arg3 m ρ c)
theorem at18_arg3 : W18 m ρ c (Proc.devRef .tc main_arg3) = m ((c : Thread nD τ).loc main_arg3) :=
  (W18_of_ne m ρ c main_arg3 (by decide)).trans (at17_arg3 m ρ c)
theorem at19_arg3 : W19 m ρ c (Proc.devRef .tc main_arg3) = m ((c : Thread nD τ).loc main_arg3) :=
  (show W19 m ρ c (Proc.devRef .tc main_arg3) = W18 m ρ c (Proc.devRef .tc main_arg3) from by host_keep hostOps11).trans (at18_arg3 m ρ c)
theorem at20_arg3 : W20 m ρ c (Proc.devRef .tc main_arg3) = m ((c : Thread nD τ).loc main_arg3) :=
  (W20_of_ne m ρ c main_arg3 (by decide)).trans (at19_arg3 m ρ c)

theorem at0_arg4 : W0 m ρ c (Proc.devRef .tc main_arg4) = m ((c : Thread nD τ).loc main_arg4) := rfl
theorem at1_arg4 : W1 m ρ c (Proc.devRef .tc main_arg4) = m ((c : Thread nD τ).loc main_arg4) :=
  (show W1 m ρ c (Proc.devRef .tc main_arg4) = W0 m ρ c (Proc.devRef .tc main_arg4) from by host_keep hostOps0).trans (at0_arg4 m ρ c)
theorem at2_arg4 : W2 m ρ c (Proc.devRef .tc main_arg4) = m ((c : Thread nD τ).loc main_arg4) :=
  (W2_of_ne m ρ c main_arg4 (by decide)).trans (at1_arg4 m ρ c)
theorem at3_arg4 : W3 m ρ c (Proc.devRef .tc main_arg4) = m ((c : Thread nD τ).loc main_arg4) :=
  (W3_of_ne m ρ c main_arg4 (by decide)).trans (at2_arg4 m ρ c)
theorem at4_arg4 : W4 m ρ c (Proc.devRef .tc main_arg4) = m ((c : Thread nD τ).loc main_arg4) :=
  (show W4 m ρ c (Proc.devRef .tc main_arg4) = W3 m ρ c (Proc.devRef .tc main_arg4) from by host_keep hostOps2).trans (at3_arg4 m ρ c)
theorem at5_arg4 : W5 m ρ c (Proc.devRef .tc main_arg4) = m ((c : Thread nD τ).loc main_arg4) :=
  (W5_of_ne m ρ c main_arg4 (by decide)).trans (at4_arg4 m ρ c)
theorem at6_arg4 : W6 m ρ c (Proc.devRef .tc main_arg4) = m ((c : Thread nD τ).loc main_arg4) :=
  (show W6 m ρ c (Proc.devRef .tc main_arg4) = W5 m ρ c (Proc.devRef .tc main_arg4) from by host_keep hostOps3).trans (at5_arg4 m ρ c)
theorem at7_arg4 : W7 m ρ c (Proc.devRef .tc main_arg4) = m ((c : Thread nD τ).loc main_arg4) :=
  (W7_of_ne m ρ c main_arg4 (by decide)).trans (at6_arg4 m ρ c)
theorem at8_arg4 : W8 m ρ c (Proc.devRef .tc main_arg4) = m ((c : Thread nD τ).loc main_arg4) :=
  (W8_of_ne m ρ c main_arg4 (by decide)).trans (at7_arg4 m ρ c)
theorem at9_arg4 : W9 m ρ c (Proc.devRef .tc main_arg4) = m ((c : Thread nD τ).loc main_arg4) :=
  (show W9 m ρ c (Proc.devRef .tc main_arg4) = W8 m ρ c (Proc.devRef .tc main_arg4) from by host_keep hostOps5).trans (at8_arg4 m ρ c)
theorem at10_arg4 : W10 m ρ c (Proc.devRef .tc main_arg4) = m ((c : Thread nD τ).loc main_arg4) :=
  (W10_of_ne m ρ c main_arg4 (by decide)).trans (at9_arg4 m ρ c)
theorem at11_arg4 : W11 m ρ c (Proc.devRef .tc main_arg4) = m ((c : Thread nD τ).loc main_arg4) :=
  (show W11 m ρ c (Proc.devRef .tc main_arg4) = W10 m ρ c (Proc.devRef .tc main_arg4) from by host_keep hostOps6).trans (at10_arg4 m ρ c)
theorem at12_arg4 : W12 m ρ c (Proc.devRef .tc main_arg4) = m ((c : Thread nD τ).loc main_arg4) :=
  (W12_of_ne m ρ c main_arg4 (by decide)).trans (at11_arg4 m ρ c)
theorem at13_arg4 : W13 m ρ c (Proc.devRef .tc main_arg4) = m ((c : Thread nD τ).loc main_arg4) :=
  (W13_of_ne m ρ c main_arg4 (by decide)).trans (at12_arg4 m ρ c)
theorem at14_arg4 : W14 m ρ c (Proc.devRef .tc main_arg4) = m ((c : Thread nD τ).loc main_arg4) :=
  (show W14 m ρ c (Proc.devRef .tc main_arg4) = W13 m ρ c (Proc.devRef .tc main_arg4) from by host_keep hostOps8).trans (at13_arg4 m ρ c)
theorem at15_arg4 : W15 m ρ c (Proc.devRef .tc main_arg4) = m ((c : Thread nD τ).loc main_arg4) :=
  (W15_of_ne m ρ c main_arg4 (by decide)).trans (at14_arg4 m ρ c)
theorem at16_arg4 : W16 m ρ c (Proc.devRef .tc main_arg4) = m ((c : Thread nD τ).loc main_arg4) :=
  (show W16 m ρ c (Proc.devRef .tc main_arg4) = W15 m ρ c (Proc.devRef .tc main_arg4) from by host_keep hostOps9).trans (at15_arg4 m ρ c)
theorem at17_arg4 : W17 m ρ c (Proc.devRef .tc main_arg4) = m ((c : Thread nD τ).loc main_arg4) :=
  (W17_of_ne m ρ c main_arg4 (by decide)).trans (at16_arg4 m ρ c)
theorem at18_arg4 : W18 m ρ c (Proc.devRef .tc main_arg4) = m ((c : Thread nD τ).loc main_arg4) :=
  (W18_of_ne m ρ c main_arg4 (by decide)).trans (at17_arg4 m ρ c)
theorem at19_arg4 : W19 m ρ c (Proc.devRef .tc main_arg4) = m ((c : Thread nD τ).loc main_arg4) :=
  (show W19 m ρ c (Proc.devRef .tc main_arg4) = W18 m ρ c (Proc.devRef .tc main_arg4) from by host_keep hostOps11).trans (at18_arg4 m ρ c)
theorem at20_arg4 : W20 m ρ c (Proc.devRef .tc main_arg4) = m ((c : Thread nD τ).loc main_arg4) :=
  (W20_of_ne m ρ c main_arg4 (by decide)).trans (at19_arg4 m ρ c)

theorem at0_arg5 : W0 m ρ c (Proc.devRef .tc main_arg5) = m ((c : Thread nD τ).loc main_arg5) := rfl
theorem at1_arg5 : W1 m ρ c (Proc.devRef .tc main_arg5) = m ((c : Thread nD τ).loc main_arg5) :=
  (show W1 m ρ c (Proc.devRef .tc main_arg5) = W0 m ρ c (Proc.devRef .tc main_arg5) from by host_keep hostOps0).trans (at0_arg5 m ρ c)
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  (W3_of_ne m ρ c main_arg5 (by decide)).trans (at2_arg5 m ρ c)
theorem at4_arg5 : W4 m ρ c (Proc.devRef .tc main_arg5) = m ((c : Thread nD τ).loc main_arg5) :=
  (show W4 m ρ c (Proc.devRef .tc main_arg5) = W3 m ρ c (Proc.devRef .tc main_arg5) from by host_keep hostOps2).trans (at3_arg5 m ρ c)
theorem at5_arg5 : W5 m ρ c (Proc.devRef .tc main_arg5) = m ((c : Thread nD τ).loc main_arg5) :=
  (W5_of_ne m ρ c main_arg5 (by decide)).trans (at4_arg5 m ρ c)
theorem at6_arg5 : W6 m ρ c (Proc.devRef .tc main_arg5) = m ((c : Thread nD τ).loc main_arg5) :=
  (show W6 m ρ c (Proc.devRef .tc main_arg5) = W5 m ρ c (Proc.devRef .tc main_arg5) from by host_keep hostOps3).trans (at5_arg5 m ρ c)
theorem at7_arg5 : W7 m ρ c (Proc.devRef .tc main_arg5) = m ((c : Thread nD τ).loc main_arg5) :=
  (W7_of_ne m ρ c main_arg5 (by decide)).trans (at6_arg5 m ρ c)
theorem at8_arg5 : W8 m ρ c (Proc.devRef .tc main_arg5) = m ((c : Thread nD τ).loc main_arg5) :=
  (W8_of_ne m ρ c main_arg5 (by decide)).trans (at7_arg5 m ρ c)
theorem at9_arg5 : W9 m ρ c (Proc.devRef .tc main_arg5) = m ((c : Thread nD τ).loc main_arg5) :=
  (show W9 m ρ c (Proc.devRef .tc main_arg5) = W8 m ρ c (Proc.devRef .tc main_arg5) from by host_keep hostOps5).trans (at8_arg5 m ρ c)
theorem at10_arg5 : W10 m ρ c (Proc.devRef .tc main_arg5) = m ((c : Thread nD τ).loc main_arg5) :=
  (W10_of_ne m ρ c main_arg5 (by decide)).trans (at9_arg5 m ρ c)
theorem at11_arg5 : W11 m ρ c (Proc.devRef .tc main_arg5) = m ((c : Thread nD τ).loc main_arg5) :=
  (show W11 m ρ c (Proc.devRef .tc main_arg5) = W10 m ρ c (Proc.devRef .tc main_arg5) from by host_keep hostOps6).trans (at10_arg5 m ρ c)
theorem at12_arg5 : W12 m ρ c (Proc.devRef .tc main_arg5) = m ((c : Thread nD τ).loc main_arg5) :=
  (W12_of_ne m ρ c main_arg5 (by decide)).trans (at11_arg5 m ρ c)
theorem at13_arg5 : W13 m ρ c (Proc.devRef .tc main_arg5) = m ((c : Thread nD τ).loc main_arg5) :=
  (W13_of_ne m ρ c main_arg5 (by decide)).trans (at12_arg5 m ρ c)
theorem at14_arg5 : W14 m ρ c (Proc.devRef .tc main_arg5) = m ((c : Thread nD τ).loc main_arg5) :=
  (show W14 m ρ c (Proc.devRef .tc main_arg5) = W13 m ρ c (Proc.devRef .tc main_arg5) from by host_keep hostOps8).trans (at13_arg5 m ρ c)
theorem at15_arg5 : W15 m ρ c (Proc.devRef .tc main_arg5) = m ((c : Thread nD τ).loc main_arg5) :=
  (W15_of_ne m ρ c main_arg5 (by decide)).trans (at14_arg5 m ρ c)
theorem at16_arg5 : W16 m ρ c (Proc.devRef .tc main_arg5) = m ((c : Thread nD τ).loc main_arg5) :=
  (show W16 m ρ c (Proc.devRef .tc main_arg5) = W15 m ρ c (Proc.devRef .tc main_arg5) from by host_keep hostOps9).trans (at15_arg5 m ρ c)
theorem at17_arg5 : W17 m ρ c (Proc.devRef .tc main_arg5) = m ((c : Thread nD τ).loc main_arg5) :=
  (W17_of_ne m ρ c main_arg5 (by decide)).trans (at16_arg5 m ρ c)
theorem at18_arg5 : W18 m ρ c (Proc.devRef .tc main_arg5) = m ((c : Thread nD τ).loc main_arg5) :=
  (W18_of_ne m ρ c main_arg5 (by decide)).trans (at17_arg5 m ρ c)
theorem at19_arg5 : W19 m ρ c (Proc.devRef .tc main_arg5) = m ((c : Thread nD τ).loc main_arg5) :=
  (show W19 m ρ c (Proc.devRef .tc main_arg5) = W18 m ρ c (Proc.devRef .tc main_arg5) from by host_keep hostOps11).trans (at18_arg5 m ρ c)
theorem at20_arg5 : W20 m ρ c (Proc.devRef .tc main_arg5) = m ((c : Thread nD τ).loc main_arg5) :=
  (W20_of_ne m ρ c main_arg5 (by decide)).trans (at19_arg5 m ρ c)

theorem at0_arg6 : W0 m ρ c (Proc.devRef .tc main_arg6) = m ((c : Thread nD τ).loc main_arg6) := rfl
theorem at1_arg6 : W1 m ρ c (Proc.devRef .tc main_arg6) = m ((c : Thread nD τ).loc main_arg6) :=
  (show W1 m ρ c (Proc.devRef .tc main_arg6) = W0 m ρ c (Proc.devRef .tc main_arg6) from by host_keep hostOps0).trans (at0_arg6 m ρ c)
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  (W3_of_ne m ρ c main_arg6 (by decide)).trans (at2_arg6 m ρ c)
theorem at4_arg6 : W4 m ρ c (Proc.devRef .tc main_arg6) = m ((c : Thread nD τ).loc main_arg6) :=
  (show W4 m ρ c (Proc.devRef .tc main_arg6) = W3 m ρ c (Proc.devRef .tc main_arg6) from by host_keep hostOps2).trans (at3_arg6 m ρ c)
theorem at5_arg6 : W5 m ρ c (Proc.devRef .tc main_arg6) = m ((c : Thread nD τ).loc main_arg6) :=
  (W5_of_ne m ρ c main_arg6 (by decide)).trans (at4_arg6 m ρ c)
theorem at6_arg6 : W6 m ρ c (Proc.devRef .tc main_arg6) = m ((c : Thread nD τ).loc main_arg6) :=
  (show W6 m ρ c (Proc.devRef .tc main_arg6) = W5 m ρ c (Proc.devRef .tc main_arg6) from by host_keep hostOps3).trans (at5_arg6 m ρ c)
theorem at7_arg6 : W7 m ρ c (Proc.devRef .tc main_arg6) = m ((c : Thread nD τ).loc main_arg6) :=
  (W7_of_ne m ρ c main_arg6 (by decide)).trans (at6_arg6 m ρ c)
theorem at8_arg6 : W8 m ρ c (Proc.devRef .tc main_arg6) = m ((c : Thread nD τ).loc main_arg6) :=
  (W8_of_ne m ρ c main_arg6 (by decide)).trans (at7_arg6 m ρ c)
theorem at9_arg6 : W9 m ρ c (Proc.devRef .tc main_arg6) = m ((c : Thread nD τ).loc main_arg6) :=
  (show W9 m ρ c (Proc.devRef .tc main_arg6) = W8 m ρ c (Proc.devRef .tc main_arg6) from by host_keep hostOps5).trans (at8_arg6 m ρ c)
theorem at10_arg6 : W10 m ρ c (Proc.devRef .tc main_arg6) = m ((c : Thread nD τ).loc main_arg6) :=
  (W10_of_ne m ρ c main_arg6 (by decide)).trans (at9_arg6 m ρ c)
theorem at11_arg6 : W11 m ρ c (Proc.devRef .tc main_arg6) = m ((c : Thread nD τ).loc main_arg6) :=
  (show W11 m ρ c (Proc.devRef .tc main_arg6) = W10 m ρ c (Proc.devRef .tc main_arg6) from by host_keep hostOps6).trans (at10_arg6 m ρ c)
theorem at12_arg6 : W12 m ρ c (Proc.devRef .tc main_arg6) = m ((c : Thread nD τ).loc main_arg6) :=
  (W12_of_ne m ρ c main_arg6 (by decide)).trans (at11_arg6 m ρ c)
theorem at13_arg6 : W13 m ρ c (Proc.devRef .tc main_arg6) = m ((c : Thread nD τ).loc main_arg6) :=
  (W13_of_ne m ρ c main_arg6 (by decide)).trans (at12_arg6 m ρ c)
theorem at14_arg6 : W14 m ρ c (Proc.devRef .tc main_arg6) = m ((c : Thread nD τ).loc main_arg6) :=
  (show W14 m ρ c (Proc.devRef .tc main_arg6) = W13 m ρ c (Proc.devRef .tc main_arg6) from by host_keep hostOps8).trans (at13_arg6 m ρ c)
theorem at15_arg6 : W15 m ρ c (Proc.devRef .tc main_arg6) = m ((c : Thread nD τ).loc main_arg6) :=
  (W15_of_ne m ρ c main_arg6 (by decide)).trans (at14_arg6 m ρ c)
theorem at16_arg6 : W16 m ρ c (Proc.devRef .tc main_arg6) = m ((c : Thread nD τ).loc main_arg6) :=
  (show W16 m ρ c (Proc.devRef .tc main_arg6) = W15 m ρ c (Proc.devRef .tc main_arg6) from by host_keep hostOps9).trans (at15_arg6 m ρ c)
theorem at17_arg6 : W17 m ρ c (Proc.devRef .tc main_arg6) = m ((c : Thread nD τ).loc main_arg6) :=
  (W17_of_ne m ρ c main_arg6 (by decide)).trans (at16_arg6 m ρ c)
theorem at18_arg6 : W18 m ρ c (Proc.devRef .tc main_arg6) = m ((c : Thread nD τ).loc main_arg6) :=
  (W18_of_ne m ρ c main_arg6 (by decide)).trans (at17_arg6 m ρ c)
theorem at19_arg6 : W19 m ρ c (Proc.devRef .tc main_arg6) = m ((c : Thread nD τ).loc main_arg6) :=
  (show W19 m ρ c (Proc.devRef .tc main_arg6) = W18 m ρ c (Proc.devRef .tc main_arg6) from by host_keep hostOps11).trans (at18_arg6 m ρ c)
theorem at20_arg6 : W20 m ρ c (Proc.devRef .tc main_arg6) = m ((c : Thread nD τ).loc main_arg6) :=
  (W20_of_ne m ρ c main_arg6 (by decide)).trans (at19_arg6 m ρ c)

theorem at0_arg7 : W0 m ρ c (Proc.devRef .tc main_arg7) = m ((c : Thread nD τ).loc main_arg7) := rfl
theorem at1_arg7 : W1 m ρ c (Proc.devRef .tc main_arg7) = m ((c : Thread nD τ).loc main_arg7) :=
  (show W1 m ρ c (Proc.devRef .tc main_arg7) = W0 m ρ c (Proc.devRef .tc main_arg7) from by host_keep hostOps0).trans (at0_arg7 m ρ c)
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  (W3_of_ne m ρ c main_arg7 (by decide)).trans (at2_arg7 m ρ c)
theorem at4_arg7 : W4 m ρ c (Proc.devRef .tc main_arg7) = m ((c : Thread nD τ).loc main_arg7) :=
  (show W4 m ρ c (Proc.devRef .tc main_arg7) = W3 m ρ c (Proc.devRef .tc main_arg7) from by host_keep hostOps2).trans (at3_arg7 m ρ c)
theorem at5_arg7 : W5 m ρ c (Proc.devRef .tc main_arg7) = m ((c : Thread nD τ).loc main_arg7) :=
  (W5_of_ne m ρ c main_arg7 (by decide)).trans (at4_arg7 m ρ c)
theorem at6_arg7 : W6 m ρ c (Proc.devRef .tc main_arg7) = m ((c : Thread nD τ).loc main_arg7) :=
  (show W6 m ρ c (Proc.devRef .tc main_arg7) = W5 m ρ c (Proc.devRef .tc main_arg7) from by host_keep hostOps3).trans (at5_arg7 m ρ c)
theorem at7_arg7 : W7 m ρ c (Proc.devRef .tc main_arg7) = m ((c : Thread nD τ).loc main_arg7) :=
  (W7_of_ne m ρ c main_arg7 (by decide)).trans (at6_arg7 m ρ c)
theorem at8_arg7 : W8 m ρ c (Proc.devRef .tc main_arg7) = m ((c : Thread nD τ).loc main_arg7) :=
  (W8_of_ne m ρ c main_arg7 (by decide)).trans (at7_arg7 m ρ c)
theorem at9_arg7 : W9 m ρ c (Proc.devRef .tc main_arg7) = m ((c : Thread nD τ).loc main_arg7) :=
  (show W9 m ρ c (Proc.devRef .tc main_arg7) = W8 m ρ c (Proc.devRef .tc main_arg7) from by host_keep hostOps5).trans (at8_arg7 m ρ c)
theorem at10_arg7 : W10 m ρ c (Proc.devRef .tc main_arg7) = m ((c : Thread nD τ).loc main_arg7) :=
  (W10_of_ne m ρ c main_arg7 (by decide)).trans (at9_arg7 m ρ c)
theorem at11_arg7 : W11 m ρ c (Proc.devRef .tc main_arg7) = m ((c : Thread nD τ).loc main_arg7) :=
  (show W11 m ρ c (Proc.devRef .tc main_arg7) = W10 m ρ c (Proc.devRef .tc main_arg7) from by host_keep hostOps6).trans (at10_arg7 m ρ c)
theorem at12_arg7 : W12 m ρ c (Proc.devRef .tc main_arg7) = m ((c : Thread nD τ).loc main_arg7) :=
  (W12_of_ne m ρ c main_arg7 (by decide)).trans (at11_arg7 m ρ c)
theorem at13_arg7 : W13 m ρ c (Proc.devRef .tc main_arg7) = m ((c : Thread nD τ).loc main_arg7) :=
  (W13_of_ne m ρ c main_arg7 (by decide)).trans (at12_arg7 m ρ c)
theorem at14_arg7 : W14 m ρ c (Proc.devRef .tc main_arg7) = m ((c : Thread nD τ).loc main_arg7) :=
  (show W14 m ρ c (Proc.devRef .tc main_arg7) = W13 m ρ c (Proc.devRef .tc main_arg7) from by host_keep hostOps8).trans (at13_arg7 m ρ c)
theorem at15_arg7 : W15 m ρ c (Proc.devRef .tc main_arg7) = m ((c : Thread nD τ).loc main_arg7) :=
  (W15_of_ne m ρ c main_arg7 (by decide)).trans (at14_arg7 m ρ c)
theorem at16_arg7 : W16 m ρ c (Proc.devRef .tc main_arg7) = m ((c : Thread nD τ).loc main_arg7) :=
  (show W16 m ρ c (Proc.devRef .tc main_arg7) = W15 m ρ c (Proc.devRef .tc main_arg7) from by host_keep hostOps9).trans (at15_arg7 m ρ c)
theorem at17_arg7 : W17 m ρ c (Proc.devRef .tc main_arg7) = m ((c : Thread nD τ).loc main_arg7) :=
  (W17_of_ne m ρ c main_arg7 (by decide)).trans (at16_arg7 m ρ c)
theorem at18_arg7 : W18 m ρ c (Proc.devRef .tc main_arg7) = m ((c : Thread nD τ).loc main_arg7) :=
  (W18_of_ne m ρ c main_arg7 (by decide)).trans (at17_arg7 m ρ c)
theorem at19_arg7 : W19 m ρ c (Proc.devRef .tc main_arg7) = m ((c : Thread nD τ).loc main_arg7) :=
  (show W19 m ρ c (Proc.devRef .tc main_arg7) = W18 m ρ c (Proc.devRef .tc main_arg7) from by host_keep hostOps11).trans (at18_arg7 m ρ c)
theorem at20_arg7 : W20 m ρ c (Proc.devRef .tc main_arg7) = m ((c : Thread nD τ).loc main_arg7) :=
  (W20_of_ne m ρ c main_arg7 (by decide)).trans (at19_arg7 m ρ c)
theorem at21_arg7 : W21 m ρ c (Proc.devRef .tc main_arg7) = m ((c : Thread nD τ).loc main_arg7) :=
  (show W21 m ρ c (Proc.devRef .tc main_arg7) = W20 m ρ c (Proc.devRef .tc main_arg7) from by host_keep hostOps12).trans (at20_arg7 m ρ c)
theorem at22_arg7 : W22 m ρ c (Proc.devRef .tc main_arg7) = m ((c : Thread nD τ).loc main_arg7) :=
  (W22_of_ne m ρ c main_arg7 (by decide)).trans (at21_arg7 m ρ c)
theorem at23_arg7 : W23 m ρ c (Proc.devRef .tc main_arg7) = m ((c : Thread nD τ).loc main_arg7) :=
  (W23_of_ne m ρ c main_arg7 (by decide)).trans (at22_arg7 m ρ c)

theorem at0_arg8 : W0 m ρ c (Proc.devRef .tc main_arg8) = m ((c : Thread nD τ).loc main_arg8) := rfl
theorem at1_arg8 : W1 m ρ c (Proc.devRef .tc main_arg8) = m ((c : Thread nD τ).loc main_arg8) :=
  (show W1 m ρ c (Proc.devRef .tc main_arg8) = W0 m ρ c (Proc.devRef .tc main_arg8) from by host_keep hostOps0).trans (at0_arg8 m ρ c)
theorem at2_arg8 : W2 m ρ c (Proc.devRef .tc main_arg8) = m ((c : Thread nD τ).loc main_arg8) :=
  (W2_of_ne m ρ c main_arg8 (by decide)).trans (at1_arg8 m ρ c)
theorem at3_arg8 : W3 m ρ c (Proc.devRef .tc main_arg8) = m ((c : Thread nD τ).loc main_arg8) :=
  (W3_of_ne m ρ c main_arg8 (by decide)).trans (at2_arg8 m ρ c)
theorem at4_arg8 : W4 m ρ c (Proc.devRef .tc main_arg8) = m ((c : Thread nD τ).loc main_arg8) :=
  (show W4 m ρ c (Proc.devRef .tc main_arg8) = W3 m ρ c (Proc.devRef .tc main_arg8) from by host_keep hostOps2).trans (at3_arg8 m ρ c)
theorem at5_arg8 : W5 m ρ c (Proc.devRef .tc main_arg8) = m ((c : Thread nD τ).loc main_arg8) :=
  (W5_of_ne m ρ c main_arg8 (by decide)).trans (at4_arg8 m ρ c)
theorem at6_arg8 : W6 m ρ c (Proc.devRef .tc main_arg8) = m ((c : Thread nD τ).loc main_arg8) :=
  (show W6 m ρ c (Proc.devRef .tc main_arg8) = W5 m ρ c (Proc.devRef .tc main_arg8) from by host_keep hostOps3).trans (at5_arg8 m ρ c)
theorem at7_arg8 : W7 m ρ c (Proc.devRef .tc main_arg8) = m ((c : Thread nD τ).loc main_arg8) :=
  (W7_of_ne m ρ c main_arg8 (by decide)).trans (at6_arg8 m ρ c)
theorem at8_arg8 : W8 m ρ c (Proc.devRef .tc main_arg8) = m ((c : Thread nD τ).loc main_arg8) :=
  (W8_of_ne m ρ c main_arg8 (by decide)).trans (at7_arg8 m ρ c)
theorem at9_arg8 : W9 m ρ c (Proc.devRef .tc main_arg8) = m ((c : Thread nD τ).loc main_arg8) :=
  (show W9 m ρ c (Proc.devRef .tc main_arg8) = W8 m ρ c (Proc.devRef .tc main_arg8) from by host_keep hostOps5).trans (at8_arg8 m ρ c)
theorem at10_arg8 : W10 m ρ c (Proc.devRef .tc main_arg8) = m ((c : Thread nD τ).loc main_arg8) :=
  (W10_of_ne m ρ c main_arg8 (by decide)).trans (at9_arg8 m ρ c)
theorem at11_arg8 : W11 m ρ c (Proc.devRef .tc main_arg8) = m ((c : Thread nD τ).loc main_arg8) :=
  (show W11 m ρ c (Proc.devRef .tc main_arg8) = W10 m ρ c (Proc.devRef .tc main_arg8) from by host_keep hostOps6).trans (at10_arg8 m ρ c)
theorem at12_arg8 : W12 m ρ c (Proc.devRef .tc main_arg8) = m ((c : Thread nD τ).loc main_arg8) :=
  (W12_of_ne m ρ c main_arg8 (by decide)).trans (at11_arg8 m ρ c)
theorem at13_arg8 : W13 m ρ c (Proc.devRef .tc main_arg8) = m ((c : Thread nD τ).loc main_arg8) :=
  (W13_of_ne m ρ c main_arg8 (by decide)).trans (at12_arg8 m ρ c)
theorem at14_arg8 : W14 m ρ c (Proc.devRef .tc main_arg8) = m ((c : Thread nD τ).loc main_arg8) :=
  (show W14 m ρ c (Proc.devRef .tc main_arg8) = W13 m ρ c (Proc.devRef .tc main_arg8) from by host_keep hostOps8).trans (at13_arg8 m ρ c)
theorem at15_arg8 : W15 m ρ c (Proc.devRef .tc main_arg8) = m ((c : Thread nD τ).loc main_arg8) :=
  (W15_of_ne m ρ c main_arg8 (by decide)).trans (at14_arg8 m ρ c)
theorem at16_arg8 : W16 m ρ c (Proc.devRef .tc main_arg8) = m ((c : Thread nD τ).loc main_arg8) :=
  (show W16 m ρ c (Proc.devRef .tc main_arg8) = W15 m ρ c (Proc.devRef .tc main_arg8) from by host_keep hostOps9).trans (at15_arg8 m ρ c)
theorem at17_arg8 : W17 m ρ c (Proc.devRef .tc main_arg8) = m ((c : Thread nD τ).loc main_arg8) :=
  (W17_of_ne m ρ c main_arg8 (by decide)).trans (at16_arg8 m ρ c)
theorem at18_arg8 : W18 m ρ c (Proc.devRef .tc main_arg8) = m ((c : Thread nD τ).loc main_arg8) :=
  (W18_of_ne m ρ c main_arg8 (by decide)).trans (at17_arg8 m ρ c)
theorem at19_arg8 : W19 m ρ c (Proc.devRef .tc main_arg8) = m ((c : Thread nD τ).loc main_arg8) :=
  (show W19 m ρ c (Proc.devRef .tc main_arg8) = W18 m ρ c (Proc.devRef .tc main_arg8) from by host_keep hostOps11).trans (at18_arg8 m ρ c)
theorem at20_arg8 : W20 m ρ c (Proc.devRef .tc main_arg8) = m ((c : Thread nD τ).loc main_arg8) :=
  (W20_of_ne m ρ c main_arg8 (by decide)).trans (at19_arg8 m ρ c)
theorem at21_arg8 : W21 m ρ c (Proc.devRef .tc main_arg8) = m ((c : Thread nD τ).loc main_arg8) :=
  (show W21 m ρ c (Proc.devRef .tc main_arg8) = W20 m ρ c (Proc.devRef .tc main_arg8) from by host_keep hostOps12).trans (at20_arg8 m ρ c)
theorem at22_arg8 : W22 m ρ c (Proc.devRef .tc main_arg8) = m ((c : Thread nD τ).loc main_arg8) :=
  (W22_of_ne m ρ c main_arg8 (by decide)).trans (at21_arg8 m ρ c)
theorem at23_arg8 : W23 m ρ c (Proc.devRef .tc main_arg8) = m ((c : Thread nD τ).loc main_arg8) :=
  (W23_of_ne m ρ c main_arg8 (by decide)).trans (at22_arg8 m ρ c)

theorem at0_arg2 : W0 m ρ c (Proc.devRef .tc main_arg2) = m ((c : Thread nD τ).loc main_arg2) := rfl
theorem at1_arg2 : W1 m ρ c (Proc.devRef .tc main_arg2) = m ((c : Thread nD τ).loc main_arg2) :=
  (show W1 m ρ c (Proc.devRef .tc main_arg2) = W0 m ρ c (Proc.devRef .tc main_arg2) from by host_keep hostOps0).trans (at0_arg2 m ρ c)
theorem at2_arg2 : W2 m ρ c (Proc.devRef .tc main_arg2) = m ((c : Thread nD τ).loc main_arg2) :=
  (W2_of_ne m ρ c main_arg2 (by decide)).trans (at1_arg2 m ρ c)
theorem at3_arg2 : W3 m ρ c (Proc.devRef .tc main_arg2) = m ((c : Thread nD τ).loc main_arg2) :=
  (W3_of_ne m ρ c main_arg2 (by decide)).trans (at2_arg2 m ρ c)
theorem at4_arg2 : W4 m ρ c (Proc.devRef .tc main_arg2) = m ((c : Thread nD τ).loc main_arg2) :=
  (show W4 m ρ c (Proc.devRef .tc main_arg2) = W3 m ρ c (Proc.devRef .tc main_arg2) from by host_keep hostOps2).trans (at3_arg2 m ρ c)
theorem at5_arg2 : W5 m ρ c (Proc.devRef .tc main_arg2) = m ((c : Thread nD τ).loc main_arg2) :=
  (W5_of_ne m ρ c main_arg2 (by decide)).trans (at4_arg2 m ρ c)
theorem at6_arg2 : W6 m ρ c (Proc.devRef .tc main_arg2) = m ((c : Thread nD τ).loc main_arg2) :=
  (show W6 m ρ c (Proc.devRef .tc main_arg2) = W5 m ρ c (Proc.devRef .tc main_arg2) from by host_keep hostOps3).trans (at5_arg2 m ρ c)
theorem at7_arg2 : W7 m ρ c (Proc.devRef .tc main_arg2) = m ((c : Thread nD τ).loc main_arg2) :=
  (W7_of_ne m ρ c main_arg2 (by decide)).trans (at6_arg2 m ρ c)
theorem at8_arg2 : W8 m ρ c (Proc.devRef .tc main_arg2) = m ((c : Thread nD τ).loc main_arg2) :=
  (W8_of_ne m ρ c main_arg2 (by decide)).trans (at7_arg2 m ρ c)
theorem at9_arg2 : W9 m ρ c (Proc.devRef .tc main_arg2) = m ((c : Thread nD τ).loc main_arg2) :=
  (show W9 m ρ c (Proc.devRef .tc main_arg2) = W8 m ρ c (Proc.devRef .tc main_arg2) from by host_keep hostOps5).trans (at8_arg2 m ρ c)
theorem at10_arg2 : W10 m ρ c (Proc.devRef .tc main_arg2) = m ((c : Thread nD τ).loc main_arg2) :=
  (W10_of_ne m ρ c main_arg2 (by decide)).trans (at9_arg2 m ρ c)
theorem at11_arg2 : W11 m ρ c (Proc.devRef .tc main_arg2) = m ((c : Thread nD τ).loc main_arg2) :=
  (show W11 m ρ c (Proc.devRef .tc main_arg2) = W10 m ρ c (Proc.devRef .tc main_arg2) from by host_keep hostOps6).trans (at10_arg2 m ρ c)
theorem at12_arg2 : W12 m ρ c (Proc.devRef .tc main_arg2) = m ((c : Thread nD τ).loc main_arg2) :=
  (W12_of_ne m ρ c main_arg2 (by decide)).trans (at11_arg2 m ρ c)
theorem at13_arg2 : W13 m ρ c (Proc.devRef .tc main_arg2) = m ((c : Thread nD τ).loc main_arg2) :=
  (W13_of_ne m ρ c main_arg2 (by decide)).trans (at12_arg2 m ρ c)
theorem at14_arg2 : W14 m ρ c (Proc.devRef .tc main_arg2) = m ((c : Thread nD τ).loc main_arg2) :=
  (show W14 m ρ c (Proc.devRef .tc main_arg2) = W13 m ρ c (Proc.devRef .tc main_arg2) from by host_keep hostOps8).trans (at13_arg2 m ρ c)
theorem at15_arg2 : W15 m ρ c (Proc.devRef .tc main_arg2) = m ((c : Thread nD τ).loc main_arg2) :=
  (W15_of_ne m ρ c main_arg2 (by decide)).trans (at14_arg2 m ρ c)
theorem at16_arg2 : W16 m ρ c (Proc.devRef .tc main_arg2) = m ((c : Thread nD τ).loc main_arg2) :=
  (show W16 m ρ c (Proc.devRef .tc main_arg2) = W15 m ρ c (Proc.devRef .tc main_arg2) from by host_keep hostOps9).trans (at15_arg2 m ρ c)
theorem at17_arg2 : W17 m ρ c (Proc.devRef .tc main_arg2) = m ((c : Thread nD τ).loc main_arg2) :=
  (W17_of_ne m ρ c main_arg2 (by decide)).trans (at16_arg2 m ρ c)
theorem at18_arg2 : W18 m ρ c (Proc.devRef .tc main_arg2) = m ((c : Thread nD τ).loc main_arg2) :=
  (W18_of_ne m ρ c main_arg2 (by decide)).trans (at17_arg2 m ρ c)
theorem at19_arg2 : W19 m ρ c (Proc.devRef .tc main_arg2) = m ((c : Thread nD τ).loc main_arg2) :=
  (show W19 m ρ c (Proc.devRef .tc main_arg2) = W18 m ρ c (Proc.devRef .tc main_arg2) from by host_keep hostOps11).trans (at18_arg2 m ρ c)
theorem at20_arg2 : W20 m ρ c (Proc.devRef .tc main_arg2) = m ((c : Thread nD τ).loc main_arg2) :=
  (W20_of_ne m ρ c main_arg2 (by decide)).trans (at19_arg2 m ρ c)
theorem at21_arg2 : W21 m ρ c (Proc.devRef .tc main_arg2) = m ((c : Thread nD τ).loc main_arg2) :=
  (show W21 m ρ c (Proc.devRef .tc main_arg2) = W20 m ρ c (Proc.devRef .tc main_arg2) from by host_keep hostOps12).trans (at20_arg2 m ρ c)
theorem at22_arg2 : W22 m ρ c (Proc.devRef .tc main_arg2) = m ((c : Thread nD τ).loc main_arg2) :=
  (W22_of_ne m ρ c main_arg2 (by decide)).trans (at21_arg2 m ρ c)
theorem at23_arg2 : W23 m ρ c (Proc.devRef .tc main_arg2) = m ((c : Thread nD τ).loc main_arg2) :=
  (W23_of_ne m ρ c main_arg2 (by decide)).trans (at22_arg2 m ρ c)
theorem at24_arg2 : W24 m ρ c (Proc.devRef .tc main_arg2) = m ((c : Thread nD τ).loc main_arg2) :=
  (show W24 m ρ c (Proc.devRef .tc main_arg2) = W23 m ρ c (Proc.devRef .tc main_arg2) from by host_keep hostOps14).trans (at23_arg2 m ρ c)
theorem at25_arg2 : W25 m ρ c (Proc.devRef .tc main_arg2) = m ((c : Thread nD τ).loc main_arg2) :=
  (W25_of_ne m ρ c main_arg2 (by decide)).trans (at24_arg2 m ρ c)

theorem at0_arg9 : W0 m ρ c (Proc.devRef .tc main_arg9) = m ((c : Thread nD τ).loc main_arg9) := rfl
theorem at1_arg9 : W1 m ρ c (Proc.devRef .tc main_arg9) = m ((c : Thread nD τ).loc main_arg9) :=
  (show W1 m ρ c (Proc.devRef .tc main_arg9) = W0 m ρ c (Proc.devRef .tc main_arg9) from by host_keep hostOps0).trans (at0_arg9 m ρ c)
theorem at2_arg9 : W2 m ρ c (Proc.devRef .tc main_arg9) = m ((c : Thread nD τ).loc main_arg9) :=
  (W2_of_ne m ρ c main_arg9 (by decide)).trans (at1_arg9 m ρ c)
theorem at3_arg9 : W3 m ρ c (Proc.devRef .tc main_arg9) = m ((c : Thread nD τ).loc main_arg9) :=
  (W3_of_ne m ρ c main_arg9 (by decide)).trans (at2_arg9 m ρ c)
theorem at4_arg9 : W4 m ρ c (Proc.devRef .tc main_arg9) = m ((c : Thread nD τ).loc main_arg9) :=
  (show W4 m ρ c (Proc.devRef .tc main_arg9) = W3 m ρ c (Proc.devRef .tc main_arg9) from by host_keep hostOps2).trans (at3_arg9 m ρ c)
theorem at5_arg9 : W5 m ρ c (Proc.devRef .tc main_arg9) = m ((c : Thread nD τ).loc main_arg9) :=
  (W5_of_ne m ρ c main_arg9 (by decide)).trans (at4_arg9 m ρ c)
theorem at6_arg9 : W6 m ρ c (Proc.devRef .tc main_arg9) = m ((c : Thread nD τ).loc main_arg9) :=
  (show W6 m ρ c (Proc.devRef .tc main_arg9) = W5 m ρ c (Proc.devRef .tc main_arg9) from by host_keep hostOps3).trans (at5_arg9 m ρ c)
theorem at7_arg9 : W7 m ρ c (Proc.devRef .tc main_arg9) = m ((c : Thread nD τ).loc main_arg9) :=
  (W7_of_ne m ρ c main_arg9 (by decide)).trans (at6_arg9 m ρ c)
theorem at8_arg9 : W8 m ρ c (Proc.devRef .tc main_arg9) = m ((c : Thread nD τ).loc main_arg9) :=
  (W8_of_ne m ρ c main_arg9 (by decide)).trans (at7_arg9 m ρ c)
theorem at9_arg9 : W9 m ρ c (Proc.devRef .tc main_arg9) = m ((c : Thread nD τ).loc main_arg9) :=
  (show W9 m ρ c (Proc.devRef .tc main_arg9) = W8 m ρ c (Proc.devRef .tc main_arg9) from by host_keep hostOps5).trans (at8_arg9 m ρ c)
theorem at10_arg9 : W10 m ρ c (Proc.devRef .tc main_arg9) = m ((c : Thread nD τ).loc main_arg9) :=
  (W10_of_ne m ρ c main_arg9 (by decide)).trans (at9_arg9 m ρ c)
theorem at11_arg9 : W11 m ρ c (Proc.devRef .tc main_arg9) = m ((c : Thread nD τ).loc main_arg9) :=
  (show W11 m ρ c (Proc.devRef .tc main_arg9) = W10 m ρ c (Proc.devRef .tc main_arg9) from by host_keep hostOps6).trans (at10_arg9 m ρ c)
theorem at12_arg9 : W12 m ρ c (Proc.devRef .tc main_arg9) = m ((c : Thread nD τ).loc main_arg9) :=
  (W12_of_ne m ρ c main_arg9 (by decide)).trans (at11_arg9 m ρ c)
theorem at13_arg9 : W13 m ρ c (Proc.devRef .tc main_arg9) = m ((c : Thread nD τ).loc main_arg9) :=
  (W13_of_ne m ρ c main_arg9 (by decide)).trans (at12_arg9 m ρ c)
theorem at14_arg9 : W14 m ρ c (Proc.devRef .tc main_arg9) = m ((c : Thread nD τ).loc main_arg9) :=
  (show W14 m ρ c (Proc.devRef .tc main_arg9) = W13 m ρ c (Proc.devRef .tc main_arg9) from by host_keep hostOps8).trans (at13_arg9 m ρ c)
theorem at15_arg9 : W15 m ρ c (Proc.devRef .tc main_arg9) = m ((c : Thread nD τ).loc main_arg9) :=
  (W15_of_ne m ρ c main_arg9 (by decide)).trans (at14_arg9 m ρ c)
theorem at16_arg9 : W16 m ρ c (Proc.devRef .tc main_arg9) = m ((c : Thread nD τ).loc main_arg9) :=
  (show W16 m ρ c (Proc.devRef .tc main_arg9) = W15 m ρ c (Proc.devRef .tc main_arg9) from by host_keep hostOps9).trans (at15_arg9 m ρ c)
theorem at17_arg9 : W17 m ρ c (Proc.devRef .tc main_arg9) = m ((c : Thread nD τ).loc main_arg9) :=
  (W17_of_ne m ρ c main_arg9 (by decide)).trans (at16_arg9 m ρ c)
theorem at18_arg9 : W18 m ρ c (Proc.devRef .tc main_arg9) = m ((c : Thread nD τ).loc main_arg9) :=
  (W18_of_ne m ρ c main_arg9 (by decide)).trans (at17_arg9 m ρ c)
theorem at19_arg9 : W19 m ρ c (Proc.devRef .tc main_arg9) = m ((c : Thread nD τ).loc main_arg9) :=
  (show W19 m ρ c (Proc.devRef .tc main_arg9) = W18 m ρ c (Proc.devRef .tc main_arg9) from by host_keep hostOps11).trans (at18_arg9 m ρ c)
theorem at20_arg9 : W20 m ρ c (Proc.devRef .tc main_arg9) = m ((c : Thread nD τ).loc main_arg9) :=
  (W20_of_ne m ρ c main_arg9 (by decide)).trans (at19_arg9 m ρ c)
theorem at21_arg9 : W21 m ρ c (Proc.devRef .tc main_arg9) = m ((c : Thread nD τ).loc main_arg9) :=
  (show W21 m ρ c (Proc.devRef .tc main_arg9) = W20 m ρ c (Proc.devRef .tc main_arg9) from by host_keep hostOps12).trans (at20_arg9 m ρ c)
theorem at22_arg9 : W22 m ρ c (Proc.devRef .tc main_arg9) = m ((c : Thread nD τ).loc main_arg9) :=
  (W22_of_ne m ρ c main_arg9 (by decide)).trans (at21_arg9 m ρ c)
theorem at23_arg9 : W23 m ρ c (Proc.devRef .tc main_arg9) = m ((c : Thread nD τ).loc main_arg9) :=
  (W23_of_ne m ρ c main_arg9 (by decide)).trans (at22_arg9 m ρ c)
theorem at24_arg9 : W24 m ρ c (Proc.devRef .tc main_arg9) = m ((c : Thread nD τ).loc main_arg9) :=
  (show W24 m ρ c (Proc.devRef .tc main_arg9) = W23 m ρ c (Proc.devRef .tc main_arg9) from by host_keep hostOps14).trans (at23_arg9 m ρ c)
theorem at25_arg9 : W25 m ρ c (Proc.devRef .tc main_arg9) = m ((c : Thread nD τ).loc main_arg9) :=
  (W25_of_ne m ρ c main_arg9 (by decide)).trans (at24_arg9 m ρ c)

theorem at0_arg10 : W0 m ρ c (Proc.devRef .tc main_arg10) = m ((c : Thread nD τ).loc main_arg10) := rfl
theorem at1_arg10 : W1 m ρ c (Proc.devRef .tc main_arg10) = m ((c : Thread nD τ).loc main_arg10) :=
  (show W1 m ρ c (Proc.devRef .tc main_arg10) = W0 m ρ c (Proc.devRef .tc main_arg10) from by host_keep hostOps0).trans (at0_arg10 m ρ c)
theorem at2_arg10 : W2 m ρ c (Proc.devRef .tc main_arg10) = m ((c : Thread nD τ).loc main_arg10) :=
  (W2_of_ne m ρ c main_arg10 (by decide)).trans (at1_arg10 m ρ c)
theorem at3_arg10 : W3 m ρ c (Proc.devRef .tc main_arg10) = m ((c : Thread nD τ).loc main_arg10) :=
  (W3_of_ne m ρ c main_arg10 (by decide)).trans (at2_arg10 m ρ c)
theorem at4_arg10 : W4 m ρ c (Proc.devRef .tc main_arg10) = m ((c : Thread nD τ).loc main_arg10) :=
  (show W4 m ρ c (Proc.devRef .tc main_arg10) = W3 m ρ c (Proc.devRef .tc main_arg10) from by host_keep hostOps2).trans (at3_arg10 m ρ c)
theorem at5_arg10 : W5 m ρ c (Proc.devRef .tc main_arg10) = m ((c : Thread nD τ).loc main_arg10) :=
  (W5_of_ne m ρ c main_arg10 (by decide)).trans (at4_arg10 m ρ c)
theorem at6_arg10 : W6 m ρ c (Proc.devRef .tc main_arg10) = m ((c : Thread nD τ).loc main_arg10) :=
  (show W6 m ρ c (Proc.devRef .tc main_arg10) = W5 m ρ c (Proc.devRef .tc main_arg10) from by host_keep hostOps3).trans (at5_arg10 m ρ c)
theorem at7_arg10 : W7 m ρ c (Proc.devRef .tc main_arg10) = m ((c : Thread nD τ).loc main_arg10) :=
  (W7_of_ne m ρ c main_arg10 (by decide)).trans (at6_arg10 m ρ c)
theorem at8_arg10 : W8 m ρ c (Proc.devRef .tc main_arg10) = m ((c : Thread nD τ).loc main_arg10) :=
  (W8_of_ne m ρ c main_arg10 (by decide)).trans (at7_arg10 m ρ c)
theorem at9_arg10 : W9 m ρ c (Proc.devRef .tc main_arg10) = m ((c : Thread nD τ).loc main_arg10) :=
  (show W9 m ρ c (Proc.devRef .tc main_arg10) = W8 m ρ c (Proc.devRef .tc main_arg10) from by host_keep hostOps5).trans (at8_arg10 m ρ c)
theorem at10_arg10 : W10 m ρ c (Proc.devRef .tc main_arg10) = m ((c : Thread nD τ).loc main_arg10) :=
  (W10_of_ne m ρ c main_arg10 (by decide)).trans (at9_arg10 m ρ c)
theorem at11_arg10 : W11 m ρ c (Proc.devRef .tc main_arg10) = m ((c : Thread nD τ).loc main_arg10) :=
  (show W11 m ρ c (Proc.devRef .tc main_arg10) = W10 m ρ c (Proc.devRef .tc main_arg10) from by host_keep hostOps6).trans (at10_arg10 m ρ c)
theorem at12_arg10 : W12 m ρ c (Proc.devRef .tc main_arg10) = m ((c : Thread nD τ).loc main_arg10) :=
  (W12_of_ne m ρ c main_arg10 (by decide)).trans (at11_arg10 m ρ c)
theorem at13_arg10 : W13 m ρ c (Proc.devRef .tc main_arg10) = m ((c : Thread nD τ).loc main_arg10) :=
  (W13_of_ne m ρ c main_arg10 (by decide)).trans (at12_arg10 m ρ c)
theorem at14_arg10 : W14 m ρ c (Proc.devRef .tc main_arg10) = m ((c : Thread nD τ).loc main_arg10) :=
  (show W14 m ρ c (Proc.devRef .tc main_arg10) = W13 m ρ c (Proc.devRef .tc main_arg10) from by host_keep hostOps8).trans (at13_arg10 m ρ c)
theorem at15_arg10 : W15 m ρ c (Proc.devRef .tc main_arg10) = m ((c : Thread nD τ).loc main_arg10) :=
  (W15_of_ne m ρ c main_arg10 (by decide)).trans (at14_arg10 m ρ c)
theorem at16_arg10 : W16 m ρ c (Proc.devRef .tc main_arg10) = m ((c : Thread nD τ).loc main_arg10) :=
  (show W16 m ρ c (Proc.devRef .tc main_arg10) = W15 m ρ c (Proc.devRef .tc main_arg10) from by host_keep hostOps9).trans (at15_arg10 m ρ c)
theorem at17_arg10 : W17 m ρ c (Proc.devRef .tc main_arg10) = m ((c : Thread nD τ).loc main_arg10) :=
  (W17_of_ne m ρ c main_arg10 (by decide)).trans (at16_arg10 m ρ c)
theorem at18_arg10 : W18 m ρ c (Proc.devRef .tc main_arg10) = m ((c : Thread nD τ).loc main_arg10) :=
  (W18_of_ne m ρ c main_arg10 (by decide)).trans (at17_arg10 m ρ c)
theorem at19_arg10 : W19 m ρ c (Proc.devRef .tc main_arg10) = m ((c : Thread nD τ).loc main_arg10) :=
  (show W19 m ρ c (Proc.devRef .tc main_arg10) = W18 m ρ c (Proc.devRef .tc main_arg10) from by host_keep hostOps11).trans (at18_arg10 m ρ c)
theorem at20_arg10 : W20 m ρ c (Proc.devRef .tc main_arg10) = m ((c : Thread nD τ).loc main_arg10) :=
  (W20_of_ne m ρ c main_arg10 (by decide)).trans (at19_arg10 m ρ c)
theorem at21_arg10 : W21 m ρ c (Proc.devRef .tc main_arg10) = m ((c : Thread nD τ).loc main_arg10) :=
  (show W21 m ρ c (Proc.devRef .tc main_arg10) = W20 m ρ c (Proc.devRef .tc main_arg10) from by host_keep hostOps12).trans (at20_arg10 m ρ c)
theorem at22_arg10 : W22 m ρ c (Proc.devRef .tc main_arg10) = m ((c : Thread nD τ).loc main_arg10) :=
  (W22_of_ne m ρ c main_arg10 (by decide)).trans (at21_arg10 m ρ c)
theorem at23_arg10 : W23 m ρ c (Proc.devRef .tc main_arg10) = m ((c : Thread nD τ).loc main_arg10) :=
  (W23_of_ne m ρ c main_arg10 (by decide)).trans (at22_arg10 m ρ c)
theorem at24_arg10 : W24 m ρ c (Proc.devRef .tc main_arg10) = m ((c : Thread nD τ).loc main_arg10) :=
  (show W24 m ρ c (Proc.devRef .tc main_arg10) = W23 m ρ c (Proc.devRef .tc main_arg10) from by host_keep hostOps14).trans (at23_arg10 m ρ c)
theorem at25_arg10 : W25 m ρ c (Proc.devRef .tc main_arg10) = m ((c : Thread nD τ).loc main_arg10) :=
  (W25_of_ne m ρ c main_arg10 (by decide)).trans (at24_arg10 m ρ c)

theorem at0_arg11 : W0 m ρ c (Proc.devRef .tc main_arg11) = m ((c : Thread nD τ).loc main_arg11) := rfl
theorem at1_arg11 : W1 m ρ c (Proc.devRef .tc main_arg11) = m ((c : Thread nD τ).loc main_arg11) :=
  (show W1 m ρ c (Proc.devRef .tc main_arg11) = W0 m ρ c (Proc.devRef .tc main_arg11) from by host_keep hostOps0).trans (at0_arg11 m ρ c)
theorem at2_arg11 : W2 m ρ c (Proc.devRef .tc main_arg11) = m ((c : Thread nD τ).loc main_arg11) :=
  (W2_of_ne m ρ c main_arg11 (by decide)).trans (at1_arg11 m ρ c)
theorem at3_arg11 : W3 m ρ c (Proc.devRef .tc main_arg11) = m ((c : Thread nD τ).loc main_arg11) :=
  (W3_of_ne m ρ c main_arg11 (by decide)).trans (at2_arg11 m ρ c)
theorem at4_arg11 : W4 m ρ c (Proc.devRef .tc main_arg11) = m ((c : Thread nD τ).loc main_arg11) :=
  (show W4 m ρ c (Proc.devRef .tc main_arg11) = W3 m ρ c (Proc.devRef .tc main_arg11) from by host_keep hostOps2).trans (at3_arg11 m ρ c)
theorem at5_arg11 : W5 m ρ c (Proc.devRef .tc main_arg11) = m ((c : Thread nD τ).loc main_arg11) :=
  (W5_of_ne m ρ c main_arg11 (by decide)).trans (at4_arg11 m ρ c)
theorem at6_arg11 : W6 m ρ c (Proc.devRef .tc main_arg11) = m ((c : Thread nD τ).loc main_arg11) :=
  (show W6 m ρ c (Proc.devRef .tc main_arg11) = W5 m ρ c (Proc.devRef .tc main_arg11) from by host_keep hostOps3).trans (at5_arg11 m ρ c)
theorem at7_arg11 : W7 m ρ c (Proc.devRef .tc main_arg11) = m ((c : Thread nD τ).loc main_arg11) :=
  (W7_of_ne m ρ c main_arg11 (by decide)).trans (at6_arg11 m ρ c)
theorem at8_arg11 : W8 m ρ c (Proc.devRef .tc main_arg11) = m ((c : Thread nD τ).loc main_arg11) :=
  (W8_of_ne m ρ c main_arg11 (by decide)).trans (at7_arg11 m ρ c)
theorem at9_arg11 : W9 m ρ c (Proc.devRef .tc main_arg11) = m ((c : Thread nD τ).loc main_arg11) :=
  (show W9 m ρ c (Proc.devRef .tc main_arg11) = W8 m ρ c (Proc.devRef .tc main_arg11) from by host_keep hostOps5).trans (at8_arg11 m ρ c)
theorem at10_arg11 : W10 m ρ c (Proc.devRef .tc main_arg11) = m ((c : Thread nD τ).loc main_arg11) :=
  (W10_of_ne m ρ c main_arg11 (by decide)).trans (at9_arg11 m ρ c)
theorem at11_arg11 : W11 m ρ c (Proc.devRef .tc main_arg11) = m ((c : Thread nD τ).loc main_arg11) :=
  (show W11 m ρ c (Proc.devRef .tc main_arg11) = W10 m ρ c (Proc.devRef .tc main_arg11) from by host_keep hostOps6).trans (at10_arg11 m ρ c)
theorem at12_arg11 : W12 m ρ c (Proc.devRef .tc main_arg11) = m ((c : Thread nD τ).loc main_arg11) :=
  (W12_of_ne m ρ c main_arg11 (by decide)).trans (at11_arg11 m ρ c)
theorem at13_arg11 : W13 m ρ c (Proc.devRef .tc main_arg11) = m ((c : Thread nD τ).loc main_arg11) :=
  (W13_of_ne m ρ c main_arg11 (by decide)).trans (at12_arg11 m ρ c)
theorem at14_arg11 : W14 m ρ c (Proc.devRef .tc main_arg11) = m ((c : Thread nD τ).loc main_arg11) :=
  (show W14 m ρ c (Proc.devRef .tc main_arg11) = W13 m ρ c (Proc.devRef .tc main_arg11) from by host_keep hostOps8).trans (at13_arg11 m ρ c)
theorem at15_arg11 : W15 m ρ c (Proc.devRef .tc main_arg11) = m ((c : Thread nD τ).loc main_arg11) :=
  (W15_of_ne m ρ c main_arg11 (by decide)).trans (at14_arg11 m ρ c)
theorem at16_arg11 : W16 m ρ c (Proc.devRef .tc main_arg11) = m ((c : Thread nD τ).loc main_arg11) :=
  (show W16 m ρ c (Proc.devRef .tc main_arg11) = W15 m ρ c (Proc.devRef .tc main_arg11) from by host_keep hostOps9).trans (at15_arg11 m ρ c)
theorem at17_arg11 : W17 m ρ c (Proc.devRef .tc main_arg11) = m ((c : Thread nD τ).loc main_arg11) :=
  (W17_of_ne m ρ c main_arg11 (by decide)).trans (at16_arg11 m ρ c)
theorem at18_arg11 : W18 m ρ c (Proc.devRef .tc main_arg11) = m ((c : Thread nD τ).loc main_arg11) :=
  (W18_of_ne m ρ c main_arg11 (by decide)).trans (at17_arg11 m ρ c)
theorem at19_arg11 : W19 m ρ c (Proc.devRef .tc main_arg11) = m ((c : Thread nD τ).loc main_arg11) :=
  (show W19 m ρ c (Proc.devRef .tc main_arg11) = W18 m ρ c (Proc.devRef .tc main_arg11) from by host_keep hostOps11).trans (at18_arg11 m ρ c)
theorem at20_arg11 : W20 m ρ c (Proc.devRef .tc main_arg11) = m ((c : Thread nD τ).loc main_arg11) :=
  (W20_of_ne m ρ c main_arg11 (by decide)).trans (at19_arg11 m ρ c)
theorem at21_arg11 : W21 m ρ c (Proc.devRef .tc main_arg11) = m ((c : Thread nD τ).loc main_arg11) :=
  (show W21 m ρ c (Proc.devRef .tc main_arg11) = W20 m ρ c (Proc.devRef .tc main_arg11) from by host_keep hostOps12).trans (at20_arg11 m ρ c)
theorem at22_arg11 : W22 m ρ c (Proc.devRef .tc main_arg11) = m ((c : Thread nD τ).loc main_arg11) :=
  (W22_of_ne m ρ c main_arg11 (by decide)).trans (at21_arg11 m ρ c)
theorem at23_arg11 : W23 m ρ c (Proc.devRef .tc main_arg11) = m ((c : Thread nD τ).loc main_arg11) :=
  (W23_of_ne m ρ c main_arg11 (by decide)).trans (at22_arg11 m ρ c)
theorem at24_arg11 : W24 m ρ c (Proc.devRef .tc main_arg11) = m ((c : Thread nD τ).loc main_arg11) :=
  (show W24 m ρ c (Proc.devRef .tc main_arg11) = W23 m ρ c (Proc.devRef .tc main_arg11) from by host_keep hostOps14).trans (at23_arg11 m ρ c)
theorem at25_arg11 : W25 m ρ c (Proc.devRef .tc main_arg11) = m ((c : Thread nD τ).loc main_arg11) :=
  (W25_of_ne m ρ c main_arg11 (by decide)).trans (at24_arg11 m ρ c)

theorem at0_arg12 : W0 m ρ c (Proc.devRef .tc main_arg12) = m ((c : Thread nD τ).loc main_arg12) := rfl
theorem at1_arg12 : W1 m ρ c (Proc.devRef .tc main_arg12) = m ((c : Thread nD τ).loc main_arg12) :=
  (show W1 m ρ c (Proc.devRef .tc main_arg12) = W0 m ρ c (Proc.devRef .tc main_arg12) from by host_keep hostOps0).trans (at0_arg12 m ρ c)
theorem at2_arg12 : W2 m ρ c (Proc.devRef .tc main_arg12) = m ((c : Thread nD τ).loc main_arg12) :=
  (W2_of_ne m ρ c main_arg12 (by decide)).trans (at1_arg12 m ρ c)
theorem at3_arg12 : W3 m ρ c (Proc.devRef .tc main_arg12) = m ((c : Thread nD τ).loc main_arg12) :=
  (W3_of_ne m ρ c main_arg12 (by decide)).trans (at2_arg12 m ρ c)
theorem at4_arg12 : W4 m ρ c (Proc.devRef .tc main_arg12) = m ((c : Thread nD τ).loc main_arg12) :=
  (show W4 m ρ c (Proc.devRef .tc main_arg12) = W3 m ρ c (Proc.devRef .tc main_arg12) from by host_keep hostOps2).trans (at3_arg12 m ρ c)
theorem at5_arg12 : W5 m ρ c (Proc.devRef .tc main_arg12) = m ((c : Thread nD τ).loc main_arg12) :=
  (W5_of_ne m ρ c main_arg12 (by decide)).trans (at4_arg12 m ρ c)
theorem at6_arg12 : W6 m ρ c (Proc.devRef .tc main_arg12) = m ((c : Thread nD τ).loc main_arg12) :=
  (show W6 m ρ c (Proc.devRef .tc main_arg12) = W5 m ρ c (Proc.devRef .tc main_arg12) from by host_keep hostOps3).trans (at5_arg12 m ρ c)
theorem at7_arg12 : W7 m ρ c (Proc.devRef .tc main_arg12) = m ((c : Thread nD τ).loc main_arg12) :=
  (W7_of_ne m ρ c main_arg12 (by decide)).trans (at6_arg12 m ρ c)
theorem at8_arg12 : W8 m ρ c (Proc.devRef .tc main_arg12) = m ((c : Thread nD τ).loc main_arg12) :=
  (W8_of_ne m ρ c main_arg12 (by decide)).trans (at7_arg12 m ρ c)
theorem at9_arg12 : W9 m ρ c (Proc.devRef .tc main_arg12) = m ((c : Thread nD τ).loc main_arg12) :=
  (show W9 m ρ c (Proc.devRef .tc main_arg12) = W8 m ρ c (Proc.devRef .tc main_arg12) from by host_keep hostOps5).trans (at8_arg12 m ρ c)
theorem at10_arg12 : W10 m ρ c (Proc.devRef .tc main_arg12) = m ((c : Thread nD τ).loc main_arg12) :=
  (W10_of_ne m ρ c main_arg12 (by decide)).trans (at9_arg12 m ρ c)
theorem at11_arg12 : W11 m ρ c (Proc.devRef .tc main_arg12) = m ((c : Thread nD τ).loc main_arg12) :=
  (show W11 m ρ c (Proc.devRef .tc main_arg12) = W10 m ρ c (Proc.devRef .tc main_arg12) from by host_keep hostOps6).trans (at10_arg12 m ρ c)
theorem at12_arg12 : W12 m ρ c (Proc.devRef .tc main_arg12) = m ((c : Thread nD τ).loc main_arg12) :=
  (W12_of_ne m ρ c main_arg12 (by decide)).trans (at11_arg12 m ρ c)
theorem at13_arg12 : W13 m ρ c (Proc.devRef .tc main_arg12) = m ((c : Thread nD τ).loc main_arg12) :=
  (W13_of_ne m ρ c main_arg12 (by decide)).trans (at12_arg12 m ρ c)
theorem at14_arg12 : W14 m ρ c (Proc.devRef .tc main_arg12) = m ((c : Thread nD τ).loc main_arg12) :=
  (show W14 m ρ c (Proc.devRef .tc main_arg12) = W13 m ρ c (Proc.devRef .tc main_arg12) from by host_keep hostOps8).trans (at13_arg12 m ρ c)
theorem at15_arg12 : W15 m ρ c (Proc.devRef .tc main_arg12) = m ((c : Thread nD τ).loc main_arg12) :=
  (W15_of_ne m ρ c main_arg12 (by decide)).trans (at14_arg12 m ρ c)
theorem at16_arg12 : W16 m ρ c (Proc.devRef .tc main_arg12) = m ((c : Thread nD τ).loc main_arg12) :=
  (show W16 m ρ c (Proc.devRef .tc main_arg12) = W15 m ρ c (Proc.devRef .tc main_arg12) from by host_keep hostOps9).trans (at15_arg12 m ρ c)
theorem at17_arg12 : W17 m ρ c (Proc.devRef .tc main_arg12) = m ((c : Thread nD τ).loc main_arg12) :=
  (W17_of_ne m ρ c main_arg12 (by decide)).trans (at16_arg12 m ρ c)
theorem at18_arg12 : W18 m ρ c (Proc.devRef .tc main_arg12) = m ((c : Thread nD τ).loc main_arg12) :=
  (W18_of_ne m ρ c main_arg12 (by decide)).trans (at17_arg12 m ρ c)
theorem at19_arg12 : W19 m ρ c (Proc.devRef .tc main_arg12) = m ((c : Thread nD τ).loc main_arg12) :=
  (show W19 m ρ c (Proc.devRef .tc main_arg12) = W18 m ρ c (Proc.devRef .tc main_arg12) from by host_keep hostOps11).trans (at18_arg12 m ρ c)
theorem at20_arg12 : W20 m ρ c (Proc.devRef .tc main_arg12) = m ((c : Thread nD τ).loc main_arg12) :=
  (W20_of_ne m ρ c main_arg12 (by decide)).trans (at19_arg12 m ρ c)
theorem at21_arg12 : W21 m ρ c (Proc.devRef .tc main_arg12) = m ((c : Thread nD τ).loc main_arg12) :=
  (show W21 m ρ c (Proc.devRef .tc main_arg12) = W20 m ρ c (Proc.devRef .tc main_arg12) from by host_keep hostOps12).trans (at20_arg12 m ρ c)
theorem at22_arg12 : W22 m ρ c (Proc.devRef .tc main_arg12) = m ((c : Thread nD τ).loc main_arg12) :=
  (W22_of_ne m ρ c main_arg12 (by decide)).trans (at21_arg12 m ρ c)
theorem at23_arg12 : W23 m ρ c (Proc.devRef .tc main_arg12) = m ((c : Thread nD τ).loc main_arg12) :=
  (W23_of_ne m ρ c main_arg12 (by decide)).trans (at22_arg12 m ρ c)
theorem at24_arg12 : W24 m ρ c (Proc.devRef .tc main_arg12) = m ((c : Thread nD τ).loc main_arg12) :=
  (show W24 m ρ c (Proc.devRef .tc main_arg12) = W23 m ρ c (Proc.devRef .tc main_arg12) from by host_keep hostOps14).trans (at23_arg12 m ρ c)
theorem at25_arg12 : W25 m ρ c (Proc.devRef .tc main_arg12) = m ((c : Thread nD τ).loc main_arg12) :=
  (W25_of_ne m ρ c main_arg12 (by decide)).trans (at24_arg12 m ρ c)

theorem at1_v1 : W1 m ρ c (Proc.devRef .tc main_v1) = W1 m ρ c (Proc.devRef .tc main_v1) := rfl
theorem at2_v1 : W2 m ρ c (Proc.devRef .tc main_v1) = W1 m ρ c (Proc.devRef .tc main_v1) :=
  (W2_of_ne m ρ c main_v1 (by decide)).trans (at1_v1 m ρ c)
theorem at3_v1 : W3 m ρ c (Proc.devRef .tc main_v1) = W1 m ρ c (Proc.devRef .tc main_v1) :=
  (W3_of_ne m ρ c main_v1 (by decide)).trans (at2_v1 m ρ c)
theorem at4_v1 : W4 m ρ c (Proc.devRef .tc main_v1) = W1 m ρ c (Proc.devRef .tc main_v1) :=
  (show W4 m ρ c (Proc.devRef .tc main_v1) = W3 m ρ c (Proc.devRef .tc main_v1) from by host_keep hostOps2).trans (at3_v1 m ρ c)
theorem at5_v1 : W5 m ρ c (Proc.devRef .tc main_v1) = W1 m ρ c (Proc.devRef .tc main_v1) :=
  (W5_of_ne m ρ c main_v1 (by decide)).trans (at4_v1 m ρ c)
theorem at6_v1 : W6 m ρ c (Proc.devRef .tc main_v1) = W1 m ρ c (Proc.devRef .tc main_v1) :=
  (show W6 m ρ c (Proc.devRef .tc main_v1) = W5 m ρ c (Proc.devRef .tc main_v1) from by host_keep hostOps3).trans (at5_v1 m ρ c)
theorem at7_v1 : W7 m ρ c (Proc.devRef .tc main_v1) = W1 m ρ c (Proc.devRef .tc main_v1) :=
  (W7_of_ne m ρ c main_v1 (by decide)).trans (at6_v1 m ρ c)
theorem at8_v1 : W8 m ρ c (Proc.devRef .tc main_v1) = W1 m ρ c (Proc.devRef .tc main_v1) :=
  (W8_of_ne m ρ c main_v1 (by decide)).trans (at7_v1 m ρ c)
theorem at9_v1 : W9 m ρ c (Proc.devRef .tc main_v1) = W1 m ρ c (Proc.devRef .tc main_v1) :=
  (show W9 m ρ c (Proc.devRef .tc main_v1) = W8 m ρ c (Proc.devRef .tc main_v1) from by host_keep hostOps5).trans (at8_v1 m ρ c)
theorem at10_v1 : W10 m ρ c (Proc.devRef .tc main_v1) = W1 m ρ c (Proc.devRef .tc main_v1) :=
  (W10_of_ne m ρ c main_v1 (by decide)).trans (at9_v1 m ρ c)
theorem at11_v1 : W11 m ρ c (Proc.devRef .tc main_v1) = W1 m ρ c (Proc.devRef .tc main_v1) :=
  (show W11 m ρ c (Proc.devRef .tc main_v1) = W10 m ρ c (Proc.devRef .tc main_v1) from by host_keep hostOps6).trans (at10_v1 m ρ c)
theorem at12_v1 : W12 m ρ c (Proc.devRef .tc main_v1) = W1 m ρ c (Proc.devRef .tc main_v1) :=
  (W12_of_ne m ρ c main_v1 (by decide)).trans (at11_v1 m ρ c)
theorem at13_v1 : W13 m ρ c (Proc.devRef .tc main_v1) = W1 m ρ c (Proc.devRef .tc main_v1) :=
  (W13_of_ne m ρ c main_v1 (by decide)).trans (at12_v1 m ρ c)
theorem at14_v1 : W14 m ρ c (Proc.devRef .tc main_v1) = W1 m ρ c (Proc.devRef .tc main_v1) :=
  (show W14 m ρ c (Proc.devRef .tc main_v1) = W13 m ρ c (Proc.devRef .tc main_v1) from by host_keep hostOps8).trans (at13_v1 m ρ c)
theorem at15_v1 : W15 m ρ c (Proc.devRef .tc main_v1) = W1 m ρ c (Proc.devRef .tc main_v1) :=
  (W15_of_ne m ρ c main_v1 (by decide)).trans (at14_v1 m ρ c)
theorem at16_v1 : W16 m ρ c (Proc.devRef .tc main_v1) = W1 m ρ c (Proc.devRef .tc main_v1) :=
  (show W16 m ρ c (Proc.devRef .tc main_v1) = W15 m ρ c (Proc.devRef .tc main_v1) from by host_keep hostOps9).trans (at15_v1 m ρ c)
theorem at17_v1 : W17 m ρ c (Proc.devRef .tc main_v1) = W1 m ρ c (Proc.devRef .tc main_v1) :=
  (W17_of_ne m ρ c main_v1 (by decide)).trans (at16_v1 m ρ c)
theorem at18_v1 : W18 m ρ c (Proc.devRef .tc main_v1) = W1 m ρ c (Proc.devRef .tc main_v1) :=
  (W18_of_ne m ρ c main_v1 (by decide)).trans (at17_v1 m ρ c)
theorem at19_v1 : W19 m ρ c (Proc.devRef .tc main_v1) = W1 m ρ c (Proc.devRef .tc main_v1) :=
  (show W19 m ρ c (Proc.devRef .tc main_v1) = W18 m ρ c (Proc.devRef .tc main_v1) from by host_keep hostOps11).trans (at18_v1 m ρ c)
theorem at20_v1 : W20 m ρ c (Proc.devRef .tc main_v1) = W1 m ρ c (Proc.devRef .tc main_v1) :=
  (W20_of_ne m ρ c main_v1 (by decide)).trans (at19_v1 m ρ c)

theorem at1_v3 : W1 m ρ c (Proc.devRef .tc main_v3) = W1 m ρ c (Proc.devRef .tc main_v3) := rfl
theorem at2_v3 : W2 m ρ c (Proc.devRef .tc main_v3) = W1 m ρ c (Proc.devRef .tc main_v3) :=
  (W2_of_ne m ρ c main_v3 (by decide)).trans (at1_v3 m ρ c)
theorem at3_v3 : W3 m ρ c (Proc.devRef .tc main_v3) = W1 m ρ c (Proc.devRef .tc main_v3) :=
  (W3_of_ne m ρ c main_v3 (by decide)).trans (at2_v3 m ρ c)
theorem at4_v3 : W4 m ρ c (Proc.devRef .tc main_v3) = W1 m ρ c (Proc.devRef .tc main_v3) :=
  (show W4 m ρ c (Proc.devRef .tc main_v3) = W3 m ρ c (Proc.devRef .tc main_v3) from by host_keep hostOps2).trans (at3_v3 m ρ c)
theorem at5_v3 : W5 m ρ c (Proc.devRef .tc main_v3) = W1 m ρ c (Proc.devRef .tc main_v3) :=
  (W5_of_ne m ρ c main_v3 (by decide)).trans (at4_v3 m ρ c)
theorem at6_v3 : W6 m ρ c (Proc.devRef .tc main_v3) = W1 m ρ c (Proc.devRef .tc main_v3) :=
  (show W6 m ρ c (Proc.devRef .tc main_v3) = W5 m ρ c (Proc.devRef .tc main_v3) from by host_keep hostOps3).trans (at5_v3 m ρ c)
theorem at7_v3 : W7 m ρ c (Proc.devRef .tc main_v3) = W1 m ρ c (Proc.devRef .tc main_v3) :=
  (W7_of_ne m ρ c main_v3 (by decide)).trans (at6_v3 m ρ c)
theorem at8_v3 : W8 m ρ c (Proc.devRef .tc main_v3) = W1 m ρ c (Proc.devRef .tc main_v3) :=
  (W8_of_ne m ρ c main_v3 (by decide)).trans (at7_v3 m ρ c)
theorem at9_v3 : W9 m ρ c (Proc.devRef .tc main_v3) = W1 m ρ c (Proc.devRef .tc main_v3) :=
  (show W9 m ρ c (Proc.devRef .tc main_v3) = W8 m ρ c (Proc.devRef .tc main_v3) from by host_keep hostOps5).trans (at8_v3 m ρ c)
theorem at10_v3 : W10 m ρ c (Proc.devRef .tc main_v3) = W1 m ρ c (Proc.devRef .tc main_v3) :=
  (W10_of_ne m ρ c main_v3 (by decide)).trans (at9_v3 m ρ c)
theorem at11_v3 : W11 m ρ c (Proc.devRef .tc main_v3) = W1 m ρ c (Proc.devRef .tc main_v3) :=
  (show W11 m ρ c (Proc.devRef .tc main_v3) = W10 m ρ c (Proc.devRef .tc main_v3) from by host_keep hostOps6).trans (at10_v3 m ρ c)
theorem at12_v3 : W12 m ρ c (Proc.devRef .tc main_v3) = W1 m ρ c (Proc.devRef .tc main_v3) :=
  (W12_of_ne m ρ c main_v3 (by decide)).trans (at11_v3 m ρ c)
theorem at13_v3 : W13 m ρ c (Proc.devRef .tc main_v3) = W1 m ρ c (Proc.devRef .tc main_v3) :=
  (W13_of_ne m ρ c main_v3 (by decide)).trans (at12_v3 m ρ c)
theorem at14_v3 : W14 m ρ c (Proc.devRef .tc main_v3) = W1 m ρ c (Proc.devRef .tc main_v3) :=
  (show W14 m ρ c (Proc.devRef .tc main_v3) = W13 m ρ c (Proc.devRef .tc main_v3) from by host_keep hostOps8).trans (at13_v3 m ρ c)
theorem at15_v3 : W15 m ρ c (Proc.devRef .tc main_v3) = W1 m ρ c (Proc.devRef .tc main_v3) :=
  (W15_of_ne m ρ c main_v3 (by decide)).trans (at14_v3 m ρ c)
theorem at16_v3 : W16 m ρ c (Proc.devRef .tc main_v3) = W1 m ρ c (Proc.devRef .tc main_v3) :=
  (show W16 m ρ c (Proc.devRef .tc main_v3) = W15 m ρ c (Proc.devRef .tc main_v3) from by host_keep hostOps9).trans (at15_v3 m ρ c)
theorem at17_v3 : W17 m ρ c (Proc.devRef .tc main_v3) = W1 m ρ c (Proc.devRef .tc main_v3) :=
  (W17_of_ne m ρ c main_v3 (by decide)).trans (at16_v3 m ρ c)
theorem at18_v3 : W18 m ρ c (Proc.devRef .tc main_v3) = W1 m ρ c (Proc.devRef .tc main_v3) :=
  (W18_of_ne m ρ c main_v3 (by decide)).trans (at17_v3 m ρ c)
theorem at19_v3 : W19 m ρ c (Proc.devRef .tc main_v3) = W1 m ρ c (Proc.devRef .tc main_v3) :=
  (show W19 m ρ c (Proc.devRef .tc main_v3) = W18 m ρ c (Proc.devRef .tc main_v3) from by host_keep hostOps11).trans (at18_v3 m ρ c)
theorem at20_v3 : W20 m ρ c (Proc.devRef .tc main_v3) = W1 m ρ c (Proc.devRef .tc main_v3) :=
  (W20_of_ne m ρ c main_v3 (by decide)).trans (at19_v3 m ρ c)

end Cert.KernelIdeal.KKeep

end
-- ==== Proof.KFold0.lean ====
/-
  Layer 0 of the idealized kernel, read through its five segment boundaries: the host stretch that prepares the
  neighbour sums and cuts the layer's weights out of the stacked arguments; the perceptron region; the statistics
  region; the host stretch that forms the mean and the one-pass variance and cuts out the scale and shift rows; and the
  normalisation region. Each host stretch is read from ANY contents `W` at its entry, so nothing earlier is unfolded;
  the three regions enter through the region theorems taken as hypotheses, stated at any entry contents.
-/
import proofs.«142526_j3951369912896_1_alg».proof.Proof.Gen.KernelIdeal.Frame
import proofs.«142526_j3951369912896_1_alg».proof.Proof.Layer
import proofs.«142526_j3951369912896_1_alg».proof.Proof.FinAgg

set_option maxRecDepth 16384
set_option maxHeartbeats 1600000

noncomputable section

namespace Cert.KernelIdeal.KFold0

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

/-! ### The first host stretch, from any contents `W` -/

theorem hA_x : StableHlo.after (hostOps0 (F := Ideal)) W (Proc.devRef .tc main_arg0) = W (Proc.devRef .tc main_arg0) := by
  host_keep hostOps0

theorem hA_agg : (StableHlo.after (hostOps0 (F := Ideal)) W (Proc.devRef .tc main_v13) : Mat 100000 64)
    = Cert.Fin.aggRows (W (Proc.devRef .tc main_arg0)) (Cert.Fin.srcOf (W (Proc.devRef .tc main_arg1))) (Cert.Fin.dstOf (W (Proc.devRef .tc main_arg1))) := by
  after_results_simp
  rfl

theorem hA_w1 : (StableHlo.after (hostOps0 (F := Ideal)) W (Proc.devRef .tc main_v15) : Mat 64 64) = matAt (W (Proc.devRef .tc main_arg3)) 0 := by
  funext i
  obtain ⟨p, q, rfl⟩ : ∃ (p : Fin 64) (q : Fin 64), i = ix2 p q := ⟨i 0, i 1, eq_ix2 i⟩
  after_results
  exact sliceMat_apply 0 (by decide) _ _ _ p q

theorem hA_b1 : (StableHlo.after (hostOps0 (F := Ideal)) W (Proc.devRef .tc main_v18) : Mat 1 64) = rowAt (W (Proc.devRef .tc main_arg4)) 0 := by
  funext i
  obtain ⟨p, q, rfl⟩ : ∃ (p : Fin 1) (q : Fin 64), i = ix2 p q := ⟨i 0, i 1, eq_ix2 i⟩
  after_results
  exact sliceRow2_apply 0 (by decide) _ _ _ _ p q

theorem hA_w2 : (StableHlo.after (hostOps0 (F := Ideal)) W (Proc.devRef .tc main_v20) : Mat 64 64) = matAt (W (Proc.devRef .tc main_arg5)) 0 := by
  funext i
  obtain ⟨p, q, rfl⟩ : ∃ (p : Fin 64) (q : Fin 64), i = ix2 p q := ⟨i 0, i 1, eq_ix2 i⟩
  after_results
  exact sliceMat_apply 0 (by decide) _ _ _ p q

theorem hA_b2 : (StableHlo.after (hostOps0 (F := Ideal)) W (Proc.devRef .tc main_v23) : Mat 1 64) = rowAt (W (Proc.devRef .tc main_arg6)) 0 := by
  funext i
  obtain ⟨p, q, rfl⟩ : ∃ (p : Fin 1) (q : Fin 64), i = ix2 p q := ⟨i 0, i 1, eq_ix2 i⟩
  after_results
  exact sliceRow2_apply 0 (by decide) _ _ _ _ p q

/-! ### The statistics' host stretch, from any contents `W` -/

theorem hB_y : StableHlo.after (hostOps2 (F := Ideal)) W (Proc.devRef .tc main_v24) = W (Proc.devRef .tc main_v24) := by
  host_keep hostOps2

theorem hB_mean : (StableHlo.after (hostOps2 (F := Ideal)) W (Proc.devRef .tc main_v27) : Mat 1 64)
    = fun i => Ideal.div ((W (Proc.devRef .tc main_v25_0) : Mat 1 64) i) cnt32 := by
  after_results
  rfl

theorem hB_var : (StableHlo.after (hostOps2 (F := Ideal)) W (Proc.devRef .tc main_v31) : Mat 1 64)
    = fun i => Ideal.div ((W (Proc.devRef .tc main_v25_1) : Mat 1 64) i) cnt32
        - Ideal.div ((W (Proc.devRef .tc main_v25_0) : Mat 1 64) i) cnt32 * Ideal.div ((W (Proc.devRef .tc main_v25_0) : Mat 1 64) i) cnt32 := by
  after_results
  rfl

theorem hB_g : (StableHlo.after (hostOps2 (F := Ideal)) W (Proc.devRef .tc main_v34) : Mat 1 64) = rowAt (W (Proc.devRef .tc main_arg7)) 0 := by
  funext i
  obtain ⟨p, q, rfl⟩ : ∃ (p : Fin 1) (q : Fin 64), i = ix2 p q := ⟨i 0, i 1, eq_ix2 i⟩
  after_results
  exact sliceRow2_apply 0 (by decide) _ _ _ _ p q

theorem hB_bt : (StableHlo.after (hostOps2 (F := Ideal)) W (Proc.devRef .tc main_v37) : Mat 1 64) = rowAt (W (Proc.devRef .tc main_arg8)) 0 := by
  funext i
  obtain ⟨p, q, rfl⟩ : ∃ (p : Fin 1) (q : Fin 64), i = ix2 p q := ⟨i 0, i 1, eq_ix2 i⟩
  after_results
  exact sliceRow2_apply 0 (by decide) _ _ _ _ p q

end Host

/-! ### The layer -/

variable (m : (ℓ : Loc nD τ sig) → Buf (Elt Ideal) ℓ) (ρ : Dev nD → PrngReg) (c : Dev nD)

/-- The features after layer 0, from the contents at the layer's entry. -/
theorem layer
    (hmlp : ∀ (V : (c : Dev nD) → (b : Ref sig .tc) → Buf (Elt Ideal) ((c : Thread nD τ).loc b)) (c : Dev nD),
      ((dat0 (F := Ideal) V c).arrAt 6 cfg0.N : Mat 100000 64)
        = mlpOut (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5)))
    (hsum : ∀ (V : (c : Dev nD) → (b : Ref sig .tc) → Buf (Elt Ideal) ((c : Thread nD τ).loc b)) (c : Dev nD),
      ((dat1 (F := Ideal) V c).arrAt 1 cfg1.N : Mat 1 64) = colSum (n := 100000) (V c (Pipeline.arrRef spec1 0)))
    (hsq : ∀ (V : (c : Dev nD) → (b : Ref sig .tc) → Buf (Elt Ideal) ((c : Thread nD τ).loc b)) (c : Dev nD),
      ((dat1 (F := Ideal) V c).arrAt 2 cfg1.N : Mat 1 64) = colSumSq (n := 100000) (V c (Pipeline.arrRef spec1 0)))
    (hbn : ∀ (V : (c : Dev nD) → (b : Ref sig .tc) → Buf (Elt Ideal) ((c : Thread nD τ).loc b)) (c : Dev nD),
      ((dat2 (F := Ideal) V c).arrAt 5 cfg2.N : Mat 100000 64)
        = bnOut (V c (Pipeline.arrRef spec2 0)) (V c (Pipeline.arrRef spec2 1)) (V c (Pipeline.arrRef spec2 2))
            (V c (Pipeline.arrRef spec2 3)) (V c (Pipeline.arrRef spec2 4))) :
    (W5 m ρ c (Proc.devRef .tc main_v38) : Mat 100000 64)
      = layerWith varOnePass (W0 m ρ c (Proc.devRef .tc main_arg0)) (Cert.Fin.aggRows (W0 m ρ c (Proc.devRef .tc main_arg0)) (Cert.Fin.srcOf (W0 m ρ c (Proc.devRef .tc main_arg1))) (Cert.Fin.dstOf (W0 m ρ c (Proc.devRef .tc main_arg1))))
          (matAt (W0 m ρ c (Proc.devRef .tc main_arg3)) 0) (rowAt (W0 m ρ c (Proc.devRef .tc main_arg4)) 0)
          (matAt (W0 m ρ c (Proc.devRef .tc main_arg5)) 0) (rowAt (W0 m ρ c (Proc.devRef .tc main_arg6)) 0)
          (rowAt (W3 m ρ c (Proc.devRef .tc main_arg7)) 0) (rowAt (W3 m ρ c (Proc.devRef .tc main_arg8)) 0) := by
  have hy : (W2 m ρ c (Proc.devRef .tc main_v24) : Mat 100000 64)
      = mlpOut (W1 m ρ c (Proc.devRef .tc main_arg0)) (W1 m ρ c (Proc.devRef .tc main_v13)) (W1 m ρ c (Proc.devRef .tc main_v15))
          (W1 m ρ c (Proc.devRef .tc main_v18)) (W1 m ρ c (Proc.devRef .tc main_v20)) (W1 m ρ c (Proc.devRef .tc main_v23)) :=
    (W2_arr m ρ c 6).trans (hmlp (V1 m ρ) c)
  have hs : (W3 m ρ c (Proc.devRef .tc main_v25_0) : Mat 1 64) = colSum (n := 100000) (W2 m ρ c (Proc.devRef .tc main_v24)) :=
    (W3_arr m ρ c 1).trans (hsum (V2 m ρ) c)
  have hq : (W3 m ρ c (Proc.devRef .tc main_v25_1) : Mat 1 64) = colSumSq (n := 100000) (W2 m ρ c (Proc.devRef .tc main_v24)) :=
    (W3_arr m ρ c 2).trans (hsq (V2 m ρ) c)
  have hy3 : W3 m ρ c (Proc.devRef .tc main_v24) = W2 m ρ c (Proc.devRef .tc main_v24) :=
    (W3_arr m ρ c 0).trans (((dat1 (V2 m ρ) c).arrAt_in 0 rfl _).trans (A_eq1 (V2 m ρ) c 0))
  have hx5 : (W5 m ρ c (Proc.devRef .tc main_v38) : Mat 100000 64)
      = bnOut (W4 m ρ c (Proc.devRef .tc main_v24)) (W4 m ρ c (Proc.devRef .tc main_v27)) (W4 m ρ c (Proc.devRef .tc main_v31))
          (W4 m ρ c (Proc.devRef .tc main_v34)) (W4 m ρ c (Proc.devRef .tc main_v37)) :=
    (W5_arr m ρ c 5).trans (hbn (V4 m ρ) c)
  rw [hx5]
  rw [show W4 m ρ c (Proc.devRef .tc main_v24) = W3 m ρ c (Proc.devRef .tc main_v24) from hB_y _,
    show (W4 m ρ c (Proc.devRef .tc main_v27) : Mat 1 64) = _ from hB_mean _,
    show (W4 m ρ c (Proc.devRef .tc main_v31) : Mat 1 64) = _ from hB_var _,
    show (W4 m ρ c (Proc.devRef .tc main_v34) : Mat 1 64) = _ from hB_g _,
    show (W4 m ρ c (Proc.devRef .tc main_v37) : Mat 1 64) = _ from hB_bt _,
    hs, hq, hy3, hy,
    show W1 m ρ c (Proc.devRef .tc main_arg0) = W0 m ρ c (Proc.devRef .tc main_arg0) from hA_x _,
    show (W1 m ρ c (Proc.devRef .tc main_v13) : Mat 100000 64) = _ from hA_agg _,
    show (W1 m ρ c (Proc.devRef .tc main_v15) : Mat 64 64) = _ from hA_w1 _,
    show (W1 m ρ c (Proc.devRef .tc main_v18) : Mat 1 64) = _ from hA_b1 _,
    show (W1 m ρ c (Proc.devRef .tc main_v20) : Mat 64 64) = _ from hA_w2 _,
    show (W1 m ρ c (Proc.devRef .tc main_v23) : Mat 1 64) = _ from hA_b2 _]
  rfl

end Cert.KernelIdeal.KFold0

end
-- ==== Proof.KFold1.lean ====
/-
  Layer 1 of the idealized kernel, read through its five segment boundaries: the host stretch that prepares the
  neighbour sums and cuts the layer's weights out of the stacked arguments; the perceptron region; the statistics
  region; the host stretch that forms the mean and the one-pass variance and cuts out the scale and shift rows; and the
  normalisation region. Each host stretch is read from ANY contents `W` at its entry, so nothing earlier is unfolded;
  the three regions enter through the region theorems taken as hypotheses, stated at any entry contents.
-/
import proofs.«142526_j3951369912896_1_alg».proof.Proof.Gen.KernelIdeal.Frame
import proofs.«142526_j3951369912896_1_alg».proof.Proof.Layer
import proofs.«142526_j3951369912896_1_alg».proof.Proof.FinAgg

set_option maxRecDepth 16384
set_option maxHeartbeats 1600000

noncomputable section

namespace Cert.KernelIdeal.KFold1

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

/-! ### The first host stretch, from any contents `W` -/

theorem hA_x : StableHlo.after (hostOps3 (F := Ideal)) W (Proc.devRef .tc main_v38) = W (Proc.devRef .tc main_v38) := by
  host_keep hostOps3

theorem hA_agg : (StableHlo.after (hostOps3 (F := Ideal)) W (Proc.devRef .tc main_v48) : Mat 100000 64)
    = Cert.Fin.aggRows (W (Proc.devRef .tc main_v38)) (W (Proc.devRef .tc main_v1)) (W (Proc.devRef .tc main_v3)) := by
  after_results_simp
  rfl

theorem hA_w1 : (StableHlo.after (hostOps3 (F := Ideal)) W (Proc.devRef .tc main_v50) : Mat 64 64) = matAt (W (Proc.devRef .tc main_arg3)) 1 := by
  funext i
  obtain ⟨p, q, rfl⟩ : ∃ (p : Fin 64) (q : Fin 64), i = ix2 p q := ⟨i 0, i 1, eq_ix2 i⟩
  after_results
  exact sliceMat_apply 1 (by decide) _ _ _ p q

theorem hA_b1 : (StableHlo.after (hostOps3 (F := Ideal)) W (Proc.devRef .tc main_v53) : Mat 1 64) = rowAt (W (Proc.devRef .tc main_arg4)) 1 := by
  funext i
  obtain ⟨p, q, rfl⟩ : ∃ (p : Fin 1) (q : Fin 64), i = ix2 p q := ⟨i 0, i 1, eq_ix2 i⟩
  after_results
  exact sliceRow2_apply 1 (by decide) _ _ _ _ p q

theorem hA_w2 : (StableHlo.after (hostOps3 (F := Ideal)) W (Proc.devRef .tc main_v55) : Mat 64 64) = matAt (W (Proc.devRef .tc main_arg5)) 1 := by
  funext i
  obtain ⟨p, q, rfl⟩ : ∃ (p : Fin 64) (q : Fin 64), i = ix2 p q := ⟨i 0, i 1, eq_ix2 i⟩
  after_results
  exact sliceMat_apply 1 (by decide) _ _ _ p q

theorem hA_b2 : (StableHlo.after (hostOps3 (F := Ideal)) W (Proc.devRef .tc main_v58) : Mat 1 64) = rowAt (W (Proc.devRef .tc main_arg6)) 1 := by
  funext i
  obtain ⟨p, q, rfl⟩ : ∃ (p : Fin 1) (q : Fin 64), i = ix2 p q := ⟨i 0, i 1, eq_ix2 i⟩
  after_results
  exact sliceRow2_apply 1 (by decide) _ _ _ _ p q

/-! ### The statistics' host stretch, from any contents `W` -/

theorem hB_y : StableHlo.after (hostOps5 (F := Ideal)) W (Proc.devRef .tc main_v59) = W (Proc.devRef .tc main_v59) := by
  host_keep hostOps5

theorem hB_mean : (StableHlo.after (hostOps5 (F := Ideal)) W (Proc.devRef .tc main_v62) : Mat 1 64)
    = fun i => Ideal.div ((W (Proc.devRef .tc main_v60_0) : Mat 1 64) i) cnt32 := by
  after_results
  rfl

theorem hB_var : (StableHlo.after (hostOps5 (F := Ideal)) W (Proc.devRef .tc main_v66) : Mat 1 64)
    = fun i => Ideal.div ((W (Proc.devRef .tc main_v60_1) : Mat 1 64) i) cnt32
        - Ideal.div ((W (Proc.devRef .tc main_v60_0) : Mat 1 64) i) cnt32 * Ideal.div ((W (Proc.devRef .tc main_v60_0) : Mat 1 64) i) cnt32 := by
  after_results
  rfl

theorem hB_g : (StableHlo.after (hostOps5 (F := Ideal)) W (Proc.devRef .tc main_v69) : Mat 1 64) = rowAt (W (Proc.devRef .tc main_arg7)) 1 := by
  funext i
  obtain ⟨p, q, rfl⟩ : ∃ (p : Fin 1) (q : Fin 64), i = ix2 p q := ⟨i 0, i 1, eq_ix2 i⟩
  after_results
  exact sliceRow2_apply 1 (by decide) _ _ _ _ p q

theorem hB_bt : (StableHlo.after (hostOps5 (F := Ideal)) W (Proc.devRef .tc main_v72) : Mat 1 64) = rowAt (W (Proc.devRef .tc main_arg8)) 1 := by
  funext i
  obtain ⟨p, q, rfl⟩ : ∃ (p : Fin 1) (q : Fin 64), i = ix2 p q := ⟨i 0, i 1, eq_ix2 i⟩
  after_results
  exact sliceRow2_apply 1 (by decide) _ _ _ _ p q

end Host

/-! ### The layer -/

variable (m : (ℓ : Loc nD τ sig) → Buf (Elt Ideal) ℓ) (ρ : Dev nD → PrngReg) (c : Dev nD)

/-- The features after layer 1, from the contents at the layer's entry. -/
theorem layer
    (hmlp : ∀ (V : (c : Dev nD) → (b : Ref sig .tc) → Buf (Elt Ideal) ((c : Thread nD τ).loc b)) (c : Dev nD),
      ((dat3 (F := Ideal) V c).arrAt 6 cfg3.N : Mat 100000 64)
        = mlpOut (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5)))
    (hsum : ∀ (V : (c : Dev nD) → (b : Ref sig .tc) → Buf (Elt Ideal) ((c : Thread nD τ).loc b)) (c : Dev nD),
      ((dat4 (F := Ideal) V c).arrAt 1 cfg4.N : Mat 1 64) = colSum (n := 100000) (V c (Pipeline.arrRef spec4 0)))
    (hsq : ∀ (V : (c : Dev nD) → (b : Ref sig .tc) → Buf (Elt Ideal) ((c : Thread nD τ).loc b)) (c : Dev nD),
      ((dat4 (F := Ideal) V c).arrAt 2 cfg4.N : Mat 1 64) = colSumSq (n := 100000) (V c (Pipeline.arrRef spec4 0)))
    (hbn : ∀ (V : (c : Dev nD) → (b : Ref sig .tc) → Buf (Elt Ideal) ((c : Thread nD τ).loc b)) (c : Dev nD),
      ((dat5 (F := Ideal) V c).arrAt 5 cfg5.N : Mat 100000 64)
        = bnOut (V c (Pipeline.arrRef spec5 0)) (V c (Pipeline.arrRef spec5 1)) (V c (Pipeline.arrRef spec5 2))
            (V c (Pipeline.arrRef spec5 3)) (V c (Pipeline.arrRef spec5 4))) :
    (W10 m ρ c (Proc.devRef .tc main_v73) : Mat 100000 64)
      = layerWith varOnePass (W5 m ρ c (Proc.devRef .tc main_v38)) (Cert.Fin.aggRows (W5 m ρ c (Proc.devRef .tc main_v38)) (W5 m ρ c (Proc.devRef .tc main_v1)) (W5 m ρ c (Proc.devRef .tc main_v3)))
          (matAt (W5 m ρ c (Proc.devRef .tc main_arg3)) 1) (rowAt (W5 m ρ c (Proc.devRef .tc main_arg4)) 1)
          (matAt (W5 m ρ c (Proc.devRef .tc main_arg5)) 1) (rowAt (W5 m ρ c (Proc.devRef .tc main_arg6)) 1)
          (rowAt (W8 m ρ c (Proc.devRef .tc main_arg7)) 1) (rowAt (W8 m ρ c (Proc.devRef .tc main_arg8)) 1) := by
  have hy : (W7 m ρ c (Proc.devRef .tc main_v59) : Mat 100000 64)
      = mlpOut (W6 m ρ c (Proc.devRef .tc main_v38)) (W6 m ρ c (Proc.devRef .tc main_v48)) (W6 m ρ c (Proc.devRef .tc main_v50))
          (W6 m ρ c (Proc.devRef .tc main_v53)) (W6 m ρ c (Proc.devRef .tc main_v55)) (W6 m ρ c (Proc.devRef .tc main_v58)) :=
    (W7_arr m ρ c 6).trans (hmlp (V6 m ρ) c)
  have hs : (W8 m ρ c (Proc.devRef .tc main_v60_0) : Mat 1 64) = colSum (n := 100000) (W7 m ρ c (Proc.devRef .tc main_v59)) :=
    (W8_arr m ρ c 1).trans (hsum (V7 m ρ) c)
  have hq : (W8 m ρ c (Proc.devRef .tc main_v60_1) : Mat 1 64) = colSumSq (n := 100000) (W7 m ρ c (Proc.devRef .tc main_v59)) :=
    (W8_arr m ρ c 2).trans (hsq (V7 m ρ) c)
  have hy3 : W8 m ρ c (Proc.devRef .tc main_v59) = W7 m ρ c (Proc.devRef .tc main_v59) :=
    (W8_arr m ρ c 0).trans (((dat4 (V7 m ρ) c).arrAt_in 0 rfl _).trans (A_eq4 (V7 m ρ) c 0))
  have hx5 : (W10 m ρ c (Proc.devRef .tc main_v73) : Mat 100000 64)
      = bnOut (W9 m ρ c (Proc.devRef .tc main_v59)) (W9 m ρ c (Proc.devRef .tc main_v62)) (W9 m ρ c (Proc.devRef .tc main_v66))
          (W9 m ρ c (Proc.devRef .tc main_v69)) (W9 m ρ c (Proc.devRef .tc main_v72)) :=
    (W10_arr m ρ c 5).trans (hbn (V9 m ρ) c)
  rw [hx5]
  rw [show W9 m ρ c (Proc.devRef .tc main_v59) = W8 m ρ c (Proc.devRef .tc main_v59) from hB_y _,
    show (W9 m ρ c (Proc.devRef .tc main_v62) : Mat 1 64) = _ from hB_mean _,
    show (W9 m ρ c (Proc.devRef .tc main_v66) : Mat 1 64) = _ from hB_var _,
    show (W9 m ρ c (Proc.devRef .tc main_v69) : Mat 1 64) = _ from hB_g _,
    show (W9 m ρ c (Proc.devRef .tc main_v72) : Mat 1 64) = _ from hB_bt _,
    hs, hq, hy3, hy,
    show W6 m ρ c (Proc.devRef .tc main_v38) = W5 m ρ c (Proc.devRef .tc main_v38) from hA_x _,
    show (W6 m ρ c (Proc.devRef .tc main_v48) : Mat 100000 64) = _ from hA_agg _,
    show (W6 m ρ c (Proc.devRef .tc main_v50) : Mat 64 64) = _ from hA_w1 _,
    show (W6 m ρ c (Proc.devRef .tc main_v53) : Mat 1 64) = _ from hA_b1 _,
    show (W6 m ρ c (Proc.devRef .tc main_v55) : Mat 64 64) = _ from hA_w2 _,
    show (W6 m ρ c (Proc.devRef .tc main_v58) : Mat 1 64) = _ from hA_b2 _]
  rfl

end Cert.KernelIdeal.KFold1

end
-- ==== Proof.KFold2.lean ====
/-
  Layer 2 of the idealized kernel, read through its five segment boundaries: the host stretch that prepares the
  neighbour sums and cuts the layer's weights out of the stacked arguments; the perceptron region; the statistics
  region; the host stretch that forms the mean and the one-pass variance and cuts out the scale and shift rows; and the
  normalisation region. Each host stretch is read from ANY contents `W` at its entry, so nothing earlier is unfolded;
  the three regions enter through the region theorems taken as hypotheses, stated at any entry contents.
-/
import proofs.«142526_j3951369912896_1_alg».proof.Proof.Gen.KernelIdeal.Frame
import proofs.«142526_j3951369912896_1_alg».proof.Proof.Layer
import proofs.«142526_j3951369912896_1_alg».proof.Proof.FinAgg

set_option maxRecDepth 16384
set_option maxHeartbeats 1600000

noncomputable section

namespace Cert.KernelIdeal.KFold2

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

/-! ### The first host stretch, from any contents `W` -/

theorem hA_x : StableHlo.after (hostOps6 (F := Ideal)) W (Proc.devRef .tc main_v73) = W (Proc.devRef .tc main_v73) := by
  host_keep hostOps6

theorem hA_agg : (StableHlo.after (hostOps6 (F := Ideal)) W (Proc.devRef .tc main_v83) : Mat 100000 64)
    = Cert.Fin.aggRows (W (Proc.devRef .tc main_v73)) (W (Proc.devRef .tc main_v1)) (W (Proc.devRef .tc main_v3)) := by
  after_results_simp
  rfl

theorem hA_w1 : (StableHlo.after (hostOps6 (F := Ideal)) W (Proc.devRef .tc main_v85) : Mat 64 64) = matAt (W (Proc.devRef .tc main_arg3)) 2 := by
  funext i
  obtain ⟨p, q, rfl⟩ : ∃ (p : Fin 64) (q : Fin 64), i = ix2 p q := ⟨i 0, i 1, eq_ix2 i⟩
  after_results
  exact sliceMat_apply 2 (by decide) _ _ _ p q

theorem hA_b1 : (StableHlo.after (hostOps6 (F := Ideal)) W (Proc.devRef .tc main_v88) : Mat 1 64) = rowAt (W (Proc.devRef .tc main_arg4)) 2 := by
  funext i
  obtain ⟨p, q, rfl⟩ : ∃ (p : Fin 1) (q : Fin 64), i = ix2 p q := ⟨i 0, i 1, eq_ix2 i⟩
  after_results
  exact sliceRow2_apply 2 (by decide) _ _ _ _ p q

theorem hA_w2 : (StableHlo.after (hostOps6 (F := Ideal)) W (Proc.devRef .tc main_v90) : Mat 64 64) = matAt (W (Proc.devRef .tc main_arg5)) 2 := by
  funext i
  obtain ⟨p, q, rfl⟩ : ∃ (p : Fin 64) (q : Fin 64), i = ix2 p q := ⟨i 0, i 1, eq_ix2 i⟩
  after_results
  exact sliceMat_apply 2 (by decide) _ _ _ p q

theorem hA_b2 : (StableHlo.after (hostOps6 (F := Ideal)) W (Proc.devRef .tc main_v93) : Mat 1 64) = rowAt (W (Proc.devRef .tc main_arg6)) 2 := by
  funext i
  obtain ⟨p, q, rfl⟩ : ∃ (p : Fin 1) (q : Fin 64), i = ix2 p q := ⟨i 0, i 1, eq_ix2 i⟩
  after_results
  exact sliceRow2_apply 2 (by decide) _ _ _ _ p q

/-! ### The statistics' host stretch, from any contents `W` -/

theorem hB_y : StableHlo.after (hostOps8 (F := Ideal)) W (Proc.devRef .tc main_v94) = W (Proc.devRef .tc main_v94) := by
  host_keep hostOps8

theorem hB_mean : (StableHlo.after (hostOps8 (F := Ideal)) W (Proc.devRef .tc main_v97) : Mat 1 64)
    = fun i => Ideal.div ((W (Proc.devRef .tc main_v95_0) : Mat 1 64) i) cnt32 := by
  after_results
  rfl

theorem hB_var : (StableHlo.after (hostOps8 (F := Ideal)) W (Proc.devRef .tc main_v101) : Mat 1 64)
    = fun i => Ideal.div ((W (Proc.devRef .tc main_v95_1) : Mat 1 64) i) cnt32
        - Ideal.div ((W (Proc.devRef .tc main_v95_0) : Mat 1 64) i) cnt32 * Ideal.div ((W (Proc.devRef .tc main_v95_0) : Mat 1 64) i) cnt32 := by
  after_results
  rfl

theorem hB_g : (StableHlo.after (hostOps8 (F := Ideal)) W (Proc.devRef .tc main_v104) : Mat 1 64) = rowAt (W (Proc.devRef .tc main_arg7)) 2 := by
  funext i
  obtain ⟨p, q, rfl⟩ : ∃ (p : Fin 1) (q : Fin 64), i = ix2 p q := ⟨i 0, i 1, eq_ix2 i⟩
  after_results
  exact sliceRow2_apply 2 (by decide) _ _ _ _ p q

theorem hB_bt : (StableHlo.after (hostOps8 (F := Ideal)) W (Proc.devRef .tc main_v107) : Mat 1 64) = rowAt (W (Proc.devRef .tc main_arg8)) 2 := by
  funext i
  obtain ⟨p, q, rfl⟩ : ∃ (p : Fin 1) (q : Fin 64), i = ix2 p q := ⟨i 0, i 1, eq_ix2 i⟩
  after_results
  exact sliceRow2_apply 2 (by decide) _ _ _ _ p q

end Host

/-! ### The layer -/

variable (m : (ℓ : Loc nD τ sig) → Buf (Elt Ideal) ℓ) (ρ : Dev nD → PrngReg) (c : Dev nD)

/-- The features after layer 2, from the contents at the layer's entry. -/
theorem layer
    (hmlp : ∀ (V : (c : Dev nD) → (b : Ref sig .tc) → Buf (Elt Ideal) ((c : Thread nD τ).loc b)) (c : Dev nD),
      ((dat6 (F := Ideal) V c).arrAt 6 cfg6.N : Mat 100000 64)
        = mlpOut (V c (Pipeline.arrRef spec6 0)) (V c (Pipeline.arrRef spec6 1)) (V c (Pipeline.arrRef spec6 2))
            (V c (Pipeline.arrRef spec6 3)) (V c (Pipeline.arrRef spec6 4)) (V c (Pipeline.arrRef spec6 5)))
    (hsum : ∀ (V : (c : Dev nD) → (b : Ref sig .tc) → Buf (Elt Ideal) ((c : Thread nD τ).loc b)) (c : Dev nD),
      ((dat7 (F := Ideal) V c).arrAt 1 cfg7.N : Mat 1 64) = colSum (n := 100000) (V c (Pipeline.arrRef spec7 0)))
    (hsq : ∀ (V : (c : Dev nD) → (b : Ref sig .tc) → Buf (Elt Ideal) ((c : Thread nD τ).loc b)) (c : Dev nD),
      ((dat7 (F := Ideal) V c).arrAt 2 cfg7.N : Mat 1 64) = colSumSq (n := 100000) (V c (Pipeline.arrRef spec7 0)))
    (hbn : ∀ (V : (c : Dev nD) → (b : Ref sig .tc) → Buf (Elt Ideal) ((c : Thread nD τ).loc b)) (c : Dev nD),
      ((dat8 (F := Ideal) V c).arrAt 5 cfg8.N : Mat 100000 64)
        = bnOut (V c (Pipeline.arrRef spec8 0)) (V c (Pipeline.arrRef spec8 1)) (V c (Pipeline.arrRef spec8 2))
            (V c (Pipeline.arrRef spec8 3)) (V c (Pipeline.arrRef spec8 4))) :
    (W15 m ρ c (Proc.devRef .tc main_v108) : Mat 100000 64)
      = layerWith varOnePass (W10 m ρ c (Proc.devRef .tc main_v73)) (Cert.Fin.aggRows (W10 m ρ c (Proc.devRef .tc main_v73)) (W10 m ρ c (Proc.devRef .tc main_v1)) (W10 m ρ c (Proc.devRef .tc main_v3)))
          (matAt (W10 m ρ c (Proc.devRef .tc main_arg3)) 2) (rowAt (W10 m ρ c (Proc.devRef .tc main_arg4)) 2)
          (matAt (W10 m ρ c (Proc.devRef .tc main_arg5)) 2) (rowAt (W10 m ρ c (Proc.devRef .tc main_arg6)) 2)
          (rowAt (W13 m ρ c (Proc.devRef .tc main_arg7)) 2) (rowAt (W13 m ρ c (Proc.devRef .tc main_arg8)) 2) := by
  have hy : (W12 m ρ c (Proc.devRef .tc main_v94) : Mat 100000 64)
      = mlpOut (W11 m ρ c (Proc.devRef .tc main_v73)) (W11 m ρ c (Proc.devRef .tc main_v83)) (W11 m ρ c (Proc.devRef .tc main_v85))
          (W11 m ρ c (Proc.devRef .tc main_v88)) (W11 m ρ c (Proc.devRef .tc main_v90)) (W11 m ρ c (Proc.devRef .tc main_v93)) :=
    (W12_arr m ρ c 6).trans (hmlp (V11 m ρ) c)
  have hs : (W13 m ρ c (Proc.devRef .tc main_v95_0) : Mat 1 64) = colSum (n := 100000) (W12 m ρ c (Proc.devRef .tc main_v94)) :=
    (W13_arr m ρ c 1).trans (hsum (V12 m ρ) c)
  have hq : (W13 m ρ c (Proc.devRef .tc main_v95_1) : Mat 1 64) = colSumSq (n := 100000) (W12 m ρ c (Proc.devRef .tc main_v94)) :=
    (W13_arr m ρ c 2).trans (hsq (V12 m ρ) c)
  have hy3 : W13 m ρ c (Proc.devRef .tc main_v94) = W12 m ρ c (Proc.devRef .tc main_v94) :=
    (W13_arr m ρ c 0).trans (((dat7 (V12 m ρ) c).arrAt_in 0 rfl _).trans (A_eq7 (V12 m ρ) c 0))
  have hx5 : (W15 m ρ c (Proc.devRef .tc main_v108) : Mat 100000 64)
      = bnOut (W14 m ρ c (Proc.devRef .tc main_v94)) (W14 m ρ c (Proc.devRef .tc main_v97)) (W14 m ρ c (Proc.devRef .tc main_v101))
          (W14 m ρ c (Proc.devRef .tc main_v104)) (W14 m ρ c (Proc.devRef .tc main_v107)) :=
    (W15_arr m ρ c 5).trans (hbn (V14 m ρ) c)
  rw [hx5]
  rw [show W14 m ρ c (Proc.devRef .tc main_v94) = W13 m ρ c (Proc.devRef .tc main_v94) from hB_y _,
    show (W14 m ρ c (Proc.devRef .tc main_v97) : Mat 1 64) = _ from hB_mean _,
    show (W14 m ρ c (Proc.devRef .tc main_v101) : Mat 1 64) = _ from hB_var _,
    show (W14 m ρ c (Proc.devRef .tc main_v104) : Mat 1 64) = _ from hB_g _,
    show (W14 m ρ c (Proc.devRef .tc main_v107) : Mat 1 64) = _ from hB_bt _,
    hs, hq, hy3, hy,
    show W11 m ρ c (Proc.devRef .tc main_v73) = W10 m ρ c (Proc.devRef .tc main_v73) from hA_x _,
    show (W11 m ρ c (Proc.devRef .tc main_v83) : Mat 100000 64) = _ from hA_agg _,
    show (W11 m ρ c (Proc.devRef .tc main_v85) : Mat 64 64) = _ from hA_w1 _,
    show (W11 m ρ c (Proc.devRef .tc main_v88) : Mat 1 64) = _ from hA_b1 _,
    show (W11 m ρ c (Proc.devRef .tc main_v90) : Mat 64 64) = _ from hA_w2 _,
    show (W11 m ρ c (Proc.devRef .tc main_v93) : Mat 1 64) = _ from hA_b2 _]
  rfl

end Cert.KernelIdeal.KFold2

end
-- ==== Proof.KFold3.lean ====
/-
  Layer 3 of the idealized kernel, read through its five segment boundaries: the host stretch that prepares the
  neighbour sums and cuts the layer's weights out of the stacked arguments; the perceptron region; the statistics
  region; the host stretch that forms the mean and the one-pass variance and cuts out the scale and shift rows; and the
  normalisation region. Each host stretch is read from ANY contents `W` at its entry, so nothing earlier is unfolded;
  the three regions enter through the region theorems taken as hypotheses, stated at any entry contents.
-/
import proofs.«142526_j3951369912896_1_alg».proof.Proof.Gen.KernelIdeal.Frame
import proofs.«142526_j3951369912896_1_alg».proof.Proof.Layer
import proofs.«142526_j3951369912896_1_alg».proof.Proof.FinAgg

set_option maxRecDepth 16384
set_option maxHeartbeats 1600000

noncomputable section

namespace Cert.KernelIdeal.KFold3

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

/-! ### The first host stretch, from any contents `W` -/

theorem hA_x : StableHlo.after (hostOps9 (F := Ideal)) W (Proc.devRef .tc main_v108) = W (Proc.devRef .tc main_v108) := by
  host_keep hostOps9

theorem hA_agg : (StableHlo.after (hostOps9 (F := Ideal)) W (Proc.devRef .tc main_v118) : Mat 100000 64)
    = Cert.Fin.aggRows (W (Proc.devRef .tc main_v108)) (W (Proc.devRef .tc main_v1)) (W (Proc.devRef .tc main_v3)) := by
  after_results_simp
  rfl

theorem hA_w1 : (StableHlo.after (hostOps9 (F := Ideal)) W (Proc.devRef .tc main_v120) : Mat 64 64) = matAt (W (Proc.devRef .tc main_arg3)) 3 := by
  funext i
  obtain ⟨p, q, rfl⟩ : ∃ (p : Fin 64) (q : Fin 64), i = ix2 p q := ⟨i 0, i 1, eq_ix2 i⟩
  after_results
  exact sliceMat_apply 3 (by decide) _ _ _ p q

theorem hA_b1 : (StableHlo.after (hostOps9 (F := Ideal)) W (Proc.devRef .tc main_v123) : Mat 1 64) = rowAt (W (Proc.devRef .tc main_arg4)) 3 := by
  funext i
  obtain ⟨p, q, rfl⟩ : ∃ (p : Fin 1) (q : Fin 64), i = ix2 p q := ⟨i 0, i 1, eq_ix2 i⟩
  after_results
  exact sliceRow2_apply 3 (by decide) _ _ _ _ p q

theorem hA_w2 : (StableHlo.after (hostOps9 (F := Ideal)) W (Proc.devRef .tc main_v125) : Mat 64 64) = matAt (W (Proc.devRef .tc main_arg5)) 3 := by
  funext i
  obtain ⟨p, q, rfl⟩ : ∃ (p : Fin 64) (q : Fin 64), i = ix2 p q := ⟨i 0, i 1, eq_ix2 i⟩
  after_results
  exact sliceMat_apply 3 (by decide) _ _ _ p q

theorem hA_b2 : (StableHlo.after (hostOps9 (F := Ideal)) W (Proc.devRef .tc main_v128) : Mat 1 64) = rowAt (W (Proc.devRef .tc main_arg6)) 3 := by
  funext i
  obtain ⟨p, q, rfl⟩ : ∃ (p : Fin 1) (q : Fin 64), i = ix2 p q := ⟨i 0, i 1, eq_ix2 i⟩
  after_results
  exact sliceRow2_apply 3 (by decide) _ _ _ _ p q

/-! ### The statistics' host stretch, from any contents `W` -/

theorem hB_y : StableHlo.after (hostOps11 (F := Ideal)) W (Proc.devRef .tc main_v129) = W (Proc.devRef .tc main_v129) := by
  host_keep hostOps11

theorem hB_mean : (StableHlo.after (hostOps11 (F := Ideal)) W (Proc.devRef .tc main_v132) : Mat 1 64)
    = fun i => Ideal.div ((W (Proc.devRef .tc main_v130_0) : Mat 1 64) i) cnt32 := by
  after_results
  rfl

theorem hB_var : (StableHlo.after (hostOps11 (F := Ideal)) W (Proc.devRef .tc main_v136) : Mat 1 64)
    = fun i => Ideal.div ((W (Proc.devRef .tc main_v130_1) : Mat 1 64) i) cnt32
        - Ideal.div ((W (Proc.devRef .tc main_v130_0) : Mat 1 64) i) cnt32 * Ideal.div ((W (Proc.devRef .tc main_v130_0) : Mat 1 64) i) cnt32 := by
  after_results
  rfl

theorem hB_g : (StableHlo.after (hostOps11 (F := Ideal)) W (Proc.devRef .tc main_v139) : Mat 1 64) = rowAt (W (Proc.devRef .tc main_arg7)) 3 := by
  funext i
  obtain ⟨p, q, rfl⟩ : ∃ (p : Fin 1) (q : Fin 64), i = ix2 p q := ⟨i 0, i 1, eq_ix2 i⟩
  after_results
  exact sliceRow2_apply 3 (by decide) _ _ _ _ p q

theorem hB_bt : (StableHlo.after (hostOps11 (F := Ideal)) W (Proc.devRef .tc main_v142) : Mat 1 64) = rowAt (W (Proc.devRef .tc main_arg8)) 3 := by
  funext i
  obtain ⟨p, q, rfl⟩ : ∃ (p : Fin 1) (q : Fin 64), i = ix2 p q := ⟨i 0, i 1, eq_ix2 i⟩
  after_results
  exact sliceRow2_apply 3 (by decide) _ _ _ _ p q

end Host

/-! ### The layer -/

variable (m : (ℓ : Loc nD τ sig) → Buf (Elt Ideal) ℓ) (ρ : Dev nD → PrngReg) (c : Dev nD)

/-- The features after layer 3, from the contents at the layer's entry. -/
theorem layer
    (hmlp : ∀ (V : (c : Dev nD) → (b : Ref sig .tc) → Buf (Elt Ideal) ((c : Thread nD τ).loc b)) (c : Dev nD),
      ((dat9 (F := Ideal) V c).arrAt 6 cfg9.N : Mat 100000 64)
        = mlpOut (V c (Pipeline.arrRef spec9 0)) (V c (Pipeline.arrRef spec9 1)) (V c (Pipeline.arrRef spec9 2))
            (V c (Pipeline.arrRef spec9 3)) (V c (Pipeline.arrRef spec9 4)) (V c (Pipeline.arrRef spec9 5)))
    (hsum : ∀ (V : (c : Dev nD) → (b : Ref sig .tc) → Buf (Elt Ideal) ((c : Thread nD τ).loc b)) (c : Dev nD),
      ((dat10 (F := Ideal) V c).arrAt 1 cfg10.N : Mat 1 64) = colSum (n := 100000) (V c (Pipeline.arrRef spec10 0)))
    (hsq : ∀ (V : (c : Dev nD) → (b : Ref sig .tc) → Buf (Elt Ideal) ((c : Thread nD τ).loc b)) (c : Dev nD),
      ((dat10 (F := Ideal) V c).arrAt 2 cfg10.N : Mat 1 64) = colSumSq (n := 100000) (V c (Pipeline.arrRef spec10 0)))
    (hbn : ∀ (V : (c : Dev nD) → (b : Ref sig .tc) → Buf (Elt Ideal) ((c : Thread nD τ).loc b)) (c : Dev nD),
      ((dat11 (F := Ideal) V c).arrAt 5 cfg11.N : Mat 100000 64)
        = bnOut (V c (Pipeline.arrRef spec11 0)) (V c (Pipeline.arrRef spec11 1)) (V c (Pipeline.arrRef spec11 2))
            (V c (Pipeline.arrRef spec11 3)) (V c (Pipeline.arrRef spec11 4))) :
    (W20 m ρ c (Proc.devRef .tc main_v143) : Mat 100000 64)
      = layerWith varOnePass (W15 m ρ c (Proc.devRef .tc main_v108)) (Cert.Fin.aggRows (W15 m ρ c (Proc.devRef .tc main_v108)) (W15 m ρ c (Proc.devRef .tc main_v1)) (W15 m ρ c (Proc.devRef .tc main_v3)))
          (matAt (W15 m ρ c (Proc.devRef .tc main_arg3)) 3) (rowAt (W15 m ρ c (Proc.devRef .tc main_arg4)) 3)
          (matAt (W15 m ρ c (Proc.devRef .tc main_arg5)) 3) (rowAt (W15 m ρ c (Proc.devRef .tc main_arg6)) 3)
          (rowAt (W18 m ρ c (Proc.devRef .tc main_arg7)) 3) (rowAt (W18 m ρ c (Proc.devRef .tc main_arg8)) 3) := by
  have hy : (W17 m ρ c (Proc.devRef .tc main_v129) : Mat 100000 64)
      = mlpOut (W16 m ρ c (Proc.devRef .tc main_v108)) (W16 m ρ c (Proc.devRef .tc main_v118)) (W16 m ρ c (Proc.devRef .tc main_v120))
          (W16 m ρ c (Proc.devRef .tc main_v123)) (W16 m ρ c (Proc.devRef .tc main_v125)) (W16 m ρ c (Proc.devRef .tc main_v128)) :=
    (W17_arr m ρ c 6).trans (hmlp (V16 m ρ) c)
  have hs : (W18 m ρ c (Proc.devRef .tc main_v130_0) : Mat 1 64) = colSum (n := 100000) (W17 m ρ c (Proc.devRef .tc main_v129)) :=
    (W18_arr m ρ c 1).trans (hsum (V17 m ρ) c)
  have hq : (W18 m ρ c (Proc.devRef .tc main_v130_1) : Mat 1 64) = colSumSq (n := 100000) (W17 m ρ c (Proc.devRef .tc main_v129)) :=
    (W18_arr m ρ c 2).trans (hsq (V17 m ρ) c)
  have hy3 : W18 m ρ c (Proc.devRef .tc main_v129) = W17 m ρ c (Proc.devRef .tc main_v129) :=
    (W18_arr m ρ c 0).trans (((dat10 (V17 m ρ) c).arrAt_in 0 rfl _).trans (A_eq10 (V17 m ρ) c 0))
  have hx5 : (W20 m ρ c (Proc.devRef .tc main_v143) : Mat 100000 64)
      = bnOut (W19 m ρ c (Proc.devRef .tc main_v129)) (W19 m ρ c (Proc.devRef .tc main_v132)) (W19 m ρ c (Proc.devRef .tc main_v136))
          (W19 m ρ c (Proc.devRef .tc main_v139)) (W19 m ρ c (Proc.devRef .tc main_v142)) :=
    (W20_arr m ρ c 5).trans (hbn (V19 m ρ) c)
  rw [hx5]
  rw [show W19 m ρ c (Proc.devRef .tc main_v129) = W18 m ρ c (Proc.devRef .tc main_v129) from hB_y _,
    show (W19 m ρ c (Proc.devRef .tc main_v132) : Mat 1 64) = _ from hB_mean _,
    show (W19 m ρ c (Proc.devRef .tc main_v136) : Mat 1 64) = _ from hB_var _,
    show (W19 m ρ c (Proc.devRef .tc main_v139) : Mat 1 64) = _ from hB_g _,
    show (W19 m ρ c (Proc.devRef .tc main_v142) : Mat 1 64) = _ from hB_bt _,
    hs, hq, hy3, hy,
    show W16 m ρ c (Proc.devRef .tc main_v108) = W15 m ρ c (Proc.devRef .tc main_v108) from hA_x _,
    show (W16 m ρ c (Proc.devRef .tc main_v118) : Mat 100000 64) = _ from hA_agg _,
    show (W16 m ρ c (Proc.devRef .tc main_v120) : Mat 64 64) = _ from hA_w1 _,
    show (W16 m ρ c (Proc.devRef .tc main_v123) : Mat 1 64) = _ from hA_b1 _,
    show (W16 m ρ c (Proc.devRef .tc main_v125) : Mat 64 64) = _ from hA_w2 _,
    show (W16 m ρ c (Proc.devRef .tc main_v128) : Mat 1 64) = _ from hA_b2 _]
  rfl

end Cert.KernelIdeal.KFold3

end
-- ==== Proof.KFold4.lean ====
/-
  Layer 4 of the idealized kernel, read through its five segment boundaries: the host stretch that prepares the
  neighbour sums and cuts the layer's weights out of the stacked arguments; the perceptron region; the statistics
  region; the host stretch that forms the mean and the one-pass variance and cuts out the scale and shift rows; and the
  normalisation region. Each host stretch is read from ANY contents `W` at its entry, so nothing earlier is unfolded;
  the three regions enter through the region theorems taken as hypotheses, stated at any entry contents.
-/
import proofs.«142526_j3951369912896_1_alg».proof.Proof.Gen.KernelIdeal.Frame
import proofs.«142526_j3951369912896_1_alg».proof.Proof.Layer
import proofs.«142526_j3951369912896_1_alg».proof.Proof.FinAgg

set_option maxRecDepth 16384
set_option maxHeartbeats 1600000

noncomputable section

namespace Cert.KernelIdeal.KFold4

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

/-! ### The first host stretch, from any contents `W` -/

theorem hA_x : StableHlo.after (hostOps12 (F := Ideal)) W (Proc.devRef .tc main_v143) = W (Proc.devRef .tc main_v143) := by
  host_keep hostOps12

theorem hA_agg : (StableHlo.after (hostOps12 (F := Ideal)) W (Proc.devRef .tc main_v153) : Mat 100000 64)
    = Cert.Fin.aggRows (W (Proc.devRef .tc main_v143)) (W (Proc.devRef .tc main_v1)) (W (Proc.devRef .tc main_v3)) := by
  after_results_simp
  rfl

theorem hA_w1 : (StableHlo.after (hostOps12 (F := Ideal)) W (Proc.devRef .tc main_v155) : Mat 64 64) = matAt (W (Proc.devRef .tc main_arg3)) 4 := by
  funext i
  obtain ⟨p, q, rfl⟩ : ∃ (p : Fin 64) (q : Fin 64), i = ix2 p q := ⟨i 0, i 1, eq_ix2 i⟩
  after_results
  exact sliceMat_apply 4 (by decide) _ _ _ p q

theorem hA_b1 : (StableHlo.after (hostOps12 (F := Ideal)) W (Proc.devRef .tc main_v158) : Mat 1 64) = rowAt (W (Proc.devRef .tc main_arg4)) 4 := by
  funext i
  obtain ⟨p, q, rfl⟩ : ∃ (p : Fin 1) (q : Fin 64), i = ix2 p q := ⟨i 0, i 1, eq_ix2 i⟩
  after_results
  exact sliceRow2_apply 4 (by decide) _ _ _ _ p q

theorem hA_w2 : (StableHlo.after (hostOps12 (F := Ideal)) W (Proc.devRef .tc main_v160) : Mat 64 64) = matAt (W (Proc.devRef .tc main_arg5)) 4 := by
  funext i
  obtain ⟨p, q, rfl⟩ : ∃ (p : Fin 64) (q : Fin 64), i = ix2 p q := ⟨i 0, i 1, eq_ix2 i⟩
  after_results
  exact sliceMat_apply 4 (by decide) _ _ _ p q

theorem hA_b2 : (StableHlo.after (hostOps12 (F := Ideal)) W (Proc.devRef .tc main_v163) : Mat 1 64) = rowAt (W (Proc.devRef .tc main_arg6)) 4 := by
  funext i
  obtain ⟨p, q, rfl⟩ : ∃ (p : Fin 1) (q : Fin 64), i = ix2 p q := ⟨i 0, i 1, eq_ix2 i⟩
  after_results
  exact sliceRow2_apply 4 (by decide) _ _ _ _ p q

/-! ### The statistics' host stretch, from any contents `W` -/

theorem hB_y : StableHlo.after (hostOps14 (F := Ideal)) W (Proc.devRef .tc main_v164) = W (Proc.devRef .tc main_v164) := by
  host_keep hostOps14

theorem hB_mean : (StableHlo.after (hostOps14 (F := Ideal)) W (Proc.devRef .tc main_v167) : Mat 1 64)
    = fun i => Ideal.div ((W (Proc.devRef .tc main_v165_0) : Mat 1 64) i) cnt32 := by
  after_results
  rfl

theorem hB_var : (StableHlo.after (hostOps14 (F := Ideal)) W (Proc.devRef .tc main_v171) : Mat 1 64)
    = fun i => Ideal.div ((W (Proc.devRef .tc main_v165_1) : Mat 1 64) i) cnt32
        - Ideal.div ((W (Proc.devRef .tc main_v165_0) : Mat 1 64) i) cnt32 * Ideal.div ((W (Proc.devRef .tc main_v165_0) : Mat 1 64) i) cnt32 := by
  after_results
  rfl

theorem hB_g : (StableHlo.after (hostOps14 (F := Ideal)) W (Proc.devRef .tc main_v174) : Mat 1 64) = rowAt (W (Proc.devRef .tc main_arg7)) 4 := by
  funext i
  obtain ⟨p, q, rfl⟩ : ∃ (p : Fin 1) (q : Fin 64), i = ix2 p q := ⟨i 0, i 1, eq_ix2 i⟩
  after_results
  exact sliceRow2_apply 4 (by decide) _ _ _ _ p q

theorem hB_bt : (StableHlo.after (hostOps14 (F := Ideal)) W (Proc.devRef .tc main_v177) : Mat 1 64) = rowAt (W (Proc.devRef .tc main_arg8)) 4 := by
  funext i
  obtain ⟨p, q, rfl⟩ : ∃ (p : Fin 1) (q : Fin 64), i = ix2 p q := ⟨i 0, i 1, eq_ix2 i⟩
  after_results
  exact sliceRow2_apply 4 (by decide) _ _ _ _ p q

end Host

/-! ### The layer -/

variable (m : (ℓ : Loc nD τ sig) → Buf (Elt Ideal) ℓ) (ρ : Dev nD → PrngReg) (c : Dev nD)

/-- The features after layer 4, from the contents at the layer's entry. -/
theorem layer
    (hmlp : ∀ (V : (c : Dev nD) → (b : Ref sig .tc) → Buf (Elt Ideal) ((c : Thread nD τ).loc b)) (c : Dev nD),
      ((dat12 (F := Ideal) V c).arrAt 6 cfg12.N : Mat 100000 64)
        = mlpOut (V c (Pipeline.arrRef spec12 0)) (V c (Pipeline.arrRef spec12 1)) (V c (Pipeline.arrRef spec12 2))
            (V c (Pipeline.arrRef spec12 3)) (V c (Pipeline.arrRef spec12 4)) (V c (Pipeline.arrRef spec12 5)))
    (hsum : ∀ (V : (c : Dev nD) → (b : Ref sig .tc) → Buf (Elt Ideal) ((c : Thread nD τ).loc b)) (c : Dev nD),
      ((dat13 (F := Ideal) V c).arrAt 1 cfg13.N : Mat 1 64) = colSum (n := 100000) (V c (Pipeline.arrRef spec13 0)))
    (hsq : ∀ (V : (c : Dev nD) → (b : Ref sig .tc) → Buf (Elt Ideal) ((c : Thread nD τ).loc b)) (c : Dev nD),
      ((dat13 (F := Ideal) V c).arrAt 2 cfg13.N : Mat 1 64) = colSumSq (n := 100000) (V c (Pipeline.arrRef spec13 0)))
    (hbn : ∀ (V : (c : Dev nD) → (b : Ref sig .tc) → Buf (Elt Ideal) ((c : Thread nD τ).loc b)) (c : Dev nD),
      ((dat14 (F := Ideal) V c).arrAt 5 cfg14.N : Mat 100000 64)
        = bnOut (V c (Pipeline.arrRef spec14 0)) (V c (Pipeline.arrRef spec14 1)) (V c (Pipeline.arrRef spec14 2))
            (V c (Pipeline.arrRef spec14 3)) (V c (Pipeline.arrRef spec14 4))) :
    (W25 m ρ c (Proc.devRef .tc main_v178) : Mat 100000 64)
      = layerWith varOnePass (W20 m ρ c (Proc.devRef .tc main_v143)) (Cert.Fin.aggRows (W20 m ρ c (Proc.devRef .tc main_v143)) (W20 m ρ c (Proc.devRef .tc main_v1)) (W20 m ρ c (Proc.devRef .tc main_v3)))
          (matAt (W20 m ρ c (Proc.devRef .tc main_arg3)) 4) (rowAt (W20 m ρ c (Proc.devRef .tc main_arg4)) 4)
          (matAt (W20 m ρ c (Proc.devRef .tc main_arg5)) 4) (rowAt (W20 m ρ c (Proc.devRef .tc main_arg6)) 4)
          (rowAt (W23 m ρ c (Proc.devRef .tc main_arg7)) 4) (rowAt (W23 m ρ c (Proc.devRef .tc main_arg8)) 4) := by
  have hy : (W22 m ρ c (Proc.devRef .tc main_v164) : Mat 100000 64)
      = mlpOut (W21 m ρ c (Proc.devRef .tc main_v143)) (W21 m ρ c (Proc.devRef .tc main_v153)) (W21 m ρ c (Proc.devRef .tc main_v155))
          (W21 m ρ c (Proc.devRef .tc main_v158)) (W21 m ρ c (Proc.devRef .tc main_v160)) (W21 m ρ c (Proc.devRef .tc main_v163)) :=
    (W22_arr m ρ c 6).trans (hmlp (V21 m ρ) c)
  have hs : (W23 m ρ c (Proc.devRef .tc main_v165_0) : Mat 1 64) = colSum (n := 100000) (W22 m ρ c (Proc.devRef .tc main_v164)) :=
    (W23_arr m ρ c 1).trans (hsum (V22 m ρ) c)
  have hq : (W23 m ρ c (Proc.devRef .tc main_v165_1) : Mat 1 64) = colSumSq (n := 100000) (W22 m ρ c (Proc.devRef .tc main_v164)) :=
    (W23_arr m ρ c 2).trans (hsq (V22 m ρ) c)
  have hy3 : W23 m ρ c (Proc.devRef .tc main_v164) = W22 m ρ c (Proc.devRef .tc main_v164) :=
    (W23_arr m ρ c 0).trans (((dat13 (V22 m ρ) c).arrAt_in 0 rfl _).trans (A_eq13 (V22 m ρ) c 0))
  have hx5 : (W25 m ρ c (Proc.devRef .tc main_v178) : Mat 100000 64)
      = bnOut (W24 m ρ c (Proc.devRef .tc main_v164)) (W24 m ρ c (Proc.devRef .tc main_v167)) (W24 m ρ c (Proc.devRef .tc main_v171))
          (W24 m ρ c (Proc.devRef .tc main_v174)) (W24 m ρ c (Proc.devRef .tc main_v177)) :=
    (W25_arr m ρ c 5).trans (hbn (V24 m ρ) c)
  rw [hx5]
  rw [show W24 m ρ c (Proc.devRef .tc main_v164) = W23 m ρ c (Proc.devRef .tc main_v164) from hB_y _,
    show (W24 m ρ c (Proc.devRef .tc main_v167) : Mat 1 64) = _ from hB_mean _,
    show (W24 m ρ c (Proc.devRef .tc main_v171) : Mat 1 64) = _ from hB_var _,
    show (W24 m ρ c (Proc.devRef .tc main_v174) : Mat 1 64) = _ from hB_g _,
    show (W24 m ρ c (Proc.devRef .tc main_v177) : Mat 1 64) = _ from hB_bt _,
    hs, hq, hy3, hy,
    show W21 m ρ c (Proc.devRef .tc main_v143) = W20 m ρ c (Proc.devRef .tc main_v143) from hA_x _,
    show (W21 m ρ c (Proc.devRef .tc main_v153) : Mat 100000 64) = _ from hA_agg _,
    show (W21 m ρ c (Proc.devRef .tc main_v155) : Mat 64 64) = _ from hA_w1 _,
    show (W21 m ρ c (Proc.devRef .tc main_v158) : Mat 1 64) = _ from hA_b1 _,
    show (W21 m ρ c (Proc.devRef .tc main_v160) : Mat 64 64) = _ from hA_w2 _,
    show (W21 m ρ c (Proc.devRef .tc main_v163) : Mat 1 64) = _ from hA_b2 _]
  rfl

end Cert.KernelIdeal.KFold4

end
-- ==== Proof.KFoldTail.lean ====
/-
  The end of the idealized kernel, read through its last two segment boundaries: the host stretch that pools the node
  features over the graphs and lays the head's two bias vectors out as rows, and the head region. The host stretch is
  read from ANY contents `W` at its entry; the region enters through its theorem taken as a hypothesis.
-/
import proofs.«142526_j3951369912896_1_alg».proof.Proof.Gen.KernelIdeal.Frame
import proofs.«142526_j3951369912896_1_alg».proof.Proof.Layer
import proofs.«142526_j3951369912896_1_alg».proof.Proof.Pool

set_option maxRecDepth 16384
set_option maxHeartbeats 1600000

noncomputable section

namespace Cert.KernelIdeal.KFoldTail

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

section Host
variable (W : Valuation τ sig (Elt Ideal))

theorem hT_pool : (StableHlo.after (hostOps15 (F := Ideal)) W (Proc.devRef .tc main_v190) : Mat 128 64)
    = Cert.Fin.poolOf (W (Proc.devRef .tc main_v178)) (W (Proc.devRef .tc main_arg2)) := by
  after_results_simp
  rfl

theorem hT_w1 : StableHlo.after (hostOps15 (F := Ideal)) W (Proc.devRef .tc main_arg9) = W (Proc.devRef .tc main_arg9) := by
  host_keep hostOps15

theorem hT_w2 : StableHlo.after (hostOps15 (F := Ideal)) W (Proc.devRef .tc main_arg11) = W (Proc.devRef .tc main_arg11) := by
  host_keep hostOps15

theorem hT_b1 : (StableHlo.after (hostOps15 (F := Ideal)) W (Proc.devRef .tc main_v191) : Mat 1 64) = rowOf (W (Proc.devRef .tc main_arg10)) := by
  funext i
  obtain ⟨p, q, rfl⟩ : ∃ (p : Fin 1) (q : Fin 64), i = ix2 p q := ⟨i 0, i 1, eq_ix2 i⟩
  after_results
  exact Cert.Cheb.Layout.castVecRow_apply _ _ p q

theorem hT_b2 : (StableHlo.after (hostOps15 (F := Ideal)) W (Proc.devRef .tc main_v192) : FVec Ideal ⟨2, ![1, 10]⟩ .f32) = rowOf (W (Proc.devRef .tc main_arg12)) := by
  funext i
  obtain ⟨p, q, rfl⟩ : ∃ (p : Fin 1) (q : Fin 10), i = ix2 p q := ⟨i 0, i 1, eq_ix2 i⟩
  after_results
  exact Cert.Cheb.Layout.castVecRow_apply _ _ p q

end Host

variable (m : (ℓ : Loc nD τ sig) → Buf (Elt Ideal) ℓ) (ρ : Dev nD → PrngReg) (c : Dev nD)

/-- The result, from the contents after the fifth layer. -/
theorem tail
    (hhead : ∀ (V : (c : Dev nD) → (b : Ref sig .tc) → Buf (Elt Ideal) ((c : Thread nD τ).loc b)) (c : Dev nD),
      ((dat15 (F := Ideal) V c).arrAt 5 cfg15.N : FVec Ideal ⟨2, ![128, 10]⟩ .f32)
        = headOut (V c (Pipeline.arrRef spec15 0)) (V c (Pipeline.arrRef spec15 1)) (V c (Pipeline.arrRef spec15 2))
            (V c (Pipeline.arrRef spec15 3)) (V c (Pipeline.arrRef spec15 4))) :
    (W27 m ρ c (Proc.devRef .tc main_v193) : FVec Ideal ⟨2, ![128, 10]⟩ .f32)
      = headOut (Cert.Fin.poolOf (W25 m ρ c (Proc.devRef .tc main_v178)) (W25 m ρ c (Proc.devRef .tc main_arg2)))
          (W25 m ρ c (Proc.devRef .tc main_arg9)) (rowOf (W25 m ρ c (Proc.devRef .tc main_arg10)))
          (W25 m ρ c (Proc.devRef .tc main_arg11)) (rowOf (W25 m ρ c (Proc.devRef .tc main_arg12))) := by
  have hout : (W27 m ρ c (Proc.devRef .tc main_v193) : FVec Ideal ⟨2, ![128, 10]⟩ .f32)
      = headOut (W26 m ρ c (Proc.devRef .tc main_v190)) (W26 m ρ c (Proc.devRef .tc main_arg9)) (W26 m ρ c (Proc.devRef .tc main_v191))
          (W26 m ρ c (Proc.devRef .tc main_arg11)) (W26 m ρ c (Proc.devRef .tc main_v192)) :=
    (W27_arr m ρ c 5).trans (hhead (V26 m ρ) c)
  rw [hout]
  rw [show (W26 m ρ c (Proc.devRef .tc main_v190) : Mat 128 64) = _ from hT_pool _,
    show W26 m ρ c (Proc.devRef .tc main_arg9) = W25 m ρ c (Proc.devRef .tc main_arg9) from hT_w1 _,
    show W26 m ρ c (Proc.devRef .tc main_arg11) = W25 m ρ c (Proc.devRef .tc main_arg11) from hT_w2 _,
    show (W26 m ρ c (Proc.devRef .tc main_v191) : Mat 1 64) = _ from hT_b1 _,
    show (W26 m ρ c (Proc.devRef .tc main_v192) : FVec Ideal ⟨2, ![1, 10]⟩ .f32) = _ from hT_b2 _]

end Cert.KernelIdeal.KFoldTail

end
-- ==== Proof.KValue.lean ====
/-
  The idealized kernel's result as one function of its argument arrays: the five layers with the one-pass variance, the
  pooling and the head, composed through the twenty-seven segment boundaries. The sixteen regions enter through their
  theorems, gathered in `Regions`; every argument that a layer reads is, at the boundary where it is read, still the
  launch contents.
-/
import proofs.«142526_j3951369912896_1_alg».proof.Proof.Gen.KernelIdeal.Frame
import proofs.«142526_j3951369912896_1_alg».proof.Proof.Layer
import proofs.«142526_j3951369912896_1_alg».proof.Proof.Net
import proofs.«142526_j3951369912896_1_alg».proof.Proof.FinAgg
import proofs.«142526_j3951369912896_1_alg».proof.Proof.Pool
import proofs.«142526_j3951369912896_1_alg».proof.Proof.KKeep
import proofs.«142526_j3951369912896_1_alg».proof.Proof.KFold0
import proofs.«142526_j3951369912896_1_alg».proof.Proof.KFold1
import proofs.«142526_j3951369912896_1_alg».proof.Proof.KFold2
import proofs.«142526_j3951369912896_1_alg».proof.Proof.KFold3
import proofs.«142526_j3951369912896_1_alg».proof.Proof.KFold4
import proofs.«142526_j3951369912896_1_alg».proof.Proof.KFoldTail

set_option maxRecDepth 16384
set_option maxHeartbeats 1600000

noncomputable section

namespace Cert.KernelIdeal.KValue

open Cert.KernelIdeal Cert.KernelIdeal.Gen Cert.Spec
open Idealize.ShloMosaic Idealize.ShloMosaic.TcCoe Idealize.ShloMosaic.ValueIdx

/-- A buffer that a stretch of host operations never writes keeps its contents. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- What each of the sixteen regions leaves in its output arrays, from any contents at its entry. -/
structure Regions : Prop where
  mlp0 : ∀ (V : (c : Dev nD) → (b : Ref sig .tc) → Buf (Elt Ideal) ((c : Thread nD τ).loc b)) (c : Dev nD),
      ((dat0 (F := Ideal) V c).arrAt 6 cfg0.N : Mat 100000 64)
        = mlpOut (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))
  sum0 : ∀ (V : (c : Dev nD) → (b : Ref sig .tc) → Buf (Elt Ideal) ((c : Thread nD τ).loc b)) (c : Dev nD),
      ((dat1 (F := Ideal) V c).arrAt 1 cfg1.N : Mat 1 64) = colSum (n := 100000) (V c (Pipeline.arrRef spec1 0))
  sq0 : ∀ (V : (c : Dev nD) → (b : Ref sig .tc) → Buf (Elt Ideal) ((c : Thread nD τ).loc b)) (c : Dev nD),
      ((dat1 (F := Ideal) V c).arrAt 2 cfg1.N : Mat 1 64) = colSumSq (n := 100000) (V c (Pipeline.arrRef spec1 0))
  bn0 : ∀ (V : (c : Dev nD) → (b : Ref sig .tc) → Buf (Elt Ideal) ((c : Thread nD τ).loc b)) (c : Dev nD),
      ((dat2 (F := Ideal) V c).arrAt 5 cfg2.N : Mat 100000 64)
        = bnOut (V c (Pipeline.arrRef spec2 0)) (V c (Pipeline.arrRef spec2 1)) (V c (Pipeline.arrRef spec2 2))
            (V c (Pipeline.arrRef spec2 3)) (V c (Pipeline.arrRef spec2 4))
  mlp1 : ∀ (V : (c : Dev nD) → (b : Ref sig .tc) → Buf (Elt Ideal) ((c : Thread nD τ).loc b)) (c : Dev nD),
      ((dat3 (F := Ideal) V c).arrAt 6 cfg3.N : Mat 100000 64)
        = mlpOut (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))
  sum1 : ∀ (V : (c : Dev nD) → (b : Ref sig .tc) → Buf (Elt Ideal) ((c : Thread nD τ).loc b)) (c : Dev nD),
      ((dat4 (F := Ideal) V c).arrAt 1 cfg4.N : Mat 1 64) = colSum (n := 100000) (V c (Pipeline.arrRef spec4 0))
  sq1 : ∀ (V : (c : Dev nD) → (b : Ref sig .tc) → Buf (Elt Ideal) ((c : Thread nD τ).loc b)) (c : Dev nD),
      ((dat4 (F := Ideal) V c).arrAt 2 cfg4.N : Mat 1 64) = colSumSq (n := 100000) (V c (Pipeline.arrRef spec4 0))
  bn1 : ∀ (V : (c : Dev nD) → (b : Ref sig .tc) → Buf (Elt Ideal) ((c : Thread nD τ).loc b)) (c : Dev nD),
      ((dat5 (F := Ideal) V c).arrAt 5 cfg5.N : Mat 100000 64)
        = bnOut (V c (Pipeline.arrRef spec5 0)) (V c (Pipeline.arrRef spec5 1)) (V c (Pipeline.arrRef spec5 2))
            (V c (Pipeline.arrRef spec5 3)) (V c (Pipeline.arrRef spec5 4))
  mlp2 : ∀ (V : (c : Dev nD) → (b : Ref sig .tc) → Buf (Elt Ideal) ((c : Thread nD τ).loc b)) (c : Dev nD),
      ((dat6 (F := Ideal) V c).arrAt 6 cfg6.N : Mat 100000 64)
        = mlpOut (V c (Pipeline.arrRef spec6 0)) (V c (Pipeline.arrRef spec6 1)) (V c (Pipeline.arrRef spec6 2))
            (V c (Pipeline.arrRef spec6 3)) (V c (Pipeline.arrRef spec6 4)) (V c (Pipeline.arrRef spec6 5))
  sum2 : ∀ (V : (c : Dev nD) → (b : Ref sig .tc) → Buf (Elt Ideal) ((c : Thread nD τ).loc b)) (c : Dev nD),
      ((dat7 (F := Ideal) V c).arrAt 1 cfg7.N : Mat 1 64) = colSum (n := 100000) (V c (Pipeline.arrRef spec7 0))
  sq2 : ∀ (V : (c : Dev nD) → (b : Ref sig .tc) → Buf (Elt Ideal) ((c : Thread nD τ).loc b)) (c : Dev nD),
      ((dat7 (F := Ideal) V c).arrAt 2 cfg7.N : Mat 1 64) = colSumSq (n := 100000) (V c (Pipeline.arrRef spec7 0))
  bn2 : ∀ (V : (c : Dev nD) → (b : Ref sig .tc) → Buf (Elt Ideal) ((c : Thread nD τ).loc b)) (c : Dev nD),
      ((dat8 (F := Ideal) V c).arrAt 5 cfg8.N : Mat 100000 64)
        = bnOut (V c (Pipeline.arrRef spec8 0)) (V c (Pipeline.arrRef spec8 1)) (V c (Pipeline.arrRef spec8 2))
            (V c (Pipeline.arrRef spec8 3)) (V c (Pipeline.arrRef spec8 4))
  mlp3 : ∀ (V : (c : Dev nD) → (b : Ref sig .tc) → Buf (Elt Ideal) ((c : Thread nD τ).loc b)) (c : Dev nD),
      ((dat9 (F := Ideal) V c).arrAt 6 cfg9.N : Mat 100000 64)
        = mlpOut (V c (Pipeline.arrRef spec9 0)) (V c (Pipeline.arrRef spec9 1)) (V c (Pipeline.arrRef spec9 2))
            (V c (Pipeline.arrRef spec9 3)) (V c (Pipeline.arrRef spec9 4)) (V c (Pipeline.arrRef spec9 5))
  sum3 : ∀ (V : (c : Dev nD) → (b : Ref sig .tc) → Buf (Elt Ideal) ((c : Thread nD τ).loc b)) (c : Dev nD),
      ((dat10 (F := Ideal) V c).arrAt 1 cfg10.N : Mat 1 64) = colSum (n := 100000) (V c (Pipeline.arrRef spec10 0))
  sq3 : ∀ (V : (c : Dev nD) → (b : Ref sig .tc) → Buf (Elt Ideal) ((c : Thread nD τ).loc b)) (c : Dev nD),
      ((dat10 (F := Ideal) V c).arrAt 2 cfg10.N : Mat 1 64) = colSumSq (n := 100000) (V c (Pipeline.arrRef spec10 0))
  bn3 : ∀ (V : (c : Dev nD) → (b : Ref sig .tc) → Buf (Elt Ideal) ((c : Thread nD τ).loc b)) (c : Dev nD),
      ((dat11 (F := Ideal) V c).arrAt 5 cfg11.N : Mat 100000 64)
        = bnOut (V c (Pipeline.arrRef spec11 0)) (V c (Pipeline.arrRef spec11 1)) (V c (Pipeline.arrRef spec11 2))
            (V c (Pipeline.arrRef spec11 3)) (V c (Pipeline.arrRef spec11 4))
  mlp4 : ∀ (V : (c : Dev nD) → (b : Ref sig .tc) → Buf (Elt Ideal) ((c : Thread nD τ).loc b)) (c : Dev nD),
      ((dat12 (F := Ideal) V c).arrAt 6 cfg12.N : Mat 100000 64)
        = mlpOut (V c (Pipeline.arrRef spec12 0)) (V c (Pipeline.arrRef spec12 1)) (V c (Pipeline.arrRef spec12 2))
            (V c (Pipeline.arrRef spec12 3)) (V c (Pipeline.arrRef spec12 4)) (V c (Pipeline.arrRef spec12 5))
  sum4 : ∀ (V : (c : Dev nD) → (b : Ref sig .tc) → Buf (Elt Ideal) ((c : Thread nD τ).loc b)) (c : Dev nD),
      ((dat13 (F := Ideal) V c).arrAt 1 cfg13.N : Mat 1 64) = colSum (n := 100000) (V c (Pipeline.arrRef spec13 0))
  sq4 : ∀ (V : (c : Dev nD) → (b : Ref sig .tc) → Buf (Elt Ideal) ((c : Thread nD τ).loc b)) (c : Dev nD),
      ((dat13 (F := Ideal) V c).arrAt 2 cfg13.N : Mat 1 64) = colSumSq (n := 100000) (V c (Pipeline.arrRef spec13 0))
  bn4 : ∀ (V : (c : Dev nD) → (b : Ref sig .tc) → Buf (Elt Ideal) ((c : Thread nD τ).loc b)) (c : Dev nD),
      ((dat14 (F := Ideal) V c).arrAt 5 cfg14.N : Mat 100000 64)
        = bnOut (V c (Pipeline.arrRef spec14 0)) (V c (Pipeline.arrRef spec14 1)) (V c (Pipeline.arrRef spec14 2))
            (V c (Pipeline.arrRef spec14 3)) (V c (Pipeline.arrRef spec14 4))
  head : ∀ (V : (c : Dev nD) → (b : Ref sig .tc) → Buf (Elt Ideal) ((c : Thread nD τ).loc b)) (c : Dev nD),
      ((dat15 (F := Ideal) V c).arrAt 5 cfg15.N : FVec Ideal ⟨2, ![128, 10]⟩ .f32)
        = headOut (V c (Pipeline.arrRef spec15 0)) (V c (Pipeline.arrRef spec15 1)) (V c (Pipeline.arrRef spec15 2))
            (V c (Pipeline.arrRef spec15 3)) (V c (Pipeline.arrRef spec15 4))

variable (m : (ℓ : Loc nD τ sig) → Buf (Elt Ideal) ℓ) (ρ : Dev nD → PrngReg) (c : Dev nD)

/-- The network the kernel computes, from the argument arrays of core `c`. -/
def netK : FVec Ideal ⟨2, ![128, 10]⟩ .f32 :=
  headOut (Cert.Fin.poolOf
      (feats varOnePass (fun x => Cert.Fin.aggRows x (Cert.Fin.srcOf (m ((c : Thread nD τ).loc main_arg1))) (Cert.Fin.dstOf (m ((c : Thread nD τ).loc main_arg1))))
        ⟨(m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8))⟩
        (m ((c : Thread nD τ).loc main_arg0)))
      (m ((c : Thread nD τ).loc main_arg2)))
    (m ((c : Thread nD τ).loc main_arg9)) (rowOf (m ((c : Thread nD τ).loc main_arg10))) (m ((c : Thread nD τ).loc main_arg11)) (rowOf (m ((c : Thread nD τ).loc main_arg12)))

/-- The two edge rows after the first host stretch. -/
theorem src_eq : W1 m ρ c (Proc.devRef .tc main_v1) = Cert.Fin.srcOf (m ((c : Thread nD τ).loc main_arg1)) := by
  show StableHlo.after (hostOps0 (F := Ideal)) (W0 m ρ c) (Proc.devRef .tc main_v1) = _
  after_results
  rfl
theorem dst_eq : W1 m ρ c (Proc.devRef .tc main_v3) = Cert.Fin.dstOf (m ((c : Thread nD τ).loc main_arg1)) := by
  show StableHlo.after (hostOps0 (F := Ideal)) (W0 m ρ c) (Proc.devRef .tc main_v3) = _
  after_results
  rfl

/-- The result buffer at the last boundary is the network of the launch arguments. -/
theorem value (H : Regions) :
    (W27 m ρ c (Proc.devRef .tc main_v193) : FVec Ideal ⟨2, ![128, 10]⟩ .f32) = netK m c := by
  rw [KFoldTail.tail m ρ c H.head]
  rw [KKeep.at25_arg2 m ρ c, KKeep.at25_arg9 m ρ c, KKeep.at25_arg10 m ρ c, KKeep.at25_arg11 m ρ c, KKeep.at25_arg12 m ρ c]
  rw [show (W25 m ρ c (Proc.devRef .tc main_v178) : Mat 100000 64) = _ from KFold4.layer m ρ c H.mlp4 H.sum4 H.sq4 H.bn4]
  rw [KKeep.at20_arg3 m ρ c, KKeep.at20_arg4 m ρ c, KKeep.at20_arg5 m ρ c, KKeep.at20_arg6 m ρ c, KKeep.at23_arg7 m ρ c, KKeep.at23_arg8 m ρ c, KKeep.at20_v1 m ρ c, KKeep.at20_v3 m ρ c]
  rw [show (W20 m ρ c (Proc.devRef .tc main_v143) : Mat 100000 64) = _ from KFold3.layer m ρ c H.mlp3 H.sum3 H.sq3 H.bn3]
  rw [KKeep.at15_arg3 m ρ c, KKeep.at15_arg4 m ρ c, KKeep.at15_arg5 m ρ c, KKeep.at15_arg6 m ρ c, KKeep.at18_arg7 m ρ c, KKeep.at18_arg8 m ρ c, KKeep.at15_v1 m ρ c, KKeep.at15_v3 m ρ c]
  rw [show (W15 m ρ c (Proc.devRef .tc main_v108) : Mat 100000 64) = _ from KFold2.layer m ρ c H.mlp2 H.sum2 H.sq2 H.bn2]
  rw [KKeep.at10_arg3 m ρ c, KKeep.at10_arg4 m ρ c, KKeep.at10_arg5 m ρ c, KKeep.at10_arg6 m ρ c, KKeep.at13_arg7 m ρ c, KKeep.at13_arg8 m ρ c, KKeep.at10_v1 m ρ c, KKeep.at10_v3 m ρ c]
  rw [show (W10 m ρ c (Proc.devRef .tc main_v73) : Mat 100000 64) = _ from KFold1.layer m ρ c H.mlp1 H.sum1 H.sq1 H.bn1]
  rw [KKeep.at5_arg3 m ρ c, KKeep.at5_arg4 m ρ c, KKeep.at5_arg5 m ρ c, KKeep.at5_arg6 m ρ c, KKeep.at8_arg7 m ρ c, KKeep.at8_arg8 m ρ c, KKeep.at5_v1 m ρ c, KKeep.at5_v3 m ρ c]
  rw [show (W5 m ρ c (Proc.devRef .tc main_v38) : Mat 100000 64) = _ from KFold0.layer m ρ c H.mlp0 H.sum0 H.sq0 H.bn0]
  rw [KKeep.at0_arg3 m ρ c, KKeep.at0_arg4 m ρ c, KKeep.at0_arg5 m ρ c, KKeep.at0_arg6 m ρ c, KKeep.at3_arg7 m ρ c, KKeep.at3_arg8 m ρ c]
  rw [src_eq, dst_eq]
  rfl

end Cert.KernelIdeal.KValue

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.KMlpEntry.lean ====
/-
  A two-layer perceptron on the vector unit, read at one entry of its result.

  The body computes, on a block of `M` rows `h` (each of 64 features), the matrix `relu(h · W₁ + b₁) · W₂ + b₂`:
  two matrix products into the zero accumulator (their operands narrowed to a shorter float format, which on the
  extended reals changes nothing), the bias rows repeated over the block's rows, and a clip at zero in between.
  Entry `(p, q)` of the result depends on row `p` of `h` alone: hidden unit `k` of that row is
  `max(∑ₖ' h(p, k') · W₁(k', k) + b₁(k), 0)`, and the entry is `∑ₖ hidden(k) · W₂(k, q) + b₂(q)`. That is the
  specification's `mlpRow` on row `p`, whatever `M` is, so a block of rows of the result is the same formula on the
  block's rows.
-/
import proofs.«142526_j3951369912896_1_alg».proof.Proof.Spec
import proofs.«142526_j3951369912896_1_alg».proof.Proof.LibPlainDot
import Idealize.ShloMosaic.Lib.ValueLayout

noncomputable section

open scoped BigOperators

namespace Cert.KernelIdeal.KVal

open Idealize.ShloMosaic Idealize.ShloMosaic.ValueIdx

variable {M d : ℕ}

/-- Hidden unit `k` of row `p`: the first product's entry plus the bias, clipped at zero. -/
theorem hidden_entry (h : FVec Ideal ⟨2, ![M, 64]⟩ .f32) (w1 : FVec Ideal ⟨2, ![64, 64]⟩ .f32) (b1 : FVec Ideal ⟨2, ![1, 64]⟩ .f32)
    (hlt : FTy.bits .bf16 < FTy.bits .f32) (hb1 : (⟨2, ![1, 64]⟩ : Shape).Broadcasts ⟨2, ![M, 64]⟩) (p : Fin M) (k : Fin 64) :
    maximumf
        (addf (FloatOps.matmul (DotDims.plain M 64 64) none (truncf .bf16 h hlt) (truncf .bf16 w1 hlt)
            (constant ⟨2, ![M, 64]⟩ .f32 0x00000000#32))
          (broadcastTo ⟨2, ![M, 64]⟩ b1 hb1))
        (broadcast ⟨2, ![M, 64]⟩ (Scalar.ofBits (F := Ideal) .f32 0x00000000#32)) (ix2 p k)
      = Cert.Spec.hidden (fun k' => h (ix2 p k')) w1 b1 k := by
  rw [maximumf_apply, addf_apply, broadcast_apply, broadcastTo_1b_ab_apply, Cert.Lib.PlainDot.matmul_zero_apply]
  rfl

/-- Entry `(p, q)` of the perceptron's result is the specification's row formula on row `p` of `h`. -/
theorem mlp_entry (h : FVec Ideal ⟨2, ![M, 64]⟩ .f32) (w1 : FVec Ideal ⟨2, ![64, 64]⟩ .f32) (b1 : FVec Ideal ⟨2, ![1, 64]⟩ .f32)
    (w2 : FVec Ideal ⟨2, ![64, d]⟩ .f32) (b2 : FVec Ideal ⟨2, ![1, d]⟩ .f32)
    (hlt : FTy.bits .bf16 < FTy.bits .f32) (hb1 : (⟨2, ![1, 64]⟩ : Shape).Broadcasts ⟨2, ![M, 64]⟩)
    (hb2 : (⟨2, ![1, d]⟩ : Shape).Broadcasts ⟨2, ![M, d]⟩) (p : Fin M) (q : Fin d) :
    addf
        (FloatOps.matmul (DotDims.plain M 64 d) none
          (truncf .bf16
            (maximumf
              (addf (FloatOps.matmul (DotDims.plain M 64 64) none (truncf .bf16 h hlt) (truncf .bf16 w1 hlt)
                  (constant ⟨2, ![M, 64]⟩ .f32 0x00000000#32))
                (broadcastTo ⟨2, ![M, 64]⟩ b1 hb1))
              (broadcast ⟨2, ![M, 64]⟩ (Scalar.ofBits (F := Ideal) .f32 0x00000000#32))) hlt)
          (truncf .bf16 w2 hlt) (constant ⟨2, ![M, d]⟩ .f32 0x00000000#32))
        (broadcastTo ⟨2, ![M, d]⟩ b2 hb2) (ix2 p q)
      = Cert.Spec.mlpRow (fun k => h (ix2 p k)) w1 b1 w2 b2 q := by
  rw [addf_apply, broadcastTo_1b_ab_apply, Cert.Lib.PlainDot.matmul_zero_apply]
  unfold Cert.Spec.mlpRow
  refine congrArg (fun s => s + b2 (ix2 0 q)) (Finset.sum_congr rfl fun k _ => ?_)
  rw [truncf_apply, truncf_apply, hidden_entry]

end Cert.KernelIdeal.KVal

end
-- ==== Proof.KMlp0.lean ====
/-
  The value of a layer's perceptron kernel, as one function of the arrays it is given.

  The kernel walks the 100000 node rows in 10 blocks of 10000. At block `t` it reads rows `10000·t … 10000·t + 9999`
  of the features and of the neighbour sums, and the whole of the two weight matrices and the two bias rows, and
  writes the same rows of its result: `relu((x + agg) · W₁ + b₁) · W₂ + b₂` on those rows. An entry of the result
  depends on its own row only, so row `10000·t + p` of the result is the row formula on row `10000·t + p` of the
  operands, whatever the block: the ten blocks tile the rows, and the result array is the specification's `mlpOut`
  of the six arrays as the kernel finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Mlp0

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the six blocks it loaded: the row formula on row `p` of the sum of
    the first two. -/
theorem pay_entry (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k0_pay1 (F := Ideal) x0 x1 x2 x3 x4 x5 (ix2 p q)
      = Cert.Spec.mlpRow (fun k => x0 (ix2 p k) + x1 (ix2 p k)) x2 x3 x4 x5 q := by
  unfold k0_pay1
  simp only [shapeCast_self]
  exact mlp_entry (addf x0 x1) x2 x3 x4 x5 _ _ _ p q

/-- The same entry when the loaded blocks are rows of whole arrays: rows `p` of the two row blocks are rows `r` of
    `A0` and `A1`, and the four small blocks are the whole small arrays. -/
theorem block_entry (A0 A1 : S100000x64.Idx → EReal) (W1 : S64x64.Idx → EReal) (B1 : S1x64.Idx → EReal)
    (W2 : S64x64.Idx → EReal) (B2 : S1x64.Idx → EReal)
    (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) (r : Fin 100000)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k0_pay1 (F := Ideal) x0 x1 x2 x3 x4 x5 (ix2 p q) = Cert.Spec.mlpOut A0 A1 W1 B1 W2 B2 (ix2 r q) := by
  subst h2 h3 h4 h5
  rw [pay_entry]
  simp only [h0, h1]
  rfl

/-- Where each window's block sits at grid point `t`, decided over the ten points: the two row-block inputs and the
    output at block row `t`, the four small inputs at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer's perceptron on the six arrays as the kernel finds them. -/
abbrev whole (c : Dev nD) : S100000x64.Idx → EReal :=
  Cert.Spec.mlpOut (n := 100000) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- Small input 2's one block is its whole array. -/
theorem small_block2 (c : Dev nD) (t : Fin cfg0.N) :
    (iblk0 V c 2 t : Vec Ideal S64x64 .f32) = V c (Pipeline.arrRef spec0 2) := by
  have e0 : win0_2.index t (0 : Fin 2) = 0 := (block_index t).2.2.2.2.1
  have e1 : win0_2.index t (1 : Fin 2) = 0 := (block_index t).2.2.2.2.2.1
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- Small input 3's one block is its whole array. -/
theorem small_block3 (c : Dev nD) (t : Fin cfg0.N) :
    (iblk0 V c 3 t : Vec Ideal S1x64 .f32) = V c (Pipeline.arrRef spec0 3) := by
  have e0 : win0_3.index t (0 : Fin 2) = 0 := (block_index t).2.2.2.2.2.2.1
  have e1 : win0_3.index t (1 : Fin 2) = 0 := (block_index t).2.2.2.2.2.2.2.1
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Small input 4's one block is its whole array. -/
theorem small_block4 (c : Dev nD) (t : Fin cfg0.N) :
    (iblk0 V c 4 t : Vec Ideal S64x64 .f32) = V c (Pipeline.arrRef spec0 4) := by
  have e0 : win0_4.index t (0 : Fin 2) = 0 := (block_index t).2.2.2.2.2.2.2.2.1
  have e1 : win0_4.index t (1 : Fin 2) = 0 := (block_index t).2.2.2.2.2.2.2.2.2.1
  funext y
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Small input 5's one block is its whole array. -/
theorem small_block5 (c : Dev nD) (t : Fin cfg0.N) :
    (iblk0 V c 5 t : Vec Ideal S1x64 .f32) = V c (Pipeline.arrRef spec0 5) := by
  have e0 : win0_5.index t (0 : Fin 2) = 0 := (block_index t).2.2.2.2.2.2.2.2.2.2.1
  have e1 : win0_5.index t (1 : Fin 2) = 0 := (block_index t).2.2.2.2.2.2.2.2.2.2.2.1
  funext y
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 2) * 1 + 1 * (y 0).val = (y 0).val; rw [e0]; omega
  | ⟨1, _⟩ => show win0_5.index t (1 : Fin 2) * 64 + 1 * (y 1).val = (y 1).val; rw [e1]; omega

/-- Row `p` of row-block input 0 at point `t` is row `10000·t + p` of its array. -/
theorem row_block0 (c : Dev nD) (t : Fin cfg0.N) (p : Fin 10000) (r : Fin 100000) (hr : r.val = t.val * 10000 + p.val) (k : Fin 64) :
    (iblk0 V c 0 t : Vec Ideal S10000x64 .f32) (ix2 p k) = (V c (Pipeline.arrRef spec0 0) : S100000x64.Idx → EReal) (ix2 r k) := by
  have e0 : win0_0.index t (0 : Fin 2) = t.val := (block_index t).1
  have e1 : win0_0.index t (1 : Fin 2) = 0 := (block_index t).2.1
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row `p` of row-block input 1 at point `t` is row `10000·t + p` of its array. -/
theorem row_block1 (c : Dev nD) (t : Fin cfg0.N) (p : Fin 10000) (r : Fin 100000) (hr : r.val = t.val * 10000 + p.val) (k : Fin 64) :
    (iblk0 V c 1 t : Vec Ideal S10000x64 .f32) (ix2 p k) = (V c (Pipeline.arrRef spec0 1) : S100000x64.Idx → EReal) (ix2 r k) := by
  have e0 : win0_1.index t (0 : Fin 2) = t.val := (block_index t).2.2.1
  have e1 : win0_1.index t (1 : Fin 2) = 0 := (block_index t).2.2.2.1
  show V c (Pipeline.arrRef spec0 1) (((cfg0.win 1).blk t).view.emb (ix2 p k)) = V c (Pipeline.arrRef spec0 1) (ix2 r k)
  refine congrArg (V c (Pipeline.arrRef spec0 1)) (funext fun a => Fin.ext ?_)
  match a with
  | ⟨0, _⟩ => show win0_1.index t (0 : Fin 2) * 10000 + 1 * p.val = r.val; rw [e0, hr]; omega
  | ⟨1, _⟩ => show win0_1.index t (1 : Fin 2) * 64 + 1 * k.val = k.val; rw [e1]; omega

/-- What grid point `t` writes back is block `t` of the whole-array perceptron. -/
theorem flushed_eq (c : Dev nD) (t : Fin cfg0.N) :
    (dat0 (F := Ideal) V c).flushed 6 t = ((cfg0.win 6).blk t).view.read (Elt Ideal) (whole V c) := by
  show (cfg0.win 6).cut (grid0.coords t) ((dat0 (F := Ideal) V c).after 6 t) = _
  rw [after0_6]
  unfold out0_6
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, -, -, -, -, -, -, e60, e61⟩ := block_index t
  have hN : cfg0.N = 10 := N_0
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg0.win 6).blk t).view.emb (ix2 p q) = ix2 r q := by
    funext a; apply Fin.ext
    match a with
    | ⟨0, _⟩ => show win0_6.index t (0 : Fin 2) * 10000 + 1 * p.val = r.val; rw [e60, hr]; omega
    | ⟨1, _⟩ => show win0_6.index t (1 : Fin 2) * 64 + 1 * q.val = q.val; rw [e61]; omega
  show k0_pay1 (F := Ideal) (iblk0 V c 0 t) (iblk0 V c 1 t) (iblk0 V c 2 t) (iblk0 V c 3 t) (iblk0 V c 4 t) (iblk0 V c 5 t) (ix2 p q)
    = whole V c (((cfg0.win 6).blk t).view.emb (ix2 p q))
  rw [hemb]
  exact block_entry (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (iblk0 V c 0 t) (iblk0 V c 1 t) (iblk0 V c 2 t) (iblk0 V c 3 t) (iblk0 V c 4 t) (iblk0 V c 5 t) p q r
    (fun k => row_block0 V c t p r hr k) (fun k => row_block1 V c t p r hr k)
    (small_block2 V c t) (small_block3 V c t) (small_block4 V c t) (small_block5 V c t)

/-- An index of the result array is in point `t`'s block iff each coordinate is in the block's range on its axis. -/
theorem mem_block (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v24).slice (win0_6.rect t)).set ↔ _
  rw [View.set_slice_whole, Rect.mem_set_unit]
  exact Iff.rfl

/-- The ten blocks tile the rows: row `r` is in block `r / 10000`, which is written back. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, -, -, -, -, e60, e61⟩ := block_index t
  refine ⟨t, flush0_6 t, ?_⟩
  rw [mem_block]
  intro a
  match a with
  | ⟨0, _⟩ =>
    show win0_6.index t (0 : Fin 2) * 10000 ≤ (i 0).val ∧ (i 0).val < win0_6.index t (0 : Fin 2) * 10000 + 10000
    rw [e60, ht]; omega
  | ⟨1, _⟩ =>
    show win0_6.index t (1 : Fin 2) * 64 ≤ (i 1).val ∧ (i 1).val < win0_6.index t (1 : Fin 2) * 64 + 64
    rw [e61]; omega

end Cert.KernelIdeal.KVal.Mlp0

namespace Cert.KernelIdeal.KVal

open Cert.KernelIdeal Cert.KernelIdeal.Gen
open Idealize.ShloMosaic Idealize.ShloMosaic.TcCoe Idealize.SL.Sem

/-- The perceptron kernel's result array after its run: the specification's `mlpOut` of the six arrays as the kernel
    finds them. -/
theorem final0 (V : (c : Dev nD) → (b : Ref sig .tc) → Buf (Elt Ideal) ((c : Thread nD τ).loc b)) (c : Dev nD) :
    (dat0 (F := Ideal) V c).arrAt 6 cfg0.N
      = Cert.Spec.mlpOut (n := 100000) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 (Mlp0.whole V c) (fun t _ => Mlp0.flushed_eq V c t) Mlp0.cover

end Cert.KernelIdeal.KVal

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.LibColumnSum.lean ====
/-
  A column sum of a matrix, read at coordinates.

  A `vector.multi_reduction <add>` of an `[a, b]` matrix over its FIRST axis, read on the extended reals at column `j`, is
  the sum of the column's entries `(k, j)` — the companion, for the first axis, of the row sum over the second. Stated
  twice: for any accumulator word that is the sum's neutral word, and for the zero word `0x00000000` of f32 with the
  hypothesis typed `0x00000000 = 0x00000000`, the form in which a printed kernel body carries it.
-/
import Idealize.ShloMosaic.PureOps.Ideal.Laws
import Idealize.ShloMosaic.Lib.ValueIdx

noncomputable section

namespace Idealize.ShloMosaic.ValueKeepdims

open Idealize.ShloMosaic Idealize.ShloMosaic.ValueIdx

/-- Column `j` with row `k` put back on the reduced first axis is `(k, j)`. -/
theorem lift_axis0_ix2 {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A `vector.multi_reduction <add>` of an `[a, b]` matrix over its FIRST axis, at column `j`: the column's sum. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_axis0_ix2 h j k)

/-- A column sum with the zero word as the printed accumulator. -/
theorem colSum_at {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (j : Fin b) :
    multiReduction .add [0] ⟨1, ![b]⟩ src 0x00000000#32 h hφ hacc (ix1 j) = ∑ k : Fin a, src (ix2 k j) :=
  multiReduction_add_col src 0x00000000#32 h hφ hacc j

end Idealize.ShloMosaic.ValueKeepdims

end
-- ==== Proof.KStatsLib.lean ====
/-
  Column sums accumulated block by block.

  One accumulation step adds, to the row held so far, the column sums (or the column sums of the squares) of a block of
  10000 rows; read at column `j` it is `acc j + ∑ᵣ x(r, j)` (resp. `acc j + ∑ᵣ x(r, j)²`). The zero row reads `0`
  everywhere. Ten consecutive blocks of 10000 rows are the 100000 rows: the ten block sums add up to the one sum over all
  rows, in any order, because addition on the extended reals is commutative and associative (no finiteness is needed).
-/
import Idealize.ShloMosaic.PureOps.Ideal.Laws
import Idealize.ShloMosaic.Lib.ValueIdx
import Idealize.ShloMosaic.Lib.Pipeline.Value
import proofs.«142526_j3951369912896_1_alg».proof.Proof.LibBlockSum
import proofs.«142526_j3951369912896_1_alg».proof.Proof.LibColumnSum
import proofs.«142526_j3951369912896_1_alg».proof.Proof.LibLayoutRead
import proofs.«142526_j3951369912896_1_alg».proof.Proof.Spec

noncomputable section

open scoped BigOperators

namespace Cert.KernelIdeal.KVal

open Idealize.ShloMosaic Idealize.ShloMosaic.ValueIdx

/-- The zero offsets of a rank-2 access, as a constant function. -/
theorem hz2 : (![0, 0] : Fin 2 → Nat) = fun _ => 0 := funext fun a => by fin_cases a <;> rfl

/-- The row of zero words reads `0` at every entry. -/
theorem zero_row_apply (i : (⟨2, ![1, 64]⟩ : Shape).Idx) :
    (broadcast ⟨2, ![1, 64]⟩ (Scalar.ofBits (F := Ideal) .f32 0x00000000#32) : FVec Ideal ⟨2, ![1, 64]⟩ .f32) i = 0 :=
  Ideal.ofBits_zero_f32

/-- The sum of column `j` of a block of 10000 rows. -/
def blockColSum (x : FVec Ideal ⟨2, ![10000, 64]⟩ .f32) (j : Fin 64) : EReal := ∑ r : Fin 10000, x (ix2 r j)

/-- The sum of the squares of column `j` of a block of 10000 rows. -/
def blockColSumSq (x : FVec Ideal ⟨2, ![10000, 64]⟩ .f32) (j : Fin 64) : EReal :=
  ∑ r : Fin 10000, x (ix2 r j) * x (ix2 r j)

/-- One accumulation step of the column sums, at column `j`: the row held so far plus the block's column sum. -/
theorem acc_colsum_apply (x : FVec Ideal ⟨2, ![10000, 64]⟩ .f32) (acc : FVec Ideal ⟨2, ![1, 64]⟩ .f32)
    (h1 : (⟨2, ![1, 64]⟩ : Shape).ShapeCasts ⟨2, ![1, 64]⟩)
    (h2 : (⟨2, ![10000, 64]⟩ : Shape).ShapeCasts ⟨2, ![10000, 64]⟩)
    (h3 : (⟨1, ![64]⟩ : Shape).ShapeCasts ⟨2, ![1, 64]⟩)
    (hr : (⟨2, ![10000, 64]⟩ : Shape).Reduces [0] (⟨1, ![64]⟩ : Shape)) (hφ : FKind.Formats .f32)
    (hacc : (0x00000000#32 : BitVec 32) = 0x00000000#32) (z : Fin 1) (j : Fin 64) :
    addf (shapeCast ⟨2, ![1, 64]⟩ acc h1)
        (shapeCast ⟨2, ![1, 64]⟩
          (multiReduction .add [0] ⟨1, ![64]⟩ (shapeCast ⟨2, ![10000, 64]⟩ x h2) 0x00000000#32 hr hφ hacc) h3)
        (ix2 z j)
      = acc (ix2 z j) + blockColSum x j := by
  rw [addf_apply, shapeCast_self acc h1, shapeCast_self x h2, Cert.Cheb.Layout.castVecRow_apply]
  exact congrArg (fun s => acc (ix2 z j) + s) (ValueKeepdims.colSum_at x hr hφ hacc j)

/-- One accumulation step of the column sums of squares, at column `j`. -/
theorem acc_colsumsq_apply (x : FVec Ideal ⟨2, ![10000, 64]⟩ .f32) (acc : FVec Ideal ⟨2, ![1, 64]⟩ .f32)
    (h1 : (⟨2, ![1, 64]⟩ : Shape).ShapeCasts ⟨2, ![1, 64]⟩)
    (h2 : (⟨2, ![10000, 64]⟩ : Shape).ShapeCasts ⟨2, ![10000, 64]⟩)
    (h3 : (⟨1, ![64]⟩ : Shape).ShapeCasts ⟨2, ![1, 64]⟩)
    (hr : (⟨2, ![10000, 64]⟩ : Shape).Reduces [0] (⟨1, ![64]⟩ : Shape)) (hφ : FKind.Formats .f32)
    (hacc : (0x00000000#32 : BitVec 32) = 0x00000000#32) (z : Fin 1) (j : Fin 64) :
    addf (shapeCast ⟨2, ![1, 64]⟩ acc h1)
        (shapeCast ⟨2, ![1, 64]⟩
          (multiReduction .add [0] ⟨1, ![64]⟩
            (mulf (shapeCast ⟨2, ![10000, 64]⟩ x h2) (shapeCast ⟨2, ![10000, 64]⟩ x h2)) 0x00000000#32 hr hφ hacc) h3)
        (ix2 z j)
      = acc (ix2 z j) + blockColSumSq x j := by
  rw [addf_apply, shapeCast_self acc h1, shapeCast_self x h2, Cert.Cheb.Layout.castVecRow_apply]
  exact congrArg (fun s => acc (ix2 z j) + s) (ValueKeepdims.colSum_at (mulf x x) hr hφ hacc j)

/-- Ten blocks of 10000 consecutive indices are the 100000 indices: if `B s` is the sum of `G` over block `s`, the
    blocks' sums add up to the sum of `G` over everything. -/
theorem blocks_total (G : Fin 100000 → EReal) (B : ℕ → EReal)
    (hB : ∀ (s : ℕ) (hs : s < 10), B s = ∑ r : Fin 10000, G ⟨s * 10000 + r.val, by have := r.isLt; omega⟩) :
    ∑ s ∈ Finset.range 10, B s = ∑ R : Fin 100000, G R := by
  rw [← Fin.sum_univ_eq_sum_range B 10, ← Fin.sum_congr' G (rfl : 10 * 10000 = 100000),
    Cert.Lib.BlockSum.sum_blocks 10 10000 (fun i => G (Fin.cast rfl i))]
  refine Finset.sum_congr rfl fun s _ => (hB s.val s.isLt).trans ?_
  exact Finset.sum_congr rfl fun r _ => congrArg G (Fin.ext rfl)

/-- If `B s` is the sum of column `j` over rows `10000 s … 10000 s + 9999` of a 100000 × 64 matrix, the ten `B s` add up
    to the matrix's column sum at `j`. -/
theorem colSum_of_blocks (Y : Cert.Spec.Mat 100000 64) (B : ℕ → EReal) (z : Fin 1) (j : Fin 64)
    (hB : ∀ (s : ℕ) (hs : s < 10),
      B s = ∑ r : Fin 10000, Y (ix2 (⟨s * 10000 + r.val, by have := r.isLt; omega⟩ : Fin 100000) j)) :
    ∑ s ∈ Finset.range 10, B s = Cert.Spec.colSum Y (ix2 z j) :=
  blocks_total (fun R => Y (ix2 R j)) B hB

/-- The same for the squares. -/
theorem colSumSq_of_blocks (Y : Cert.Spec.Mat 100000 64) (B : ℕ → EReal) (z : Fin 1) (j : Fin 64)
    (hB : ∀ (s : ℕ) (hs : s < 10),
      B s = ∑ r : Fin 10000, Y (ix2 (⟨s * 10000 + r.val, by have := r.isLt; omega⟩ : Fin 100000) j)
        * Y (ix2 (⟨s * 10000 + r.val, by have := r.isLt; omega⟩ : Fin 100000) j)) :
    ∑ s ∈ Finset.range 10, B s = Cert.Spec.colSumSq Y (ix2 z j) :=
  blocks_total (fun R => Y (ix2 R j) * Y (ix2 R j)) B hB

end Cert.KernelIdeal.KVal

end
-- ==== Proof.KStats1.lean ====
/-
  What the statistics kernel of region 1 leaves in its two result rows.

  The kernel visits ten blocks of 10000 rows of a 100000 × 64 matrix `y`. At the first block it zeroes its two rows;
  at every block it adds the block's column sums to the first row and the column sums of the block's squares to the
  second. Both rows are kept from one block to the next and written back after the last one. So after block `n` the
  first row holds, at column `j`, the sum over the blocks `s ≤ n` of `∑ᵣ y(10000 s + r, j)` — by induction on `n`, the
  zero word being `0` and `0 + a = a` — and after the last block the ten block sums are the one sum over all 100000
  rows: the column sum of `y`. Likewise for the squares. No finiteness is used: addition on the extended reals is
  commutative and associative.
-/
import proofs.«142526_j3951369912896_1_alg».proof.Proof.Gen.KernelIdeal.Frame
import proofs.«142526_j3951369912896_1_alg».proof.Proof.Spec
import proofs.«142526_j3951369912896_1_alg».proof.Proof.KStatsLib
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

/-! ## What one visit leaves in each row, for any float instance -/

section Pieces

variable {F : FTy → Type} [FloatOps F]
variable (V : (c : Dev nD) → (b : Ref sig .tc) → Buf (Elt F) ((c : Thread nD τ).loc b))

/-- A later visit leaves, in the first row holding `xo1`, the accumulation step of the block `x` onto `xo1`. -/
theorem out1_B_1_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz2]
  simp only [View.readAt_eq_ld, h1.read_unread, h2.read_unread, View.ld_unit_zero (S := S10000x64) hz2,
    View.ld_unit_zero (S := S1x64) hz2]

/-- A later visit leaves, in the second row holding `xo2`, the accumulation step of the squares of `x` onto `xo2`. -/
theorem out1_B_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S10000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz2]
  simp only [View.readAt_eq_ld, h1.read_unread, h3.read_unread, View.ld_unit_zero (S := S10000x64) hz2,
    View.ld_unit_zero (S := S1x64) hz2]

/-- The first visit stores the zero row, reads it back, and leaves the accumulation step of `x` onto the zero row. -/
theorem out1_A_1_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The first visit leaves, in the second row, the accumulation step of the squares of `x` onto the zero row. -/
theorem out1_A_2_eq (c : Dev nD) (i : grid1.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S10000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The two rows after the first visit. -/
theorem outs1_zero (c : Dev nD) (hn : 0 < cfg1.N) :
    outsAt1 V c 0 hn
      = (k1_pay4 (iblk1 V c 0 ⟨0, hn⟩) k1_pay1, k1_pay5 (iblk1 V c 0 ⟨0, hn⟩) k1_pay2) := by
  rw [outsAt1_A V c ⟨0, hn⟩ rfl, out1_A_1_eq, out1_A_2_eq]

/-- The two rows after a later visit, from the rows after the visit before. -/
theorem outs1_succ (c : Dev nD) (n : ℕ) (hn : n + 1 < cfg1.N) :
    outsAt1 V c (n + 1) hn
      = (k1_pay4 (iblk1 V c 0 ⟨n + 1, hn⟩) (outsAt1 V c n (Nat.lt_of_succ_lt hn)).1,
         k1_pay5 (iblk1 V c 0 ⟨n + 1, hn⟩) (outsAt1 V c n (Nat.lt_of_succ_lt hn)).2) := by
  have hN : cfg1.N = 10 := N_1
  have hB : ¬(⟨n + 1, hn⟩ : Fin cfg1.N).val % 10 = 0 := by dsimp only; omega
  rw [outsAt1_B V c ⟨n + 1, hn⟩ hB, out1_B_1_eq, out1_B_2_eq]
  rfl

/-! ## The arrays after the region: what the last visit leaves -/

theorem last1 : 9 < cfg1.N := by rw [show cfg1.N = 10 from N_1]; decide

/-- The first row after the last visit, as contents of the first result array. -/
abbrev res1_sum (c : Dev nD) : Buf (Elt F) ((c : Thread nD τ).loc main_v25_0) := (outsAt1 V c 9 last1).1
/-- The second row after the last visit, as contents of the second result array. -/
abbrev res1_sumsq (c : Dev nD) : Buf (Elt F) ((c : Thread nD τ).loc main_v25_1) := (outsAt1 V c 9 last1).2

/-- The one write-back of the first row, after the last visit, writes it: its block is the whole array. -/
theorem flushed1_1_eq (c : Dev nD) (t : Fin cfg1.N) (hf : (cfg1.win 1).flush t = true) :
    (dat1 V c).flushed 1 t = ((cfg1.win 1).blk t).view.read (Elt F) (res1_sum V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have hz' : (fun a => win1_1.index t1_9 a * main_v25_0.ty.shape.size a) = fun _ => 0 :=
    funext fun a => by fin_cases a <;> decide
  exact (Memref.read_access_unit_zero (Elt F) main_v25_0 hz' (fun a => by rw [congrFun hz' a]; simp) (res1_sum V c)).symm

/-- The one write-back of the second row. -/
theorem flushed1_2_eq (c : Dev nD) (t : Fin cfg1.N) (hf : (cfg1.win 2).flush t = true) :
    (dat1 V c).flushed 2 t = ((cfg1.win 2).blk t).view.read (Elt F) (res1_sumsq V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have hz' : (fun a => win1_2.index t1_9 a * main_v25_1.ty.shape.size a) = fun _ => 0 :=
    funext fun a => by fin_cases a <;> decide
  exact (Memref.read_access_unit_zero (Elt F) main_v25_1 hz' (fun a => by rw [congrFun hz' a]; simp) (res1_sumsq V c)).symm

/-- The first result array after the region is the first row after the last visit. -/
theorem arr1_sum (c : Dev nD) : (dat1 V c).arrAt 1 cfg1.N = res1_sum V c :=
  (dat1 V c).arrAt_eq_of_cover 1 (res1_sum V c) (flushed1_1_eq V c) fun i =>
    ⟨t1_9, (flush1_1 t1_9).mpr rfl, by
      show i ∈ ((View.whole main_v25_0).slice (win1_1.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index t1_9 0 * win1_1.size 0 ≤ (i 0 : Nat)
          ∧ (i 0 : Nat) < win1_1.index t1_9 0 * win1_1.size 0 + win1_1.xsize (grid1.coords t1_9) 0
        rw [show win1_1.index t1_9 0 * win1_1.size 0 = 0 from by decide +kernel,
          show win1_1.xsize (grid1.coords t1_9) 0 = 1 from by decide +kernel]; omega
      | ⟨1, _⟩ =>
        show win1_1.index t1_9 1 * win1_1.size 1 ≤ (i 1 : Nat)
          ∧ (i 1 : Nat) < win1_1.index t1_9 1 * win1_1.size 1 + win1_1.xsize (grid1.coords t1_9) 1
        rw [show win1_1.index t1_9 1 * win1_1.size 1 = 0 from by decide +kernel,
          show win1_1.xsize (grid1.coords t1_9) 1 = 64 from by decide +kernel]; omega⟩

/-- The second result array after the region is the second row after the last visit. -/
theorem arr1_sumsq (c : Dev nD) : (dat1 V c).arrAt 2 cfg1.N = res1_sumsq V c :=
  (dat1 V c).arrAt_eq_of_cover 2 (res1_sumsq V c) (flushed1_2_eq V c) fun i =>
    ⟨t1_9, (flush1_2 t1_9).mpr rfl, by
      show i ∈ ((View.whole main_v25_1).slice (win1_2.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]; omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 64 from by decide +kernel]; omega⟩

end Pieces

/-! ## The rows on the extended reals -/

section Value

variable (V : (c : Dev nD) → (b : Ref sig .tc) → Buf (Elt Ideal) ((c : Thread nD τ).loc b))

/-- The accumulation step of the sums at column `j`. -/
theorem pay4_1_apply (x : Vec Ideal S10000x64 .f32) (acc : Vec Ideal S1x64 .f32) (z : Fin 1) (j : Fin 64) :
    k1_pay4 (F := Ideal) x acc (ix2 z j) = acc (ix2 z j) + blockColSum x j := by
  unfold k1_pay4 k1_pay3
  exact acc_colsum_apply x acc _ _ _ _ _ _ z j

/-- The accumulation step of the sums of squares at column `j`. -/
theorem pay5_1_apply (x : Vec Ideal S10000x64 .f32) (acc : Vec Ideal S1x64 .f32) (z : Fin 1) (j : Fin 64) :
    k1_pay5 (F := Ideal) x acc (ix2 z j) = acc (ix2 z j) + blockColSumSq x j := by
  unfold k1_pay5 k1_pay3
  exact acc_colsumsq_apply x acc _ _ _ _ _ _ z j

/-- The zero rows read `0`. -/
theorem pay1_1_apply (i : S1x64.Idx) : k1_pay1 (F := Ideal) i = 0 := zero_row_apply i
theorem pay2_1_apply (i : S1x64.Idx) : k1_pay2 (F := Ideal) i = 0 := zero_row_apply i

/-- Where the input window's block sits in its array: block `t` starts at row `10000 t`, column 0. -/
theorem idx1_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `r` of the block of visit `t` is row `10000 t + r` of the matrix. -/
theorem blk1_apply (c : Dev nD) (t : Fin cfg1.N) (r : Fin 10000) (j : Fin 64) (R' : Fin 100000)
    (hR : R'.val = t.val * 10000 + r.val) :
    (iblk1 V c 0 t : Vec Ideal S10000x64 .f32) (ix2 r j)
      = (V c (Pipeline.arrRef spec1 0) : Cert.Spec.Mat 100000 64) (ix2 R' j) := by
  unfold iblk1
  rw [View.read_apply]
  show V c (Pipeline.arrRef spec1 0) _ = V c (Pipeline.arrRef spec1 0) _
  congr 1
  funext a
  apply Fin.ext
  match a with
  | ⟨0, _⟩ =>
    show win1_0.index t 0 * 10000 + 1 * r.val = R'.val
    rw [(idx1_facts t).1, hR]; omega
  | ⟨1, _⟩ =>
    show win1_0.index t 1 * 64 + 1 * j.val = j.val
    rw [(idx1_facts t).2]; omega

/-- The column sums of the block of visit `s` (zero past the grid). -/
def part1 (c : Dev nD) (s : ℕ) (j : Fin 64) : EReal :=
  if h : s < cfg1.N then blockColSum (iblk1 V c 0 ⟨s, h⟩) j else 0

/-- The column sums of the squares of the block of visit `s` (zero past the grid). -/
def partsq1 (c : Dev nD) (s : ℕ) (j : Fin 64) : EReal :=
  if h : s < cfg1.N then blockColSumSq (iblk1 V c 0 ⟨s, h⟩) j else 0

/-- After visit `n` the first row holds the sum of the column sums of the blocks visited so far. -/
theorem outs1_fst (c : Dev nD) : ∀ (n : ℕ) (hn : n < cfg1.N) (z : Fin 1) (j : Fin 64),
    ((outsAt1 V c n hn).1 : Vec Ideal S1x64 .f32) (ix2 z j) = ∑ s ∈ Finset.range (n + 1), part1 V c s j
  | 0, hn, z, j => by
    rw [outs1_zero V c hn]
    show k1_pay4 (F := Ideal) (iblk1 V c 0 ⟨0, hn⟩) (k1_pay1 (F := Ideal)) (ix2 z j) = _
    rw [pay4_1_apply, pay1_1_apply, zero_add, Finset.sum_range_one, part1, dif_pos hn]
  | n + 1, hn, z, j => by
    rw [outs1_succ V c n hn]
    show k1_pay4 (F := Ideal) (iblk1 V c 0 ⟨n + 1, hn⟩) (outsAt1 V c n (Nat.lt_of_succ_lt hn)).1 (ix2 z j) = _
    rw [pay4_1_apply, outs1_fst c n (Nat.lt_of_succ_lt hn) z j, Finset.sum_range_succ _ (n + 1)]
    congr 1
    rw [part1, dif_pos hn]

/-- After visit `n` the second row holds the sum of the column sums of squares of the blocks visited so far. -/
theorem outs1_snd (c : Dev nD) : ∀ (n : ℕ) (hn : n < cfg1.N) (z : Fin 1) (j : Fin 64),
    ((outsAt1 V c n hn).2 : Vec Ideal S1x64 .f32) (ix2 z j) = ∑ s ∈ Finset.range (n + 1), partsq1 V c s j
  | 0, hn, z, j => by
    rw [outs1_zero V c hn]
    show k1_pay5 (F := Ideal) (iblk1 V c 0 ⟨0, hn⟩) (k1_pay2 (F := Ideal)) (ix2 z j) = _
    rw [pay5_1_apply, pay2_1_apply, zero_add, Finset.sum_range_one, partsq1, dif_pos hn]
  | n + 1, hn, z, j => by
    rw [outs1_succ V c n hn]
    show k1_pay5 (F := Ideal) (iblk1 V c 0 ⟨n + 1, hn⟩) (outsAt1 V c n (Nat.lt_of_succ_lt hn)).2 (ix2 z j) = _
    rw [pay5_1_apply, outs1_snd c n (Nat.lt_of_succ_lt hn) z j, Finset.sum_range_succ _ (n + 1)]
    congr 1
    rw [partsq1, dif_pos hn]

/-- The first result array after the region: the column sums of the input matrix. -/
theorem final1_sum (c : Dev nD) :
    ((dat1 (F := Ideal) V c).arrAt 1 cfg1.N : S1x64.Idx → EReal)
      = Cert.Spec.colSum (n := 100000) (V c (Pipeline.arrRef spec1 0)) := by
  rw [arr1_sum V c]
  funext i
  obtain ⟨z, j, rfl⟩ : ∃ (z : Fin 1) (j : Fin 64), i = ix2 z j := ⟨i 0, i 1, eq_ix2 i⟩
  have hN : cfg1.N = 10 := N_1
  refine (outs1_fst V c 9 last1 z j).trans ?_
  refine colSum_of_blocks (V c (Pipeline.arrRef spec1 0)) (fun s => part1 V c s j) z j fun s hs => ?_
  rw [part1, dif_pos (by omega : s < cfg1.N), blockColSum]
  exact Finset.sum_congr rfl fun r _ => blk1_apply V c ⟨s, by omega⟩ r j _ rfl

/-- The second result array after the region: the column sums of the squares of the input matrix. -/
theorem final1_sumsq (c : Dev nD) :
    ((dat1 (F := Ideal) V c).arrAt 2 cfg1.N : S1x64.Idx → EReal)
      = Cert.Spec.colSumSq (n := 100000) (V c (Pipeline.arrRef spec1 0)) := by
  rw [arr1_sumsq V c]
  funext i
  obtain ⟨z, j, rfl⟩ : ∃ (z : Fin 1) (j : Fin 64), i = ix2 z j := ⟨i 0, i 1, eq_ix2 i⟩
  have hN : cfg1.N = 10 := N_1
  refine (outs1_snd V c 9 last1 z j).trans ?_
  refine colSumSq_of_blocks (V c (Pipeline.arrRef spec1 0)) (fun s => partsq1 V c s j) z j fun s hs => ?_
  rw [partsq1, dif_pos (by omega : s < cfg1.N), blockColSumSq]
  exact Finset.sum_congr rfl fun r _ =>
    congrArg₂ (fun a b : EReal => a * b) (blk1_apply V c ⟨s, by omega⟩ r j _ rfl)
      (blk1_apply V c ⟨s, by omega⟩ r j _ rfl)

end Value

end Cert.KernelIdeal.KVal

end
-- ==== Proof.KBnEntry.lean ====
/-
  Batch normalisation followed by the clip at zero, on the vector unit, read at one entry of its result.

  On a block of `M` rows `y`, with the per-column mean, variance, scale `γ` and shift `β` given as single rows
  repeated over the block's rows, the body computes `max(γ · (y − mean) · rsqrt(var + ε) + β, 0)` entry by entry.
  Entry `(p, q)` reads `y(p, q)` and column `q` of the four rows, whatever `M` is.
-/
import proofs.«142526_j3951369912896_1_alg».proof.Proof.Spec
import Idealize.ShloMosaic.Lib.ValueLayout

noncomputable section

namespace Cert.KernelIdeal.KVal

open Idealize.ShloMosaic Idealize.ShloMosaic.ValueIdx

variable {M : ℕ}

/-- Entry `(p, q)` of the normalised, shifted and clipped block. -/
theorem bn_entry (y : FVec Ideal ⟨2, ![M, 64]⟩ .f32) (var gamma mean beta : FVec Ideal ⟨2, ![1, 64]⟩ .f32)
    (hb : (⟨2, ![1, 64]⟩ : Shape).Broadcasts ⟨2, ![M, 64]⟩) (p : Fin M) (q : Fin 64) :
    maximumf
        (addf
          (mulf (mulf (broadcastTo ⟨2, ![M, 64]⟩ gamma hb) (subf y (broadcastTo ⟨2, ![M, 64]⟩ mean hb)))
            (broadcastTo ⟨2, ![M, 64]⟩
              (rsqrt (addf var (broadcast ⟨2, ![1, 64]⟩ (Scalar.ofBits (F := Ideal) .f32 0x3727C5AC#32)))) hb))
          (broadcastTo ⟨2, ![M, 64]⟩ beta hb))
        (broadcast ⟨2, ![M, 64]⟩ (Scalar.ofBits (F := Ideal) .f32 0x00000000#32)) (ix2 p q)
      = max (gamma (ix2 0 q) * (y (ix2 p q) - mean (ix2 0 q)) * Ideal.rsqrt (var (ix2 0 q) + Cert.Spec.eps32)
          + beta (ix2 0 q)) Cert.Spec.zero32 := by
  rw [maximumf_apply, addf_apply, mulf_apply, mulf_apply, subf_apply, broadcast_apply]
  simp only [broadcastTo_1b_ab_apply]
  rfl

end Cert.KernelIdeal.KVal

end
-- ==== Proof.KBn2.lean ====
/-
  The value of a layer's normalisation kernel, as one function of the arrays it is given.

  The kernel walks the 100000 node rows in 10 blocks of 10000. At block `t` it reads rows `10000·t … 10000·t + 9999`
  of the perceptron's result `y` and the whole of four single rows — the batch mean, the batch variance, the scale `γ`
  and the shift `β` — and writes the same rows of its result, `max(γ · (y − mean) · rsqrt(var + ε) + β, 0)` entry by
  entry. An entry of the result reads its own entry of `y` and its own column of the four rows, so the ten blocks
  tile the rows and the result array is the specification's `bnOut` of the five arrays as the kernel finds them.
-/
import proofs.«142526_j3951369912896_1_alg».proof.Proof.Gen.KernelIdeal.Frame
import proofs.«142526_j3951369912896_1_alg».proof.Proof.KBnEntry
import Idealize.ShloMosaic.Lib.Pipeline.Value

noncomputable section

namespace Cert.KernelIdeal.KVal.Bn2

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five blocks it loaded (in the order the body names them: the
    rows, the variance, the scale, the mean, the shift). -/
theorem pay_entry (y : Vec Ideal S10000x64 .f32) (var gamma mean beta : Vec Ideal S1x64 .f32) (p : Fin 10000) (q : Fin 64) :
    k2_pay1 (F := Ideal) y var gamma mean beta (ix2 p q)
      = max (gamma (ix2 0 q) * (y (ix2 p q) - mean (ix2 0 q)) * Ideal.rsqrt (var (ix2 0 q) + Cert.Spec.eps32)
          + beta (ix2 0 q)) Cert.Spec.zero32 := by
  unfold k2_pay1
  simp only [shapeCast_self]
  exact bn_entry y var gamma mean beta _ p q

/-- The same entry when the loaded row block is rows of a whole array (entry `(p, q)` of the block is entry `(r, q)`
    of `Y`) and the four small blocks are the whole rows. -/
theorem block_entry (Y : S100000x64.Idx → EReal) (Mn Vr Gm Bt : S1x64.Idx → EReal)
    (x0 : Vec Ideal S10000x64 .f32) (x1 x2 x3 x4 : Vec Ideal S1x64 .f32) (p : Fin 10000) (q : Fin 64) (r : Fin 100000)
    (h0 : x0 (ix2 p q) = Y (ix2 r q)) (h1 : x1 = Mn) (h2 : x2 = Vr) (h3 : x3 = Gm) (h4 : x4 = Bt) :
    k2_pay1 (F := Ideal) x0 x2 x3 x1 x4 (ix2 p q) = Cert.Spec.bnOut Y Mn Vr Gm Bt (ix2 r q) := by
  subst h1 h2 h3 h4
  rw [pay_entry, h0]
  rfl

/-- Where each window's block sits at grid point `t`, decided over the ten points: the row-block input and the output
    at block row `t`, the four single rows at their one block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The normalisation on the five arrays as the kernel finds them: the rows, then the mean, the variance, the scale
    and the shift. -/
abbrev whole (c : Dev nD) : S100000x64.Idx → EReal :=
  Cert.Spec.bnOut (n := 100000) (V c (Pipeline.arrRef spec2 0)) (V c (Pipeline.arrRef spec2 1)) (V c (Pipeline.arrRef spec2 2))
    (V c (Pipeline.arrRef spec2 3)) (V c (Pipeline.arrRef spec2 4))

/-- Single-row input 1's one block is its whole array. -/
theorem small_block1 (c : Dev nD) (t : Fin cfg2.N) :
    (iblk2 V c 1 t : Vec Ideal S1x64 .f32) = V c (Pipeline.arrRef spec2 1) := by
  have e0 : win2_1.index t (0 : Fin 2) = 0 := (block_index t).2.2.1
  have e1 : win2_1.index t (1 : Fin 2) = 0 := (block_index t).2.2.2.1
  funext y
  show V c (Pipeline.arrRef spec2 1) (((cfg2.win 1).blk t).view.emb y) = V c (Pipeline.arrRef spec2 1) y
  refine congrArg (V c (Pipeline.arrRef spec2 1)) (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega

/-- Single-row input 2's one block is its whole array. -/
theorem small_block2 (c : Dev nD) (t : Fin cfg2.N) :
    (iblk2 V c 2 t : Vec Ideal S1x64 .f32) = V c (Pipeline.arrRef spec2 2) := by
  have e0 : win2_2.index t (0 : Fin 2) = 0 := (block_index t).2.2.2.2.1
  have e1 : win2_2.index t (1 : Fin 2) = 0 := (block_index t).2.2.2.2.2.1
  funext y
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- Single-row input 3's one block is its whole array. -/
theorem small_block3 (c : Dev nD) (t : Fin cfg2.N) :
    (iblk2 V c 3 t : Vec Ideal S1x64 .f32) = V c (Pipeline.arrRef spec2 3) := by
  have e0 : win2_3.index t (0 : Fin 2) = 0 := (block_index t).2.2.2.2.2.2.1
  have e1 : win2_3.index t (1 : Fin 2) = 0 := (block_index t).2.2.2.2.2.2.2.1
  funext y
  show V c (Pipeline.arrRef spec2 3) (((cfg2.win 3).blk t).view.emb y) = V c (Pipeline.arrRef spec2 3) y
  refine congrArg (V c (Pipeline.arrRef spec2 3)) (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-- Single-row input 4's one block is its whole array. -/
theorem small_block4 (c : Dev nD) (t : Fin cfg2.N) :
    (iblk2 V c 4 t : Vec Ideal S1x64 .f32) = V c (Pipeline.arrRef spec2 4) := by
  have e0 : win2_4.index t (0 : Fin 2) = 0 := (block_index t).2.2.2.2.2.2.2.2.1
  have e1 : win2_4.index t (1 : Fin 2) = 0 := (block_index t).2.2.2.2.2.2.2.2.2.1
  funext y
  show V c (Pipeline.arrRef spec2 4) (((cfg2.win 4).blk t).view.emb y) = V c (Pipeline.arrRef spec2 4) y
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Entry `(p, q)` of the row-block input at point `t` is entry `(10000·t + p, q)` of its array. -/
theorem row_block (c : Dev nD) (t : Fin cfg2.N) (p : Fin 10000) (q : Fin 64) (r : Fin 100000) (hr : r.val = t.val * 10000 + p.val) :
    (iblk2 V c 0 t : Vec Ideal S10000x64 .f32) (ix2 p q) = (V c (Pipeline.arrRef spec2 0) : S100000x64.Idx → EReal) (ix2 r q) := by
  obtain ⟨e00, e01, -⟩ := block_index t
  show V c (Pipeline.arrRef spec2 0) (((cfg2.win 0).blk t).view.emb (ix2 p q)) = V c (Pipeline.arrRef spec2 0) (ix2 r q)
  refine congrArg (V c (Pipeline.arrRef spec2 0)) (funext fun a => Fin.ext ?_)
  match a with
  | ⟨0, _⟩ => show win2_0.index t (0 : Fin 2) * 10000 + 1 * p.val = r.val; rw [e00, hr]; omega
  | ⟨1, _⟩ => show win2_0.index t (1 : Fin 2) * 64 + 1 * q.val = q.val; rw [e01]; omega

/-- What grid point `t` writes back is block `t` of the whole-array normalisation. -/
theorem flushed_eq (c : Dev nD) (t : Fin cfg2.N) :
    (dat2 (F := Ideal) V c).flushed 5 t = ((cfg2.win 5).blk t).view.read (Elt Ideal) (whole V c) := by
  show (cfg2.win 5).cut (grid2.coords t) ((dat2 (F := Ideal) V c).after 5 t) = _
  rw [after2_5]
  unfold out2_5
  rw [View.canon_unit_zero zero_offsets]
  simp only [View.ld_unit_zero (S := S10000x64) zero_offsets, View.ld_unit_zero (S := S1x64) zero_offsets]
  obtain ⟨-, -, -, -, -, -, -, -, -, -, e50, e51⟩ := block_index t
  have hN : cfg2.N = 10 := N_2
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg2.win 5).blk t).view.emb (ix2 p q) = ix2 r q := by
    funext a; apply Fin.ext
    match a with
    | ⟨0, _⟩ => show win2_5.index t (0 : Fin 2) * 10000 + 1 * p.val = r.val; rw [e50, hr]; omega
    | ⟨1, _⟩ => show win2_5.index t (1 : Fin 2) * 64 + 1 * q.val = q.val; rw [e51]; omega
  show k2_pay1 (F := Ideal) (iblk2 V c 0 t) (iblk2 V c 2 t) (iblk2 V c 3 t) (iblk2 V c 1 t) (iblk2 V c 4 t) (ix2 p q)
    = whole V c (((cfg2.win 5).blk t).view.emb (ix2 p q))
  rw [hemb]
  exact block_entry (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) p q r
    (row_block V c t p q r hr) (small_block1 V c t) (small_block2 V c t) (small_block3 V c t) (small_block4 V c t)

/-- An index of the result array is in point `t`'s block iff each coordinate is in the block's range on its axis. -/
theorem mem_block (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v38).slice (win2_5.rect t)).set ↔ _
  rw [View.set_slice_whole, Rect.mem_set_unit]
  exact Iff.rfl

/-- The ten blocks tile the rows: row `r` is in block `r / 10000`, which is written back. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, -, -, -, -, e50, e51⟩ := block_index t
  refine ⟨t, flush2_5 t, ?_⟩
  rw [mem_block]
  intro a
  match a with
  | ⟨0, _⟩ =>
    show win2_5.index t (0 : Fin 2) * 10000 ≤ (i 0).val ∧ (i 0).val < win2_5.index t (0 : Fin 2) * 10000 + 10000
    rw [e50, ht]; omega
  | ⟨1, _⟩ =>
    show win2_5.index t (1 : Fin 2) * 64 ≤ (i 1).val ∧ (i 1).val < win2_5.index t (1 : Fin 2) * 64 + 64
    rw [e51]; omega

end Cert.KernelIdeal.KVal.Bn2

namespace Cert.KernelIdeal.KVal

open Cert.KernelIdeal Cert.KernelIdeal.Gen
open Idealize.ShloMosaic Idealize.ShloMosaic.TcCoe Idealize.SL.Sem

/-- The normalisation kernel's result array after its run: the specification's `bnOut` of the rows, the mean, the
    variance, the scale and the shift as the kernel finds them (its input windows 0 to 4, in that order). -/
theorem final2 (V : (c : Dev nD) → (b : Ref sig .tc) → Buf (Elt Ideal) ((c : Thread nD τ).loc b)) (c : Dev nD) :
    (dat2 (F := Ideal) V c).arrAt 5 cfg2.N
      = Cert.Spec.bnOut (n := 100000) (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 (Bn2.whole V c) (fun t _ => Bn2.flushed_eq V c t) Bn2.cover

end Cert.KernelIdeal.KVal

end
-- ==== Proof.KMlp3.lean ====
/-
  The value of a layer's perceptron kernel, as one function of the arrays it is given.

  The kernel walks the 100000 node rows in 10 blocks of 10000. At block `t` it reads rows `10000·t … 10000·t + 9999`
  of the features and of the neighbour sums, and the whole of the two weight matrices and the two bias rows, and
  writes the same rows of its result: `relu((x + agg) · W₁ + b₁) · W₂ + b₂` on those rows. An entry of the result
  depends on its own row only, so row `10000·t + p` of the result is the row formula on row `10000·t + p` of the
  operands, whatever the block: the ten blocks tile the rows, and the result array is the specification's `mlpOut`
  of the six arrays as the kernel finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Mlp3

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the six blocks it loaded: the row formula on row `p` of the sum of
    the first two. -/
theorem pay_entry (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k3_pay1 (F := Ideal) x0 x1 x2 x3 x4 x5 (ix2 p q)
      = Cert.Spec.mlpRow (fun k => x0 (ix2 p k) + x1 (ix2 p k)) x2 x3 x4 x5 q := by
  unfold k3_pay1
  simp only [shapeCast_self]
  exact mlp_entry (addf x0 x1) x2 x3 x4 x5 _ _ _ p q

/-- The same entry when the loaded blocks are rows of whole arrays: rows `p` of the two row blocks are rows `r` of
    `A0` and `A1`, and the four small blocks are the whole small arrays. -/
theorem block_entry (A0 A1 : S100000x64.Idx → EReal) (W1 : S64x64.Idx → EReal) (B1 : S1x64.Idx → EReal)
    (W2 : S64x64.Idx → EReal) (B2 : S1x64.Idx → EReal)
    (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) (r : Fin 100000)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k3_pay1 (F := Ideal) x0 x1 x2 x3 x4 x5 (ix2 p q) = Cert.Spec.mlpOut A0 A1 W1 B1 W2 B2 (ix2 r q) := by
  subst h2 h3 h4 h5
  rw [pay_entry]
  simp only [h0, h1]
  rfl

/-- Where each window's block sits at grid point `t`, decided over the ten points: the two row-block inputs and the
    output at block row `t`, the four small inputs at their one block. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The layer's perceptron on the six arrays as the kernel finds them. -/
abbrev whole (c : Dev nD) : S100000x64.Idx → EReal :=
  Cert.Spec.mlpOut (n := 100000) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-- Small input 2's one block is its whole array. -/
theorem small_block2 (c : Dev nD) (t : Fin cfg3.N) :
    (iblk3 V c 2 t : Vec Ideal S64x64 .f32) = V c (Pipeline.arrRef spec3 2) := by
  have e0 : win3_2.index t (0 : Fin 2) = 0 := (block_index t).2.2.2.2.1
  have e1 : win3_2.index t (1 : Fin 2) = 0 := (block_index t).2.2.2.2.2.1
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 64 + 1 * (y 0).val = (y 0).val; rw [e0]; omega
  | ⟨1, _⟩ => show win3_2.index t (1 : Fin 2) * 64 + 1 * (y 1).val = (y 1).val; rw [e1]; omega

/-- Small input 3's one block is its whole array. -/
theorem small_block3 (c : Dev nD) (t : Fin cfg3.N) :
    (iblk3 V c 3 t : Vec Ideal S1x64 .f32) = V c (Pipeline.arrRef spec3 3) := by
  have e0 : win3_3.index t (0 : Fin 2) = 0 := (block_index t).2.2.2.2.2.2.1
  have e1 : win3_3.index t (1 : Fin 2) = 0 := (block_index t).2.2.2.2.2.2.2.1
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- Small input 4's one block is its whole array. -/
theorem small_block4 (c : Dev nD) (t : Fin cfg3.N) :
    (iblk3 V c 4 t : Vec Ideal S64x64 .f32) = V c (Pipeline.arrRef spec3 4) := by
  have e0 : win3_4.index t (0 : Fin 2) = 0 := (block_index t).2.2.2.2.2.2.2.2.1
  have e1 : win3_4.index t (1 : Fin 2) = 0 := (block_index t).2.2.2.2.2.2.2.2.2.1
  funext y
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 64 + 1 * (y 0).val = (y 0).val; rw [e0]; omega
  | ⟨1, _⟩ => show win3_4.index t (1 : Fin 2) * 64 + 1 * (y 1).val = (y 1).val; rw [e1]; omega

/-- Small input 5's one block is its whole array. -/
theorem small_block5 (c : Dev nD) (t : Fin cfg3.N) :
    (iblk3 V c 5 t : Vec Ideal S1x64 .f32) = V c (Pipeline.arrRef spec3 5) := by
  have e0 : win3_5.index t (0 : Fin 2) = 0 := (block_index t).2.2.2.2.2.2.2.2.2.2.1
  have e1 : win3_5.index t (1 : Fin 2) = 0 := (block_index t).2.2.2.2.2.2.2.2.2.2.2.1
  funext y
  show V c (Pipeline.arrRef spec3 5) (((cfg3.win 5).blk t).view.emb y) = V c (Pipeline.arrRef spec3 5) y
  refine congrArg (V c (Pipeline.arrRef spec3 5)) (funext fun a => Fin.ext ?_)
  match a with
  | ⟨0, _⟩ => show win3_5.index t (0 : Fin 2) * 1 + 1 * (y 0).val = (y 0).val; rw [e0]; omega
  | ⟨1, _⟩ => show win3_5.index t (1 : Fin 2) * 64 + 1 * (y 1).val = (y 1).val; rw [e1]; omega

/-- Row `p` of row-block input 0 at point `t` is row `10000·t + p` of its array. -/
theorem row_block0 (c : Dev nD) (t : Fin cfg3.N) (p : Fin 10000) (r : Fin 100000) (hr : r.val = t.val * 10000 + p.val) (k : Fin 64) :
    (iblk3 V c 0 t : Vec Ideal S10000x64 .f32) (ix2 p k) = (V c (Pipeline.arrRef spec3 0) : S100000x64.Idx → EReal) (ix2 r k) := by
  have e0 : win3_0.index t (0 : Fin 2) = t.val := (block_index t).1
  have e1 : win3_0.index t (1 : Fin 2) = 0 := (block_index t).2.1
  show V c (Pipeline.arrRef spec3 0) (((cfg3.win 0).blk t).view.emb (ix2 p k)) = V c (Pipeline.arrRef spec3 0) (ix2 r k)
  refine congrArg (V c (Pipeline.arrRef spec3 0)) (funext fun a => Fin.ext ?_)
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Row `p` of row-block input 1 at point `t` is row `10000·t + p` of its array. -/
theorem row_block1 (c : Dev nD) (t : Fin cfg3.N) (p : Fin 10000) (r : Fin 100000) (hr : r.val = t.val * 10000 + p.val) (k : Fin 64) :
    (iblk3 V c 1 t : Vec Ideal S10000x64 .f32) (ix2 p k) = (V c (Pipeline.arrRef spec3 1) : S100000x64.Idx → EReal) (ix2 r k) := by
  have e0 : win3_1.index t (0 : Fin 2) = t.val := (block_index t).2.2.1
  have e1 : win3_1.index t (1 : Fin 2) = 0 := (block_index t).2.2.2.1
  show V c (Pipeline.arrRef spec3 1) (((cfg3.win 1).blk t).view.emb (ix2 p k)) = V c (Pipeline.arrRef spec3 1) (ix2 r k)
  refine congrArg (V c (Pipeline.arrRef spec3 1)) (funext fun a => Fin.ext ?_)
  match a with
  | ⟨0, _⟩ => show win3_1.index t (0 : Fin 2) * 10000 + 1 * p.val = r.val; rw [e0, hr]; omega
  | ⟨1, _⟩ => show win3_1.index t (1 : Fin 2) * 64 + 1 * k.val = k.val; rw [e1]; omega

/-- What grid point `t` writes back is block `t` of the whole-array perceptron. -/
theorem flushed_eq (c : Dev nD) (t : Fin cfg3.N) :
    (dat3 (F := Ideal) V c).flushed 6 t = ((cfg3.win 6).blk t).view.read (Elt Ideal) (whole V c) := by
  show (cfg3.win 6).cut (grid3.coords t) ((dat3 (F := Ideal) V c).after 6 t) = _
  rw [after3_6]
  unfold out3_6
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, -, -, -, -, -, -, e60, e61⟩ := block_index t
  have hN : cfg3.N = 10 := N_3
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg3.win 6).blk t).view.emb (ix2 p q) = ix2 r q := by
    funext a; apply Fin.ext
    match a with
    | ⟨0, _⟩ => show win3_6.index t (0 : Fin 2) * 10000 + 1 * p.val = r.val; rw [e60, hr]; omega
    | ⟨1, _⟩ => show win3_6.index t (1 : Fin 2) * 64 + 1 * q.val = q.val; rw [e61]; omega
  show k3_pay1 (F := Ideal) (iblk3 V c 0 t) (iblk3 V c 1 t) (iblk3 V c 2 t) (iblk3 V c 3 t) (iblk3 V c 4 t) (iblk3 V c 5 t) (ix2 p q)
    = whole V c (((cfg3.win 6).blk t).view.emb (ix2 p q))
  rw [hemb]
  exact block_entry (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t) p q r
    (fun k => row_block0 V c t p r hr k) (fun k => row_block1 V c t p r hr k)
    (small_block2 V c t) (small_block3 V c t) (small_block4 V c t) (small_block5 V c t)

/-- An index of the result array is in point `t`'s block iff each coordinate is in the block's range on its axis. -/
theorem mem_block (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v59).slice (win3_6.rect t)).set ↔ _
  rw [View.set_slice_whole, Rect.mem_set_unit]
  exact Iff.rfl

/-- The ten blocks tile the rows: row `r` is in block `r / 10000`, which is written back. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, -, -, -, -, -, -, -, -, e60, e61⟩ := block_index t
  refine ⟨t, flush3_6 t, ?_⟩
  rw [mem_block]
  intro a
  match a with
  | ⟨0, _⟩ =>
    show win3_6.index t (0 : Fin 2) * 10000 ≤ (i 0).val ∧ (i 0).val < win3_6.index t (0 : Fin 2) * 10000 + 10000
    rw [e60, ht]; omega
  | ⟨1, _⟩ =>
    show win3_6.index t (1 : Fin 2) * 64 ≤ (i 1).val ∧ (i 1).val < win3_6.index t (1 : Fin 2) * 64 + 64
    rw [e61]; omega

end Cert.KernelIdeal.KVal.Mlp3

namespace Cert.KernelIdeal.KVal

open Cert.KernelIdeal Cert.KernelIdeal.Gen
open Idealize.ShloMosaic Idealize.ShloMosaic.TcCoe Idealize.SL.Sem

/-- The perceptron kernel's result array after its run: the specification's `mlpOut` of the six arrays as the kernel
    finds them. -/
theorem final3 (V : (c : Dev nD) → (b : Ref sig .tc) → Buf (Elt Ideal) ((c : Thread nD τ).loc b)) (c : Dev nD) :
    (dat3 (F := Ideal) V c).arrAt 6 cfg3.N
      = Cert.Spec.mlpOut (n := 100000) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 (Mlp3.whole V c) (fun t _ => Mlp3.flushed_eq V c t) Mlp3.cover

end Cert.KernelIdeal.KVal

end
-- ==== Proof.KStats4.lean ====
/-
  What the statistics kernel of region 4 leaves in its two result rows.

  The kernel visits ten blocks of 10000 rows of a 100000 × 64 matrix `y`. At the first block it zeroes its two rows;
  at every block it adds the block's column sums to the first row and the column sums of the block's squares to the
  second. Both rows are kept from one block to the next and written back after the last one. So after block `n` the
  first row holds, at column `j`, the sum over the blocks `s ≤ n` of `∑ᵣ y(10000 s + r, j)` — by induction on `n`, the
  zero word being `0` and `0 + a = a` — and after the last block the ten block sums are the one sum over all 100000
  rows: the column sum of `y`. Likewise for the squares. No finiteness is used: addition on the extended reals is
  commutative and associative.
-/
import proofs.«142526_j3951369912896_1_alg».proof.Proof.Gen.KernelIdeal.Frame
import proofs.«142526_j3951369912896_1_alg».proof.Proof.Spec
import proofs.«142526_j3951369912896_1_alg».proof.Proof.KStatsLib
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

/-! ## What one visit leaves in each row, for any float instance -/

section Pieces

variable {F : FTy → Type} [FloatOps F]
variable (V : (c : Dev nD) → (b : Ref sig .tc) → Buf (Elt F) ((c : Thread nD τ).loc b))

/-- A later visit leaves, in the first row holding `xo1`, the accumulation step of the block `x` onto `xo1`. -/
theorem out4_B_1_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz2]
  simp only [View.readAt_eq_ld, h1.read_unread, h2.read_unread, View.ld_unit_zero (S := S10000x64) hz2,
    View.ld_unit_zero (S := S1x64) hz2]

/-- A later visit leaves, in the second row holding `xo2`, the accumulation step of the squares of `x` onto `xo2`. -/
theorem out4_B_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S10000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz2]
  simp only [View.readAt_eq_ld, h1.read_unread, h3.read_unread, View.ld_unit_zero (S := S10000x64) hz2,
    View.ld_unit_zero (S := S1x64) hz2]

/-- The first visit stores the zero row, reads it back, and leaves the accumulation step of `x` onto the zero row. -/
theorem out4_A_1_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The first visit leaves, in the second row, the accumulation step of the squares of `x` onto the zero row. -/
theorem out4_A_2_eq (c : Dev nD) (i : grid4.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S10000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The two rows after the first visit. -/
theorem outs4_zero (c : Dev nD) (hn : 0 < cfg4.N) :
    outsAt4 V c 0 hn
      = (k4_pay4 (iblk4 V c 0 ⟨0, hn⟩) k4_pay1, k4_pay5 (iblk4 V c 0 ⟨0, hn⟩) k4_pay2) := by
  rw [outsAt4_A V c ⟨0, hn⟩ rfl, out4_A_1_eq, out4_A_2_eq]

/-- The two rows after a later visit, from the rows after the visit before. -/
theorem outs4_succ (c : Dev nD) (n : ℕ) (hn : n + 1 < cfg4.N) :
    outsAt4 V c (n + 1) hn
      = (k4_pay4 (iblk4 V c 0 ⟨n + 1, hn⟩) (outsAt4 V c n (Nat.lt_of_succ_lt hn)).1,
         k4_pay5 (iblk4 V c 0 ⟨n + 1, hn⟩) (outsAt4 V c n (Nat.lt_of_succ_lt hn)).2) := by
  have hN : cfg4.N = 10 := N_4
  have hB : ¬(⟨n + 1, hn⟩ : Fin cfg4.N).val % 10 = 0 := by dsimp only; omega
  rw [outsAt4_B V c ⟨n + 1, hn⟩ hB, out4_B_1_eq, out4_B_2_eq]
  rfl

/-! ## The arrays after the region: what the last visit leaves -/

theorem last4 : 9 < cfg4.N := by rw [show cfg4.N = 10 from N_4]; decide

/-- The first row after the last visit, as contents of the first result array. -/
abbrev res4_sum (c : Dev nD) : Buf (Elt F) ((c : Thread nD τ).loc main_v60_0) := (outsAt4 V c 9 last4).1
/-- The second row after the last visit, as contents of the second result array. -/
abbrev res4_sumsq (c : Dev nD) : Buf (Elt F) ((c : Thread nD τ).loc main_v60_1) := (outsAt4 V c 9 last4).2

/-- The one write-back of the first row, after the last visit, writes it: its block is the whole array. -/
theorem flushed4_1_eq (c : Dev nD) (t : Fin cfg4.N) (hf : (cfg4.win 1).flush t = true) :
    (dat4 V c).flushed 1 t = ((cfg4.win 1).blk t).view.read (Elt F) (res4_sum V c) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1]
  have hz' : (fun a => win4_1.index t4_9 a * main_v60_0.ty.shape.size a) = fun _ => 0 :=
    funext fun a => by fin_cases a <;> decide
  exact (Memref.read_access_unit_zero (Elt F) main_v60_0 hz' (fun a => by rw [congrFun hz' a]; simp) (res4_sum V c)).symm

/-- The one write-back of the second row. -/
theorem flushed4_2_eq (c : Dev nD) (t : Fin cfg4.N) (hf : (cfg4.win 2).flush t = true) :
    (dat4 V c).flushed 2 t = ((cfg4.win 2).blk t).view.read (Elt F) (res4_sumsq V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v60_1.ty.shape.size a) = fun _ => 0 :=
    funext fun a => by fin_cases a <;> decide
  exact (Memref.read_access_unit_zero (Elt F) main_v60_1 hz' (fun a => by rw [congrFun hz' a]; simp) (res4_sumsq V c)).symm

/-- The first result array after the region is the first row after the last visit. -/
theorem arr4_sum (c : Dev nD) : (dat4 V c).arrAt 1 cfg4.N = res4_sum V c :=
  (dat4 V c).arrAt_eq_of_cover 1 (res4_sum V c) (flushed4_1_eq V c) fun i =>
    ⟨t4_9, (flush4_1 t4_9).mpr rfl, by
      show i ∈ ((View.whole main_v60_0).slice (win4_1.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_1.index t4_9 0 * win4_1.size 0 ≤ (i 0 : Nat)
          ∧ (i 0 : Nat) < win4_1.index t4_9 0 * win4_1.size 0 + win4_1.xsize (grid4.coords t4_9) 0
        rw [show win4_1.index t4_9 0 * win4_1.size 0 = 0 from by decide +kernel,
          show win4_1.xsize (grid4.coords t4_9) 0 = 1 from by decide +kernel]; omega
      | ⟨1, _⟩ =>
        show win4_1.index t4_9 1 * win4_1.size 1 ≤ (i 1 : Nat)
          ∧ (i 1 : Nat) < win4_1.index t4_9 1 * win4_1.size 1 + win4_1.xsize (grid4.coords t4_9) 1
        rw [show win4_1.index t4_9 1 * win4_1.size 1 = 0 from by decide +kernel,
          show win4_1.xsize (grid4.coords t4_9) 1 = 64 from by decide +kernel]; omega⟩

/-- The second result array after the region is the second row after the last visit. -/
theorem arr4_sumsq (c : Dev nD) : (dat4 V c).arrAt 2 cfg4.N = res4_sumsq V c :=
  (dat4 V c).arrAt_eq_of_cover 2 (res4_sumsq V c) (flushed4_2_eq V c) fun i =>
    ⟨t4_9, (flush4_2 t4_9).mpr rfl, by
      show i ∈ ((View.whole main_v60_1).slice (win4_2.rect t4_9)).set
      rw [View.set_slice_whole, Rect.mem_set_unit]
      intro a
      have h0 : (i 0 : Nat) < 1 := (i 0).isLt
      have h1 : (i 1 : Nat) < 64 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 1 from by decide +kernel]; omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 64 from by decide +kernel]; omega⟩

end Pieces

/-! ## The rows on the extended reals -/

section Value

variable (V : (c : Dev nD) → (b : Ref sig .tc) → Buf (Elt Ideal) ((c : Thread nD τ).loc b))

/-- The accumulation step of the sums at column `j`. -/
theorem pay4_4_apply (x : Vec Ideal S10000x64 .f32) (acc : Vec Ideal S1x64 .f32) (z : Fin 1) (j : Fin 64) :
    k4_pay4 (F := Ideal) x acc (ix2 z j) = acc (ix2 z j) + blockColSum x j := by
  unfold k4_pay4 k4_pay3
  exact acc_colsum_apply x acc _ _ _ _ _ _ z j

/-- The accumulation step of the sums of squares at column `j`. -/
theorem pay5_4_apply (x : Vec Ideal S10000x64 .f32) (acc : Vec Ideal S1x64 .f32) (z : Fin 1) (j : Fin 64) :
    k4_pay5 (F := Ideal) x acc (ix2 z j) = acc (ix2 z j) + blockColSumSq x j := by
  unfold k4_pay5 k4_pay3
  exact acc_colsumsq_apply x acc _ _ _ _ _ _ z j

/-- The zero rows read `0`. -/
theorem pay1_4_apply (i : S1x64.Idx) : k4_pay1 (F := Ideal) i = 0 := zero_row_apply i
theorem pay2_4_apply (i : S1x64.Idx) : k4_pay2 (F := Ideal) i = 0 := zero_row_apply i

/-- Where the input window's block sits in its array: block `t` starts at row `10000 t`, column 0. -/
theorem idx4_facts : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row `r` of the block of visit `t` is row `10000 t + r` of the matrix. -/
theorem blk4_apply (c : Dev nD) (t : Fin cfg4.N) (r : Fin 10000) (j : Fin 64) (R' : Fin 100000)
    (hR : R'.val = t.val * 10000 + r.val) :
    (iblk4 V c 0 t : Vec Ideal S10000x64 .f32) (ix2 r j)
      = (V c (Pipeline.arrRef spec4 0) : Cert.Spec.Mat 100000 64) (ix2 R' j) := by
  unfold iblk4
  rw [View.read_apply]
  show V c (Pipeline.arrRef spec4 0) _ = V c (Pipeline.arrRef spec4 0) _
  congr 1
  funext a
  apply Fin.ext
  match a with
  | ⟨0, _⟩ =>
    show win4_0.index t 0 * 10000 + 1 * r.val = R'.val
    rw [(idx4_facts t).1, hR]; omega
  | ⟨1, _⟩ =>
    show win4_0.index t 1 * 64 + 1 * j.val = j.val
    rw [(idx4_facts t).2]; omega

/-- The column sums of the block of visit `s` (zero past the grid). -/
def part4 (c : Dev nD) (s : ℕ) (j : Fin 64) : EReal :=
  if h : s < cfg4.N then blockColSum (iblk4 V c 0 ⟨s, h⟩) j else 0

/-- The column sums of the squares of the block of visit `s` (zero past the grid). -/
def partsq4 (c : Dev nD) (s : ℕ) (j : Fin 64) : EReal :=
  if h : s < cfg4.N then blockColSumSq (iblk4 V c 0 ⟨s, h⟩) j else 0

/-- After visit `n` the first row holds the sum of the column sums of the blocks visited so far. -/
theorem outs4_fst (c : Dev nD) : ∀ (n : ℕ) (hn : n < cfg4.N) (z : Fin 1) (j : Fin 64),
    ((outsAt4 V c n hn).1 : Vec Ideal S1x64 .f32) (ix2 z j) = ∑ s ∈ Finset.range (n + 1), part4 V c s j
  | 0, hn, z, j => by
    rw [outs4_zero V c hn]
    show k4_pay4 (F := Ideal) (iblk4 V c 0 ⟨0, hn⟩) (k4_pay1 (F := Ideal)) (ix2 z j) = _
    rw [pay4_4_apply, pay1_4_apply, zero_add, Finset.sum_range_one, part4, dif_pos hn]
  | n + 1, hn, z, j => by
    rw [outs4_succ V c n hn]
    show k4_pay4 (F := Ideal) (iblk4 V c 0 ⟨n + 1, hn⟩) (outsAt4 V c n (Nat.lt_of_succ_lt hn)).1 (ix2 z j) = _
    rw [pay4_4_apply, outs4_fst c n (Nat.lt_of_succ_lt hn) z j, Finset.sum_range_succ _ (n + 1)]
    congr 1
    rw [part4, dif_pos hn]

/-- After visit `n` the second row holds the sum of the column sums of squares of the blocks visited so far. -/
theorem outs4_snd (c : Dev nD) : ∀ (n : ℕ) (hn : n < cfg4.N) (z : Fin 1) (j : Fin 64),
    ((outsAt4 V c n hn).2 : Vec Ideal S1x64 .f32) (ix2 z j) = ∑ s ∈ Finset.range (n + 1), partsq4 V c s j
  | 0, hn, z, j => by
    rw [outs4_zero V c hn]
    show k4_pay5 (F := Ideal) (iblk4 V c 0 ⟨0, hn⟩) (k4_pay2 (F := Ideal)) (ix2 z j) = _
    rw [pay5_4_apply, pay2_4_apply, zero_add, Finset.sum_range_one, partsq4, dif_pos hn]
  | n + 1, hn, z, j => by
    rw [outs4_succ V c n hn]
    show k4_pay5 (F := Ideal) (iblk4 V c 0 ⟨n + 1, hn⟩) (outsAt4 V c n (Nat.lt_of_succ_lt hn)).2 (ix2 z j) = _
    rw [pay5_4_apply, outs4_snd c n (Nat.lt_of_succ_lt hn) z j, Finset.sum_range_succ _ (n + 1)]
    congr 1
    rw [partsq4, dif_pos hn]

/-- The first result array after the region: the column sums of the input matrix. -/
theorem final4_sum (c : Dev nD) :
    ((dat4 (F := Ideal) V c).arrAt 1 cfg4.N : S1x64.Idx → EReal)
      = Cert.Spec.colSum (n := 100000) (V c (Pipeline.arrRef spec4 0)) := by
  rw [arr4_sum V c]
  funext i
  obtain ⟨z, j, rfl⟩ : ∃ (z : Fin 1) (j : Fin 64), i = ix2 z j := ⟨i 0, i 1, eq_ix2 i⟩
  have hN : cfg4.N = 10 := N_4
  refine (outs4_fst V c 9 last4 z j).trans ?_
  refine colSum_of_blocks (V c (Pipeline.arrRef spec4 0)) (fun s => part4 V c s j) z j fun s hs => ?_
  rw [part4, dif_pos (by omega : s < cfg4.N), blockColSum]
  exact Finset.sum_congr rfl fun r _ => blk4_apply V c ⟨s, by omega⟩ r j _ rfl

/-- The second result array after the region: the column sums of the squares of the input matrix. -/
theorem final4_sumsq (c : Dev nD) :
    ((dat4 (F := Ideal) V c).arrAt 2 cfg4.N : S1x64.Idx → EReal)
      = Cert.Spec.colSumSq (n := 100000) (V c (Pipeline.arrRef spec4 0)) := by
  rw [arr4_sumsq V c]
  funext i
  obtain ⟨z, j, rfl⟩ : ∃ (z : Fin 1) (j : Fin 64), i = ix2 z j := ⟨i 0, i 1, eq_ix2 i⟩
  have hN : cfg4.N = 10 := N_4
  refine (outs4_snd V c 9 last4 z j).trans ?_
  refine colSumSq_of_blocks (V c (Pipeline.arrRef spec4 0)) (fun s => partsq4 V c s j) z j fun s hs => ?_
  rw [partsq4, dif_pos (by omega : s < cfg4.N), blockColSumSq]
  exact Finset.sum_congr rfl fun r _ =>
    congrArg₂ (fun a b : EReal => a * b) (blk4_apply V c ⟨s, by omega⟩ r j _ rfl)
      (blk4_apply V c ⟨s, by omega⟩ r j _ rfl)

end Value

end Cert.KernelIdeal.KVal

end
-- ==== Proof.KBn5.lean ====
/-
  The value of a layer's normalisation kernel, as one function of the arrays it is given.

  The kernel walks the 100000 node rows in 10 blocks of 10000. At block `t` it reads rows `10000·t … 10000·t + 9999`
  of the perceptron's result `y` and the whole of four single rows — the batch mean, the batch variance, the scale `γ`
  and the shift `β` — and writes the same rows of its result, `max(γ · (y − mean) · rsqrt(var + ε) + β, 0)` entry by
  entry. An entry of the result reads its own entry of `y` and its own column of the four rows, so the ten blocks
  tile the rows and the result array is the specification's `bnOut` of the five arrays as the kernel finds them.
-/
import proofs.«142526_j3951369912896_1_alg».proof.Proof.Gen.KernelIdeal.Frame
import proofs.«142526_j3951369912896_1_alg».proof.Proof.KBnEntry
import Idealize.ShloMosaic.Lib.Pipeline.Value

noncomputable section

namespace Cert.KernelIdeal.KVal.Bn5

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five blocks it loaded (in the order the body names them: the
    rows, the variance, the scale, the mean, the shift). -/
theorem pay_entry (y : Vec Ideal S10000x64 .f32) (var gamma mean beta : Vec Ideal S1x64 .f32) (p : Fin 10000) (q : Fin 64) :
    k5_pay1 (F := Ideal) y var gamma mean beta (ix2 p q)
      = max (gamma (ix2 0 q) * (y (ix2 p q) - mean (ix2 0 q)) * Ideal.rsqrt (var (ix2 0 q) + Cert.Spec.eps32)
          + beta (ix2 0 q)) Cert.Spec.zero32 := by
  unfold k5_pay1
  simp only [shapeCast_self]
  exact bn_entry y var gamma mean beta _ p q

/-- The same entry when the loaded row block is rows of a whole array (entry `(p, q)` of the block is entry `(r, q)`
    of `Y`) and the four small blocks are the whole rows. -/
theorem block_entry (Y : S100000x64.Idx → EReal) (Mn Vr Gm Bt : S1x64.Idx → EReal)
    (x0 : Vec Ideal S10000x64 .f32) (x1 x2 x3 x4 : Vec Ideal S1x64 .f32) (p : Fin 10000) (q : Fin 64) (r : Fin 100000)
    (h0 : x0 (ix2 p q) = Y (ix2 r q)) (h1 : x1 = Mn) (h2 : x2 = Vr) (h3 : x3 = Gm) (h4 : x4 = Bt) :
    k5_pay1 (F := Ideal) x0 x2 x3 x1 x4 (ix2 p q) = Cert.Spec.bnOut Y Mn Vr Gm Bt (ix2 r q) := by
  subst h1 h2 h3 h4
  rw [pay_entry, h0]
  rfl

/-- Where each window's block sits at grid point `t`, decided over the ten points: the row-block input and the output
    at block row `t`, the four single rows at their one block. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The normalisation on the five arrays as the kernel finds them: the rows, then the mean, the variance, the scale
    and the shift. -/
abbrev whole (c : Dev nD) : S100000x64.Idx → EReal :=
  Cert.Spec.bnOut (n := 100000) (V c (Pipeline.arrRef spec5 0)) (V c (Pipeline.arrRef spec5 1)) (V c (Pipeline.arrRef spec5 2))
    (V c (Pipeline.arrRef spec5 3)) (V c (Pipeline.arrRef spec5 4))

/-- Single-row input 1's one block is its whole array. -/
theorem small_block1 (c : Dev nD) (t : Fin cfg5.N) :
    (iblk5 V c 1 t : Vec Ideal S1x64 .f32) = V c (Pipeline.arrRef spec5 1) := by
  have e0 : win5_1.index t (0 : Fin 2) = 0 := (block_index t).2.2.1
  have e1 : win5_1.index t (1 : Fin 2) = 0 := (block_index t).2.2.2.1
  funext y
  show V c (Pipeline.arrRef spec5 1) (((cfg5.win 1).blk t).view.emb y) = V c (Pipeline.arrRef spec5 1) y
  refine congrArg (V c (Pipeline.arrRef spec5 1)) (funext fun a => Fin.ext ?_)
  match a with
  | ⟨0, _⟩ => show win5_1.index t (0 : Fin 2) * 1 + 1 * (y 0).val = (y 0).val; rw [e0]; omega
  | ⟨1, _⟩ => show win5_1.index t (1 : Fin 2) * 64 + 1 * (y 1).val = (y 1).val; rw [e1]; omega

/-- Single-row input 2's one block is its whole array. -/
theorem small_block2 (c : Dev nD) (t : Fin cfg5.N) :
    (iblk5 V c 2 t : Vec Ideal S1x64 .f32) = V c (Pipeline.arrRef spec5 2) := by
  have e0 : win5_2.index t (0 : Fin 2) = 0 := (block_index t).2.2.2.2.1
  have e1 : win5_2.index t (1 : Fin 2) = 0 := (block_index t).2.2.2.2.2.1
  funext y
  show V c (Pipeline.arrRef spec5 2) (((cfg5.win 2).blk t).view.emb y) = V c (Pipeline.arrRef spec5 2) y
  refine congrArg (V c (Pipeline.arrRef spec5 2)) (funext fun a => Fin.ext ?_)
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- Single-row input 3's one block is its whole array. -/
theorem small_block3 (c : Dev nD) (t : Fin cfg5.N) :
    (iblk5 V c 3 t : Vec Ideal S1x64 .f32) = V c (Pipeline.arrRef spec5 3) := by
  have e0 : win5_3.index t (0 : Fin 2) = 0 := (block_index t).2.2.2.2.2.2.1
  have e1 : win5_3.index t (1 : Fin 2) = 0 := (block_index t).2.2.2.2.2.2.2.1
  funext y
  show V c (Pipeline.arrRef spec5 3) (((cfg5.win 3).blk t).view.emb y) = V c (Pipeline.arrRef spec5 3) y
  refine congrArg (V c (Pipeline.arrRef spec5 3)) (funext fun a => Fin.ext ?_)
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- Single-row input 4's one block is its whole array. -/
theorem small_block4 (c : Dev nD) (t : Fin cfg5.N) :
    (iblk5 V c 4 t : Vec Ideal S1x64 .f32) = V c (Pipeline.arrRef spec5 4) := by
  have e0 : win5_4.index t (0 : Fin 2) = 0 := (block_index t).2.2.2.2.2.2.2.2.1
  have e1 : win5_4.index t (1 : Fin 2) = 0 := (block_index t).2.2.2.2.2.2.2.2.2.1
  funext y
  show V c (Pipeline.arrRef spec5 4) (((cfg5.win 4).blk t).view.emb y) = V c (Pipeline.arrRef spec5 4) y
  refine congrArg (V c (Pipeline.arrRef spec5 4)) (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- Entry `(p, q)` of the row-block input at point `t` is entry `(10000·t + p, q)` of its array. -/
theorem row_block (c : Dev nD) (t : Fin cfg5.N) (p : Fin 10000) (q : Fin 64) (r : Fin 100000) (hr : r.val = t.val * 10000 + p.val) :
    (iblk5 V c 0 t : Vec Ideal S10000x64 .f32) (ix2 p q) = (V c (Pipeline.arrRef spec5 0) : S100000x64.Idx → EReal) (ix2 r q) := by
  obtain ⟨e00, e01, -⟩ := block_index t
  show V c (Pipeline.arrRef spec5 0) (((cfg5.win 0).blk t).view.emb (ix2 p q)) = V c (Pipeline.arrRef spec5 0) (ix2 r q)
  refine congrArg (V c (Pipeline.arrRef spec5 0)) (funext fun a => Fin.ext ?_)
  match a with
  | ⟨0, _⟩ => show win5_0.index t (0 : Fin 2) * 10000 + 1 * p.val = r.val; rw [e00, hr]; omega
  | ⟨1, _⟩ => show win5_0.index t (1 : Fin 2) * 64 + 1 * q.val = q.val; rw [e01]; omega

/-- What grid point `t` writes back is block `t` of the whole-array normalisation. -/
theorem flushed_eq (c : Dev nD) (t : Fin cfg5.N) :
    (dat5 (F := Ideal) V c).flushed 5 t = ((cfg5.win 5).blk t).view.read (Elt Ideal) (whole V c) := by
  show (cfg5.win 5).cut (grid5.coords t) ((dat5 (F := Ideal) V c).after 5 t) = _
  rw [after5_5]
  unfold out5_5
  rw [View.canon_unit_zero zero_offsets]
  simp only [View.ld_unit_zero (S := S10000x64) zero_offsets, View.ld_unit_zero (S := S1x64) zero_offsets]
  obtain ⟨-, -, -, -, -, -, -, -, -, -, e50, e51⟩ := block_index t
  have hN : cfg5.N = 10 := N_5
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg5.win 5).blk t).view.emb (ix2 p q) = ix2 r q := by
    funext a; apply Fin.ext
    match a with
    | ⟨0, _⟩ => show win5_5.index t (0 : Fin 2) * 10000 + 1 * p.val = r.val; rw [e50, hr]; omega
    | ⟨1, _⟩ => show win5_5.index t (1 : Fin 2) * 64 + 1 * q.val = q.val; rw [e51]; omega
  show k5_pay1 (F := Ideal) (iblk5 V c 0 t) (iblk5 V c 2 t) (iblk5 V c 3 t) (iblk5 V c 1 t) (iblk5 V c 4 t) (ix2 p q)
    = whole V c (((cfg5.win 5).blk t).view.emb (ix2 p q))
  rw [hemb]
  exact block_entry (V c (Pipeline.arrRef spec5 0)) (V c (Pipeline.arrRef spec5 1)) (V c (Pipeline.arrRef spec5 2))
    (V c (Pipeline.arrRef spec5 3)) (V c (Pipeline.arrRef spec5 4))
    (iblk5 V c 0 t) (iblk5 V c 1 t) (iblk5 V c 2 t) (iblk5 V c 3 t) (iblk5 V c 4 t) p q r
    (row_block V c t p q r hr) (small_block1 V c t) (small_block2 V c t) (small_block3 V c t) (small_block4 V c t)

/-- An index of the result array is in point `t`'s block iff each coordinate is in the block's range on its axis. -/
theorem mem_block (t : Fin cfg5.N) (i : S100000x64.Idx) :
    i ∈ ((cfg5.win 5).blk t).view.set ↔ ∀ a : Fin 2, win5_5.index t a * S10000x64.size a ≤ (i a).val
      ∧ (i a).val < win5_5.index t a * S10000x64.size a + S10000x64.size a := by
  show i ∈ ((View.whole main_v73).slice (win5_5.rect t)).set ↔ _
  rw [View.set_slice_whole, Rect.mem_set_unit]
  exact Iff.rfl

/-- The ten blocks tile the rows: row `r` is in block `r / 10000`, which is written back. -/
theorem cover (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by omega⟩, rfl⟩
  obtain ⟨-, -, -, -, -, -, -, -, -, -, e50, e51⟩ := block_index t
  refine ⟨t, flush5_5 t, ?_⟩
  rw [mem_block]
  intro a
  match a with
  | ⟨0, _⟩ =>
    show win5_5.index t (0 : Fin 2) * 10000 ≤ (i 0).val ∧ (i 0).val < win5_5.index t (0 : Fin 2) * 10000 + 10000
    rw [e50, ht]; omega
  | ⟨1, _⟩ =>
    show win5_5.index t (1 : Fin 2) * 64 ≤ (i 1).val ∧ (i 1).val < win5_5.index t (1 : Fin 2) * 64 + 64
    rw [e51]; omega

end Cert.KernelIdeal.KVal.Bn5

namespace Cert.KernelIdeal.KVal

open Cert.KernelIdeal Cert.KernelIdeal.Gen
open Idealize.ShloMosaic Idealize.ShloMosaic.TcCoe Idealize.SL.Sem

/-- The normalisation kernel's result array after its run: the specification's `bnOut` of the rows, the mean, the
    variance, the scale and the shift as the kernel finds them (its input windows 0 to 4, in that order). -/
theorem final5 (V : (c : Dev nD) → (b : Ref sig .tc) → Buf (Elt Ideal) ((c : Thread nD τ).loc b)) (c : Dev nD) :
    (dat5 (F := Ideal) V c).arrAt 5 cfg5.N
      = Cert.Spec.bnOut (n := 100000) (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 (Bn5.whole V c) (fun t _ => Bn5.flushed_eq V c t) Bn5.cover

end Cert.KernelIdeal.KVal

end
-- ==== Proof.KMlp6.lean ====
/-
  The value of a layer's perceptron kernel, as one function of the arrays it is given.

  The kernel walks the 100000 node rows in 10 blocks of 10000. At block `t` it reads rows `10000·t … 10000·t + 9999`
  of the features and of the neighbour sums, and the whole of the two weight matrices and the two bias rows, and
  writes the same rows of its result: `relu((x + agg) · W₁ + b₁) · W₂ + b₂` on those rows. An entry of the result
  depends on its own row only, so row `10000·t + p` of the result is the row formula on row `10000·t + p` of the
  operands, whatever the block: the ten blocks tile the rows, and the result array is the specification's `mlpOut`
  of the six arrays as the kernel finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Mlp6

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the six blocks it loaded: the row formula on row `p` of the sum of
    the first two. -/
theorem pay_entry (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k6_pay1 (F := Ideal) x0 x1 x2 x3 x4 x5 (ix2 p q)
      = Cert.Spec.mlpRow (fun k => x0 (ix2 p k) + x1 (ix2 p k)) x2 x3 x4 x5 q := by
  unfold k6_pay1
  simp only [shapeCast_self]
  exact mlp_entry (addf x0 x1) x2 x3 x4 x5 _ _ _ p q

/-- The same entry when the loaded blocks are rows of whole arrays: rows `p` of the two row blocks are rows `r` of
    `A0` and `A1`, and the four small blocks are the whole small arrays. -/
theorem block_entry (A0 A1 : S100000x64.Idx → EReal) (W1 : S64x64.Idx → EReal) (B1 : S1x64.Idx → EReal)
    (W2 : S64x64.Idx → EReal) (B2 : S1x64.Idx → EReal)
    (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) (r : Fin 100000)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k6_pay1 (F := Ideal) x0 x1 x2 x3 x4 x5 (ix2 p q) = Cert.Spec.mlpOut A0 A1 W1 B1 W2 B2 (ix2 r q) := by
  subst h2 h3 h4 h5
  rw [pay_entry]
  simp only [h0, h1]
  rfl

/-- Where each window's block sits at grid point `t`, decided over the ten points: the two row-block inputs and the
    output at block row `t`, the four small inputs at their one block. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The layer's perceptron on the six arrays as the kernel finds them. -/
abbrev whole (c : Dev nD) : S100000x64.Idx → EReal :=
  Cert.Spec.mlpOut (n := 100000) (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))

/-- Small input 2's one block is its whole array. -/
theorem small_block2 (c : Dev nD) (t : Fin cfg6.N) :
    (iblk6 V c 2 t : Vec Ideal S64x64 .f32) = V c (Pipeline.arrRef spec6 2) := by
  have e0 : win6_2.index t (0 : Fin 2) = 0 := (block_index t).2.2.2.2.1
  have e1 : win6_2.index t (1 : Fin 2) = 0 := (block_index t).2.2.2.2.2.1
  funext y
  show V c (Pipeline.arrRef spec6 2) (((cfg6.win 2).blk t).view.emb y) = V c (Pipeline.arrRef spec6 2) y
  refine congrArg (V c (Pipeline.arrRef spec6 2)) (funext fun a => Fin.ext ?_)
  match a with
  | ⟨0, _⟩ => show win6_2.index t (0 : Fin 2) * 64 + 1 * (y 0).val = (y 0).val; rw [e0]; omega
  | ⟨1, _⟩ => show win6_2.index t (1 : Fin 2) * 64 + 1 * (y 1).val = (y 1).val; rw [e1]; omega

/-- Small input 3's one block is its whole array. -/
theorem small_block3 (c : Dev nD) (t : Fin cfg6.N) :
    (iblk6 V c 3 t : Vec Ideal S1x64 .f32) = V c (Pipeline.arrRef spec6 3) := by
  have e0 : win6_3.index t (0 : Fin 2) = 0 := (block_index t).2.2.2.2.2.2.1
  have e1 : win6_3.index t (1 : Fin 2) = 0 := (block_index t).2.2.2.2.2.2.2.1
  funext y
  show V c (Pipeline.arrRef spec6 3) (((cfg6.win 3).blk t).view.emb y) = V c (Pipeline.arrRef spec6 3) y
  refine congrArg (V c (Pipeline.arrRef spec6 3)) (funext fun a => Fin.ext ?_)
  match a with
  | ⟨0, _⟩ => show win6_3.index t (0 : Fin 2) * 1 + 1 * (y 0).val = (y 0).val; rw [e0]; omega
  | ⟨1, _⟩ => show win6_3.index t (1 : Fin 2) * 64 + 1 * (y 1).val = (y 1).val; rw [e1]; omega

/-- Small input 4's one block is its whole array. -/
theorem small_block4 (c : Dev nD) (t : Fin cfg6.N) :
    (iblk6 V c 4 t : Vec Ideal S64x64 .f32) = V c (Pipeline.arrRef spec6 4) := by
  have e0 : win6_4.index t (0 : Fin 2) = 0 := (block_index t).2.2.2.2.2.2.2.2.1
  have e1 : win6_4.index t (1 : Fin 2) = 0 := (block_index t).2.2.2.2.2.2.2.2.2.1
  funext y
  show V c (Pipeline.arrRef spec6 4) (((cfg6.win 4).blk t).view.emb y) = V c (Pipeline.arrRef spec6 4) y
  refine congrArg (V c (Pipeline.arrRef spec6 4)) (funext fun a => Fin.ext ?_)
  match a with
  | ⟨0, _⟩ => show win6_4.index t (0 : Fin 2) * 64 + 1 * (y 0).val = (y 0).val; rw [e0]; omega
  | ⟨1, _⟩ => show win6_4.index t (1 : Fin 2) * 64 + 1 * (y 1).val = (y 1).val; rw [e1]; omega

/-- Small input 5's one block is its whole array. -/
theorem small_block5 (c : Dev nD) (t : Fin cfg6.N) :
    (iblk6 V c 5 t : Vec Ideal S1x64 .f32) = V c (Pipeline.arrRef spec6 5) := by
  have e0 : win6_5.index t (0 : Fin 2) = 0 := (block_index t).2.2.2.2.2.2.2.2.2.2.1
  have e1 : win6_5.index t (1 : Fin 2) = 0 := (block_index t).2.2.2.2.2.2.2.2.2.2.2.1
  funext y
  show V c (Pipeline.arrRef spec6 5) (((cfg6.win 5).blk t).view.emb y) = V c (Pipeline.arrRef spec6 5) y
  refine congrArg (V c (Pipeline.arrRef spec6 5)) (funext fun a => Fin.ext ?_)
  match a with
  | ⟨0, _⟩ => show win6_5.index t (0 : Fin 2) * 1 + 1 * (y 0).val = (y 0).val; rw [e0]; omega
  | ⟨1, _⟩ => show win6_5.index t (1 : Fin 2) * 64 + 1 * (y 1).val = (y 1).val; rw [e1]; omega

/-- Row `p` of row-block input 0 at point `t` is row `10000·t + p` of its array. -/
theorem row_block0 (c : Dev nD) (t : Fin cfg6.N) (p : Fin 10000) (r : Fin 100000) (hr : r.val = t.val * 10000 + p.val) (k : Fin 64) :
    (iblk6 V c 0 t : Vec Ideal S10000x64 .f32) (ix2 p k) = (V c (Pipeline.arrRef spec6 0) : S100000x64.Idx → EReal) (ix2 r k) := by
  have e0 : win6_0.index t (0 : Fin 2) = t.val := (block_index t).1
  have e1 : win6_0.index t (1 : Fin 2) = 0 := (block_index t).2.1
  show V c (Pipeline.arrRef spec6 0) (((cfg6.win 0).blk t).view.emb (ix2 p k)) = V c (Pipeline.arrRef spec6 0) (ix2 r k)
  refine congrArg (V c (Pipeline.arrRef spec6 0)) (funext fun a => Fin.ext ?_)
  match a with
  | ⟨0, _⟩ => show win6_0.index t (0 : Fin 2) * 10000 + 1 * p.val = r.val; rw [e0, hr]; omega
  | ⟨1, _⟩ => show win6_0.index t (1 : Fin 2) * 64 + 1 * k.val = k.val; rw [e1]; omega

/-- Row `p` of row-block input 1 at point `t` is row `10000·t + p` of its array. -/
theorem row_block1 (c : Dev nD) (t : Fin cfg6.N) (p : Fin 10000) (r : Fin 100000) (hr : r.val = t.val * 10000 + p.val) (k : Fin 64) :
    (iblk6 V c 1 t : Vec Ideal S10000x64 .f32) (ix2 p k) = (V c (Pipeline.arrRef spec6 1) : S100000x64.Idx → EReal) (ix2 r k) := by
  have e0 : win6_1.index t (0 : Fin 2) = t.val := (block_index t).2.2.1
  have e1 : win6_1.index t (1 : Fin 2) = 0 := (block_index t).2.2.2.1
  show V c (Pipeline.arrRef spec6 1) (((cfg6.win 1).blk t).view.emb (ix2 p k)) = V c (Pipeline.arrRef spec6 1) (ix2 r k)
  refine congrArg (V c (Pipeline.arrRef spec6 1)) (funext fun a => Fin.ext ?_)
  match a with
  | ⟨0, _⟩ => show win6_1.index t (0 : Fin 2) * 10000 + 1 * p.val = r.val; rw [e0, hr]; omega
  | ⟨1, _⟩ => show win6_1.index t (1 : Fin 2) * 64 + 1 * k.val = k.val; rw [e1]; omega

/-- What grid point `t` writes back is block `t` of the whole-array perceptron. -/
theorem flushed_eq (c : Dev nD) (t : Fin cfg6.N) :
    (dat6 (F := Ideal) V c).flushed 6 t = ((cfg6.win 6).blk t).view.read (Elt Ideal) (whole V c) := by
  show (cfg6.win 6).cut (grid6.coords t) ((dat6 (F := Ideal) V c).after 6 t) = _
  rw [after6_6]
  unfold out6_6
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, -, -, -, -, -, -, e60, e61⟩ := block_index t
  have hN : cfg6.N = 10 := N_6
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg6.win 6).blk t).view.emb (ix2 p q) = ix2 r q := by
    funext a; apply Fin.ext
    match a with
    | ⟨0, _⟩ => show win6_6.index t (0 : Fin 2) * 10000 + 1 * p.val = r.val; rw [e60, hr]; omega
    | ⟨1, _⟩ => show win6_6.index t (1 : Fin 2) * 64 + 1 * q.val = q.val; rw [e61]; omega
  show k6_pay1 (F := Ideal) (iblk6 V c 0 t) (iblk6 V c 1 t) (iblk6 V c 2 t) (iblk6 V c 3 t) (iblk6 V c 4 t) (iblk6 V c 5 t) (ix2 p q)
    = whole V c (((cfg6.win 6).blk t).view.emb (ix2 p q))
  rw [hemb]
  exact block_entry (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (iblk6 V c 0 t) (iblk6 V c 1 t) (iblk6 V c 2 t) (iblk6 V c 3 t) (iblk6 V c 4 t) (iblk6 V c 5 t) p q r
    (fun k => row_block0 V c t p r hr k) (fun k => row_block1 V c t p r hr k)
    (small_block2 V c t) (small_block3 V c t) (small_block4 V c t) (small_block5 V c t)

/-- An index of the result array is in point `t`'s block iff each coordinate is in the block's range on its axis. -/
theorem mem_block (t : Fin cfg6.N) (i : S100000x64.Idx) :
    i ∈ ((cfg6.win 6).blk t).view.set ↔ ∀ a : Fin 2, win6_6.index t a * S10000x64.size a ≤ (i a).val
      ∧ (i a).val < win6_6.index t a * S10000x64.size a + S10000x64.size a := by
  show i ∈ ((View.whole main_v94).slice (win6_6.rect t)).set ↔ _
  rw [View.set_slice_whole, Rect.mem_set_unit]
  exact Iff.rfl

/-- The ten blocks tile the rows: row `r` is in block `r / 10000`, which is written back. -/
theorem cover (i : S100000x64.Idx) :
    ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, -, -, -, -, -, -, -, -, e60, e61⟩ := block_index t
  refine ⟨t, flush6_6 t, ?_⟩
  rw [mem_block]
  intro a
  match a with
  | ⟨0, _⟩ =>
    show win6_6.index t (0 : Fin 2) * 10000 ≤ (i 0).val ∧ (i 0).val < win6_6.index t (0 : Fin 2) * 10000 + 10000
    rw [e60, ht]; omega
  | ⟨1, _⟩ =>
    show win6_6.index t (1 : Fin 2) * 64 ≤ (i 1).val ∧ (i 1).val < win6_6.index t (1 : Fin 2) * 64 + 64
    rw [e61]; omega

end Cert.KernelIdeal.KVal.Mlp6

namespace Cert.KernelIdeal.KVal

open Cert.KernelIdeal Cert.KernelIdeal.Gen
open Idealize.ShloMosaic Idealize.ShloMosaic.TcCoe Idealize.SL.Sem

/-- The perceptron kernel's result array after its run: the specification's `mlpOut` of the six arrays as the kernel
    finds them. -/
theorem final6 (V : (c : Dev nD) → (b : Ref sig .tc) → Buf (Elt Ideal) ((c : Thread nD τ).loc b)) (c : Dev nD) :
    (dat6 (F := Ideal) V c).arrAt 6 cfg6.N
      = Cert.Spec.mlpOut (n := 100000) (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) :=
  (dat6 (F := Ideal) V c).arrAt_eq_of_cover 6 (Mlp6.whole V c) (fun t _ => Mlp6.flushed_eq V c t) Mlp6.cover

end Cert.KernelIdeal.KVal

end
-- ==== Proof.KStats7.lean ====
/-
  What the statistics kernel of region 7 leaves in its two result rows.

  The kernel visits ten blocks of 10000 rows of a 100000 × 64 matrix `y`. At the first block it zeroes its two rows;
  at every block it adds the block's column sums to the first row and the column sums of the block's squares to the
  second. Both rows are kept from one block to the next and written back after the last one. So after block `n` the
  first row holds, at column `j`, the sum over the blocks `s ≤ n` of `∑ᵣ y(10000 s + r, j)` — by induction on `n`, the
  zero word being `0` and `0 + a = a` — and after the last block the ten block sums are the one sum over all 100000
  rows: the column sum of `y`. Likewise for the squares. No finiteness is used: addition on the extended reals is
  commutative and associative.
-/
import proofs.«142526_j3951369912896_1_alg».proof.Proof.Gen.KernelIdeal.Frame
import proofs.«142526_j3951369912896_1_alg».proof.Proof.Spec
import proofs.«142526_j3951369912896_1_alg».proof.Proof.KStatsLib
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

/-! ## What one visit leaves in each row, for any float instance -/

section Pieces

variable {F : FTy → Type} [FloatOps F]
variable (V : (c : Dev nD) → (b : Ref sig .tc) → Buf (Elt F) ((c : Thread nD τ).loc b))

/-- A later visit leaves, in the first row holding `xo1`, the accumulation step of the block `x` onto `xo1`. -/
theorem out7_B_1_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  rw [View.canon_unit_zero hz2]
  simp only [View.readAt_eq_ld, h1.read_unread, h2.read_unread, View.ld_unit_zero (S := S10000x64) hz2,
    View.ld_unit_zero (S := S1x64) hz2]

/-- A later visit leaves, in the second row holding `xo2`, the accumulation step of the squares of `x` onto `xo2`. -/
theorem out7_B_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  rw [View.canon_unit_zero hz2]
  simp only [View.readAt_eq_ld, h1.read_unread, h3.read_unread, View.ld_unit_zero (S := S10000x64) hz2,
    View.ld_unit_zero (S := S1x64) hz2]

/-- The first visit stores the zero row, reads it back, and leaves the accumulation step of `x` onto the zero row. -/
theorem out7_A_1_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_1 c i a1 h1 a2 h2 a3 h3 hc x = k7_pay4 x k7_pay1 := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The first visit leaves, in the second row, the accumulation step of the squares of `x` onto the zero row. -/
theorem out7_A_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_2 c i a1 h1 a2 h2 a3 h3 hc x = k7_pay5 x k7_pay2 := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The two rows after the first visit. -/
theorem outs7_zero (c : Dev nD) (hn : 0 < cfg7.N) :
    outsAt7 V c 0 hn
      = (k7_pay4 (iblk7 V c 0 ⟨0, hn⟩) k7_pay1, k7_pay5 (iblk7 V c 0 ⟨0, hn⟩) k7_pay2) := by
  rw [outsAt7_A V c ⟨0, hn⟩ rfl, out7_A_1_eq, out7_A_2_eq]

/-- The two rows after a later visit, from the rows after the visit before. -/
theorem outs7_succ (c : Dev nD) (n : ℕ) (hn : n + 1 < cfg7.N) :
    outsAt7 V c (n + 1) hn
      = (k7_pay4 (iblk7 V c 0 ⟨n + 1, hn⟩) (outsAt7 V c n (Nat.lt_of_succ_lt hn)).1,
         k7_pay5 (iblk7 V c 0 ⟨n + 1, hn⟩) (outsAt7 V c n (Nat.lt_of_succ_lt hn)).2) := by
  have hN : cfg7.N = 10 := N_7
  have hB : ¬(⟨n + 1, hn⟩ : Fin cfg7.N).val % 10 = 0 := by dsimp only; omega
  rw [outsAt7_B V c ⟨n + 1, hn⟩ hB, out7_B_1_eq, out7_B_2_eq]
  rfl

/-! ## The arrays after the region: what the last visit leaves -/

theorem last7 : 9 < cfg7.N := by rw [show cfg7.N = 10 from N_7]; decide

/-- The first row after the last visit, as contents of the first result array. -/
abbrev res7_sum (c : Dev nD) : Buf (Elt F) ((c : Thread nD τ).loc main_v95_0) := (outsAt7 V c 9 last7).1
/-- The second row after the last visit, as contents of the second result array. -/
abbrev res7_sumsq (c : Dev nD) : Buf (Elt F) ((c : Thread nD τ).loc main_v95_1) := (outsAt7 V c 9 last7).2

/-- The one write-back of the first row, after the last visit, writes it: its block is the whole array. -/
theorem flushed7_1_eq (c : Dev nD) (t : Fin cfg7.N) (hf : (cfg7.win 1).flush t = true) :
    (dat7 V c).flushed 1 t = ((cfg7.win 1).blk t).view.read (Elt F) (res7_sum V c) := by
  have hN : cfg7.N = 10 := N_7
  have h9 : t.val = 9 := by have := (flush7_1 t).mp hf; have := t.isLt; omega
  obtain rfl : t = t7_9 := Fin.ext h9
  show (cfg7.win 1).cut (grid7.coords t7_9) ((dat7 V c).after 1 t7_9) = _
  rw [after7_1]
  have hz' : (fun a => win7_1.index t7_9 a * main_v95_0.ty.shape.size a) = fun _ => 0 :=
    funext fun a => by fin_cases a <;> decide
  exact (Memref.read_access_unit_zero (Elt F) main_v95_0 hz' (fun a => by rw [congrFun hz' a]; simp) (res7_sum V c)).symm

/-- The one write-back of the second row. -/
theorem flushed7_2_eq (c : Dev nD) (t : Fin cfg7.N) (hf : (cfg7.win 2).flush t = true) :
    (dat7 V c).flushed 2 t = ((cfg7.win 2).blk t).view.read (Elt F) (res7_sumsq V c) := by
  have hN : cfg7.N = 10 := N_7
  have h9 : t.val = 9 := by have := (flush7_2 t).mp hf; have := t.isLt; omega
  obtain rfl : t = t7_9 := Fin.ext h9
  show (cfg7.win 2).cut (grid7.coords t7_9) ((dat7 V c).after 2 t7_9) = _
  rw [after7_2]
  have hz' : (fun a => win7_2.index t7_9 a * main_v95_1.ty.shape.size a) = fun _ => 0 :=
    funext fun a => by fin_cases a <;> decide
  exact (Memref.read_access_unit_zero (Elt F) main_v95_1 hz' (fun a => by rw [congrFun hz' a]; simp) (res7_sumsq V c)).symm

/-- The first result array after the region is the first row after the last visit. -/
theorem arr7_sum (c : Dev nD) : (dat7 V c).arrAt 1 cfg7.N = res7_sum V c :=
  (dat7 V c).arrAt_eq_of_cover 1 (res7_sum V c) (flushed7_1_eq V c) fun i =>
    ⟨t7_9, (flush7_1 t7_9).mpr rfl, by
      show i ∈ ((View.whole main_v95_0).slice (win7_1.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_1.index t7_9 0 * win7_1.size 0 ≤ (i 0 : Nat)
          ∧ (i 0 : Nat) < win7_1.index t7_9 0 * win7_1.size 0 + win7_1.xsize (grid7.coords t7_9) 0
        rw [show win7_1.index t7_9 0 * win7_1.size 0 = 0 from by decide +kernel,
          show win7_1.xsize (grid7.coords t7_9) 0 = 1 from by decide +kernel]; omega
      | ⟨1, _⟩ =>
        show win7_1.index t7_9 1 * win7_1.size 1 ≤ (i 1 : Nat)
          ∧ (i 1 : Nat) < win7_1.index t7_9 1 * win7_1.size 1 + win7_1.xsize (grid7.coords t7_9) 1
        rw [show win7_1.index t7_9 1 * win7_1.size 1 = 0 from by decide +kernel,
          show win7_1.xsize (grid7.coords t7_9) 1 = 64 from by decide +kernel]; omega⟩

/-- The second result array after the region is the second row after the last visit. -/
theorem arr7_sumsq (c : Dev nD) : (dat7 V c).arrAt 2 cfg7.N = res7_sumsq V c :=
  (dat7 V c).arrAt_eq_of_cover 2 (res7_sumsq V c) (flushed7_2_eq V c) fun i =>
    ⟨t7_9, (flush7_2 t7_9).mpr rfl, by
      show i ∈ ((View.whole main_v95_1).slice (win7_2.rect t7_9)).set
      rw [View.set_slice_whole, Rect.mem_set_unit]
      intro a
      have h0 : (i 0 : Nat) < 1 := (i 0).isLt
      have h1 : (i 1 : Nat) < 64 := (i 1).isLt
      match a with
      | ⟨0, _⟩ =>
        show win7_2.index t7_9 0 * win7_2.size 0 ≤ (i 0 : Nat)
          ∧ (i 0 : Nat) < win7_2.index t7_9 0 * win7_2.size 0 + win7_2.xsize (grid7.coords t7_9) 0
        rw [show win7_2.index t7_9 0 * win7_2.size 0 = 0 from by decide +kernel,
          show win7_2.xsize (grid7.coords t7_9) 0 = 1 from by decide +kernel]; omega
      | ⟨1, _⟩ =>
        show win7_2.index t7_9 1 * win7_2.size 1 ≤ (i 1 : Nat)
          ∧ (i 1 : Nat) < win7_2.index t7_9 1 * win7_2.size 1 + win7_2.xsize (grid7.coords t7_9) 1
        rw [show win7_2.index t7_9 1 * win7_2.size 1 = 0 from by decide +kernel,
          show win7_2.xsize (grid7.coords t7_9) 1 = 64 from by decide +kernel]; omega⟩

end Pieces

/-! ## The rows on the extended reals -/

section Value

variable (V : (c : Dev nD) → (b : Ref sig .tc) → Buf (Elt Ideal) ((c : Thread nD τ).loc b))

/-- The accumulation step of the sums at column `j`. -/
theorem pay4_7_apply (x : Vec Ideal S10000x64 .f32) (acc : Vec Ideal S1x64 .f32) (z : Fin 1) (j : Fin 64) :
    k7_pay4 (F := Ideal) x acc (ix2 z j) = acc (ix2 z j) + blockColSum x j := by
  unfold k7_pay4 k7_pay3
  exact acc_colsum_apply x acc _ _ _ _ _ _ z j

/-- The accumulation step of the sums of squares at column `j`. -/
theorem pay5_7_apply (x : Vec Ideal S10000x64 .f32) (acc : Vec Ideal S1x64 .f32) (z : Fin 1) (j : Fin 64) :
    k7_pay5 (F := Ideal) x acc (ix2 z j) = acc (ix2 z j) + blockColSumSq x j := by
  unfold k7_pay5 k7_pay3
  exact acc_colsumsq_apply x acc _ _ _ _ _ _ z j

/-- The zero rows read `0`. -/
theorem pay1_7_apply (i : S1x64.Idx) : k7_pay1 (F := Ideal) i = 0 := zero_row_apply i
theorem pay2_7_apply (i : S1x64.Idx) : k7_pay2 (F := Ideal) i = 0 := zero_row_apply i

/-- Where the input window's block sits in its array: block `t` starts at row `10000 t`, column 0. -/
theorem idx7_facts : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Row `r` of the block of visit `t` is row `10000 t + r` of the matrix. -/
theorem blk7_apply (c : Dev nD) (t : Fin cfg7.N) (r : Fin 10000) (j : Fin 64) (R' : Fin 100000)
    (hR : R'.val = t.val * 10000 + r.val) :
    (iblk7 V c 0 t : Vec Ideal S10000x64 .f32) (ix2 r j)
      = (V c (Pipeline.arrRef spec7 0) : Cert.Spec.Mat 100000 64) (ix2 R' j) := by
  unfold iblk7
  rw [View.read_apply]
  show V c (Pipeline.arrRef spec7 0) _ = V c (Pipeline.arrRef spec7 0) _
  congr 1
  funext a
  apply Fin.ext
  match a with
  | ⟨0, _⟩ =>
    show win7_0.index t 0 * 10000 + 1 * r.val = R'.val
    rw [(idx7_facts t).1, hR]; omega
  | ⟨1, _⟩ =>
    show win7_0.index t 1 * 64 + 1 * j.val = j.val
    rw [(idx7_facts t).2]; omega

/-- The column sums of the block of visit `s` (zero past the grid). -/
def part7 (c : Dev nD) (s : ℕ) (j : Fin 64) : EReal :=
  if h : s < cfg7.N then blockColSum (iblk7 V c 0 ⟨s, h⟩) j else 0

/-- The column sums of the squares of the block of visit `s` (zero past the grid). -/
def partsq7 (c : Dev nD) (s : ℕ) (j : Fin 64) : EReal :=
  if h : s < cfg7.N then blockColSumSq (iblk7 V c 0 ⟨s, h⟩) j else 0

/-- After visit `n` the first row holds the sum of the column sums of the blocks visited so far. -/
theorem outs7_fst (c : Dev nD) : ∀ (n : ℕ) (hn : n < cfg7.N) (z : Fin 1) (j : Fin 64),
    ((outsAt7 V c n hn).1 : Vec Ideal S1x64 .f32) (ix2 z j) = ∑ s ∈ Finset.range (n + 1), part7 V c s j
  | 0, hn, z, j => by
    rw [outs7_zero V c hn]
    show k7_pay4 (F := Ideal) (iblk7 V c 0 ⟨0, hn⟩) (k7_pay1 (F := Ideal)) (ix2 z j) = _
    rw [pay4_7_apply, pay1_7_apply, zero_add, Finset.sum_range_one, part7, dif_pos hn]
  | n + 1, hn, z, j => by
    rw [outs7_succ V c n hn]
    show k7_pay4 (F := Ideal) (iblk7 V c 0 ⟨n + 1, hn⟩) (outsAt7 V c n (Nat.lt_of_succ_lt hn)).1 (ix2 z j) = _
    rw [pay4_7_apply, outs7_fst c n (Nat.lt_of_succ_lt hn) z j, Finset.sum_range_succ _ (n + 1)]
    congr 1
    rw [part7, dif_pos hn]

/-- After visit `n` the second row holds the sum of the column sums of squares of the blocks visited so far. -/
theorem outs7_snd (c : Dev nD) : ∀ (n : ℕ) (hn : n < cfg7.N) (z : Fin 1) (j : Fin 64),
    ((outsAt7 V c n hn).2 : Vec Ideal S1x64 .f32) (ix2 z j) = ∑ s ∈ Finset.range (n + 1), partsq7 V c s j
  | 0, hn, z, j => by
    rw [outs7_zero V c hn]
    show k7_pay5 (F := Ideal) (iblk7 V c 0 ⟨0, hn⟩) (k7_pay2 (F := Ideal)) (ix2 z j) = _
    rw [pay5_7_apply, pay2_7_apply, zero_add, Finset.sum_range_one, partsq7, dif_pos hn]
  | n + 1, hn, z, j => by
    rw [outs7_succ V c n hn]
    show k7_pay5 (F := Ideal) (iblk7 V c 0 ⟨n + 1, hn⟩) (outsAt7 V c n (Nat.lt_of_succ_lt hn)).2 (ix2 z j) = _
    rw [pay5_7_apply, outs7_snd c n (Nat.lt_of_succ_lt hn) z j, Finset.sum_range_succ _ (n + 1)]
    congr 1
    rw [partsq7, dif_pos hn]

/-- The first result array after the region: the column sums of the input matrix. -/
theorem final7_sum (c : Dev nD) :
    ((dat7 (F := Ideal) V c).arrAt 1 cfg7.N : S1x64.Idx → EReal)
      = Cert.Spec.colSum (n := 100000) (V c (Pipeline.arrRef spec7 0)) := by
  rw [arr7_sum V c]
  funext i
  obtain ⟨z, j, rfl⟩ : ∃ (z : Fin 1) (j : Fin 64), i = ix2 z j := ⟨i 0, i 1, eq_ix2 i⟩
  have hN : cfg7.N = 10 := N_7
  refine (outs7_fst V c 9 last7 z j).trans ?_
  refine colSum_of_blocks (V c (Pipeline.arrRef spec7 0)) (fun s => part7 V c s j) z j fun s hs => ?_
  rw [part7, dif_pos (by omega : s < cfg7.N), blockColSum]
  exact Finset.sum_congr rfl fun r _ => blk7_apply V c ⟨s, by omega⟩ r j _ rfl

/-- The second result array after the region: the column sums of the squares of the input matrix. -/
theorem final7_sumsq (c : Dev nD) :
    ((dat7 (F := Ideal) V c).arrAt 2 cfg7.N : S1x64.Idx → EReal)
      = Cert.Spec.colSumSq (n := 100000) (V c (Pipeline.arrRef spec7 0)) := by
  rw [arr7_sumsq V c]
  funext i
  obtain ⟨z, j, rfl⟩ : ∃ (z : Fin 1) (j : Fin 64), i = ix2 z j := ⟨i 0, i 1, eq_ix2 i⟩
  have hN : cfg7.N = 10 := N_7
  refine (outs7_snd V c 9 last7 z j).trans ?_
  refine colSumSq_of_blocks (V c (Pipeline.arrRef spec7 0)) (fun s => partsq7 V c s j) z j fun s hs => ?_
  rw [partsq7, dif_pos (by omega : s < cfg7.N), blockColSumSq]
  exact Finset.sum_congr rfl fun r _ =>
    congrArg₂ (fun a b : EReal => a * b) (blk7_apply V c ⟨s, by omega⟩ r j _ rfl)
      (blk7_apply V c ⟨s, by omega⟩ r j _ rfl)

end Value

end Cert.KernelIdeal.KVal

end
-- ==== Proof.KBn8.lean ====
/-
  The value of a layer's normalisation kernel, as one function of the arrays it is given.

  The kernel walks the 100000 node rows in 10 blocks of 10000. At block `t` it reads rows `10000·t … 10000·t + 9999`
  of the perceptron's result `y` and the whole of four single rows — the batch mean, the batch variance, the scale `γ`
  and the shift `β` — and writes the same rows of its result, `max(γ · (y − mean) · rsqrt(var + ε) + β, 0)` entry by
  entry. An entry of the result reads its own entry of `y` and its own column of the four rows, so the ten blocks
  tile the rows and the result array is the specification's `bnOut` of the five arrays as the kernel finds them.
-/
import proofs.«142526_j3951369912896_1_alg».proof.Proof.Gen.KernelIdeal.Frame
import proofs.«142526_j3951369912896_1_alg».proof.Proof.KBnEntry
import Idealize.ShloMosaic.Lib.Pipeline.Value

noncomputable section

namespace Cert.KernelIdeal.KVal.Bn8

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five blocks it loaded (in the order the body names them: the
    rows, the variance, the scale, the mean, the shift). -/
theorem pay_entry (y : Vec Ideal S10000x64 .f32) (var gamma mean beta : Vec Ideal S1x64 .f32) (p : Fin 10000) (q : Fin 64) :
    k8_pay1 (F := Ideal) y var gamma mean beta (ix2 p q)
      = max (gamma (ix2 0 q) * (y (ix2 p q) - mean (ix2 0 q)) * Ideal.rsqrt (var (ix2 0 q) + Cert.Spec.eps32)
          + beta (ix2 0 q)) Cert.Spec.zero32 := by
  unfold k8_pay1
  simp only [shapeCast_self]
  exact bn_entry y var gamma mean beta _ p q

/-- The same entry when the loaded row block is rows of a whole array (entry `(p, q)` of the block is entry `(r, q)`
    of `Y`) and the four small blocks are the whole rows. -/
theorem block_entry (Y : S100000x64.Idx → EReal) (Mn Vr Gm Bt : S1x64.Idx → EReal)
    (x0 : Vec Ideal S10000x64 .f32) (x1 x2 x3 x4 : Vec Ideal S1x64 .f32) (p : Fin 10000) (q : Fin 64) (r : Fin 100000)
    (h0 : x0 (ix2 p q) = Y (ix2 r q)) (h1 : x1 = Mn) (h2 : x2 = Vr) (h3 : x3 = Gm) (h4 : x4 = Bt) :
    k8_pay1 (F := Ideal) x0 x2 x3 x1 x4 (ix2 p q) = Cert.Spec.bnOut Y Mn Vr Gm Bt (ix2 r q) := by
  subst h1 h2 h3 h4
  rw [pay_entry, h0]
  rfl

/-- Where each window's block sits at grid point `t`, decided over the ten points: the row-block input and the output
    at block row `t`, the four single rows at their one block. -/
theorem block_index : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The normalisation on the five arrays as the kernel finds them: the rows, then the mean, the variance, the scale
    and the shift. -/
abbrev whole (c : Dev nD) : S100000x64.Idx → EReal :=
  Cert.Spec.bnOut (n := 100000) (V c (Pipeline.arrRef spec8 0)) (V c (Pipeline.arrRef spec8 1)) (V c (Pipeline.arrRef spec8 2))
    (V c (Pipeline.arrRef spec8 3)) (V c (Pipeline.arrRef spec8 4))

/-- Single-row input 1's one block is its whole array. -/
theorem small_block1 (c : Dev nD) (t : Fin cfg8.N) :
    (iblk8 V c 1 t : Vec Ideal S1x64 .f32) = V c (Pipeline.arrRef spec8 1) := by
  have e0 : win8_1.index t (0 : Fin 2) = 0 := (block_index t).2.2.1
  have e1 : win8_1.index t (1 : Fin 2) = 0 := (block_index t).2.2.2.1
  funext y
  show V c (Pipeline.arrRef spec8 1) (((cfg8.win 1).blk t).view.emb y) = V c (Pipeline.arrRef spec8 1) y
  refine congrArg (V c (Pipeline.arrRef spec8 1)) (funext fun a => Fin.ext ?_)
  match a with
  | ⟨0, _⟩ => show win8_1.index t (0 : Fin 2) * 1 + 1 * (y 0).val = (y 0).val; rw [e0]; omega
  | ⟨1, _⟩ => show win8_1.index t (1 : Fin 2) * 64 + 1 * (y 1).val = (y 1).val; rw [e1]; omega

/-- Single-row input 2's one block is its whole array. -/
theorem small_block2 (c : Dev nD) (t : Fin cfg8.N) :
    (iblk8 V c 2 t : Vec Ideal S1x64 .f32) = V c (Pipeline.arrRef spec8 2) := by
  have e0 : win8_2.index t (0 : Fin 2) = 0 := (block_index t).2.2.2.2.1
  have e1 : win8_2.index t (1 : Fin 2) = 0 := (block_index t).2.2.2.2.2.1
  funext y
  show V c (Pipeline.arrRef spec8 2) (((cfg8.win 2).blk t).view.emb y) = V c (Pipeline.arrRef spec8 2) y
  refine congrArg (V c (Pipeline.arrRef spec8 2)) (funext fun a => Fin.ext ?_)
  match a with
  | ⟨0, _⟩ => show win8_2.index t (0 : Fin 2) * 1 + 1 * (y 0).val = (y 0).val; rw [e0]; omega
  | ⟨1, _⟩ => show win8_2.index t (1 : Fin 2) * 64 + 1 * (y 1).val = (y 1).val; rw [e1]; omega

/-- Single-row input 3's one block is its whole array. -/
theorem small_block3 (c : Dev nD) (t : Fin cfg8.N) :
    (iblk8 V c 3 t : Vec Ideal S1x64 .f32) = V c (Pipeline.arrRef spec8 3) := by
  have e0 : win8_3.index t (0 : Fin 2) = 0 := (block_index t).2.2.2.2.2.2.1
  have e1 : win8_3.index t (1 : Fin 2) = 0 := (block_index t).2.2.2.2.2.2.2.1
  funext y
  show V c (Pipeline.arrRef spec8 3) (((cfg8.win 3).blk t).view.emb y) = V c (Pipeline.arrRef spec8 3) y
  refine congrArg (V c (Pipeline.arrRef spec8 3)) (funext fun a => Fin.ext ?_)
  match a with
  | ⟨0, _⟩ => show win8_3.index t (0 : Fin 2) * 1 + 1 * (y 0).val = (y 0).val; rw [e0]; omega
  | ⟨1, _⟩ => show win8_3.index t (1 : Fin 2) * 64 + 1 * (y 1).val = (y 1).val; rw [e1]; omega

/-- Single-row input 4's one block is its whole array. -/
theorem small_block4 (c : Dev nD) (t : Fin cfg8.N) :
    (iblk8 V c 4 t : Vec Ideal S1x64 .f32) = V c (Pipeline.arrRef spec8 4) := by
  have e0 : win8_4.index t (0 : Fin 2) = 0 := (block_index t).2.2.2.2.2.2.2.2.1
  have e1 : win8_4.index t (1 : Fin 2) = 0 := (block_index t).2.2.2.2.2.2.2.2.2.1
  funext y
  show V c (Pipeline.arrRef spec8 4) (((cfg8.win 4).blk t).view.emb y) = V c (Pipeline.arrRef spec8 4) y
  refine congrArg (V c (Pipeline.arrRef spec8 4)) (funext fun a => Fin.ext ?_)
  match a with
  | ⟨0, _⟩ => show win8_4.index t (0 : Fin 2) * 1 + 1 * (y 0).val = (y 0).val; rw [e0]; omega
  | ⟨1, _⟩ => show win8_4.index t (1 : Fin 2) * 64 + 1 * (y 1).val = (y 1).val; rw [e1]; omega

/-- Entry `(p, q)` of the row-block input at point `t` is entry `(10000·t + p, q)` of its array. -/
theorem row_block (c : Dev nD) (t : Fin cfg8.N) (p : Fin 10000) (q : Fin 64) (r : Fin 100000) (hr : r.val = t.val * 10000 + p.val) :
    (iblk8 V c 0 t : Vec Ideal S10000x64 .f32) (ix2 p q) = (V c (Pipeline.arrRef spec8 0) : S100000x64.Idx → EReal) (ix2 r q) := by
  obtain ⟨e00, e01, -⟩ := block_index t
  show V c (Pipeline.arrRef spec8 0) (((cfg8.win 0).blk t).view.emb (ix2 p q)) = V c (Pipeline.arrRef spec8 0) (ix2 r q)
  refine congrArg (V c (Pipeline.arrRef spec8 0)) (funext fun a => Fin.ext ?_)
  match a with
  | ⟨0, _⟩ => show win8_0.index t (0 : Fin 2) * 10000 + 1 * p.val = r.val; rw [e00, hr]; omega
  | ⟨1, _⟩ => show win8_0.index t (1 : Fin 2) * 64 + 1 * q.val = q.val; rw [e01]; omega

/-- What grid point `t` writes back is block `t` of the whole-array normalisation. -/
theorem flushed_eq (c : Dev nD) (t : Fin cfg8.N) :
    (dat8 (F := Ideal) V c).flushed 5 t = ((cfg8.win 5).blk t).view.read (Elt Ideal) (whole V c) := by
  show (cfg8.win 5).cut (grid8.coords t) ((dat8 (F := Ideal) V c).after 5 t) = _
  rw [after8_5]
  unfold out8_5
  rw [View.canon_unit_zero zero_offsets]
  simp only [View.ld_unit_zero (S := S10000x64) zero_offsets, View.ld_unit_zero (S := S1x64) zero_offsets]
  obtain ⟨-, -, -, -, -, -, -, -, -, -, e50, e51⟩ := block_index t
  have hN : cfg8.N = 10 := N_8
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg8.win 5).blk t).view.emb (ix2 p q) = ix2 r q := by
    funext a; apply Fin.ext
    match a with
    | ⟨0, _⟩ => show win8_5.index t (0 : Fin 2) * 10000 + 1 * p.val = r.val; rw [e50, hr]; omega
    | ⟨1, _⟩ => show win8_5.index t (1 : Fin 2) * 64 + 1 * q.val = q.val; rw [e51]; omega
  show k8_pay1 (F := Ideal) (iblk8 V c 0 t) (iblk8 V c 2 t) (iblk8 V c 3 t) (iblk8 V c 1 t) (iblk8 V c 4 t) (ix2 p q)
    = whole V c (((cfg8.win 5).blk t).view.emb (ix2 p q))
  rw [hemb]
  exact block_entry (V c (Pipeline.arrRef spec8 0)) (V c (Pipeline.arrRef spec8 1)) (V c (Pipeline.arrRef spec8 2))
    (V c (Pipeline.arrRef spec8 3)) (V c (Pipeline.arrRef spec8 4))
    (iblk8 V c 0 t) (iblk8 V c 1 t) (iblk8 V c 2 t) (iblk8 V c 3 t) (iblk8 V c 4 t) p q r
    (row_block V c t p q r hr) (small_block1 V c t) (small_block2 V c t) (small_block3 V c t) (small_block4 V c t)

/-- An index of the result array is in point `t`'s block iff each coordinate is in the block's range on its axis. -/
theorem mem_block (t : Fin cfg8.N) (i : S100000x64.Idx) :
    i ∈ ((cfg8.win 5).blk t).view.set ↔ ∀ a : Fin 2, win8_5.index t a * S10000x64.size a ≤ (i a).val
      ∧ (i a).val < win8_5.index t a * S10000x64.size a + S10000x64.size a := by
  show i ∈ ((View.whole main_v108).slice (win8_5.rect t)).set ↔ _
  rw [View.set_slice_whole, Rect.mem_set_unit]
  exact Iff.rfl

/-- The ten blocks tile the rows: row `r` is in block `r / 10000`, which is written back. -/
theorem cover (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  have hN : cfg8.N = 10 := N_8
  obtain ⟨t, ht⟩ : ∃ t : Fin cfg8.N, t.val = (i 0).val / 10000 := ⟨⟨(i 0).val / 10000, by omega⟩, rfl⟩
  obtain ⟨-, -, -, -, -, -, -, -, -, -, e50, e51⟩ := block_index t
  refine ⟨t, flush8_5 t, ?_⟩
  rw [mem_block]
  intro a
  match a with
  | ⟨0, _⟩ =>
    show win8_5.index t (0 : Fin 2) * 10000 ≤ (i 0).val ∧ (i 0).val < win8_5.index t (0 : Fin 2) * 10000 + 10000
    rw [e50, ht]; omega
  | ⟨1, _⟩ =>
    show win8_5.index t (1 : Fin 2) * 64 ≤ (i 1).val ∧ (i 1).val < win8_5.index t (1 : Fin 2) * 64 + 64
    rw [e51]; omega

end Cert.KernelIdeal.KVal.Bn8

namespace Cert.KernelIdeal.KVal

open Cert.KernelIdeal Cert.KernelIdeal.Gen
open Idealize.ShloMosaic Idealize.ShloMosaic.TcCoe Idealize.SL.Sem

/-- The normalisation kernel's result array after its run: the specification's `bnOut` of the rows, the mean, the
    variance, the scale and the shift as the kernel finds them (its input windows 0 to 4, in that order). -/
theorem final8 (V : (c : Dev nD) → (b : Ref sig .tc) → Buf (Elt Ideal) ((c : Thread nD τ).loc b)) (c : Dev nD) :
    (dat8 (F := Ideal) V c).arrAt 5 cfg8.N
      = Cert.Spec.bnOut (n := 100000) (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 (Bn8.whole V c) (fun t _ => Bn8.flushed_eq V c t) Bn8.cover

end Cert.KernelIdeal.KVal

end
-- ==== Proof.KMlp9.lean ====
/-
  The value of a layer's perceptron kernel, as one function of the arrays it is given.

  The kernel walks the 100000 node rows in 10 blocks of 10000. At block `t` it reads rows `10000·t … 10000·t + 9999`
  of the features and of the neighbour sums, and the whole of the two weight matrices and the two bias rows, and
  writes the same rows of its result: `relu((x + agg) · W₁ + b₁) · W₂ + b₂` on those rows. An entry of the result
  depends on its own row only, so row `10000·t + p` of the result is the row formula on row `10000·t + p` of the
  operands, whatever the block: the ten blocks tile the rows, and the result array is the specification's `mlpOut`
  of the six arrays as the kernel finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Mlp9

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the six blocks it loaded: the row formula on row `p` of the sum of
    the first two. -/
theorem pay_entry (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k9_pay1 (F := Ideal) x0 x1 x2 x3 x4 x5 (ix2 p q)
      = Cert.Spec.mlpRow (fun k => x0 (ix2 p k) + x1 (ix2 p k)) x2 x3 x4 x5 q := by
  unfold k9_pay1
  simp only [shapeCast_self]
  exact mlp_entry (addf x0 x1) x2 x3 x4 x5 _ _ _ p q

/-- The same entry when the loaded blocks are rows of whole arrays: rows `p` of the two row blocks are rows `r` of
    `A0` and `A1`, and the four small blocks are the whole small arrays. -/
theorem block_entry (A0 A1 : S100000x64.Idx → EReal) (W1 : S64x64.Idx → EReal) (B1 : S1x64.Idx → EReal)
    (W2 : S64x64.Idx → EReal) (B2 : S1x64.Idx → EReal)
    (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) (r : Fin 100000)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k9_pay1 (F := Ideal) x0 x1 x2 x3 x4 x5 (ix2 p q) = Cert.Spec.mlpOut A0 A1 W1 B1 W2 B2 (ix2 r q) := by
  subst h2 h3 h4 h5
  rw [pay_entry]
  simp only [h0, h1]
  rfl

/-- Where each window's block sits at grid point `t`, decided over the ten points: the two row-block inputs and the
    output at block row `t`, the four small inputs at their one block. -/
theorem block_index : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = t.val ∧ win9_6.index t (1 : Fin 2) = 0 :=
  (by decide +kernel : ∀ t : Fin grid9.N, _)

/-- The layer's perceptron on the six arrays as the kernel finds them. -/
abbrev whole (c : Dev nD) : S100000x64.Idx → EReal :=
  Cert.Spec.mlpOut (n := 100000) (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5))

/-- Small input 2's one block is its whole array. -/
theorem small_block2 (c : Dev nD) (t : Fin cfg9.N) :
    (iblk9 V c 2 t : Vec Ideal S64x64 .f32) = V c (Pipeline.arrRef spec9 2) := by
  have e0 : win9_2.index t (0 : Fin 2) = 0 := (block_index t).2.2.2.2.1
  have e1 : win9_2.index t (1 : Fin 2) = 0 := (block_index t).2.2.2.2.2.1
  funext y
  show V c (Pipeline.arrRef spec9 2) (((cfg9.win 2).blk t).view.emb y) = V c (Pipeline.arrRef spec9 2) y
  refine congrArg (V c (Pipeline.arrRef spec9 2)) (funext fun a => Fin.ext ?_)
  match a with
  | ⟨0, _⟩ => show win9_2.index t (0 : Fin 2) * 64 + 1 * (y 0).val = (y 0).val; rw [e0]; omega
  | ⟨1, _⟩ => show win9_2.index t (1 : Fin 2) * 64 + 1 * (y 1).val = (y 1).val; rw [e1]; omega

/-- Small input 3's one block is its whole array. -/
theorem small_block3 (c : Dev nD) (t : Fin cfg9.N) :
    (iblk9 V c 3 t : Vec Ideal S1x64 .f32) = V c (Pipeline.arrRef spec9 3) := by
  have e0 : win9_3.index t (0 : Fin 2) = 0 := (block_index t).2.2.2.2.2.2.1
  have e1 : win9_3.index t (1 : Fin 2) = 0 := (block_index t).2.2.2.2.2.2.2.1
  funext y
  show V c (Pipeline.arrRef spec9 3) (((cfg9.win 3).blk t).view.emb y) = V c (Pipeline.arrRef spec9 3) y
  refine congrArg (V c (Pipeline.arrRef spec9 3)) (funext fun a => Fin.ext ?_)
  match a with
  | ⟨0, _⟩ => show win9_3.index t (0 : Fin 2) * 1 + 1 * (y 0).val = (y 0).val; rw [e0]; omega
  | ⟨1, _⟩ => show win9_3.index t (1 : Fin 2) * 64 + 1 * (y 1).val = (y 1).val; rw [e1]; omega

/-- Small input 4's one block is its whole array. -/
theorem small_block4 (c : Dev nD) (t : Fin cfg9.N) :
    (iblk9 V c 4 t : Vec Ideal S64x64 .f32) = V c (Pipeline.arrRef spec9 4) := by
  have e0 : win9_4.index t (0 : Fin 2) = 0 := (block_index t).2.2.2.2.2.2.2.2.1
  have e1 : win9_4.index t (1 : Fin 2) = 0 := (block_index t).2.2.2.2.2.2.2.2.2.1
  funext y
  show V c (Pipeline.arrRef spec9 4) (((cfg9.win 4).blk t).view.emb y) = V c (Pipeline.arrRef spec9 4) y
  refine congrArg (V c (Pipeline.arrRef spec9 4)) (funext fun a => Fin.ext ?_)
  match a with
  | ⟨0, _⟩ => show win9_4.index t (0 : Fin 2) * 64 + 1 * (y 0).val = (y 0).val; rw [e0]; omega
  | ⟨1, _⟩ => show win9_4.index t (1 : Fin 2) * 64 + 1 * (y 1).val = (y 1).val; rw [e1]; omega

/-- Small input 5's one block is its whole array. -/
theorem small_block5 (c : Dev nD) (t : Fin cfg9.N) :
    (iblk9 V c 5 t : Vec Ideal S1x64 .f32) = V c (Pipeline.arrRef spec9 5) := by
  have e0 : win9_5.index t (0 : Fin 2) = 0 := (block_index t).2.2.2.2.2.2.2.2.2.2.1
  have e1 : win9_5.index t (1 : Fin 2) = 0 := (block_index t).2.2.2.2.2.2.2.2.2.2.2.1
  funext y
  show V c (Pipeline.arrRef spec9 5) (((cfg9.win 5).blk t).view.emb y) = V c (Pipeline.arrRef spec9 5) y
  refine congrArg (V c (Pipeline.arrRef spec9 5)) (funext fun a => Fin.ext ?_)
  match a with
  | ⟨0, _⟩ => show win9_5.index t (0 : Fin 2) * 1 + 1 * (y 0).val = (y 0).val; rw [e0]; omega
  | ⟨1, _⟩ => show win9_5.index t (1 : Fin 2) * 64 + 1 * (y 1).val = (y 1).val; rw [e1]; omega

/-- Row `p` of row-block input 0 at point `t` is row `10000·t + p` of its array. -/
theorem row_block0 (c : Dev nD) (t : Fin cfg9.N) (p : Fin 10000) (r : Fin 100000) (hr : r.val = t.val * 10000 + p.val) (k : Fin 64) :
    (iblk9 V c 0 t : Vec Ideal S10000x64 .f32) (ix2 p k) = (V c (Pipeline.arrRef spec9 0) : S100000x64.Idx → EReal) (ix2 r k) := by
  have e0 : win9_0.index t (0 : Fin 2) = t.val := (block_index t).1
  have e1 : win9_0.index t (1 : Fin 2) = 0 := (block_index t).2.1
  show V c (Pipeline.arrRef spec9 0) (((cfg9.win 0).blk t).view.emb (ix2 p k)) = V c (Pipeline.arrRef spec9 0) (ix2 r k)
  refine congrArg (V c (Pipeline.arrRef spec9 0)) (funext fun a => Fin.ext ?_)
  match a with
  | ⟨0, _⟩ => show win9_0.index t (0 : Fin 2) * 10000 + 1 * p.val = r.val; rw [e0, hr]; omega
  | ⟨1, _⟩ => show win9_0.index t (1 : Fin 2) * 64 + 1 * k.val = k.val; rw [e1]; omega

/-- Row `p` of row-block input 1 at point `t` is row `10000·t + p` of its array. -/
theorem row_block1 (c : Dev nD) (t : Fin cfg9.N) (p : Fin 10000) (r : Fin 100000) (hr : r.val = t.val * 10000 + p.val) (k : Fin 64) :
    (iblk9 V c 1 t : Vec Ideal S10000x64 .f32) (ix2 p k) = (V c (Pipeline.arrRef spec9 1) : S100000x64.Idx → EReal) (ix2 r k) := by
  have e0 : win9_1.index t (0 : Fin 2) = t.val := (block_index t).2.2.1
  have e1 : win9_1.index t (1 : Fin 2) = 0 := (block_index t).2.2.2.1
  show V c (Pipeline.arrRef spec9 1) (((cfg9.win 1).blk t).view.emb (ix2 p k)) = V c (Pipeline.arrRef spec9 1) (ix2 r k)
  refine congrArg (V c (Pipeline.arrRef spec9 1)) (funext fun a => Fin.ext ?_)
  match a with
  | ⟨0, _⟩ => show win9_1.index t (0 : Fin 2) * 10000 + 1 * p.val = r.val; rw [e0, hr]; omega
  | ⟨1, _⟩ => show win9_1.index t (1 : Fin 2) * 64 + 1 * k.val = k.val; rw [e1]; omega

/-- What grid point `t` writes back is block `t` of the whole-array perceptron. -/
theorem flushed_eq (c : Dev nD) (t : Fin cfg9.N) :
    (dat9 (F := Ideal) V c).flushed 6 t = ((cfg9.win 6).blk t).view.read (Elt Ideal) (whole V c) := by
  show (cfg9.win 6).cut (grid9.coords t) ((dat9 (F := Ideal) V c).after 6 t) = _
  rw [after9_6]
  unfold out9_6
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, -, -, -, -, -, -, e60, e61⟩ := block_index t
  have hN : cfg9.N = 10 := N_9
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg9.win 6).blk t).view.emb (ix2 p q) = ix2 r q := by
    funext a; apply Fin.ext
    match a with
    | ⟨0, _⟩ => show win9_6.index t (0 : Fin 2) * 10000 + 1 * p.val = r.val; rw [e60, hr]; omega
    | ⟨1, _⟩ => show win9_6.index t (1 : Fin 2) * 64 + 1 * q.val = q.val; rw [e61]; omega
  show k9_pay1 (F := Ideal) (iblk9 V c 0 t) (iblk9 V c 1 t) (iblk9 V c 2 t) (iblk9 V c 3 t) (iblk9 V c 4 t) (iblk9 V c 5 t) (ix2 p q)
    = whole V c (((cfg9.win 6).blk t).view.emb (ix2 p q))
  rw [hemb]
  exact block_entry (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5))
    (iblk9 V c 0 t) (iblk9 V c 1 t) (iblk9 V c 2 t) (iblk9 V c 3 t) (iblk9 V c 4 t) (iblk9 V c 5 t) p q r
    (fun k => row_block0 V c t p r hr k) (fun k => row_block1 V c t p r hr k)
    (small_block2 V c t) (small_block3 V c t) (small_block4 V c t) (small_block5 V c t)

/-- An index of the result array is in point `t`'s block iff each coordinate is in the block's range on its axis. -/
theorem mem_block (t : Fin cfg9.N) (i : S100000x64.Idx) :
    i ∈ ((cfg9.win 6).blk t).view.set ↔ ∀ a : Fin 2, win9_6.index t a * S10000x64.size a ≤ (i a).val
      ∧ (i a).val < win9_6.index t a * S10000x64.size a + S10000x64.size a := by
  show i ∈ ((View.whole main_v129).slice (win9_6.rect t)).set ↔ _
  rw [View.set_slice_whole, Rect.mem_set_unit]
  exact Iff.rfl

/-- The ten blocks tile the rows: row `r` is in block `r / 10000`, which is written back. -/
theorem cover (i : S100000x64.Idx) :
    ∃ t : Fin cfg9.N, (cfg9.win 6).flush t = true ∧ i ∈ ((cfg9.win 6).blk t).view.set := by
  have hi0 : (i 0).val < 100000 := (i 0).isLt
  have hi1 : (i 1).val < 64 := (i 1).isLt
  have hN : cfg9.N = 10 := N_9
  obtain ⟨t, ht⟩ : ∃ t : Fin cfg9.N, t.val = (i 0).val / 10000 := ⟨⟨(i 0).val / 10000, by omega⟩, rfl⟩
  obtain ⟨-, -, -, -, -, -, -, -, -, -, -, -, e60, e61⟩ := block_index t
  refine ⟨t, flush9_6 t, ?_⟩
  rw [mem_block]
  intro a
  match a with
  | ⟨0, _⟩ =>
    show win9_6.index t (0 : Fin 2) * 10000 ≤ (i 0).val ∧ (i 0).val < win9_6.index t (0 : Fin 2) * 10000 + 10000
    rw [e60, ht]; omega
  | ⟨1, _⟩ =>
    show win9_6.index t (1 : Fin 2) * 64 ≤ (i 1).val ∧ (i 1).val < win9_6.index t (1 : Fin 2) * 64 + 64
    rw [e61]; omega

end Cert.KernelIdeal.KVal.Mlp9

namespace Cert.KernelIdeal.KVal

open Cert.KernelIdeal Cert.KernelIdeal.Gen
open Idealize.ShloMosaic Idealize.ShloMosaic.TcCoe Idealize.SL.Sem

/-- The perceptron kernel's result array after its run: the specification's `mlpOut` of the six arrays as the kernel
    finds them. -/
theorem final9 (V : (c : Dev nD) → (b : Ref sig .tc) → Buf (Elt Ideal) ((c : Thread nD τ).loc b)) (c : Dev nD) :
    (dat9 (F := Ideal) V c).arrAt 6 cfg9.N
      = Cert.Spec.mlpOut (n := 100000) (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5)) :=
  (dat9 (F := Ideal) V c).arrAt_eq_of_cover 6 (Mlp9.whole V c) (fun t _ => Mlp9.flushed_eq V c t) Mlp9.cover

end Cert.KernelIdeal.KVal

end
-- ==== Proof.KStats10.lean ====
/-
  What the statistics kernel of region 10 leaves in its two result rows.

  The kernel visits ten blocks of 10000 rows of a 100000 × 64 matrix `y`. At the first block it zeroes its two rows;
  at every block it adds the block's column sums to the first row and the column sums of the block's squares to the
  second. Both rows are kept from one block to the next and written back after the last one. So after block `n` the
  first row holds, at column `j`, the sum over the blocks `s ≤ n` of `∑ᵣ y(10000 s + r, j)` — by induction on `n`, the
  zero word being `0` and `0 + a = a` — and after the last block the ten block sums are the one sum over all 100000
  rows: the column sum of `y`. Likewise for the squares. No finiteness is used: addition on the extended reals is
  commutative and associative.
-/
import proofs.«142526_j3951369912896_1_alg».proof.Proof.Gen.KernelIdeal.Frame
import proofs.«142526_j3951369912896_1_alg».proof.Proof.Spec
import proofs.«142526_j3951369912896_1_alg».proof.Proof.KStatsLib
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

/-! ## What one visit leaves in each row, for any float instance -/

section Pieces

variable {F : FTy → Type} [FloatOps F]
variable (V : (c : Dev nD) → (b : Ref sig .tc) → Buf (Elt F) ((c : Thread nD τ).loc b))

/-- A later visit leaves, in the first row holding `xo1`, the accumulation step of the block `x` onto `xo1`. -/
theorem out10_B_1_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x : Vec F S10000x64 .f32) (xo1 xo2 : Vec F S1x64 .f32) :
    out10_B_1 c i a1 h1 a2 h2 a3 h3 hc x xo1 xo2 = k10_pay4 x xo1 := by
  unfold out10_B_1
  rw [View.read_writes_eq_canon _ _ _ (cover10_B_1 c i a1 h1 a2 h2 a3 h3 hc x xo1 xo2)]
  unfold kernelRun10_B
  dsimp only
  rw [View.canon_unit_zero hz2]
  simp only [View.readAt_eq_ld, h1.read_unread, h2.read_unread, View.ld_unit_zero (S := S10000x64) hz2,
    View.ld_unit_zero (S := S1x64) hz2]

/-- A later visit leaves, in the second row holding `xo2`, the accumulation step of the squares of `x` onto `xo2`. -/
theorem out10_B_2_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond10_0 i) (x : Vec F S10000x64 .f32) (xo1 xo2 : Vec F S1x64 .f32) :
    out10_B_2 c i a1 h1 a2 h2 a3 h3 hc x xo1 xo2 = k10_pay5 x xo2 := by
  unfold out10_B_2
  rw [View.read_writes_eq_canon _ _ _ (cover10_B_2 c i a1 h1 a2 h2 a3 h3 hc x xo1 xo2)]
  unfold kernelRun10_B
  dsimp only
  rw [View.canon_unit_zero hz2]
  simp only [View.readAt_eq_ld, h1.read_unread, h3.read_unread, View.ld_unit_zero (S := S10000x64) hz2,
    View.ld_unit_zero (S := S1x64) hz2]

/-- The first visit stores the zero row, reads it back, and leaves the accumulation step of `x` onto the zero row. -/
theorem out10_A_1_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x : Vec F S10000x64 .f32) :
    out10_A_1 c i a1 h1 a2 h2 a3 h3 hc x = k10_pay4 x k10_pay1 := by
  unfold out10_A_1
  rw [View.read_writes_eq_canon _ _ _ (cover10_A_1 c i a1 h1 a2 h2 a3 h3 hc x)]
  unfold kernelRun10_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The first visit leaves, in the second row, the accumulation step of the squares of `x` onto the zero row. -/
theorem out10_A_2_eq (c : Dev nD) (i : grid10.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond10_0 i) (x : Vec F S10000x64 .f32) :
    out10_A_2 c i a1 h1 a2 h2 a3 h3 hc x = k10_pay5 x k10_pay2 := by
  unfold out10_A_2
  rw [View.read_writes_eq_canon _ _ _ (cover10_A_2 c i a1 h1 a2 h2 a3 h3 hc x)]
  unfold kernelRun10_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The two rows after the first visit. -/
theorem outs10_zero (c : Dev nD) (hn : 0 < cfg10.N) :
    outsAt10 V c 0 hn
      = (k10_pay4 (iblk10 V c 0 ⟨0, hn⟩) k10_pay1, k10_pay5 (iblk10 V c 0 ⟨0, hn⟩) k10_pay2) := by
  rw [outsAt10_A V c ⟨0, hn⟩ rfl, out10_A_1_eq, out10_A_2_eq]

/-- The two rows after a later visit, from the rows after the visit before. -/
theorem outs10_succ (c : Dev nD) (n : ℕ) (hn : n + 1 < cfg10.N) :
    outsAt10 V c (n + 1) hn
      = (k10_pay4 (iblk10 V c 0 ⟨n + 1, hn⟩) (outsAt10 V c n (Nat.lt_of_succ_lt hn)).1,
         k10_pay5 (iblk10 V c 0 ⟨n + 1, hn⟩) (outsAt10 V c n (Nat.lt_of_succ_lt hn)).2) := by
  have hN : cfg10.N = 10 := N_10
  have hB : ¬(⟨n + 1, hn⟩ : Fin cfg10.N).val % 10 = 0 := by dsimp only; omega
  rw [outsAt10_B V c ⟨n + 1, hn⟩ hB, out10_B_1_eq, out10_B_2_eq]
  rfl

/-! ## The arrays after the region: what the last visit leaves -/

theorem last10 : 9 < cfg10.N := by rw [show cfg10.N = 10 from N_10]; decide

/-- The first row after the last visit, as contents of the first result array. -/
abbrev res10_sum (c : Dev nD) : Buf (Elt F) ((c : Thread nD τ).loc main_v130_0) := (outsAt10 V c 9 last10).1
/-- The second row after the last visit, as contents of the second result array. -/
abbrev res10_sumsq (c : Dev nD) : Buf (Elt F) ((c : Thread nD τ).loc main_v130_1) := (outsAt10 V c 9 last10).2

/-- The one write-back of the first row, after the last visit, writes it: its block is the whole array. -/
theorem flushed10_1_eq (c : Dev nD) (t : Fin cfg10.N) (hf : (cfg10.win 1).flush t = true) :
    (dat10 V c).flushed 1 t = ((cfg10.win 1).blk t).view.read (Elt F) (res10_sum V c) := by
  have hN : cfg10.N = 10 := N_10
  have h9 : t.val = 9 := by have := (flush10_1 t).mp hf; have := t.isLt; omega
  obtain rfl : t = t10_9 := Fin.ext h9
  show (cfg10.win 1).cut (grid10.coords t10_9) ((dat10 V c).after 1 t10_9) = _
  rw [after10_1]
  have hz' : (fun a => win10_1.index t10_9 a * main_v130_0.ty.shape.size a) = fun _ => 0 :=
    funext fun a => by fin_cases a <;> decide
  exact (Memref.read_access_unit_zero (Elt F) main_v130_0 hz' (fun a => by rw [congrFun hz' a]; simp) (res10_sum V c)).symm

/-- The one write-back of the second row. -/
theorem flushed10_2_eq (c : Dev nD) (t : Fin cfg10.N) (hf : (cfg10.win 2).flush t = true) :
    (dat10 V c).flushed 2 t = ((cfg10.win 2).blk t).view.read (Elt F) (res10_sumsq V c) := by
  have hN : cfg10.N = 10 := N_10
  have h9 : t.val = 9 := by have := (flush10_2 t).mp hf; have := t.isLt; omega
  obtain rfl : t = t10_9 := Fin.ext h9
  show (cfg10.win 2).cut (grid10.coords t10_9) ((dat10 V c).after 2 t10_9) = _
  rw [after10_2]
  have hz' : (fun a => win10_2.index t10_9 a * main_v130_1.ty.shape.size a) = fun _ => 0 :=
    funext fun a => by fin_cases a <;> decide
  exact (Memref.read_access_unit_zero (Elt F) main_v130_1 hz' (fun a => by rw [congrFun hz' a]; simp) (res10_sumsq V c)).symm

/-- The first result array after the region is the first row after the last visit. -/
theorem arr10_sum (c : Dev nD) : (dat10 V c).arrAt 1 cfg10.N = res10_sum V c :=
  (dat10 V c).arrAt_eq_of_cover 1 (res10_sum V c) (flushed10_1_eq V c) fun i =>
    ⟨t10_9, (flush10_1 t10_9).mpr rfl, by
      show i ∈ ((View.whole main_v130_0).slice (win10_1.rect t10_9)).set
      rw [View.set_slice_whole, Rect.mem_set_unit]
      intro a
      have h0 : (i 0 : Nat) < 1 := (i 0).isLt
      have h1 : (i 1 : Nat) < 64 := (i 1).isLt
      match a with
      | ⟨0, _⟩ =>
        show win10_1.index t10_9 0 * win10_1.size 0 ≤ (i 0 : Nat)
          ∧ (i 0 : Nat) < win10_1.index t10_9 0 * win10_1.size 0 + win10_1.xsize (grid10.coords t10_9) 0
        rw [show win10_1.index t10_9 0 * win10_1.size 0 = 0 from by decide +kernel,
          show win10_1.xsize (grid10.coords t10_9) 0 = 1 from by decide +kernel]; omega
      | ⟨1, _⟩ =>
        show win10_1.index t10_9 1 * win10_1.size 1 ≤ (i 1 : Nat)
          ∧ (i 1 : Nat) < win10_1.index t10_9 1 * win10_1.size 1 + win10_1.xsize (grid10.coords t10_9) 1
        rw [show win10_1.index t10_9 1 * win10_1.size 1 = 0 from by decide +kernel,
          show win10_1.xsize (grid10.coords t10_9) 1 = 64 from by decide +kernel]; omega⟩

/-- The second result array after the region is the second row after the last visit. -/
theorem arr10_sumsq (c : Dev nD) : (dat10 V c).arrAt 2 cfg10.N = res10_sumsq V c :=
  (dat10 V c).arrAt_eq_of_cover 2 (res10_sumsq V c) (flushed10_2_eq V c) fun i =>
    ⟨t10_9, (flush10_2 t10_9).mpr rfl, by
      show i ∈ ((View.whole main_v130_1).slice (win10_2.rect t10_9)).set
      rw [View.set_slice_whole, Rect.mem_set_unit]
      intro a
      have h0 : (i 0 : Nat) < 1 := (i 0).isLt
      have h1 : (i 1 : Nat) < 64 := (i 1).isLt
      match a with
      | ⟨0, _⟩ =>
        show win10_2.index t10_9 0 * win10_2.size 0 ≤ (i 0 : Nat)
          ∧ (i 0 : Nat) < win10_2.index t10_9 0 * win10_2.size 0 + win10_2.xsize (grid10.coords t10_9) 0
        rw [show win10_2.index t10_9 0 * win10_2.size 0 = 0 from by decide +kernel,
          show win10_2.xsize (grid10.coords t10_9) 0 = 1 from by decide +kernel]; omega
      | ⟨1, _⟩ =>
        show win10_2.index t10_9 1 * win10_2.size 1 ≤ (i 1 : Nat)
          ∧ (i 1 : Nat) < win10_2.index t10_9 1 * win10_2.size 1 + win10_2.xsize (grid10.coords t10_9) 1
        rw [show win10_2.index t10_9 1 * win10_2.size 1 = 0 from by decide +kernel,
          show win10_2.xsize (grid10.coords t10_9) 1 = 64 from by decide +kernel]; omega⟩

end Pieces

/-! ## The rows on the extended reals -/

section Value

variable (V : (c : Dev nD) → (b : Ref sig .tc) → Buf (Elt Ideal) ((c : Thread nD τ).loc b))

/-- The accumulation step of the sums at column `j`. -/
theorem pay4_10_apply (x : Vec Ideal S10000x64 .f32) (acc : Vec Ideal S1x64 .f32) (z : Fin 1) (j : Fin 64) :
    k10_pay4 (F := Ideal) x acc (ix2 z j) = acc (ix2 z j) + blockColSum x j := by
  unfold k10_pay4 k10_pay3
  exact acc_colsum_apply x acc _ _ _ _ _ _ z j

/-- The accumulation step of the sums of squares at column `j`. -/
theorem pay5_10_apply (x : Vec Ideal S10000x64 .f32) (acc : Vec Ideal S1x64 .f32) (z : Fin 1) (j : Fin 64) :
    k10_pay5 (F := Ideal) x acc (ix2 z j) = acc (ix2 z j) + blockColSumSq x j := by
  unfold k10_pay5 k10_pay3
  exact acc_colsumsq_apply x acc _ _ _ _ _ _ z j

/-- The zero rows read `0`. -/
theorem pay1_10_apply (i : S1x64.Idx) : k10_pay1 (F := Ideal) i = 0 := zero_row_apply i
theorem pay2_10_apply (i : S1x64.Idx) : k10_pay2 (F := Ideal) i = 0 := zero_row_apply i

/-- Where the input window's block sits in its array: block `t` starts at row `10000 t`, column 0. -/
theorem idx10_facts : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

/-- Row `r` of the block of visit `t` is row `10000 t + r` of the matrix. -/
theorem blk10_apply (c : Dev nD) (t : Fin cfg10.N) (r : Fin 10000) (j : Fin 64) (R' : Fin 100000)
    (hR : R'.val = t.val * 10000 + r.val) :
    (iblk10 V c 0 t : Vec Ideal S10000x64 .f32) (ix2 r j)
      = (V c (Pipeline.arrRef spec10 0) : Cert.Spec.Mat 100000 64) (ix2 R' j) := by
  unfold iblk10
  rw [View.read_apply]
  show V c (Pipeline.arrRef spec10 0) _ = V c (Pipeline.arrRef spec10 0) _
  congr 1
  funext a
  apply Fin.ext
  match a with
  | ⟨0, _⟩ =>
    show win10_0.index t 0 * 10000 + 1 * r.val = R'.val
    rw [(idx10_facts t).1, hR]; omega
  | ⟨1, _⟩ =>
    show win10_0.index t 1 * 64 + 1 * j.val = j.val
    rw [(idx10_facts t).2]; omega

/-- The column sums of the block of visit `s` (zero past the grid). -/
def part10 (c : Dev nD) (s : ℕ) (j : Fin 64) : EReal :=
  if h : s < cfg10.N then blockColSum (iblk10 V c 0 ⟨s, h⟩) j else 0

/-- The column sums of the squares of the block of visit `s` (zero past the grid). -/
def partsq10 (c : Dev nD) (s : ℕ) (j : Fin 64) : EReal :=
  if h : s < cfg10.N then blockColSumSq (iblk10 V c 0 ⟨s, h⟩) j else 0

/-- After visit `n` the first row holds the sum of the column sums of the blocks visited so far. -/
theorem outs10_fst (c : Dev nD) : ∀ (n : ℕ) (hn : n < cfg10.N) (z : Fin 1) (j : Fin 64),
    ((outsAt10 V c n hn).1 : Vec Ideal S1x64 .f32) (ix2 z j) = ∑ s ∈ Finset.range (n + 1), part10 V c s j
  | 0, hn, z, j => by
    rw [outs10_zero V c hn]
    show k10_pay4 (F := Ideal) (iblk10 V c 0 ⟨0, hn⟩) (k10_pay1 (F := Ideal)) (ix2 z j) = _
    rw [pay4_10_apply, pay1_10_apply, zero_add, Finset.sum_range_one, part10, dif_pos hn]
  | n + 1, hn, z, j => by
    rw [outs10_succ V c n hn]
    show k10_pay4 (F := Ideal) (iblk10 V c 0 ⟨n + 1, hn⟩) (outsAt10 V c n (Nat.lt_of_succ_lt hn)).1 (ix2 z j) = _
    rw [pay4_10_apply, outs10_fst c n (Nat.lt_of_succ_lt hn) z j, Finset.sum_range_succ _ (n + 1)]
    congr 1
    rw [part10, dif_pos hn]

/-- After visit `n` the second row holds the sum of the column sums of squares of the blocks visited so far. -/
theorem outs10_snd (c : Dev nD) : ∀ (n : ℕ) (hn : n < cfg10.N) (z : Fin 1) (j : Fin 64),
    ((outsAt10 V c n hn).2 : Vec Ideal S1x64 .f32) (ix2 z j) = ∑ s ∈ Finset.range (n + 1), partsq10 V c s j
  | 0, hn, z, j => by
    rw [outs10_zero V c hn]
    show k10_pay5 (F := Ideal) (iblk10 V c 0 ⟨0, hn⟩) (k10_pay2 (F := Ideal)) (ix2 z j) = _
    rw [pay5_10_apply, pay2_10_apply, zero_add, Finset.sum_range_one, partsq10, dif_pos hn]
  | n + 1, hn, z, j => by
    rw [outs10_succ V c n hn]
    show k10_pay5 (F := Ideal) (iblk10 V c 0 ⟨n + 1, hn⟩) (outsAt10 V c n (Nat.lt_of_succ_lt hn)).2 (ix2 z j) = _
    rw [pay5_10_apply, outs10_snd c n (Nat.lt_of_succ_lt hn) z j, Finset.sum_range_succ _ (n + 1)]
    congr 1
    rw [partsq10, dif_pos hn]

/-- The first result array after the region: the column sums of the input matrix. -/
theorem final10_sum (c : Dev nD) :
    ((dat10 (F := Ideal) V c).arrAt 1 cfg10.N : S1x64.Idx → EReal)
      = Cert.Spec.colSum (n := 100000) (V c (Pipeline.arrRef spec10 0)) := by
  rw [arr10_sum V c]
  funext i
  obtain ⟨z, j, rfl⟩ : ∃ (z : Fin 1) (j : Fin 64), i = ix2 z j := ⟨i 0, i 1, eq_ix2 i⟩
  have hN : cfg10.N = 10 := N_10
  refine (outs10_fst V c 9 last10 z j).trans ?_
  refine colSum_of_blocks (V c (Pipeline.arrRef spec10 0)) (fun s => part10 V c s j) z j fun s hs => ?_
  rw [part10, dif_pos (by omega : s < cfg10.N), blockColSum]
  exact Finset.sum_congr rfl fun r _ => blk10_apply V c ⟨s, by omega⟩ r j _ rfl

/-- The second result array after the region: the column sums of the squares of the input matrix. -/
theorem final10_sumsq (c : Dev nD) :
    ((dat10 (F := Ideal) V c).arrAt 2 cfg10.N : S1x64.Idx → EReal)
      = Cert.Spec.colSumSq (n := 100000) (V c (Pipeline.arrRef spec10 0)) := by
  rw [arr10_sumsq V c]
  funext i
  obtain ⟨z, j, rfl⟩ : ∃ (z : Fin 1) (j : Fin 64), i = ix2 z j := ⟨i 0, i 1, eq_ix2 i⟩
  have hN : cfg10.N = 10 := N_10
  refine (outs10_snd V c 9 last10 z j).trans ?_
  refine colSumSq_of_blocks (V c (Pipeline.arrRef spec10 0)) (fun s => partsq10 V c s j) z j fun s hs => ?_
  rw [partsq10, dif_pos (by omega : s < cfg10.N), blockColSumSq]
  exact Finset.sum_congr rfl fun r _ =>
    congrArg₂ (fun a b : EReal => a * b) (blk10_apply V c ⟨s, by omega⟩ r j _ rfl)
      (blk10_apply V c ⟨s, by omega⟩ r j _ rfl)

end Value

end Cert.KernelIdeal.KVal

end
-- ==== Proof.KBn11.lean ====
/-
  The value of a layer's normalisation kernel, as one function of the arrays it is given.

  The kernel walks the 100000 node rows in 10 blocks of 10000. At block `t` it reads rows `10000·t … 10000·t + 9999`
  of the perceptron's result `y` and the whole of four single rows — the batch mean, the batch variance, the scale `γ`
  and the shift `β` — and writes the same rows of its result, `max(γ · (y − mean) · rsqrt(var + ε) + β, 0)` entry by
  entry. An entry of the result reads its own entry of `y` and its own column of the four rows, so the ten blocks
  tile the rows and the result array is the specification's `bnOut` of the five arrays as the kernel finds them.
-/
import proofs.«142526_j3951369912896_1_alg».proof.Proof.Gen.KernelIdeal.Frame
import proofs.«142526_j3951369912896_1_alg».proof.Proof.KBnEntry
import Idealize.ShloMosaic.Lib.Pipeline.Value

noncomputable section

namespace Cert.KernelIdeal.KVal.Bn11

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five blocks it loaded (in the order the body names them: the
    rows, the variance, the scale, the mean, the shift). -/
theorem pay_entry (y : Vec Ideal S10000x64 .f32) (var gamma mean beta : Vec Ideal S1x64 .f32) (p : Fin 10000) (q : Fin 64) :
    k11_pay1 (F := Ideal) y var gamma mean beta (ix2 p q)
      = max (gamma (ix2 0 q) * (y (ix2 p q) - mean (ix2 0 q)) * Ideal.rsqrt (var (ix2 0 q) + Cert.Spec.eps32)
          + beta (ix2 0 q)) Cert.Spec.zero32 := by
  unfold k11_pay1
  simp only [shapeCast_self]
  exact bn_entry y var gamma mean beta _ p q

/-- The same entry when the loaded row block is rows of a whole array (entry `(p, q)` of the block is entry `(r, q)`
    of `Y`) and the four small blocks are the whole rows. -/
theorem block_entry (Y : S100000x64.Idx → EReal) (Mn Vr Gm Bt : S1x64.Idx → EReal)
    (x0 : Vec Ideal S10000x64 .f32) (x1 x2 x3 x4 : Vec Ideal S1x64 .f32) (p : Fin 10000) (q : Fin 64) (r : Fin 100000)
    (h0 : x0 (ix2 p q) = Y (ix2 r q)) (h1 : x1 = Mn) (h2 : x2 = Vr) (h3 : x3 = Gm) (h4 : x4 = Bt) :
    k11_pay1 (F := Ideal) x0 x2 x3 x1 x4 (ix2 p q) = Cert.Spec.bnOut Y Mn Vr Gm Bt (ix2 r q) := by
  subst h1 h2 h3 h4
  rw [pay_entry, h0]
  rfl

/-- Where each window's block sits at grid point `t`, decided over the ten points: the row-block input and the output
    at block row `t`, the four single rows at their one block. -/
theorem block_index : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- The normalisation on the five arrays as the kernel finds them: the rows, then the mean, the variance, the scale
    and the shift. -/
abbrev whole (c : Dev nD) : S100000x64.Idx → EReal :=
  Cert.Spec.bnOut (n := 100000) (V c (Pipeline.arrRef spec11 0)) (V c (Pipeline.arrRef spec11 1)) (V c (Pipeline.arrRef spec11 2))
    (V c (Pipeline.arrRef spec11 3)) (V c (Pipeline.arrRef spec11 4))

/-- Single-row input 1's one block is its whole array. -/
theorem small_block1 (c : Dev nD) (t : Fin cfg11.N) :
    (iblk11 V c 1 t : Vec Ideal S1x64 .f32) = V c (Pipeline.arrRef spec11 1) := by
  have e0 : win11_1.index t (0 : Fin 2) = 0 := (block_index t).2.2.1
  have e1 : win11_1.index t (1 : Fin 2) = 0 := (block_index t).2.2.2.1
  funext y
  show V c (Pipeline.arrRef spec11 1) (((cfg11.win 1).blk t).view.emb y) = V c (Pipeline.arrRef spec11 1) y
  refine congrArg (V c (Pipeline.arrRef spec11 1)) (funext fun a => Fin.ext ?_)
  match a with
  | ⟨0, _⟩ => show win11_1.index t (0 : Fin 2) * 1 + 1 * (y 0).val = (y 0).val; rw [e0]; omega
  | ⟨1, _⟩ => show win11_1.index t (1 : Fin 2) * 64 + 1 * (y 1).val = (y 1).val; rw [e1]; omega

/-- Single-row input 2's one block is its whole array. -/
theorem small_block2 (c : Dev nD) (t : Fin cfg11.N) :
    (iblk11 V c 2 t : Vec Ideal S1x64 .f32) = V c (Pipeline.arrRef spec11 2) := by
  have e0 : win11_2.index t (0 : Fin 2) = 0 := (block_index t).2.2.2.2.1
  have e1 : win11_2.index t (1 : Fin 2) = 0 := (block_index t).2.2.2.2.2.1
  funext y
  show V c (Pipeline.arrRef spec11 2) (((cfg11.win 2).blk t).view.emb y) = V c (Pipeline.arrRef spec11 2) y
  refine congrArg (V c (Pipeline.arrRef spec11 2)) (funext fun a => Fin.ext ?_)
  match a with
  | ⟨0, _⟩ => show win11_2.index t (0 : Fin 2) * 1 + 1 * (y 0).val = (y 0).val; rw [e0]; omega
  | ⟨1, _⟩ => show win11_2.index t (1 : Fin 2) * 64 + 1 * (y 1).val = (y 1).val; rw [e1]; omega

/-- Single-row input 3's one block is its whole array. -/
theorem small_block3 (c : Dev nD) (t : Fin cfg11.N) :
    (iblk11 V c 3 t : Vec Ideal S1x64 .f32) = V c (Pipeline.arrRef spec11 3) := by
  have e0 : win11_3.index t (0 : Fin 2) = 0 := (block_index t).2.2.2.2.2.2.1
  have e1 : win11_3.index t (1 : Fin 2) = 0 := (block_index t).2.2.2.2.2.2.2.1
  funext y
  show V c (Pipeline.arrRef spec11 3) (((cfg11.win 3).blk t).view.emb y) = V c (Pipeline.arrRef spec11 3) y
  refine congrArg (V c (Pipeline.arrRef spec11 3)) (funext fun a => Fin.ext ?_)
  match a with
  | ⟨0, _⟩ => show win11_3.index t (0 : Fin 2) * 1 + 1 * (y 0).val = (y 0).val; rw [e0]; omega
  | ⟨1, _⟩ => show win11_3.index t (1 : Fin 2) * 64 + 1 * (y 1).val = (y 1).val; rw [e1]; omega

/-- Single-row input 4's one block is its whole array. -/
theorem small_block4 (c : Dev nD) (t : Fin cfg11.N) :
    (iblk11 V c 4 t : Vec Ideal S1x64 .f32) = V c (Pipeline.arrRef spec11 4) := by
  have e0 : win11_4.index t (0 : Fin 2) = 0 := (block_index t).2.2.2.2.2.2.2.2.1
  have e1 : win11_4.index t (1 : Fin 2) = 0 := (block_index t).2.2.2.2.2.2.2.2.2.1
  funext y
  show V c (Pipeline.arrRef spec11 4) (((cfg11.win 4).blk t).view.emb y) = V c (Pipeline.arrRef spec11 4) y
  refine congrArg (V c (Pipeline.arrRef spec11 4)) (funext fun a => Fin.ext ?_)
  match a with
  | ⟨0, _⟩ => show win11_4.index t (0 : Fin 2) * 1 + 1 * (y 0).val = (y 0).val; rw [e0]; omega
  | ⟨1, _⟩ => show win11_4.index t (1 : Fin 2) * 64 + 1 * (y 1).val = (y 1).val; rw [e1]; omega

/-- Entry `(p, q)` of the row-block input at point `t` is entry `(10000·t + p, q)` of its array. -/
theorem row_block (c : Dev nD) (t : Fin cfg11.N) (p : Fin 10000) (q : Fin 64) (r : Fin 100000) (hr : r.val = t.val * 10000 + p.val) :
    (iblk11 V c 0 t : Vec Ideal S10000x64 .f32) (ix2 p q) = (V c (Pipeline.arrRef spec11 0) : S100000x64.Idx → EReal) (ix2 r q) := by
  obtain ⟨e00, e01, -⟩ := block_index t
  show V c (Pipeline.arrRef spec11 0) (((cfg11.win 0).blk t).view.emb (ix2 p q)) = V c (Pipeline.arrRef spec11 0) (ix2 r q)
  refine congrArg (V c (Pipeline.arrRef spec11 0)) (funext fun a => Fin.ext ?_)
  match a with
  | ⟨0, _⟩ => show win11_0.index t (0 : Fin 2) * 10000 + 1 * p.val = r.val; rw [e00, hr]; omega
  | ⟨1, _⟩ => show win11_0.index t (1 : Fin 2) * 64 + 1 * q.val = q.val; rw [e01]; omega

/-- What grid point `t` writes back is block `t` of the whole-array normalisation. -/
theorem flushed_eq (c : Dev nD) (t : Fin cfg11.N) :
    (dat11 (F := Ideal) V c).flushed 5 t = ((cfg11.win 5).blk t).view.read (Elt Ideal) (whole V c) := by
  show (cfg11.win 5).cut (grid11.coords t) ((dat11 (F := Ideal) V c).after 5 t) = _
  rw [after11_5]
  unfold out11_5
  rw [View.canon_unit_zero zero_offsets]
  simp only [View.ld_unit_zero (S := S10000x64) zero_offsets, View.ld_unit_zero (S := S1x64) zero_offsets]
  obtain ⟨-, -, -, -, -, -, -, -, -, -, e50, e51⟩ := block_index t
  have hN : cfg11.N = 10 := N_11
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg11.win 5).blk t).view.emb (ix2 p q) = ix2 r q := by
    funext a; apply Fin.ext
    match a with
    | ⟨0, _⟩ => show win11_5.index t (0 : Fin 2) * 10000 + 1 * p.val = r.val; rw [e50, hr]; omega
    | ⟨1, _⟩ => show win11_5.index t (1 : Fin 2) * 64 + 1 * q.val = q.val; rw [e51]; omega
  show k11_pay1 (F := Ideal) (iblk11 V c 0 t) (iblk11 V c 2 t) (iblk11 V c 3 t) (iblk11 V c 1 t) (iblk11 V c 4 t) (ix2 p q)
    = whole V c (((cfg11.win 5).blk t).view.emb (ix2 p q))
  rw [hemb]
  exact block_entry (V c (Pipeline.arrRef spec11 0)) (V c (Pipeline.arrRef spec11 1)) (V c (Pipeline.arrRef spec11 2))
    (V c (Pipeline.arrRef spec11 3)) (V c (Pipeline.arrRef spec11 4))
    (iblk11 V c 0 t) (iblk11 V c 1 t) (iblk11 V c 2 t) (iblk11 V c 3 t) (iblk11 V c 4 t) p q r
    (row_block V c t p q r hr) (small_block1 V c t) (small_block2 V c t) (small_block3 V c t) (small_block4 V c t)

/-- An index of the result array is in point `t`'s block iff each coordinate is in the block's range on its axis. -/
theorem mem_block (t : Fin cfg11.N) (i : S100000x64.Idx) :
    i ∈ ((cfg11.win 5).blk t).view.set ↔ ∀ a : Fin 2, win11_5.index t a * S10000x64.size a ≤ (i a).val
      ∧ (i a).val < win11_5.index t a * S10000x64.size a + S10000x64.size a := by
  show i ∈ ((View.whole main_v143).slice (win11_5.rect t)).set ↔ _
  rw [View.set_slice_whole, Rect.mem_set_unit]
  exact Iff.rfl

/-- The ten blocks tile the rows: row `r` is in block `r / 10000`, which is written back. -/
theorem cover (i : S100000x64.Idx) :
    ∃ t : Fin cfg11.N, (cfg11.win 5).flush t = true ∧ i ∈ ((cfg11.win 5).blk t).view.set := by
  have hi0 : (i 0).val < 100000 := (i 0).isLt
  have hi1 : (i 1).val < 64 := (i 1).isLt
  have hN : cfg11.N = 10 := N_11
  obtain ⟨t, ht⟩ : ∃ t : Fin cfg11.N, t.val = (i 0).val / 10000 := ⟨⟨(i 0).val / 10000, by omega⟩, rfl⟩
  obtain ⟨-, -, -, -, -, -, -, -, -, -, e50, e51⟩ := block_index t
  refine ⟨t, flush11_5 t, ?_⟩
  rw [mem_block]
  intro a
  match a with
  | ⟨0, _⟩ =>
    show win11_5.index t (0 : Fin 2) * 10000 ≤ (i 0).val ∧ (i 0).val < win11_5.index t (0 : Fin 2) * 10000 + 10000
    rw [e50, ht]; omega
  | ⟨1, _⟩ =>
    show win11_5.index t (1 : Fin 2) * 64 ≤ (i 1).val ∧ (i 1).val < win11_5.index t (1 : Fin 2) * 64 + 64
    rw [e51]; omega

end Cert.KernelIdeal.KVal.Bn11

namespace Cert.KernelIdeal.KVal

open Cert.KernelIdeal Cert.KernelIdeal.Gen
open Idealize.ShloMosaic Idealize.ShloMosaic.TcCoe Idealize.SL.Sem

/-- The normalisation kernel's result array after its run: the specification's `bnOut` of the rows, the mean, the
    variance, the scale and the shift as the kernel finds them (its input windows 0 to 4, in that order). -/
theorem final11 (V : (c : Dev nD) → (b : Ref sig .tc) → Buf (Elt Ideal) ((c : Thread nD τ).loc b)) (c : Dev nD) :
    (dat11 (F := Ideal) V c).arrAt 5 cfg11.N
      = Cert.Spec.bnOut (n := 100000) (V c (Pipeline.arrRef spec11 0)) (V c (Pipeline.arrRef spec11 1)) (V c (Pipeline.arrRef spec11 2))
          (V c (Pipeline.arrRef spec11 3)) (V c (Pipeline.arrRef spec11 4)) :=
  (dat11 (F := Ideal) V c).arrAt_eq_of_cover 5 (Bn11.whole V c) (fun t _ => Bn11.flushed_eq V c t) Bn11.cover

end Cert.KernelIdeal.KVal

end
-- ==== Proof.KMlp12.lean ====
/-
  The value of a layer's perceptron kernel, as one function of the arrays it is given.

  The kernel walks the 100000 node rows in 10 blocks of 10000. At block `t` it reads rows `10000·t … 10000·t + 9999`
  of the features and of the neighbour sums, and the whole of the two weight matrices and the two bias rows, and
  writes the same rows of its result: `relu((x + agg) · W₁ + b₁) · W₂ + b₂` on those rows. An entry of the result
  depends on its own row only, so row `10000·t + p` of the result is the row formula on row `10000·t + p` of the
  operands, whatever the block: the ten blocks tile the rows, and the result array is the specification's `mlpOut`
  of the six arrays as the kernel finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Mlp12

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the six blocks it loaded: the row formula on row `p` of the sum of
    the first two. -/
theorem pay_entry (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) :
    k12_pay1 (F := Ideal) x0 x1 x2 x3 x4 x5 (ix2 p q)
      = Cert.Spec.mlpRow (fun k => x0 (ix2 p k) + x1 (ix2 p k)) x2 x3 x4 x5 q := by
  unfold k12_pay1
  simp only [shapeCast_self]
  exact mlp_entry (addf x0 x1) x2 x3 x4 x5 _ _ _ p q

/-- The same entry when the loaded blocks are rows of whole arrays: rows `p` of the two row blocks are rows `r` of
    `A0` and `A1`, and the four small blocks are the whole small arrays. -/
theorem block_entry (A0 A1 : S100000x64.Idx → EReal) (W1 : S64x64.Idx → EReal) (B1 : S1x64.Idx → EReal)
    (W2 : S64x64.Idx → EReal) (B2 : S1x64.Idx → EReal)
    (x0 x1 : Vec Ideal S10000x64 .f32) (x2 : Vec Ideal S64x64 .f32) (x3 : Vec Ideal S1x64 .f32)
    (x4 : Vec Ideal S64x64 .f32) (x5 : Vec Ideal S1x64 .f32) (p : Fin 10000) (q : Fin 64) (r : Fin 100000)
    (h0 : ∀ k : Fin 64, x0 (ix2 p k) = A0 (ix2 r k)) (h1 : ∀ k : Fin 64, x1 (ix2 p k) = A1 (ix2 r k))
    (h2 : x2 = W1) (h3 : x3 = B1) (h4 : x4 = W2) (h5 : x5 = B2) :
    k12_pay1 (F := Ideal) x0 x1 x2 x3 x4 x5 (ix2 p q) = Cert.Spec.mlpOut A0 A1 W1 B1 W2 B2 (ix2 r q) := by
  subst h2 h3 h4 h5
  rw [pay_entry]
  simp only [h0, h1]
  rfl

/-- Where each window's block sits at grid point `t`, decided over the ten points: the two row-block inputs and the
    output at block row `t`, the four small inputs at their one block. -/
theorem block_index : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = 0 ∧ win12_5.index t (1 : Fin 2) = 0
    ∧ win12_6.index t (0 : Fin 2) = t.val ∧ win12_6.index t (1 : Fin 2) = 0 :=
  (by decide +kernel : ∀ t : Fin grid12.N, _)

/-- The layer's perceptron on the six arrays as the kernel finds them. -/
abbrev whole (c : Dev nD) : S100000x64.Idx → EReal :=
  Cert.Spec.mlpOut (n := 100000) (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))

/-- Small input 2's one block is its whole array. -/
theorem small_block2 (c : Dev nD) (t : Fin cfg12.N) :
    (iblk12 V c 2 t : Vec Ideal S64x64 .f32) = V c (Pipeline.arrRef spec12 2) := by
  have e0 : win12_2.index t (0 : Fin 2) = 0 := (block_index t).2.2.2.2.1
  have e1 : win12_2.index t (1 : Fin 2) = 0 := (block_index t).2.2.2.2.2.1
  funext y
  show V c (Pipeline.arrRef spec12 2) (((cfg12.win 2).blk t).view.emb y) = V c (Pipeline.arrRef spec12 2) y
  refine congrArg (V c (Pipeline.arrRef spec12 2)) (funext fun a => Fin.ext ?_)
  match a with
  | ⟨0, _⟩ => show win12_2.index t (0 : Fin 2) * 64 + 1 * (y 0).val = (y 0).val; rw [e0]; omega
  | ⟨1, _⟩ => show win12_2.index t (1 : Fin 2) * 64 + 1 * (y 1).val = (y 1).val; rw [e1]; omega

/-- Small input 3's one block is its whole array. -/
theorem small_block3 (c : Dev nD) (t : Fin cfg12.N) :
    (iblk12 V c 3 t : Vec Ideal S1x64 .f32) = V c (Pipeline.arrRef spec12 3) := by
  have e0 : win12_3.index t (0 : Fin 2) = 0 := (block_index t).2.2.2.2.2.2.1
  have e1 : win12_3.index t (1 : Fin 2) = 0 := (block_index t).2.2.2.2.2.2.2.1
  funext y
  show V c (Pipeline.arrRef spec12 3) (((cfg12.win 3).blk t).view.emb y) = V c (Pipeline.arrRef spec12 3) y
  refine congrArg (V c (Pipeline.arrRef spec12 3)) (funext fun a => Fin.ext ?_)
  match a with
  | ⟨0, _⟩ => show win12_3.index t (0 : Fin 2) * 1 + 1 * (y 0).val = (y 0).val; rw [e0]; omega
  | ⟨1, _⟩ => show win12_3.index t (1 : Fin 2) * 64 + 1 * (y 1).val = (y 1).val; rw [e1]; omega

/-- Small input 4's one block is its whole array. -/
theorem small_block4 (c : Dev nD) (t : Fin cfg12.N) :
    (iblk12 V c 4 t : Vec Ideal S64x64 .f32) = V c (Pipeline.arrRef spec12 4) := by
  have e0 : win12_4.index t (0 : Fin 2) = 0 := (block_index t).2.2.2.2.2.2.2.2.1
  have e1 : win12_4.index t (1 : Fin 2) = 0 := (block_index t).2.2.2.2.2.2.2.2.2.1
  funext y
  show V c (Pipeline.arrRef spec12 4) (((cfg12.win 4).blk t).view.emb y) = V c (Pipeline.arrRef spec12 4) y
  refine congrArg (V c (Pipeline.arrRef spec12 4)) (funext fun a => Fin.ext ?_)
  match a with
  | ⟨0, _⟩ => show win12_4.index t (0 : Fin 2) * 64 + 1 * (y 0).val = (y 0).val; rw [e0]; omega
  | ⟨1, _⟩ => show win12_4.index t (1 : Fin 2) * 64 + 1 * (y 1).val = (y 1).val; rw [e1]; omega

/-- Small input 5's one block is its whole array. -/
theorem small_block5 (c : Dev nD) (t : Fin cfg12.N) :
    (iblk12 V c 5 t : Vec Ideal S1x64 .f32) = V c (Pipeline.arrRef spec12 5) := by
  have e0 : win12_5.index t (0 : Fin 2) = 0 := (block_index t).2.2.2.2.2.2.2.2.2.2.1
  have e1 : win12_5.index t (1 : Fin 2) = 0 := (block_index t).2.2.2.2.2.2.2.2.2.2.2.1
  funext y
  show V c (Pipeline.arrRef spec12 5) (((cfg12.win 5).blk t).view.emb y) = V c (Pipeline.arrRef spec12 5) y
  refine congrArg (V c (Pipeline.arrRef spec12 5)) (funext fun a => Fin.ext ?_)
  match a with
  | ⟨0, _⟩ => show win12_5.index t (0 : Fin 2) * 1 + 1 * (y 0).val = (y 0).val; rw [e0]; omega
  | ⟨1, _⟩ => show win12_5.index t (1 : Fin 2) * 64 + 1 * (y 1).val = (y 1).val; rw [e1]; omega

/-- Row `p` of row-block input 0 at point `t` is row `10000·t + p` of its array. -/
theorem row_block0 (c : Dev nD) (t : Fin cfg12.N) (p : Fin 10000) (r : Fin 100000) (hr : r.val = t.val * 10000 + p.val) (k : Fin 64) :
    (iblk12 V c 0 t : Vec Ideal S10000x64 .f32) (ix2 p k) = (V c (Pipeline.arrRef spec12 0) : S100000x64.Idx → EReal) (ix2 r k) := by
  have e0 : win12_0.index t (0 : Fin 2) = t.val := (block_index t).1
  have e1 : win12_0.index t (1 : Fin 2) = 0 := (block_index t).2.1
  show V c (Pipeline.arrRef spec12 0) (((cfg12.win 0).blk t).view.emb (ix2 p k)) = V c (Pipeline.arrRef spec12 0) (ix2 r k)
  refine congrArg (V c (Pipeline.arrRef spec12 0)) (funext fun a => Fin.ext ?_)
  match a with
  | ⟨0, _⟩ => show win12_0.index t (0 : Fin 2) * 10000 + 1 * p.val = r.val; rw [e0, hr]; omega
  | ⟨1, _⟩ => show win12_0.index t (1 : Fin 2) * 64 + 1 * k.val = k.val; rw [e1]; omega

/-- Row `p` of row-block input 1 at point `t` is row `10000·t + p` of its array. -/
theorem row_block1 (c : Dev nD) (t : Fin cfg12.N) (p : Fin 10000) (r : Fin 100000) (hr : r.val = t.val * 10000 + p.val) (k : Fin 64) :
    (iblk12 V c 1 t : Vec Ideal S10000x64 .f32) (ix2 p k) = (V c (Pipeline.arrRef spec12 1) : S100000x64.Idx → EReal) (ix2 r k) := by
  have e0 : win12_1.index t (0 : Fin 2) = t.val := (block_index t).2.2.1
  have e1 : win12_1.index t (1 : Fin 2) = 0 := (block_index t).2.2.2.1
  show V c (Pipeline.arrRef spec12 1) (((cfg12.win 1).blk t).view.emb (ix2 p k)) = V c (Pipeline.arrRef spec12 1) (ix2 r k)
  refine congrArg (V c (Pipeline.arrRef spec12 1)) (funext fun a => Fin.ext ?_)
  match a with
  | ⟨0, _⟩ => show win12_1.index t (0 : Fin 2) * 10000 + 1 * p.val = r.val; rw [e0, hr]; omega
  | ⟨1, _⟩ => show win12_1.index t (1 : Fin 2) * 64 + 1 * k.val = k.val; rw [e1]; omega

/-- What grid point `t` writes back is block `t` of the whole-array perceptron. -/
theorem flushed_eq (c : Dev nD) (t : Fin cfg12.N) :
    (dat12 (F := Ideal) V c).flushed 6 t = ((cfg12.win 6).blk t).view.read (Elt Ideal) (whole V c) := by
  show (cfg12.win 6).cut (grid12.coords t) ((dat12 (F := Ideal) V c).after 6 t) = _
  rw [after12_6]
  unfold out12_6
  rw [View.canon_unit_zero zero_offsets]
  simp only [View.ld_unit_zero (S := S10000x64) zero_offsets, View.ld_unit_zero (S := S64x64) zero_offsets,
    View.ld_unit_zero (S := S1x64) zero_offsets]
  obtain ⟨-, -, -, -, -, -, -, -, -, -, -, -, e60, e61⟩ := block_index t
  have hN : cfg12.N = 10 := N_12
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg12.win 6).blk t).view.emb (ix2 p q) = ix2 r q := by
    funext a; apply Fin.ext
    match a with
    | ⟨0, _⟩ => show win12_6.index t (0 : Fin 2) * 10000 + 1 * p.val = r.val; rw [e60, hr]; omega
    | ⟨1, _⟩ => show win12_6.index t (1 : Fin 2) * 64 + 1 * q.val = q.val; rw [e61]; omega
  show k12_pay1 (F := Ideal) (iblk12 V c 0 t) (iblk12 V c 1 t) (iblk12 V c 2 t) (iblk12 V c 3 t) (iblk12 V c 4 t) (iblk12 V c 5 t) (ix2 p q)
    = whole V c (((cfg12.win 6).blk t).view.emb (ix2 p q))
  rw [hemb]
  exact block_entry (V c (Pipeline.arrRef spec12 0)) (V c (Pipeline.arrRef spec12 1)) (V c (Pipeline.arrRef spec12 2))
    (V c (Pipeline.arrRef spec12 3)) (V c (Pipeline.arrRef spec12 4)) (V c (Pipeline.arrRef spec12 5))
    (iblk12 V c 0 t) (iblk12 V c 1 t) (iblk12 V c 2 t) (iblk12 V c 3 t) (iblk12 V c 4 t) (iblk12 V c 5 t) p q r
    (fun k => row_block0 V c t p r hr k) (fun k => row_block1 V c t p r hr k)
    (small_block2 V c t) (small_block3 V c t) (small_block4 V c t) (small_block5 V c t)

/-- An index of the result array is in point `t`'s block iff each coordinate is in the block's range on its axis. -/
theorem mem_block (t : Fin cfg12.N) (i : S100000x64.Idx) :
    i ∈ ((cfg12.win 6).blk t).view.set ↔ ∀ a : Fin 2, win12_6.index t a * S10000x64.size a ≤ (i a).val
      ∧ (i a).val < win12_6.index t a * S10000x64.size a + S10000x64.size a := by
  show i ∈ ((View.whole main_v164).slice (win12_6.rect t)).set ↔ _
  rw [View.set_slice_whole, Rect.mem_set_unit]
  exact Iff.rfl

/-- The ten blocks tile the rows: row `r` is in block `r / 10000`, which is written back. -/
theorem cover (i : S100000x64.Idx) :
    ∃ t : Fin cfg12.N, (cfg12.win 6).flush t = true ∧ i ∈ ((cfg12.win 6).blk t).view.set := by
  have hi0 : (i 0).val < 100000 := (i 0).isLt
  have hi1 : (i 1).val < 64 := (i 1).isLt
  have hN : cfg12.N = 10 := N_12
  obtain ⟨t, ht⟩ : ∃ t : Fin cfg12.N, t.val = (i 0).val / 10000 := ⟨⟨(i 0).val / 10000, by omega⟩, rfl⟩
  obtain ⟨-, -, -, -, -, -, -, -, -, -, -, -, e60, e61⟩ := block_index t
  refine ⟨t, flush12_6 t, ?_⟩
  rw [mem_block]
  intro a
  match a with
  | ⟨0, _⟩ =>
    show win12_6.index t (0 : Fin 2) * 10000 ≤ (i 0).val ∧ (i 0).val < win12_6.index t (0 : Fin 2) * 10000 + 10000
    rw [e60, ht]; omega
  | ⟨1, _⟩ =>
    show win12_6.index t (1 : Fin 2) * 64 ≤ (i 1).val ∧ (i 1).val < win12_6.index t (1 : Fin 2) * 64 + 64
    rw [e61]; omega

end Cert.KernelIdeal.KVal.Mlp12

namespace Cert.KernelIdeal.KVal

open Cert.KernelIdeal Cert.KernelIdeal.Gen
open Idealize.ShloMosaic Idealize.ShloMosaic.TcCoe Idealize.SL.Sem

/-- The perceptron kernel's result array after its run: the specification's `mlpOut` of the six arrays as the kernel
    finds them. -/
theorem final12 (V : (c : Dev nD) → (b : Ref sig .tc) → Buf (Elt Ideal) ((c : Thread nD τ).loc b)) (c : Dev nD) :
    (dat12 (F := Ideal) V c).arrAt 6 cfg12.N
      = Cert.Spec.mlpOut (n := 100000) (V c (Pipeline.arrRef spec12 0)) (V c (Pipeline.arrRef spec12 1)) (V c (Pipeline.arrRef spec12 2))
          (V c (Pipeline.arrRef spec12 3)) (V c (Pipeline.arrRef spec12 4)) (V c (Pipeline.arrRef spec12 5)) :=
  (dat12 (F := Ideal) V c).arrAt_eq_of_cover 6 (Mlp12.whole V c) (fun t _ => Mlp12.flushed_eq V c t) Mlp12.cover

end Cert.KernelIdeal.KVal

end
-- ==== Proof.KStats13.lean ====
/-
  What the statistics kernel of region 13 leaves in its two result rows.

  The kernel visits ten blocks of 10000 rows of a 100000 × 64 matrix `y`. At the first block it zeroes its two rows;
  at every block it adds the block's column sums to the first row and the column sums of the block's squares to the
  second. Both rows are kept from one block to the next and written back after the last one. So after block `n` the
  first row holds, at column `j`, the sum over the blocks `s ≤ n` of `∑ᵣ y(10000 s + r, j)` — by induction on `n`, the
  zero word being `0` and `0 + a = a` — and after the last block the ten block sums are the one sum over all 100000
  rows: the column sum of `y`. Likewise for the squares. No finiteness is used: addition on the extended reals is
  commutative and associative.
-/
import proofs.«142526_j3951369912896_1_alg».proof.Proof.Gen.KernelIdeal.Frame
import proofs.«142526_j3951369912896_1_alg».proof.Proof.Spec
import proofs.«142526_j3951369912896_1_alg».proof.Proof.KStatsLib
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen

/-! ## What one visit leaves in each row, for any float instance -/

section Pieces

variable {F : FTy → Type} [FloatOps F]
variable (V : (c : Dev nD) → (b : Ref sig .tc) → Buf (Elt F) ((c : Thread nD τ).loc b))

/-- A later visit leaves, in the first row holding `xo1`, the accumulation step of the block `x` onto `xo1`. -/
theorem out13_B_1_eq (c : Dev nD) (i : grid13.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond13_0 i) (x : Vec F S10000x64 .f32) (xo1 xo2 : Vec F S1x64 .f32) :
    out13_B_1 c i a1 h1 a2 h2 a3 h3 hc x xo1 xo2 = k13_pay4 x xo1 := by
  unfold out13_B_1
  rw [View.read_writes_eq_canon _ _ _ (cover13_B_1 c i a1 h1 a2 h2 a3 h3 hc x xo1 xo2)]
  unfold kernelRun13_B
  dsimp only
  rw [View.canon_unit_zero hz2]
  simp only [View.readAt_eq_ld, h1.read_unread, h2.read_unread, View.ld_unit_zero (S := S10000x64) hz2,
    View.ld_unit_zero (S := S1x64) hz2]

/-- A later visit leaves, in the second row holding `xo2`, the accumulation step of the squares of `x` onto `xo2`. -/
theorem out13_B_2_eq (c : Dev nD) (i : grid13.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond13_0 i) (x : Vec F S10000x64 .f32) (xo1 xo2 : Vec F S1x64 .f32) :
    out13_B_2 c i a1 h1 a2 h2 a3 h3 hc x xo1 xo2 = k13_pay5 x xo2 := by
  unfold out13_B_2
  rw [View.read_writes_eq_canon _ _ _ (cover13_B_2 c i a1 h1 a2 h2 a3 h3 hc x xo1 xo2)]
  unfold kernelRun13_B
  dsimp only
  rw [View.canon_unit_zero hz2]
  simp only [View.readAt_eq_ld, h1.read_unread, h3.read_unread, View.ld_unit_zero (S := S10000x64) hz2,
    View.ld_unit_zero (S := S1x64) hz2]

/-- The first visit stores the zero row, reads it back, and leaves the accumulation step of `x` onto the zero row. -/
theorem out13_A_1_eq (c : Dev nD) (i : grid13.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond13_0 i) (x : Vec F S10000x64 .f32) :
    out13_A_1 c i a1 h1 a2 h2 a3 h3 hc x = k13_pay4 x k13_pay1 := by
  unfold out13_A_1
  rw [View.read_writes_eq_canon _ _ _ (cover13_A_1 c i a1 h1 a2 h2 a3 h3 hc x)]
  unfold kernelRun13_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The first visit leaves, in the second row, the accumulation step of the squares of `x` onto the zero row. -/
theorem out13_A_2_eq (c : Dev nD) (i : grid13.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond13_0 i) (x : Vec F S10000x64 .f32) :
    out13_A_2 c i a1 h1 a2 h2 a3 h3 hc x = k13_pay5 x k13_pay2 := by
  unfold out13_A_2
  rw [View.read_writes_eq_canon _ _ _ (cover13_A_2 c i a1 h1 a2 h2 a3 h3 hc x)]
  unfold kernelRun13_A
  dsimp only
  sl_unfold_words
  rw [View.canon_cons_unit_zero (S := S1x64) hz2, View.readCov_unit_zero (S := S1x64) _ hz2]
  simp only [View.readAt_eq_ld, h1.read_unread, View.ld_unit_zero (S := S10000x64) hz2]

/-- The two rows after the first visit. -/
theorem outs13_zero (c : Dev nD) (hn : 0 < cfg13.N) :
    outsAt13 V c 0 hn
      = (k13_pay4 (iblk13 V c 0 ⟨0, hn⟩) k13_pay1, k13_pay5 (iblk13 V c 0 ⟨0, hn⟩) k13_pay2) := by
  rw [outsAt13_A V c ⟨0, hn⟩ rfl, out13_A_1_eq, out13_A_2_eq]

/-- The two rows after a later visit, from the rows after the visit before. -/
theorem outs13_succ (c : Dev nD) (n : ℕ) (hn : n + 1 < cfg13.N) :
    outsAt13 V c (n + 1) hn
      = (k13_pay4 (iblk13 V c 0 ⟨n + 1, hn⟩) (outsAt13 V c n (Nat.lt_of_succ_lt hn)).1,
         k13_pay5 (iblk13 V c 0 ⟨n + 1, hn⟩) (outsAt13 V c n (Nat.lt_of_succ_lt hn)).2) := by
  have hN : cfg13.N = 10 := N_13
  have hB : ¬(⟨n + 1, hn⟩ : Fin cfg13.N).val % 10 = 0 := by dsimp only; omega
  rw [outsAt13_B V c ⟨n + 1, hn⟩ hB, out13_B_1_eq, out13_B_2_eq]
  rfl

/-! ## The arrays after the region: what the last visit leaves -/

theorem last13 : 9 < cfg13.N := by rw [show cfg13.N = 10 from N_13]; decide

/-- The first row after the last visit, as contents of the first result array. -/
abbrev res13_sum (c : Dev nD) : Buf (Elt F) ((c : Thread nD τ).loc main_v165_0) := (outsAt13 V c 9 last13).1
/-- The second row after the last visit, as contents of the second result array. -/
abbrev res13_sumsq (c : Dev nD) : Buf (Elt F) ((c : Thread nD τ).loc main_v165_1) := (outsAt13 V c 9 last13).2

/-- The one write-back of the first row, after the last visit, writes it: its block is the whole array. -/
theorem flushed13_1_eq (c : Dev nD) (t : Fin cfg13.N) (hf : (cfg13.win 1).flush t = true) :
    (dat13 V c).flushed 1 t = ((cfg13.win 1).blk t).view.read (Elt F) (res13_sum V c) := by
  have hN : cfg13.N = 10 := N_13
  have h9 : t.val = 9 := by have := (flush13_1 t).mp hf; have := t.isLt; omega
  obtain rfl : t = t13_9 := Fin.ext h9
  show (cfg13.win 1).cut (grid13.coords t13_9) ((dat13 V c).after 1 t13_9) = _
  rw [after13_1]
  have hz' : (fun a => win13_1.index t13_9 a * main_v165_0.ty.shape.size a) = fun _ => 0 :=
    funext fun a => by fin_cases a <;> decide
  exact (Memref.read_access_unit_zero (Elt F) main_v165_0 hz' (fun a => by rw [congrFun hz' a]; simp) (res13_sum V c)).symm

/-- The one write-back of the second row. -/
theorem flushed13_2_eq (c : Dev nD) (t : Fin cfg13.N) (hf : (cfg13.win 2).flush t = true) :
    (dat13 V c).flushed 2 t = ((cfg13.win 2).blk t).view.read (Elt F) (res13_sumsq V c) := by
  have hN : cfg13.N = 10 := N_13
  have h9 : t.val = 9 := by have := (flush13_2 t).mp hf; have := t.isLt; omega
  obtain rfl : t = t13_9 := Fin.ext h9
  show (cfg13.win 2).cut (grid13.coords t13_9) ((dat13 V c).after 2 t13_9) = _
  rw [after13_2]
  have hz' : (fun a => win13_2.index t13_9 a * main_v165_1.ty.shape.size a) = fun _ => 0 :=
    funext fun a => by fin_cases a <;> decide
  exact (Memref.read_access_unit_zero (Elt F) main_v165_1 hz' (fun a => by rw [congrFun hz' a]; simp) (res13_sumsq V c)).symm

/-- The first result array after the region is the first row after the last visit. -/
theorem arr13_sum (c : Dev nD) : (dat13 V c).arrAt 1 cfg13.N = res13_sum V c :=
  (dat13 V c).arrAt_eq_of_cover 1 (res13_sum V c) (flushed13_1_eq V c) fun i =>
    ⟨t13_9, (flush13_1 t13_9).mpr rfl, by
      show i ∈ ((View.whole main_v165_0).slice (win13_1.rect t13_9)).set
      rw [View.set_slice_whole, Rect.mem_set_unit]
      intro a
      have h0 : (i 0 : Nat) < 1 := (i 0).isLt
      have h1 : (i 1 : Nat) < 64 := (i 1).isLt
      match a with
      | ⟨0, _⟩ =>
        show win13_1.index t13_9 0 * win13_1.size 0 ≤ (i 0 : Nat)
          ∧ (i 0 : Nat) < win13_1.index t13_9 0 * win13_1.size 0 + win13_1.xsize (grid13.coords t13_9) 0
        rw [show win13_1.index t13_9 0 * win13_1.size 0 = 0 from by decide +kernel,
          show win13_1.xsize (grid13.coords t13_9) 0 = 1 from by decide +kernel]; omega
      | ⟨1, _⟩ =>
        show win13_1.index t13_9 1 * win13_1.size 1 ≤ (i 1 : Nat)
          ∧ (i 1 : Nat) < win13_1.index t13_9 1 * win13_1.size 1 + win13_1.xsize (grid13.coords t13_9) 1
        rw [show win13_1.index t13_9 1 * win13_1.size 1 = 0 from by decide +kernel,
          show win13_1.xsize (grid13.coords t13_9) 1 = 64 from by decide +kernel]; omega⟩

/-- The second result array after the region is the second row after the last visit. -/
theorem arr13_sumsq (c : Dev nD) : (dat13 V c).arrAt 2 cfg13.N = res13_sumsq V c :=
  (dat13 V c).arrAt_eq_of_cover 2 (res13_sumsq V c) (flushed13_2_eq V c) fun i =>
    ⟨t13_9, (flush13_2 t13_9).mpr rfl, by
      show i ∈ ((View.whole main_v165_1).slice (win13_2.rect t13_9)).set
      rw [View.set_slice_whole, Rect.mem_set_unit]
      intro a
      have h0 : (i 0 : Nat) < 1 := (i 0).isLt
      have h1 : (i 1 : Nat) < 64 := (i 1).isLt
      match a with
      | ⟨0, _⟩ =>
        show win13_2.index t13_9 0 * win13_2.size 0 ≤ (i 0 : Nat)
          ∧ (i 0 : Nat) < win13_2.index t13_9 0 * win13_2.size 0 + win13_2.xsize (grid13.coords t13_9) 0
        rw [show win13_2.index t13_9 0 * win13_2.size 0 = 0 from by decide +kernel,
          show win13_2.xsize (grid13.coords t13_9) 0 = 1 from by decide +kernel]; omega
      | ⟨1, _⟩ =>
        show win13_2.index t13_9 1 * win13_2.size 1 ≤ (i 1 : Nat)
          ∧ (i 1 : Nat) < win13_2.index t13_9 1 * win13_2.size 1 + win13_2.xsize (grid13.coords t13_9) 1
        rw [show win13_2.index t13_9 1 * win13_2.size 1 = 0 from by decide +kernel,
          show win13_2.xsize (grid13.coords t13_9) 1 = 64 from by decide +kernel]; omega⟩

end Pieces

/-! ## The rows on the extended reals -/

section Value

variable (V : (c : Dev nD) → (b : Ref sig .tc) → Buf (Elt Ideal) ((c : Thread nD τ).loc b))

/-- The accumulation step of the sums at column `j`. -/
theorem pay4_13_apply (x : Vec Ideal S10000x64 .f32) (acc : Vec Ideal S1x64 .f32) (z : Fin 1) (j : Fin 64) :
    k13_pay4 (F := Ideal) x acc (ix2 z j) = acc (ix2 z j) + blockColSum x j := by
  unfold k13_pay4 k13_pay3
  exact acc_colsum_apply x acc _ _ _ _ _ _ z j

/-- The accumulation step of the sums of squares at column `j`. -/
theorem pay5_13_apply (x : Vec Ideal S10000x64 .f32) (acc : Vec Ideal S1x64 .f32) (z : Fin 1) (j : Fin 64) :
    k13_pay5 (F := Ideal) x acc (ix2 z j) = acc (ix2 z j) + blockColSumSq x j := by
  unfold k13_pay5 k13_pay3
  exact acc_colsumsq_apply x acc _ _ _ _ _ _ z j

/-- The zero rows read `0`. -/
theorem pay1_13_apply (i : S1x64.Idx) : k13_pay1 (F := Ideal) i = 0 := zero_row_apply i
theorem pay2_13_apply (i : S1x64.Idx) : k13_pay2 (F := Ideal) i = 0 := zero_row_apply i

/-- Where the input window's block sits in its array: block `t` starts at row `10000 t`, column 0. -/
theorem idx13_facts : ∀ t : Fin cfg13.N, win13_0.index t (0 : Fin 2) = t.val ∧ win13_0.index t (1 : Fin 2) = 0 :=
  (by decide +kernel : ∀ t : Fin grid13.N, win13_0.index t (0 : Fin 2) = t.val ∧ win13_0.index t (1 : Fin 2) = 0)

/-- Row `r` of the block of visit `t` is row `10000 t + r` of the matrix. -/
theorem blk13_apply (c : Dev nD) (t : Fin cfg13.N) (r : Fin 10000) (j : Fin 64) (R' : Fin 100000)
    (hR : R'.val = t.val * 10000 + r.val) :
    (iblk13 V c 0 t : Vec Ideal S10000x64 .f32) (ix2 r j)
      = (V c (Pipeline.arrRef spec13 0) : Cert.Spec.Mat 100000 64) (ix2 R' j) := by
  unfold iblk13
  rw [View.read_apply]
  show V c (Pipeline.arrRef spec13 0) _ = V c (Pipeline.arrRef spec13 0) _
  congr 1
  funext a
  apply Fin.ext
  match a with
  | ⟨0, _⟩ =>
    show win13_0.index t 0 * 10000 + 1 * r.val = R'.val
    rw [(idx13_facts t).1, hR]; omega
  | ⟨1, _⟩ =>
    show win13_0.index t 1 * 64 + 1 * j.val = j.val
    rw [(idx13_facts t).2]; omega

/-- The column sums of the block of visit `s` (zero past the grid). -/
def part13 (c : Dev nD) (s : ℕ) (j : Fin 64) : EReal :=
  if h : s < cfg13.N then blockColSum (iblk13 V c 0 ⟨s, h⟩) j else 0

/-- The column sums of the squares of the block of visit `s` (zero past the grid). -/
def partsq13 (c : Dev nD) (s : ℕ) (j : Fin 64) : EReal :=
  if h : s < cfg13.N then blockColSumSq (iblk13 V c 0 ⟨s, h⟩) j else 0

/-- After visit `n` the first row holds the sum of the column sums of the blocks visited so far. -/
theorem outs13_fst (c : Dev nD) : ∀ (n : ℕ) (hn : n < cfg13.N) (z : Fin 1) (j : Fin 64),
    ((outsAt13 V c n hn).1 : Vec Ideal S1x64 .f32) (ix2 z j) = ∑ s ∈ Finset.range (n + 1), part13 V c s j
  | 0, hn, z, j => by
    rw [outs13_zero V c hn]
    show k13_pay4 (F := Ideal) (iblk13 V c 0 ⟨0, hn⟩) (k13_pay1 (F := Ideal)) (ix2 z j) = _
    rw [pay4_13_apply, pay1_13_apply, zero_add, Finset.sum_range_one, part13, dif_pos hn]
  | n + 1, hn, z, j => by
    rw [outs13_succ V c n hn]
    show k13_pay4 (F := Ideal) (iblk13 V c 0 ⟨n + 1, hn⟩) (outsAt13 V c n (Nat.lt_of_succ_lt hn)).1 (ix2 z j) = _
    rw [pay4_13_apply, outs13_fst c n (Nat.lt_of_succ_lt hn) z j, Finset.sum_range_succ _ (n + 1)]
    congr 1
    rw [part13, dif_pos hn]

/-- After visit `n` the second row holds the sum of the column sums of squares of the blocks visited so far. -/
theorem outs13_snd (c : Dev nD) : ∀ (n : ℕ) (hn : n < cfg13.N) (z : Fin 1) (j : Fin 64),
    ((outsAt13 V c n hn).2 : Vec Ideal S1x64 .f32) (ix2 z j) = ∑ s ∈ Finset.range (n + 1), partsq13 V c s j
  | 0, hn, z, j => by
    rw [outs13_zero V c hn]
    show k13_pay5 (F := Ideal) (iblk13 V c 0 ⟨0, hn⟩) (k13_pay2 (F := Ideal)) (ix2 z j) = _
    rw [pay5_13_apply, pay2_13_apply, zero_add, Finset.sum_range_one, partsq13, dif_pos hn]
  | n + 1, hn, z, j => by
    rw [outs13_succ V c n hn]
    show k13_pay5 (F := Ideal) (iblk13 V c 0 ⟨n + 1, hn⟩) (outsAt13 V c n (Nat.lt_of_succ_lt hn)).2 (ix2 z j) = _
    rw [pay5_13_apply, outs13_snd c n (Nat.lt_of_succ_lt hn) z j, Finset.sum_range_succ _ (n + 1)]
    congr 1
    rw [partsq13, dif_pos hn]

/-- The first result array after the region: the column sums of the input matrix. -/
theorem final13_sum (c : Dev nD) :
    ((dat13 (F := Ideal) V c).arrAt 1 cfg13.N : S1x64.Idx → EReal)
      = Cert.Spec.colSum (n := 100000) (V c (Pipeline.arrRef spec13 0)) := by
  rw [arr13_sum V c]
  funext i
  obtain ⟨z, j, rfl⟩ : ∃ (z : Fin 1) (j : Fin 64), i = ix2 z j := ⟨i 0, i 1, eq_ix2 i⟩
  have hN : cfg13.N = 10 := N_13
  refine (outs13_fst V c 9 last13 z j).trans ?_
  refine colSum_of_blocks (V c (Pipeline.arrRef spec13 0)) (fun s => part13 V c s j) z j fun s hs => ?_
  rw [part13, dif_pos (by omega : s < cfg13.N), blockColSum]
  exact Finset.sum_congr rfl fun r _ => blk13_apply V c ⟨s, by omega⟩ r j _ rfl

/-- The second result array after the region: the column sums of the squares of the input matrix. -/
theorem final13_sumsq (c : Dev nD) :
    ((dat13 (F := Ideal) V c).arrAt 2 cfg13.N : S1x64.Idx → EReal)
      = Cert.Spec.colSumSq (n := 100000) (V c (Pipeline.arrRef spec13 0)) := by
  rw [arr13_sumsq V c]
  funext i
  obtain ⟨z, j, rfl⟩ : ∃ (z : Fin 1) (j : Fin 64), i = ix2 z j := ⟨i 0, i 1, eq_ix2 i⟩
  have hN : cfg13.N = 10 := N_13
  refine (outs13_snd V c 9 last13 z j).trans ?_
  refine colSumSq_of_blocks (V c (Pipeline.arrRef spec13 0)) (fun s => partsq13 V c s j) z j fun s hs => ?_
  rw [partsq13, dif_pos (by omega : s < cfg13.N), blockColSumSq]
  exact Finset.sum_congr rfl fun r _ =>
    congrArg₂ (fun a b : EReal => a * b) (blk13_apply V c ⟨s, by omega⟩ r j _ rfl)
      (blk13_apply V c ⟨s, by omega⟩ r j _ rfl)

end Value

end Cert.KernelIdeal.KVal

end
-- ==== Proof.KBn14.lean ====
/-
  The value of a layer's normalisation kernel, as one function of the arrays it is given.

  The kernel walks the 100000 node rows in 10 blocks of 10000. At block `t` it reads rows `10000·t … 10000·t + 9999`
  of the perceptron's result `y` and the whole of four single rows — the batch mean, the batch variance, the scale `γ`
  and the shift `β` — and writes the same rows of its result, `max(γ · (y − mean) · rsqrt(var + ε) + β, 0)` entry by
  entry. An entry of the result reads its own entry of `y` and its own column of the four rows, so the ten blocks
  tile the rows and the result array is the specification's `bnOut` of the five arrays as the kernel finds them.
-/
import proofs.«142526_j3951369912896_1_alg».proof.Proof.Gen.KernelIdeal.Frame
import proofs.«142526_j3951369912896_1_alg».proof.Proof.KBnEntry
import Idealize.ShloMosaic.Lib.Pipeline.Value

noncomputable section

namespace Cert.KernelIdeal.KVal.Bn14

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five blocks it loaded (in the order the body names them: the
    rows, the variance, the scale, the mean, the shift). -/
theorem pay_entry (y : Vec Ideal S10000x64 .f32) (var gamma mean beta : Vec Ideal S1x64 .f32) (p : Fin 10000) (q : Fin 64) :
    k14_pay1 (F := Ideal) y var gamma mean beta (ix2 p q)
      = max (gamma (ix2 0 q) * (y (ix2 p q) - mean (ix2 0 q)) * Ideal.rsqrt (var (ix2 0 q) + Cert.Spec.eps32)
          + beta (ix2 0 q)) Cert.Spec.zero32 := by
  unfold k14_pay1
  simp only [shapeCast_self]
  exact bn_entry y var gamma mean beta _ p q

/-- The same entry when the loaded row block is rows of a whole array (entry `(p, q)` of the block is entry `(r, q)`
    of `Y`) and the four small blocks are the whole rows. -/
theorem block_entry (Y : S100000x64.Idx → EReal) (Mn Vr Gm Bt : S1x64.Idx → EReal)
    (x0 : Vec Ideal S10000x64 .f32) (x1 x2 x3 x4 : Vec Ideal S1x64 .f32) (p : Fin 10000) (q : Fin 64) (r : Fin 100000)
    (h0 : x0 (ix2 p q) = Y (ix2 r q)) (h1 : x1 = Mn) (h2 : x2 = Vr) (h3 : x3 = Gm) (h4 : x4 = Bt) :
    k14_pay1 (F := Ideal) x0 x2 x3 x1 x4 (ix2 p q) = Cert.Spec.bnOut Y Mn Vr Gm Bt (ix2 r q) := by
  subst h1 h2 h3 h4
  rw [pay_entry, h0]
  rfl

/-- Where each window's block sits at grid point `t`, decided over the ten points: the row-block input and the output
    at block row `t`, the four single rows at their one block. -/
theorem block_index : ∀ t : Fin cfg14.N,
    win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- The normalisation on the five arrays as the kernel finds them: the rows, then the mean, the variance, the scale
    and the shift. -/
abbrev whole (c : Dev nD) : S100000x64.Idx → EReal :=
  Cert.Spec.bnOut (n := 100000) (V c (Pipeline.arrRef spec14 0)) (V c (Pipeline.arrRef spec14 1)) (V c (Pipeline.arrRef spec14 2))
    (V c (Pipeline.arrRef spec14 3)) (V c (Pipeline.arrRef spec14 4))

/-- Single-row input 1's one block is its whole array. -/
theorem small_block1 (c : Dev nD) (t : Fin cfg14.N) :
    (iblk14 V c 1 t : Vec Ideal S1x64 .f32) = V c (Pipeline.arrRef spec14 1) := by
  have e0 : win14_1.index t (0 : Fin 2) = 0 := (block_index t).2.2.1
  have e1 : win14_1.index t (1 : Fin 2) = 0 := (block_index t).2.2.2.1
  funext y
  show V c (Pipeline.arrRef spec14 1) (((cfg14.win 1).blk t).view.emb y) = V c (Pipeline.arrRef spec14 1) y
  refine congrArg (V c (Pipeline.arrRef spec14 1)) (funext fun a => Fin.ext ?_)
  match a with
  | ⟨0, _⟩ => show win14_1.index t (0 : Fin 2) * 1 + 1 * (y 0).val = (y 0).val; rw [e0]; omega
  | ⟨1, _⟩ => show win14_1.index t (1 : Fin 2) * 64 + 1 * (y 1).val = (y 1).val; rw [e1]; omega

/-- Single-row input 2's one block is its whole array. -/
theorem small_block2 (c : Dev nD) (t : Fin cfg14.N) :
    (iblk14 V c 2 t : Vec Ideal S1x64 .f32) = V c (Pipeline.arrRef spec14 2) := by
  have e0 : win14_2.index t (0 : Fin 2) = 0 := (block_index t).2.2.2.2.1
  have e1 : win14_2.index t (1 : Fin 2) = 0 := (block_index t).2.2.2.2.2.1
  funext y
  show V c (Pipeline.arrRef spec14 2) (((cfg14.win 2).blk t).view.emb y) = V c (Pipeline.arrRef spec14 2) y
  refine congrArg (V c (Pipeline.arrRef spec14 2)) (funext fun a => Fin.ext ?_)
  match a with
  | ⟨0, _⟩ => show win14_2.index t (0 : Fin 2) * 1 + 1 * (y 0).val = (y 0).val; rw [e0]; omega
  | ⟨1, _⟩ => show win14_2.index t (1 : Fin 2) * 64 + 1 * (y 1).val = (y 1).val; rw [e1]; omega

/-- Single-row input 3's one block is its whole array. -/
theorem small_block3 (c : Dev nD) (t : Fin cfg14.N) :
    (iblk14 V c 3 t : Vec Ideal S1x64 .f32) = V c (Pipeline.arrRef spec14 3) := by
  have e0 : win14_3.index t (0 : Fin 2) = 0 := (block_index t).2.2.2.2.2.2.1
  have e1 : win14_3.index t (1 : Fin 2) = 0 := (block_index t).2.2.2.2.2.2.2.1
  funext y
  show V c (Pipeline.arrRef spec14 3) (((cfg14.win 3).blk t).view.emb y) = V c (Pipeline.arrRef spec14 3) y
  refine congrArg (V c (Pipeline.arrRef spec14 3)) (funext fun a => Fin.ext ?_)
  match a with
  | ⟨0, _⟩ => show win14_3.index t (0 : Fin 2) * 1 + 1 * (y 0).val = (y 0).val; rw [e0]; omega
  | ⟨1, _⟩ => show win14_3.index t (1 : Fin 2) * 64 + 1 * (y 1).val = (y 1).val; rw [e1]; omega

/-- Single-row input 4's one block is its whole array. -/
theorem small_block4 (c : Dev nD) (t : Fin cfg14.N) :
    (iblk14 V c 4 t : Vec Ideal S1x64 .f32) = V c (Pipeline.arrRef spec14 4) := by
  have e0 : win14_4.index t (0 : Fin 2) = 0 := (block_index t).2.2.2.2.2.2.2.2.1
  have e1 : win14_4.index t (1 : Fin 2) = 0 := (block_index t).2.2.2.2.2.2.2.2.2.1
  funext y
  show V c (Pipeline.arrRef spec14 4) (((cfg14.win 4).blk t).view.emb y) = V c (Pipeline.arrRef spec14 4) y
  refine congrArg (V c (Pipeline.arrRef spec14 4)) (funext fun a => Fin.ext ?_)
  match a with
  | ⟨0, _⟩ => show win14_4.index t (0 : Fin 2) * 1 + 1 * (y 0).val = (y 0).val; rw [e0]; omega
  | ⟨1, _⟩ => show win14_4.index t (1 : Fin 2) * 64 + 1 * (y 1).val = (y 1).val; rw [e1]; omega

/-- Entry `(p, q)` of the row-block input at point `t` is entry `(10000·t + p, q)` of its array. -/
theorem row_block (c : Dev nD) (t : Fin cfg14.N) (p : Fin 10000) (q : Fin 64) (r : Fin 100000) (hr : r.val = t.val * 10000 + p.val) :
    (iblk14 V c 0 t : Vec Ideal S10000x64 .f32) (ix2 p q) = (V c (Pipeline.arrRef spec14 0) : S100000x64.Idx → EReal) (ix2 r q) := by
  obtain ⟨e00, e01, -⟩ := block_index t
  show V c (Pipeline.arrRef spec14 0) (((cfg14.win 0).blk t).view.emb (ix2 p q)) = V c (Pipeline.arrRef spec14 0) (ix2 r q)
  refine congrArg (V c (Pipeline.arrRef spec14 0)) (funext fun a => Fin.ext ?_)
  match a with
  | ⟨0, _⟩ => show win14_0.index t (0 : Fin 2) * 10000 + 1 * p.val = r.val; rw [e00, hr]; omega
  | ⟨1, _⟩ => show win14_0.index t (1 : Fin 2) * 64 + 1 * q.val = q.val; rw [e01]; omega

/-- What grid point `t` writes back is block `t` of the whole-array normalisation. -/
theorem flushed_eq (c : Dev nD) (t : Fin cfg14.N) :
    (dat14 (F := Ideal) V c).flushed 5 t = ((cfg14.win 5).blk t).view.read (Elt Ideal) (whole V c) := by
  show (cfg14.win 5).cut (grid14.coords t) ((dat14 (F := Ideal) V c).after 5 t) = _
  rw [after14_5]
  unfold out14_5
  rw [View.canon_unit_zero zero_offsets]
  simp only [View.ld_unit_zero (S := S10000x64) zero_offsets, View.ld_unit_zero (S := S1x64) zero_offsets]
  obtain ⟨-, -, -, -, -, -, -, -, -, -, e50, e51⟩ := block_index t
  have hN : cfg14.N = 10 := N_14
  funext j
  obtain ⟨p, q, rfl⟩ : ∃ (p : Fin 10000) (q : Fin 64), j = ix2 p q := ⟨j 0, j 1, eq_ix2 j⟩
  have htl : t.val < 10 := hN ▸ t.isLt
  obtain ⟨r, hr⟩ : ∃ r : Fin 100000, r.val = t.val * 10000 + p.val := ⟨⟨t.val * 10000 + p.val, by have := p.isLt; omega⟩, rfl⟩
  have hemb : ((cfg14.win 5).blk t).view.emb (ix2 p q) = ix2 r q := by
    funext a; apply Fin.ext
    match a with
    | ⟨0, _⟩ => show win14_5.index t (0 : Fin 2) * 10000 + 1 * p.val = r.val; rw [e50, hr]; omega
    | ⟨1, _⟩ => show win14_5.index t (1 : Fin 2) * 64 + 1 * q.val = q.val; rw [e51]; omega
  show k14_pay1 (F := Ideal) (iblk14 V c 0 t) (iblk14 V c 2 t) (iblk14 V c 3 t) (iblk14 V c 1 t) (iblk14 V c 4 t) (ix2 p q)
    = whole V c (((cfg14.win 5).blk t).view.emb (ix2 p q))
  rw [hemb]
  exact block_entry (V c (Pipeline.arrRef spec14 0)) (V c (Pipeline.arrRef spec14 1)) (V c (Pipeline.arrRef spec14 2))
    (V c (Pipeline.arrRef spec14 3)) (V c (Pipeline.arrRef spec14 4))
    (iblk14 V c 0 t) (iblk14 V c 1 t) (iblk14 V c 2 t) (iblk14 V c 3 t) (iblk14 V c 4 t) p q r
    (row_block V c t p q r hr) (small_block1 V c t) (small_block2 V c t) (small_block3 V c t) (small_block4 V c t)

/-- An index of the result array is in point `t`'s block iff each coordinate is in the block's range on its axis. -/
theorem mem_block (t : Fin cfg14.N) (i : S100000x64.Idx) :
    i ∈ ((cfg14.win 5).blk t).view.set ↔ ∀ a : Fin 2, win14_5.index t a * S10000x64.size a ≤ (i a).val
      ∧ (i a).val < win14_5.index t a * S10000x64.size a + S10000x64.size a := by
  show i ∈ ((View.whole main_v178).slice (win14_5.rect t)).set ↔ _
  rw [View.set_slice_whole, Rect.mem_set_unit]
  exact Iff.rfl

/-- The ten blocks tile the rows: row `r` is in block `r / 10000`, which is written back. -/
theorem cover (i : S100000x64.Idx) :
    ∃ t : Fin cfg14.N, (cfg14.win 5).flush t = true ∧ i ∈ ((cfg14.win 5).blk t).view.set := by
  have hi0 : (i 0).val < 100000 := (i 0).isLt
  have hi1 : (i 1).val < 64 := (i 1).isLt
  have hN : cfg14.N = 10 := N_14
  obtain ⟨t, ht⟩ : ∃ t : Fin cfg14.N, t.val = (i 0).val / 10000 := ⟨⟨(i 0).val / 10000, by omega⟩, rfl⟩
  obtain ⟨-, -, -, -, -, -, -, -, -, -, e50, e51⟩ := block_index t
  refine ⟨t, flush14_5 t, ?_⟩
  rw [mem_block]
  intro a
  match a with
  | ⟨0, _⟩ =>
    show win14_5.index t (0 : Fin 2) * 10000 ≤ (i 0).val ∧ (i 0).val < win14_5.index t (0 : Fin 2) * 10000 + 10000
    rw [e50, ht]; omega
  | ⟨1, _⟩ =>
    show win14_5.index t (1 : Fin 2) * 64 ≤ (i 1).val ∧ (i 1).val < win14_5.index t (1 : Fin 2) * 64 + 64
    rw [e51]; omega

end Cert.KernelIdeal.KVal.Bn14

namespace Cert.KernelIdeal.KVal

open Cert.KernelIdeal Cert.KernelIdeal.Gen
open Idealize.ShloMosaic Idealize.ShloMosaic.TcCoe Idealize.SL.Sem

/-- The normalisation kernel's result array after its run: the specification's `bnOut` of the rows, the mean, the
    variance, the scale and the shift as the kernel finds them (its input windows 0 to 4, in that order). -/
theorem final14 (V : (c : Dev nD) → (b : Ref sig .tc) → Buf (Elt Ideal) ((c : Thread nD τ).loc b)) (c : Dev nD) :
    (dat14 (F := Ideal) V c).arrAt 5 cfg14.N
      = Cert.Spec.bnOut (n := 100000) (V c (Pipeline.arrRef spec14 0)) (V c (Pipeline.arrRef spec14 1)) (V c (Pipeline.arrRef spec14 2))
          (V c (Pipeline.arrRef spec14 3)) (V c (Pipeline.arrRef spec14 4)) :=
  (dat14 (F := Ideal) V c).arrAt_eq_of_cover 5 (Bn14.whole V c) (fun t _ => Bn14.flushed_eq V c t) Bn14.cover

end Cert.KernelIdeal.KVal

end
-- ==== Proof.KHead15.lean ====
/-
  The value of the classifier head's kernel, as one function of the arrays it is given.

  The kernel has one grid point: it reads the whole of the 128 pooled rows, the two weight matrices (64 by 64 and
  64 by 10) and the two bias rows, and writes the whole 128 by 10 result `relu(pooled · W₁ + b₁) · W₂ + b₂`. Every
  block is its whole array, so the result array is the specification's `headOut` of the five arrays as the kernel
  finds them.
-/
import proofs.«142526_j3951369912896_1_alg».proof.Proof.Gen.KernelIdeal.Frame
import proofs.«142526_j3951369912896_1_alg».proof.Proof.KMlpEntry
import Idealize.ShloMosaic.Lib.Pipeline.Value

noncomputable section

open scoped BigOperators

namespace Cert.KernelIdeal.KVal.Head15

open Cert.KernelIdeal Cert.KernelIdeal.Gen Cert.KernelIdeal.KVal
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what the body stores, from the five arrays it loaded: the row formula on pooled row `p`. -/
theorem pay_entry (x0 : Vec Ideal S128x64 .f32) (x1 : Vec Ideal S64x64 .f32) (x2 : Vec Ideal S1x64 .f32)
    (x3 : Vec Ideal S64x10 .f32) (x4 : Vec Ideal S1x10 .f32) (p : Fin 128) (q : Fin 10) :
    k15_pay1 (F := Ideal) x0 x1 x2 x3 x4 (ix2 p q) = Cert.Spec.mlpRow (fun k => x0 (ix2 p k)) x1 x2 x3 x4 q := by
  unfold k15_pay1
  simp only [shapeCast_self]
  exact mlp_entry x0 x1 x2 x3 x4 _ _ _ p q

/-- Every window's one block sits at the origin of its array. -/
theorem block_index : ∀ t : Fin cfg15.N,
    win15_0.index t (0 : Fin 2) = 0 ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0 :=
  (by decide +kernel : ∀ t : Fin grid15.N, _)

/-- The head's perceptron on the five arrays as the kernel finds them. -/
abbrev whole (c : Dev nD) : S128x10.Idx → EReal :=
  Cert.Spec.headOut (n := 128) (d := 10) (V c (Pipeline.arrRef spec15 0)) (V c (Pipeline.arrRef spec15 1)) (V c (Pipeline.arrRef spec15 2))
    (V c (Pipeline.arrRef spec15 3)) (V c (Pipeline.arrRef spec15 4))

/-- Input 0's one block is its whole array. -/
theorem whole_block0 (c : Dev nD) (t : Fin cfg15.N) :
    (iblk15 V c 0 t : Vec Ideal S128x64 .f32) = V c (Pipeline.arrRef spec15 0) := by
  have e0 : win15_0.index t (0 : Fin 2) = 0 := (block_index t).1
  have e1 : win15_0.index t (1 : Fin 2) = 0 := (block_index t).2.1
  funext y
  show V c (Pipeline.arrRef spec15 0) (((cfg15.win 0).blk t).view.emb y) = V c (Pipeline.arrRef spec15 0) y
  refine congrArg (V c (Pipeline.arrRef spec15 0)) (funext fun a => Fin.ext ?_)
  match a with
  | ⟨0, _⟩ => show win15_0.index t (0 : Fin 2) * 128 + 1 * (y 0).val = (y 0).val; rw [e0]; omega
  | ⟨1, _⟩ => show win15_0.index t (1 : Fin 2) * 64 + 1 * (y 1).val = (y 1).val; rw [e1]; omega

/-- Input 1's one block is its whole array. -/
theorem whole_block1 (c : Dev nD) (t : Fin cfg15.N) :
    (iblk15 V c 1 t : Vec Ideal S64x64 .f32) = V c (Pipeline.arrRef spec15 1) := by
  have e0 : win15_1.index t (0 : Fin 2) = 0 := (block_index t).2.2.1
  have e1 : win15_1.index t (1 : Fin 2) = 0 := (block_index t).2.2.2.1
  funext y
  show V c (Pipeline.arrRef spec15 1) (((cfg15.win 1).blk t).view.emb y) = V c (Pipeline.arrRef spec15 1) y
  refine congrArg (V c (Pipeline.arrRef spec15 1)) (funext fun a => Fin.ext ?_)
  match a with
  | ⟨0, _⟩ => show win15_1.index t (0 : Fin 2) * 64 + 1 * (y 0).val = (y 0).val; rw [e0]; omega
  | ⟨1, _⟩ => show win15_1.index t (1 : Fin 2) * 64 + 1 * (y 1).val = (y 1).val; rw [e1]; omega

/-- Input 2's one block is its whole array. -/
theorem whole_block2 (c : Dev nD) (t : Fin cfg15.N) :
    (iblk15 V c 2 t : Vec Ideal S1x64 .f32) = V c (Pipeline.arrRef spec15 2) := by
  have e0 : win15_2.index t (0 : Fin 2) = 0 := (block_index t).2.2.2.2.1
  have e1 : win15_2.index t (1 : Fin 2) = 0 := (block_index t).2.2.2.2.2.1
  funext y
  show V c (Pipeline.arrRef spec15 2) (((cfg15.win 2).blk t).view.emb y) = V c (Pipeline.arrRef spec15 2) y
  refine congrArg (V c (Pipeline.arrRef spec15 2)) (funext fun a => Fin.ext ?_)
  match a with
  | ⟨0, _⟩ => show win15_2.index t (0 : Fin 2) * 1 + 1 * (y 0).val = (y 0).val; rw [e0]; omega
  | ⟨1, _⟩ => show win15_2.index t (1 : Fin 2) * 64 + 1 * (y 1).val = (y 1).val; rw [e1]; omega

/-- Input 3's one block is its whole array. -/
theorem whole_block3 (c : Dev nD) (t : Fin cfg15.N) :
    (iblk15 V c 3 t : Vec Ideal S64x10 .f32) = V c (Pipeline.arrRef spec15 3) := by
  have e0 : win15_3.index t (0 : Fin 2) = 0 := (block_index t).2.2.2.2.2.2.1
  have e1 : win15_3.index t (1 : Fin 2) = 0 := (block_index t).2.2.2.2.2.2.2.1
  funext y
  show V c (Pipeline.arrRef spec15 3) (((cfg15.win 3).blk t).view.emb y) = V c (Pipeline.arrRef spec15 3) y
  refine congrArg (V c (Pipeline.arrRef spec15 3)) (funext fun a => Fin.ext ?_)
  match a with
  | ⟨0, _⟩ => show win15_3.index t (0 : Fin 2) * 64 + 1 * (y 0).val = (y 0).val; rw [e0]; omega
  | ⟨1, _⟩ => show win15_3.index t (1 : Fin 2) * 10 + 1 * (y 1).val = (y 1).val; rw [e1]; omega

/-- Input 4's one block is its whole array. -/
theorem whole_block4 (c : Dev nD) (t : Fin cfg15.N) :
    (iblk15 V c 4 t : Vec Ideal S1x10 .f32) = V c (Pipeline.arrRef spec15 4) := by
  have e0 : win15_4.index t (0 : Fin 2) = 0 := (block_index t).2.2.2.2.2.2.2.2.1
  have e1 : win15_4.index t (1 : Fin 2) = 0 := (block_index t).2.2.2.2.2.2.2.2.2.1
  funext y
  show V c (Pipeline.arrRef spec15 4) (((cfg15.win 4).blk t).view.emb y) = V c (Pipeline.arrRef spec15 4) y
  refine congrArg (V c (Pipeline.arrRef spec15 4)) (funext fun a => Fin.ext ?_)
  match a with
  | ⟨0, _⟩ => show win15_4.index t (0 : Fin 2) * 1 + 1 * (y 0).val = (y 0).val; rw [e0]; omega
  | ⟨1, _⟩ => show win15_4.index t (1 : Fin 2) * 10 + 1 * (y 1).val = (y 1).val; rw [e1]; omega

/-- What the one grid point writes back is the whole-array perceptron, read through the output's one block. -/
theorem flushed_eq (c : Dev nD) (t : Fin cfg15.N) :
    (dat15 (F := Ideal) V c).flushed 5 t = ((cfg15.win 5).blk t).view.read (Elt Ideal) (whole V c) := by
  show (cfg15.win 5).cut (grid15.coords t) ((dat15 (F := Ideal) V c).after 5 t) = _
  rw [after15_5]
  unfold out15_5
  rw [View.canon_unit_zero zero_offsets]
  simp only [View.ld_unit_zero (S := S128x64) zero_offsets, View.ld_unit_zero (S := S64x64) zero_offsets,
    View.ld_unit_zero (S := S1x64) zero_offsets, View.ld_unit_zero (S := S64x10) zero_offsets,
    View.ld_unit_zero (S := S1x10) zero_offsets]
  obtain ⟨-, -, -, -, -, -, -, -, -, -, e50, e51⟩ := block_index t
  funext j
  obtain ⟨p, q, rfl⟩ : ∃ (p : Fin 128) (q : Fin 10), j = ix2 p q := ⟨j 0, j 1, eq_ix2 j⟩
  have hemb : ((cfg15.win 5).blk t).view.emb (ix2 p q) = ix2 p q := by
    funext a; apply Fin.ext
    match a with
    | ⟨0, _⟩ => show win15_5.index t (0 : Fin 2) * 128 + 1 * p.val = p.val; rw [e50]; omega
    | ⟨1, _⟩ => show win15_5.index t (1 : Fin 2) * 10 + 1 * q.val = q.val; rw [e51]; omega
  show k15_pay1 (F := Ideal) (iblk15 V c 0 t) (iblk15 V c 1 t) (iblk15 V c 2 t) (iblk15 V c 3 t) (iblk15 V c 4 t) (ix2 p q)
    = whole V c (((cfg15.win 5).blk t).view.emb (ix2 p q))
  rw [hemb, whole_block0 V c t, whole_block1 V c t, whole_block2 V c t, whole_block3 V c t, whole_block4 V c t, pay_entry]
  rfl

/-- An index of the result array is in the one block iff each coordinate is in the block's range on its axis. -/
theorem mem_block (t : Fin cfg15.N) (i : S128x10.Idx) :
    i ∈ ((cfg15.win 5).blk t).view.set ↔ ∀ a : Fin 2, win15_5.index t a * S128x10.size a ≤ (i a).val
      ∧ (i a).val < win15_5.index t a * S128x10.size a + S128x10.size a := by
  show i ∈ ((View.whole main_v193).slice (win15_5.rect t)).set ↔ _
  rw [View.set_slice_whole, Rect.mem_set_unit]
  exact Iff.rfl

/-- The one block is the whole result array, and it is written back. -/
theorem cover (i : S128x10.Idx) :
    ∃ t : Fin cfg15.N, (cfg15.win 5).flush t = true ∧ i ∈ ((cfg15.win 5).blk t).view.set := by
  have hi0 : (i 0).val < 128 := (i 0).isLt
  have hi1 : (i 1).val < 10 := (i 1).isLt
  have hN : cfg15.N = 1 := N_15
  obtain ⟨t, ht⟩ : ∃ t : Fin cfg15.N, t.val = 0 := ⟨⟨0, by omega⟩, rfl⟩
  obtain ⟨-, -, -, -, -, -, -, -, -, -, e50, e51⟩ := block_index t
  refine ⟨t, flush15_5 t, ?_⟩
  rw [mem_block]
  intro a
  match a with
  | ⟨0, _⟩ =>
    show win15_5.index t (0 : Fin 2) * 128 ≤ (i 0).val ∧ (i 0).val < win15_5.index t (0 : Fin 2) * 128 + 128
    rw [e50]; omega
  | ⟨1, _⟩ =>
    show win15_5.index t (1 : Fin 2) * 10 ≤ (i 1).val ∧ (i 1).val < win15_5.index t (1 : Fin 2) * 10 + 10
    rw [e51]; omega

end Cert.KernelIdeal.KVal.Head15

namespace Cert.KernelIdeal.KVal

open Cert.KernelIdeal Cert.KernelIdeal.Gen
open Idealize.ShloMosaic Idealize.ShloMosaic.TcCoe Idealize.SL.Sem

/-- The head kernel's result array after its run: the specification's `headOut` of the pooled rows, the two weight
    matrices and the two bias rows as the kernel finds them (its input windows 0 to 4, in that order). -/
theorem final15 (V : (c : Dev nD) → (b : Ref sig .tc) → Buf (Elt Ideal) ((c : Thread nD τ).loc b)) (c : Dev nD) :
    (dat15 (F := Ideal) V c).arrAt 5 cfg15.N
      = Cert.Spec.headOut (n := 128) (d := 10) (V c (Pipeline.arrRef spec15 0)) (V c (Pipeline.arrRef spec15 1)) (V c (Pipeline.arrRef spec15 2))
          (V c (Pipeline.arrRef spec15 3)) (V c (Pipeline.arrRef spec15 4)) :=
  (dat15 (F := Ideal) V c).arrAt_eq_of_cover 5 (Head15.whole V c) (fun t _ => Head15.flushed_eq V c t) Head15.cover

end Cert.KernelIdeal.KVal

end
-- ==== Proof.RefRunMain.lean ====
/-
  The reference program's @main as a list of its 451 host operations (the outlined functions' operations
  listed at their call sites over the call's own buffers), window by window, and its run: every weakly fair
  execution terminates with every buffer at the operations' fold over the launch contents.
-/
import proofs.«142526_j3951369912896_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order. -/
abbrev wops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S5x64_S1x64_0_0) : (⟨S5x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (TRef.of (T := ⟨S100000x64, .f32⟩) main_v22) main_call0.v0 main_call0.v1 maximumf,
    unary main_arg5 main_v24 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v27 ((extractStridedSlice S1x64 ![0, 0] · slices_S5x64_S1x64_0_0) : (⟨S5x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v26 main_v30 main_v31 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v31 main_cst_1 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v33 (broadcastInDim S64 ![] bcast_S_S64 : (⟨S_, .f32⟩ : BufTy).Contents (Elt F) → (⟨S64, .f32⟩ : BufTy).Contents (Elt F)),
    binary main_v32 main_v33 main_v34 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (TRef.of (T := ⟨S100000x64, .f32⟩) main_v31) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (TRef.of (T := ⟨S100000x64, .f32⟩) main_v31) main_call1.v4 main_call1.v5 subf,
    TRef.binary main_call1.v5 main_call1.v5 main_call1.v6 mulf,
    TRef.unary (TRef.of (T := ⟨S_, .i32⟩) main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1_call0.v0 id,
    TRef.unary main_call1_call0.v0 main_call1_call0.v1 (broadcastInDim S64 ![] bcast_S_S64),
    TRef.ternary main_call1.v12 main_call1.v11 main_call1_call0.v1 main_call1_call0.v2 (fun p a b => select (broadcastInDim S64 ![] bcast_S_S64 p) a b),
    unary main_arg7 main_v36 ((extractStridedSlice S1x64 ![0, 0] · slices_S5x64_S1x64_0_0) : (⟨S5x64, .f32⟩ : BufTy).Contents (Elt F) → (⟨S1x64, .f32⟩ : BufTy).Contents (Elt F)),
    reshape main_v36 main_v37 rfl shapeCasts_S1x64_S64,
    unary main_v34 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v31 main_v39 main_v40 (subf : (⟨S100000x64, .f32⟩ : BufTy).Contents (Elt F) → (⟨S100000x64, .f32⟩ : BufTy).Contents (Elt F) → (⟨S100000x64, .f32⟩ : BufTy).Contents (Elt F)),
    unary main_v37 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v42 main_v40 main_v43 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v44 (broadcastInDim S64 ![] bcast_S_S64 : (⟨S_, .f32⟩ : BufTy).Contents (Elt F) → (⟨S64, .f32⟩ : BufTy).Contents (Elt F)),
    binary main_v35 main_v44 main_v45 (addf : (⟨S64, .f32⟩ : BufTy).Contents (Elt F) → (⟨S64, .f32⟩ : BufTy).Contents (Elt F) → (⟨S64, .f32⟩ : BufTy).Contents (Elt F)),
    unary main_v45 main_v46 (Host.rsqrt : (⟨S64, .f32⟩ : BufTy).Contents (Elt F) → (⟨S64, .f32⟩ : BufTy).Contents (Elt F)),
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v43 main_v48 main_v49 (mulf : (⟨S100000x64, .f32⟩ : BufTy).Contents (Elt F) → (⟨S100000x64, .f32⟩ : BufTy).Contents (Elt F) → (⟨S100000x64, .f32⟩ : BufTy).Contents (Elt F)),
    unary main_arg8 main_v50 ((extractStridedSlice S1x64 ![0, 0] · slices_S5x64_S1x64_0_0) : (⟨S5x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)) ]

/-- The operations of @main's window 1, in order. -/
abbrev wops1 : List (HloOp τ sig (Elt F)) :=
  [ unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v49 main_v53 main_v54 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (TRef.of (T := ⟨S100000x64, .f32⟩) main_v54) main_call2.v0 main_call2.v1 maximumf,
    nullary main_c_5 (constantI S_ 32 0#32),
    unary main_c_5 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v63 (broadcastInDim S100000x64 ![] bcast_S_S100000x64 : (⟨S_, .f32⟩ : BufTy).Contents (Elt F) → (⟨S100000x64, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v55 main_v65 main_v66 (addf : (⟨S100000x64, .f32⟩ : BufTy).Contents (Elt F) → (⟨S100000x64, .f32⟩ : BufTy).Contents (Elt F) → (⟨S100000x64, .f32⟩ : BufTy).Contents (Elt F)),
    unary main_arg3 main_v67 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v67 main_v68 rfl shapeCasts_S1x64x64_S64x64,
    binary main_v66 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v70 ((extractStridedSlice S1x64 ![1, 0] · slices_S5x64_S1x64_1_0) : (⟨S5x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (TRef.of (T := ⟨S100000x64, .f32⟩) main_v74) main_call3.v0 main_call3.v1 maximumf,
    unary main_arg5 main_v76 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v76 main_v77 rfl shapeCasts_S1x64x64_S64x64,
    binary main_v75 main_v77 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v79 ((extractStridedSlice S1x64 ![1, 0] · slices_S5x64_S1x64_1_0) : (⟨S5x64, .f32⟩ : BufTy).Contents (Elt F) → (⟨S1x64, .f32⟩ : BufTy).Contents (Elt F)),
    reshape main_v79 main_v80 rfl shapeCasts_S1x64_S64,
    unary main_v80 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v78 main_v82 main_v83 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v83 main_cst_8 main_v84 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call4.cst (constant S_ .f32 0x00000000#32),
    TRef.binary (TRef.of (T := ⟨S100000x64, .f32⟩) main_v83) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (TRef.of (T := ⟨S100000x64, .f32⟩) main_v83) main_call4.v4 main_call4.v5 subf,
    TRef.binary main_call4.v5 main_call4.v5 main_call4.v6 mulf,
    TRef.unary (TRef.of (T := ⟨S_, .i32⟩) main_c_10) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4_call0.v0 id,
    TRef.unary main_call4_call0.v0 main_call4_call0.v1 (broadcastInDim S64 ![] bcast_S_S64),
    TRef.ternary main_call4.v12 main_call4.v11 main_call4_call0.v1 main_call4_call0.v2 (fun p a b => select (broadcastInDim S64 ![] bcast_S_S64 p) a b),
    unary main_arg7 main_v88 ((extractStridedSlice S1x64 ![1, 0] · slices_S5x64_S1x64_1_0) : (⟨S5x64, .f32⟩ : BufTy).Contents (Elt F) → (⟨S1x64, .f32⟩ : BufTy).Contents (Elt F)),
    reshape main_v88 main_v89 rfl shapeCasts_S1x64_S64,
    unary main_v86 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v83 main_v91 main_v92 (subf : (⟨S100000x64, .f32⟩ : BufTy).Contents (Elt F) → (⟨S100000x64, .f32⟩ : BufTy).Contents (Elt F) → (⟨S100000x64, .f32⟩ : BufTy).Contents (Elt F)),
    unary main_v89 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v94 main_v92 main_v95 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v96 (broadcastInDim S64 ![] bcast_S_S64 : (⟨S_, .f32⟩ : BufTy).Contents (Elt F) → (⟨S64, .f32⟩ : BufTy).Contents (Elt F)),
    binary main_v87 main_v96 main_v97 (addf : (⟨S64, .f32⟩ : BufTy).Contents (Elt F) → (⟨S64, .f32⟩ : BufTy).Contents (Elt F) → (⟨S64, .f32⟩ : BufTy).Contents (Elt F)),
    unary main_v97 main_v98 (Host.rsqrt : (⟨S64, .f32⟩ : BufTy).Contents (Elt F) → (⟨S64, .f32⟩ : BufTy).Contents (Elt F)),
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v95 main_v100 main_v101 (mulf : (⟨S100000x64, .f32⟩ : BufTy).Contents (Elt F) → (⟨S100000x64, .f32⟩ : BufTy).Contents (Elt F) → (⟨S100000x64, .f32⟩ : BufTy).Contents (Elt F)),
    unary main_arg8 main_v102 ((extractStridedSlice S1x64 ![1, 0] · slices_S5x64_S1x64_1_0) : (⟨S5x64, .f32⟩ : BufTy).Contents (Elt F) → (⟨S1x64, .f32⟩ : BufTy).Contents (Elt F)),
    reshape main_v102 main_v103 rfl shapeCasts_S1x64_S64,
    unary main_v103 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)) ]

/-- The operations of @main's window 2, in order. -/
abbrev wops2 : List (HloOp τ sig (Elt F)) :=
  [ binary main_v101 main_v105 main_v106 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (TRef.of (T := ⟨S100000x64, .f32⟩) main_v106) main_call5.v0 main_call5.v1 maximumf,
    nullary main_c_12 (constantI S_ 32 0#32),
    unary main_c_12 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_14 (constant S_ .f32 0x00000000#32),
    unary main_cst_14 main_v115 (broadcastInDim S100000x64 ![] bcast_S_S100000x64 : (⟨S_, .f32⟩ : BufTy).Contents (Elt F) → (⟨S100000x64, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v107 main_v117 main_v118 (addf : (⟨S100000x64, .f32⟩ : BufTy).Contents (Elt F) → (⟨S100000x64, .f32⟩ : BufTy).Contents (Elt F) → (⟨S100000x64, .f32⟩ : BufTy).Contents (Elt F)),
    unary main_arg3 main_v119 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v119 main_v120 rfl shapeCasts_S1x64x64_S64x64,
    binary main_v118 main_v120 main_v121 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v122 ((extractStridedSlice S1x64 ![2, 0] · slices_S5x64_S1x64_2_0) : (⟨S5x64, .f32⟩ : BufTy).Contents (Elt F) → (⟨S1x64, .f32⟩ : BufTy).Contents (Elt F)),
    reshape main_v122 main_v123 rfl shapeCasts_S1x64_S64,
    unary main_v123 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v121 main_v125 main_v126 (addf : (⟨S100000x64, .f32⟩ : BufTy).Contents (Elt F) → (⟨S100000x64, .f32⟩ : BufTy).Contents (Elt F) → (⟨S100000x64, .f32⟩ : BufTy).Contents (Elt F)),
    TRef.nullary main_call6.cst (constant S_ .f32 0x00000000#32),
    TRef.unary main_call6.cst main_call6.v0 (broadcastInDim S100000x64 ![] bcast_S_S100000x64),
    TRef.binary (TRef.of (T := ⟨S100000x64, .f32⟩) main_v126) main_call6.v0 main_call6.v1 maximumf,
    unary main_arg5 main_v128 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v128 main_v129 rfl shapeCasts_S1x64x64_S64x64,
    binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v131 ((extractStridedSlice S1x64 ![2, 0] · slices_S5x64_S1x64_2_0) : (⟨S5x64, .f32⟩ : BufTy).Contents (Elt F) → (⟨S1x64, .f32⟩ : BufTy).Contents (Elt F)),
    reshape main_v131 main_v132 rfl shapeCasts_S1x64_S64,
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v130 main_v134 main_v135 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v135 main_cst_15 main_v136 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v137 (broadcastInDim S64 ![] bcast_S_S64 : (⟨S_, .f32⟩ : BufTy).Contents (Elt F) → (⟨S64, .f32⟩ : BufTy).Contents (Elt F)),
    binary main_v136 main_v137 main_v138 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    TRef.nullary main_call7.cst (constant S_ .f32 0x00000000#32),
    TRef.binary (TRef.of (T := ⟨S100000x64, .f32⟩) main_v135) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (TRef.of (T := ⟨S100000x64, .f32⟩) main_v135) main_call7.v4 main_call7.v5 subf,
    TRef.binary main_call7.v5 main_call7.v5 main_call7.v6 mulf,
    TRef.unary (TRef.of (T := ⟨S_, .i32⟩) main_c_17) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7_call0.v0 id,
    TRef.unary main_call7_call0.v0 main_call7_call0.v1 (broadcastInDim S64 ![] bcast_S_S64),
    TRef.ternary main_call7.v12 main_call7.v11 main_call7_call0.v1 main_call7_call0.v2 (fun p a b => select (broadcastInDim S64 ![] bcast_S_S64 p) a b),
    unary main_arg7 main_v140 ((extractStridedSlice S1x64 ![2, 0] · slices_S5x64_S1x64_2_0) : (⟨S5x64, .f32⟩ : BufTy).Contents (Elt F) → (⟨S1x64, .f32⟩ : BufTy).Contents (Elt F)),
    reshape main_v140 main_v141 rfl shapeCasts_S1x64_S64,
    unary main_v138 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v135 main_v143 main_v144 (subf : (⟨S100000x64, .f32⟩ : BufTy).Contents (Elt F) → (⟨S100000x64, .f32⟩ : BufTy).Contents (Elt F) → (⟨S100000x64, .f32⟩ : BufTy).Contents (Elt F)),
    unary main_v141 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v146 main_v144 main_v147 (mulf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v148 (broadcastInDim S64 ![] bcast_S_S64 : (⟨S_, .f32⟩ : BufTy).Contents (Elt F) → (⟨S64, .f32⟩ : BufTy).Contents (Elt F)),
    binary main_v139 main_v148 main_v149 (addf : (⟨S64, .f32⟩ : BufTy).Contents (Elt F) → (⟨S64, .f32⟩ : BufTy).Contents (Elt F) → (⟨S64, .f32⟩ : BufTy).Contents (Elt F)),
    unary main_v149 main_v150 (Host.rsqrt : (⟨S64, .f32⟩ : BufTy).Contents (Elt F) → (⟨S64, .f32⟩ : BufTy).Contents (Elt F)),
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S100000x64 ![0, 1] bcast_S1x64_S100000x64_0_1 : (⟨S1x64, .f32⟩ : BufTy).Contents (Elt F) → (⟨S100000x64, .f32⟩ : BufTy).Contents (Elt F)),
    binary main_v147 main_v152 main_v153 (mulf : (⟨S100000x64, .f32⟩ : BufTy).Contents (Elt F) → (⟨S100000x64, .f32⟩ : BufTy).Contents (Elt F) → (⟨S100000x64, .f32⟩ : BufTy).Contents (Elt F)),
    unary main_arg8 main_v154 ((extractStridedSlice S1x64 ![2, 0] · slices_S5x64_S1x64_2_0) : (⟨S5x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S100000x64 ![0, 1] bcast_S1x64_S100000x64_0_1 : (⟨S1x64, .f32⟩ : BufTy).Contents (Elt F) → (⟨S100000x64, .f32⟩ : BufTy).Contents (Elt F)),
    binary main_v153 main_v157 main_v158 (addf : (⟨S100000x64, .f32⟩ : BufTy).Contents (Elt F) → (⟨S100000x64, .f32⟩ : BufTy).Contents (Elt F) → (⟨S100000x64, .f32⟩ : BufTy).Contents (Elt F)) ]

/-- The operations of @main's window 3, in order. -/
abbrev wops3 : List (HloOp τ sig (Elt F)) :=
  [ TRef.nullary main_call8.cst (constant S_ .f32 0x00000000#32),
    TRef.unary main_call8.cst main_call8.v0 (broadcastInDim S100000x64 ![] bcast_S_S100000x64),
    TRef.binary (TRef.of (T := ⟨S100000x64, .f32⟩) main_v158) main_call8.v0 main_call8.v1 maximumf,
    nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v159 main_v165 main_v166 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_21 (constant S_ .f32 0x00000000#32),
    unary main_cst_21 main_v167 (broadcastInDim S100000x64 ![] bcast_S_S100000x64 : (⟨S_, .f32⟩ : BufTy).Contents (Elt F) → (⟨S100000x64, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v159 main_v169 main_v170 (addf : (⟨S100000x64, .f32⟩ : BufTy).Contents (Elt F) → (⟨S100000x64, .f32⟩ : BufTy).Contents (Elt F) → (⟨S100000x64, .f32⟩ : BufTy).Contents (Elt F)),
    unary main_arg3 main_v171 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v171 main_v172 rfl shapeCasts_S1x64x64_S64x64,
    binary main_v170 main_v172 main_v173 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v174 ((extractStridedSlice S1x64 ![3, 0] · slices_S5x64_S1x64_3_0) : (⟨S5x64, .f32⟩ : BufTy).Contents (Elt F) → (⟨S1x64, .f32⟩ : BufTy).Contents (Elt F)),
    reshape main_v174 main_v175 rfl shapeCasts_S1x64_S64,
    unary main_v175 main_v176 (broadcastInDim S1x64 ![1] bcast_S64_S1x64_1 : (⟨S64, .f32⟩ : BufTy).Contents (Elt F) → (⟨S1x64, .f32⟩ : BufTy).Contents (Elt F)),
    unary main_v176 main_v177 (broadcastInDim S100000x64 ![0, 1] bcast_S1x64_S100000x64_0_1 : (⟨S1x64, .f32⟩ : BufTy).Contents (Elt F) → (⟨S100000x64, .f32⟩ : BufTy).Contents (Elt F)),
    binary main_v173 main_v177 main_v178 (addf : (⟨S100000x64, .f32⟩ : BufTy).Contents (Elt F) → (⟨S100000x64, .f32⟩ : BufTy).Contents (Elt F) → (⟨S100000x64, .f32⟩ : BufTy).Contents (Elt F)),
    TRef.nullary main_call9.cst (constant S_ .f32 0x00000000#32),
    TRef.unary main_call9.cst main_call9.v0 (broadcastInDim S100000x64 ![] bcast_S_S100000x64),
    TRef.binary (TRef.of (T := ⟨S100000x64, .f32⟩) main_v178) main_call9.v0 main_call9.v1 maximumf,
    unary main_arg5 main_v180 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v180 main_v181 rfl shapeCasts_S1x64x64_S64x64,
    binary main_v179 main_v181 main_v182 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v183 ((extractStridedSlice S1x64 ![3, 0] · slices_S5x64_S1x64_3_0) : (⟨S5x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S100000x64 ![0, 1] bcast_S1x64_S100000x64_0_1 : (⟨S1x64, .f32⟩ : BufTy).Contents (Elt F) → (⟨S100000x64, .f32⟩ : BufTy).Contents (Elt F)),
    binary main_v182 main_v186 main_v187 (addf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v187 main_cst_22 main_v188 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v189 (broadcastInDim S64 ![] bcast_S_S64 : (⟨S_, .f32⟩ : BufTy).Contents (Elt F) → (⟨S64, .f32⟩ : BufTy).Contents (Elt F)),
    binary main_v188 main_v189 main_v190 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary main_call10.cst (constant S_ .f32 0x00000000#32),
    TRef.binary (TRef.of (T := ⟨S100000x64, .f32⟩) main_v187) main_call10.cst main_call10.v0 (fun x v => Host.reduceAdd x v reducesTo_S100000x64_S64_d0 h_S_),
    TRef.unary main_call10.v0 main_call10.v1 (broadcastInDim S1x64 ![1] bcast_S64_S1x64_1),
    TRef.nullary main_call10.cst_0 (constant S_ .f32 0x47C35000#32),
    TRef.unary main_call10.cst_0 main_call10.v2 (broadcastInDim S1x64 ![] bcast_S_S1x64),
    TRef.binary main_call10.v1 main_call10.v2 main_call10.v3 Host.divf,
    TRef.unary main_call10.v3 main_call10.v4 (broadcastInDim S100000x64 ![0, 1] bcast_S1x64_S100000x64_0_1),
    TRef.binary (TRef.of (T := ⟨S100000x64, .f32⟩) main_v187) main_call10.v4 main_call10.v5 subf,
    TRef.binary main_call10.v5 main_call10.v5 main_call10.v6 mulf,
    TRef.unary (TRef.of (T := ⟨S_, .i32⟩) main_c_24) main_call10.v7 (sitofp .f32),
    TRef.nullary main_call10.cst_1 (constant S_ .f32 0x47C35000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x64_S64_d0 h_S_),
    TRef.unary main_call10.v8 main_call10.v10 (broadcastInDim S64 ![] bcast_S_S64),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S64 ![] bcast_S_S64),
    TRef.ternary main_call10.v12 main_call10.v11 main_call10_call0.v1 main_call10_call0.v2 (fun p a b => select (broadcastInDim S64 ![] bcast_S_S64 p) a b),
    unary main_arg7 main_v192 ((extractStridedSlice S1x64 ![3, 0] · slices_S5x64_S1x64_3_0) : (⟨S5x64, .f32⟩ : BufTy).Contents (Elt F) → (⟨S1x64, .f32⟩ : BufTy).Contents (Elt F)),
    reshape main_v192 main_v193 rfl shapeCasts_S1x64_S64,
    unary main_v190 main_v194 (broadcastInDim S1x64 ![1] bcast_S64_S1x64_1 : (⟨S64, .f32⟩ : BufTy).Contents (Elt F) → (⟨S1x64, .f32⟩ : BufTy).Contents (Elt F)),
    unary main_v194 main_v195 (broadcastInDim S100000x64 ![0, 1] bcast_S1x64_S100000x64_0_1 : (⟨S1x64, .f32⟩ : BufTy).Contents (Elt F) → (⟨S100000x64, .f32⟩ : BufTy).Contents (Elt F)),
    binary main_v187 main_v195 main_v196 (subf : (⟨S100000x64, .f32⟩ : BufTy).Contents (Elt F) → (⟨S100000x64, .f32⟩ : BufTy).Contents (Elt F) → (⟨S100000x64, .f32⟩ : BufTy).Contents (Elt F)),
    unary main_v193 main_v197 (broadcastInDim S1x64 ![1] bcast_S64_S1x64_1 : (⟨S64, .f32⟩ : BufTy).Contents (Elt F) → (⟨S1x64, .f32⟩ : BufTy).Contents (Elt F)),
    unary main_v197 main_v198 (broadcastInDim S100000x64 ![0, 1] bcast_S1x64_S100000x64_0_1 : (⟨S1x64, .f32⟩ : BufTy).Contents (Elt F) → (⟨S100000x64, .f32⟩ : BufTy).Contents (Elt F)),
    binary main_v198 main_v196 main_v199 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v200 (broadcastInDim S64 ![] bcast_S_S64 : (⟨S_, .f32⟩ : BufTy).Contents (Elt F) → (⟨S64, .f32⟩ : BufTy).Contents (Elt F)),
    binary main_v191 main_v200 main_v201 (addf : (⟨S64, .f32⟩ : BufTy).Contents (Elt F) → (⟨S64, .f32⟩ : BufTy).Contents (Elt F) → (⟨S64, .f32⟩ : BufTy).Contents (Elt F)),
    unary main_v201 main_v202 (Host.rsqrt : (⟨S64, .f32⟩ : BufTy).Contents (Elt F) → (⟨S64, .f32⟩ : BufTy).Contents (Elt F)),
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S100000x64 ![0, 1] bcast_S1x64_S100000x64_0_1 : (⟨S1x64, .f32⟩ : BufTy).Contents (Elt F) → (⟨S100000x64, .f32⟩ : BufTy).Contents (Elt F)),
    binary main_v199 main_v204 main_v205 (mulf : (⟨S100000x64, .f32⟩ : BufTy).Contents (Elt F) → (⟨S100000x64, .f32⟩ : BufTy).Contents (Elt F) → (⟨S100000x64, .f32⟩ : BufTy).Contents (Elt F)),
    unary main_arg8 main_v206 ((extractStridedSlice S1x64 ![3, 0] · slices_S5x64_S1x64_3_0) : (⟨S5x64, .f32⟩ : BufTy).Contents (Elt F) → (⟨S1x64, .f32⟩ : BufTy).Contents (Elt F)),
    reshape main_v206 main_v207 rfl shapeCasts_S1x64_S64,
    unary main_v207 main_v208 (broadcastInDim S1x64 ![1] bcast_S64_S1x64_1 : (⟨S64, .f32⟩ : BufTy).Contents (Elt F) → (⟨S1x64, .f32⟩ : BufTy).Contents (Elt F)),
    unary main_v208 main_v209 (broadcastInDim S100000x64 ![0, 1] bcast_S1x64_S100000x64_0_1 : (⟨S1x64, .f32⟩ : BufTy).Contents (Elt F) → (⟨S100000x64, .f32⟩ : BufTy).Contents (Elt F)),
    binary main_v205 main_v209 main_v210 (addf : (⟨S100000x64, .f32⟩ : BufTy).Contents (Elt F) → (⟨S100000x64, .f32⟩ : BufTy).Contents (Elt F) → (⟨S100000x64, .f32⟩ : BufTy).Contents (Elt F)),
    TRef.nullary main_call11.cst (constant S_ .f32 0x00000000#32),
    TRef.unary main_call11.cst main_call11.v0 (broadcastInDim S100000x64 ![] bcast_S_S100000x64),
    TRef.binary (TRef.of (T := ⟨S100000x64, .f32⟩) main_v210) main_call11.v0 main_call11.v1 maximumf ]

/-- The operations of @main's window 4, in order. -/
abbrev wops4 : List (HloOp τ sig (Elt F)) :=
  [ nullary main_c_26 (constantI S_ 32 0#32),
    unary main_c_26 main_v212 (broadcastInDim S1600000 ![] bcast_S_S1600000 : (⟨S_, .i32⟩ : BufTy).Contents (Elt F) → (⟨S1600000, .i32⟩ : BufTy).Contents (Elt F)),
    binary main_v1 main_v212 main_v213 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v214 (broadcastInDim S1600000 ![] bcast_S_S1600000 : (⟨S_, .i32⟩ : BufTy).Contents (Elt F) → (⟨S1600000, .i32⟩ : BufTy).Contents (Elt F)),
    binary main_v1 main_v214 main_v215 (addi : (⟨S1600000, .i32⟩ : BufTy).Contents (Elt F) → (⟨S1600000, .i32⟩ : BufTy).Contents (Elt F) → (⟨S1600000, .i32⟩ : BufTy).Contents (Elt F)),
    ternary main_v213 main_v215 main_v1 main_v216 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v216 main_v217 (broadcastInDim S1600000x1 ![0] bcast_S1600000_S1600000x1_0 : (⟨S1600000, .i32⟩ : BufTy).Contents (Elt F) → (⟨S1600000x1, .i32⟩ : BufTy).Contents (Elt F)),
    binary main_v211 main_v217 main_v218 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_28 (constant S_ .f32 0x00000000#32),
    unary main_cst_28 main_v219 (broadcastInDim S100000x64 ![] bcast_S_S100000x64 : (⟨S_, .f32⟩ : BufTy).Contents (Elt F) → (⟨S100000x64, .f32⟩ : BufTy).Contents (Elt F)),
    unary main_v3 main_v220 (broadcastInDim S1600000x1 ![0] bcast_S1600000_S1600000x1_0 : (⟨S1600000, .i32⟩ : BufTy).Contents (Elt F) → (⟨S1600000x1, .i32⟩ : BufTy).Contents (Elt F)),
    ternary main_v219 main_v220 main_v218 main_v221 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v211 main_v221 main_v222 (addf : (⟨S100000x64, .f32⟩ : BufTy).Contents (Elt F) → (⟨S100000x64, .f32⟩ : BufTy).Contents (Elt F) → (⟨S100000x64, .f32⟩ : BufTy).Contents (Elt F)),
    unary main_arg3 main_v223 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v223 main_v224 rfl shapeCasts_S1x64x64_S64x64,
    binary main_v222 main_v224 main_v225 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v226 ((extractStridedSlice S1x64 ![4, 0] · slices_S5x64_S1x64_4_0) : (⟨S5x64, .f32⟩ : BufTy).Contents (Elt F) → (⟨S1x64, .f32⟩ : BufTy).Contents (Elt F)),
    reshape main_v226 main_v227 rfl shapeCasts_S1x64_S64,
    unary main_v227 main_v228 (broadcastInDim S1x64 ![1] bcast_S64_S1x64_1 : (⟨S64, .f32⟩ : BufTy).Contents (Elt F) → (⟨S1x64, .f32⟩ : BufTy).Contents (Elt F)),
    unary main_v228 main_v229 (broadcastInDim S100000x64 ![0, 1] bcast_S1x64_S100000x64_0_1 : (⟨S1x64, .f32⟩ : BufTy).Contents (Elt F) → (⟨S100000x64, .f32⟩ : BufTy).Contents (Elt F)),
    binary main_v225 main_v229 main_v230 (addf : (⟨S100000x64, .f32⟩ : BufTy).Contents (Elt F) → (⟨S100000x64, .f32⟩ : BufTy).Contents (Elt F) → (⟨S100000x64, .f32⟩ : BufTy).Contents (Elt F)),
    TRef.nullary main_call12.cst (constant S_ .f32 0x00000000#32),
    TRef.unary main_call12.cst main_call12.v0 (broadcastInDim S100000x64 ![] bcast_S_S100000x64),
    TRef.binary (TRef.of (T := ⟨S100000x64, .f32⟩) main_v230) main_call12.v0 main_call12.v1 maximumf,
    unary main_arg5 main_v232 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v232 main_v233 rfl shapeCasts_S1x64x64_S64x64,
    binary main_v231 main_v233 main_v234 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v235 ((extractStridedSlice S1x64 ![4, 0] · slices_S5x64_S1x64_4_0) : (⟨S5x64, .f32⟩ : BufTy).Contents (Elt F) → (⟨S1x64, .f32⟩ : BufTy).Contents (Elt F)),
    reshape main_v235 main_v236 rfl shapeCasts_S1x64_S64,
    unary main_v236 main_v237 (broadcastInDim S1x64 ![1] bcast_S64_S1x64_1 : (⟨S64, .f32⟩ : BufTy).Contents (Elt F) → (⟨S1x64, .f32⟩ : BufTy).Contents (Elt F)),
    unary main_v237 main_v238 (broadcastInDim S100000x64 ![0, 1] bcast_S1x64_S100000x64_0_1 : (⟨S1x64, .f32⟩ : BufTy).Contents (Elt F) → (⟨S100000x64, .f32⟩ : BufTy).Contents (Elt F)),
    binary main_v234 main_v238 main_v239 (addf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    binary main_v239 main_cst_29 main_v240 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v241 (broadcastInDim S64 ![] bcast_S_S64 : (⟨S_, .f32⟩ : BufTy).Contents (Elt F) → (⟨S64, .f32⟩ : BufTy).Contents (Elt F)),
    binary main_v240 main_v241 main_v242 (Host.divf : (⟨S64, .f32⟩ : BufTy).Contents (Elt F) → (⟨S64, .f32⟩ : BufTy).Contents (Elt F) → (⟨S64, .f32⟩ : BufTy).Contents (Elt F)),
    nullary main_c_31 (constantI S_ 32 0#32),
    TRef.nullary main_call13.cst (constant S_ .f32 0x00000000#32),
    TRef.binary (TRef.of (T := ⟨S100000x64, .f32⟩) main_v239) main_call13.cst main_call13.v0 (fun x v => Host.reduceAdd x v reducesTo_S100000x64_S64_d0 h_S_),
    TRef.unary main_call13.v0 main_call13.v1 (broadcastInDim S1x64 ![1] bcast_S64_S1x64_1),
    TRef.nullary main_call13.cst_0 (constant S_ .f32 0x47C35000#32),
    TRef.unary main_call13.cst_0 main_call13.v2 (broadcastInDim S1x64 ![] bcast_S_S1x64),
    TRef.binary main_call13.v1 main_call13.v2 main_call13.v3 Host.divf,
    TRef.unary main_call13.v3 main_call13.v4 (broadcastInDim S100000x64 ![0, 1] bcast_S1x64_S100000x64_0_1),
    TRef.binary (TRef.of (T := ⟨S100000x64, .f32⟩) main_v239) main_call13.v4 main_call13.v5 subf,
    TRef.binary main_call13.v5 main_call13.v5 main_call13.v6 mulf,
    TRef.unary (TRef.of (T := ⟨S_, .i32⟩) main_c_31) main_call13.v7 (sitofp .f32),
    TRef.nullary main_call13.cst_1 (constant S_ .f32 0x47C35000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S100000x64_S64_d0 h_S_),
    TRef.unary main_call13.v8 main_call13.v10 (broadcastInDim S64 ![] bcast_S_S64),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13_call0.v0 id,
    TRef.unary main_call13_call0.v0 main_call13_call0.v1 (broadcastInDim S64 ![] bcast_S_S64),
    TRef.ternary main_call13.v12 main_call13.v11 main_call13_call0.v1 main_call13_call0.v2 (fun p a b => select (broadcastInDim S64 ![] bcast_S_S64 p) a b),
    unary main_arg7 main_v244 ((extractStridedSlice S1x64 ![4, 0] · slices_S5x64_S1x64_4_0) : (⟨S5x64, .f32⟩ : BufTy).Contents (Elt F) → (⟨S1x64, .f32⟩ : BufTy).Contents (Elt F)),
    reshape main_v244 main_v245 rfl shapeCasts_S1x64_S64,
    unary main_v242 main_v246 (broadcastInDim S1x64 ![1] bcast_S64_S1x64_1 : (⟨S64, .f32⟩ : BufTy).Contents (Elt F) → (⟨S1x64, .f32⟩ : BufTy).Contents (Elt F)),
    unary main_v246 main_v247 (broadcastInDim S100000x64 ![0, 1] bcast_S1x64_S100000x64_0_1 : (⟨S1x64, .f32⟩ : BufTy).Contents (Elt F) → (⟨S100000x64, .f32⟩ : BufTy).Contents (Elt F)),
    binary main_v239 main_v247 main_v248 (subf : (⟨S100000x64, .f32⟩ : BufTy).Contents (Elt F) → (⟨S100000x64, .f32⟩ : BufTy).Contents (Elt F) → (⟨S100000x64, .f32⟩ : BufTy).Contents (Elt F)),
    unary main_v245 main_v249 (broadcastInDim S1x64 ![1] bcast_S64_S1x64_1 : (⟨S64, .f32⟩ : BufTy).Contents (Elt F) → (⟨S1x64, .f32⟩ : BufTy).Contents (Elt F)),
    unary main_v249 main_v250 (broadcastInDim S100000x64 ![0, 1] bcast_S1x64_S100000x64_0_1 : (⟨S1x64, .f32⟩ : BufTy).Contents (Elt F) → (⟨S100000x64, .f32⟩ : BufTy).Contents (Elt F)),
    binary main_v250 main_v248 main_v251 (mulf : (⟨S100000x64, .f32⟩ : BufTy).Contents (Elt F) → (⟨S100000x64, .f32⟩ : BufTy).Contents (Elt F) → (⟨S100000x64, .f32⟩ : BufTy).Contents (Elt F)),
    nullary main_cst_32 (constant S_ .f32 0x3727C5AC#32),
    unary main_cst_32 main_v252 (broadcastInDim S64 ![] bcast_S_S64 : (⟨S_, .f32⟩ : BufTy).Contents (Elt F) → (⟨S64, .f32⟩ : BufTy).Contents (Elt F)),
    binary main_v243 main_v252 main_v253 (addf : (⟨S64, .f32⟩ : BufTy).Contents (Elt F) → (⟨S64, .f32⟩ : BufTy).Contents (Elt F) → (⟨S64, .f32⟩ : BufTy).Contents (Elt F)),
    unary main_v253 main_v254 (Host.rsqrt : (⟨S64, .f32⟩ : BufTy).Contents (Elt F) → (⟨S64, .f32⟩ : BufTy).Contents (Elt F)),
    unary main_v254 main_v255 (broadcastInDim S1x64 ![1] bcast_S64_S1x64_1 : (⟨S64, .f32⟩ : BufTy).Contents (Elt F) → (⟨S1x64, .f32⟩ : BufTy).Contents (Elt F)),
    unary main_v255 main_v256 (broadcastInDim S100000x64 ![0, 1] bcast_S1x64_S100000x64_0_1 : (⟨S1x64, .f32⟩ : BufTy).Contents (Elt F) → (⟨S100000x64, .f32⟩ : BufTy).Contents (Elt F)),
    binary main_v251 main_v256 main_v257 (mulf : (⟨S100000x64, .f32⟩ : BufTy).Contents (Elt F) → (⟨S100000x64, .f32⟩ : BufTy).Contents (Elt F) → (⟨S100000x64, .f32⟩ : BufTy).Contents (Elt F)),
    unary main_arg8 main_v258 ((extractStridedSlice S1x64 ![4, 0] · slices_S5x64_S1x64_4_0) : (⟨S5x64, .f32⟩ : BufTy).Contents (Elt F) → (⟨S1x64, .f32⟩ : BufTy).Contents (Elt F)),
    reshape main_v258 main_v259 rfl shapeCasts_S1x64_S64,
    unary main_v259 main_v260 (broadcastInDim S1x64 ![1] bcast_S64_S1x64_1 : (⟨S64, .f32⟩ : BufTy).Contents (Elt F) → (⟨S1x64, .f32⟩ : BufTy).Contents (Elt F)),
    unary main_v260 main_v261 (broadcastInDim S100000x64 ![0, 1] bcast_S1x64_S100000x64_0_1 : (⟨S1x64, .f32⟩ : BufTy).Contents (Elt F) → (⟨S100000x64, .f32⟩ : BufTy).Contents (Elt F)),
    binary main_v257 main_v261 main_v262 (addf : (⟨S100000x64, .f32⟩ : BufTy).Contents (Elt F) → (⟨S100000x64, .f32⟩ : BufTy).Contents (Elt F) → (⟨S100000x64, .f32⟩ : BufTy).Contents (Elt F)),
    TRef.nullary main_call14.cst (constant S_ .f32 0x00000000#32),
    TRef.unary main_call14.cst main_call14.v0 (broadcastInDim S100000x64 ![] bcast_S_S100000x64),
    TRef.binary (TRef.of (T := ⟨S100000x64, .f32⟩) main_v262) main_call14.v0 main_call14.v1 maximumf,
    nullary main_cst_33 (constant S_ .f32 0x00000000#32) ]

/-- The operations of @main's window 5, in order. -/
abbrev wops5 : List (HloOp τ sig (Elt F)) :=
  [ unary main_cst_33 main_v264 (broadcastInDim S128x64 ![] bcast_S_S128x64 : (⟨S_, .f32⟩ : BufTy).Contents (Elt F) → (⟨S128x64, .f32⟩ : BufTy).Contents (Elt F)),
    unary main_arg2 main_v265 (broadcastInDim S100000x1 ![0] bcast_S100000_S100000x1_0 : (⟨S100000, .i32⟩ : BufTy).Contents (Elt F) → (⟨S100000x1, .i32⟩ : BufTy).Contents (Elt F)),
    ternary main_v264 main_v265 main_v263 main_v266 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_34 (constant S_ .f32 0x3F800000#32),
    unary main_cst_34 main_v267 (broadcastInDim S100000 ![] bcast_S_S100000 : (⟨S_, .f32⟩ : BufTy).Contents (Elt F) → (⟨S100000, .f32⟩ : BufTy).Contents (Elt F)),
    nullary main_cst_35 (constant S_ .f32 0x00000000#32),
    unary main_cst_35 main_v268 (broadcastInDim S128 ![] bcast_S_S128 : (⟨S_, .f32⟩ : BufTy).Contents (Elt F) → (⟨S128, .f32⟩ : BufTy).Contents (Elt F)),
    unary main_arg2 main_v269 (broadcastInDim S100000x1 ![0] bcast_S100000_S100000x1_0 : (⟨S100000, .i32⟩ : BufTy).Contents (Elt F) → (⟨S100000x1, .i32⟩ : BufTy).Contents (Elt F)),
    ternary main_v268 main_v269 main_v267 main_v270 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_36 (constant S_ .f32 0x3F800000#32),
    unary main_cst_36 main_v271 (broadcastInDim S128 ![] bcast_S_S128 : (⟨S_, .f32⟩ : BufTy).Contents (Elt F) → (⟨S128, .f32⟩ : BufTy).Contents (Elt F)),
    binary main_v270 main_v271 main_v272 (maximumf : (⟨S128, .f32⟩ : BufTy).Contents (Elt F) → (⟨S128, .f32⟩ : BufTy).Contents (Elt F) → (⟨S128, .f32⟩ : BufTy).Contents (Elt F)),
    unary main_v272 main_v273 (broadcastInDim S128x1 ![0] bcast_S128_S128x1_0 : (⟨S128, .f32⟩ : BufTy).Contents (Elt F) → (⟨S128x1, .f32⟩ : BufTy).Contents (Elt F)),
    unary main_v273 main_v274 (broadcastInDim S128x64 ![0, 1] bcast_S128x1_S128x64_0_1 : (⟨S128x1, .f32⟩ : BufTy).Contents (Elt F) → (⟨S128x64, .f32⟩ : BufTy).Contents (Elt F)),
    binary main_v266 main_v274 main_v275 (Host.divf : (⟨S128x64, .f32⟩ : BufTy).Contents (Elt F) → (⟨S128x64, .f32⟩ : BufTy).Contents (Elt F) → (⟨S128x64, .f32⟩ : BufTy).Contents (Elt F)),
    binary main_v275 main_arg9 main_v276 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg10 main_v277 (broadcastInDim S1x64 ![1] bcast_S64_S1x64_1 : (⟨S64, .f32⟩ : BufTy).Contents (Elt F) → (⟨S1x64, .f32⟩ : BufTy).Contents (Elt F)),
    unary main_v277 main_v278 (broadcastInDim S128x64 ![0, 1] bcast_S1x64_S128x64_0_1 : (⟨S1x64, .f32⟩ : BufTy).Contents (Elt F) → (⟨S128x64, .f32⟩ : BufTy).Contents (Elt F)),
    binary main_v276 main_v278 main_v279 (addf : (⟨S128x64, .f32⟩ : BufTy).Contents (Elt F) → (⟨S128x64, .f32⟩ : BufTy).Contents (Elt F) → (⟨S128x64, .f32⟩ : BufTy).Contents (Elt F)),
    TRef.nullary main_call15.cst (constant S_ .f32 0x00000000#32),
    TRef.unary main_call15.cst main_call15.v0 (broadcastInDim S128x64 ![] bcast_S_S128x64),
    TRef.binary (TRef.of (T := ⟨S128x64, .f32⟩) main_v279) main_call15.v0 main_call15.v1 maximumf,
    binary main_v280 main_arg11 main_v281 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg12 main_v282 (broadcastInDim S1x10 ![1] bcast_S10_S1x10_1 : (⟨S10, .f32⟩ : BufTy).Contents (Elt F) → (⟨S1x10, .f32⟩ : BufTy).Contents (Elt F)),
    unary main_v282 main_v283 (broadcastInDim S128x10 ![0, 1] bcast_S1x10_S128x10_0_1 : (⟨S1x10, .f32⟩ : BufTy).Contents (Elt F) → (⟨S128x10, .f32⟩ : BufTy).Contents (Elt F)),
    binary main_v281 main_v283 main_v284 (addf : (⟨S128x10, .f32⟩ : BufTy).Contents (Elt F) → (⟨S128x10, .f32⟩ : BufTy).Contents (Elt F) → (⟨S128x10, .f32⟩ : BufTy).Contents (Elt F)) ]

set_option maxRecDepth 8192 in
set_option maxHeartbeats 4000000 in
theorem main_part0_eq (c : Dev nD) : main_part0 (F := F) c = seq wops0 := rfl

set_option maxRecDepth 8192 in
set_option maxHeartbeats 4000000 in
theorem main_part1_eq (c : Dev nD) : main_part1 (F := F) c = seq wops1 := rfl

set_option maxRecDepth 8192 in
set_option maxHeartbeats 4000000 in
theorem main_part2_eq (c : Dev nD) : main_part2 (F := F) c = seq wops2 := rfl

set_option maxRecDepth 8192 in
set_option maxHeartbeats 4000000 in
theorem main_part3_eq (c : Dev nD) : main_part3 (F := F) c = seq wops3 := rfl

set_option maxRecDepth 8192 in
set_option maxHeartbeats 4000000 in
theorem main_part4_eq (c : Dev nD) : main_part4 (F := F) c = seq wops4 := rfl

set_option maxRecDepth 8192 in
set_option maxHeartbeats 4000000 in
theorem main_part5_eq (c : Dev nD) : main_part5 (F := F) c = seq wops5 := rfl

/-- @main's 451 operations, in order. -/
abbrev wops : List (HloOp τ sig (Elt F)) :=
  wops0 ++ (wops1 ++ (wops2 ++ (wops3 ++ (wops4 ++ (wops5)))))

set_option maxRecDepth 8192 in
theorem main_eq (c : Dev nD) : main (F := F) c = seq wops := by
  simp only [wops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem wops0_sub : (wops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub ..⟩

set_option maxRecDepth 8192 in
theorem wops0_fresh : (wops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem wops1_sub : (wops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub ..⟩

set_option maxRecDepth 8192 in
theorem wops1_fresh : (wops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem wops2_sub : (wops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩

set_option maxRecDepth 8192 in
theorem wops2_fresh : (wops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem wops3_sub : (wops3 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
theorem wops3_fresh : (wops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem wops4_sub : (wops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub ..⟩

set_option maxRecDepth 8192 in
theorem wops4_fresh : (wops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem wops5_sub : (wops5 : List (HloOp τ sig (Elt F))).Forall fun op => op.bufs ⊆ tcRefs τ sig :=
  ⟨unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
theorem wops5_fresh : (wops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem wops_sub : (wops : List (HloOp τ sig (Elt F))).Forall fun op => op.bufs ⊆ tcRefs τ sig :=
  List.forall_iff_forall_mem.mpr fun op h => by
    simp only [wops, List.mem_append] at h
    rcases h with h | h | h | h | h | h
    exacts [List.forall_iff_forall_mem.mp wops0_sub op h, List.forall_iff_forall_mem.mp wops1_sub op h, List.forall_iff_forall_mem.mp wops2_sub op h, List.forall_iff_forall_mem.mp wops3_sub op h, List.forall_iff_forall_mem.mp wops4_sub op h, List.forall_iff_forall_mem.mp wops5_sub op h]

theorem wops_fresh : ∀ op ∈ (wops : List (HloOp τ sig (Elt F))), op.fresh = ∅ := fun op h => by
    simp only [wops, List.mem_append] at h
    rcases h with h | h | h | h | h | h
    exacts [List.forall_iff_forall_mem.mp wops0_fresh op h, List.forall_iff_forall_mem.mp wops1_fresh op h, List.forall_iff_forall_mem.mp wops2_fresh op h, List.forall_iff_forall_mem.mp wops3_fresh op h, List.forall_iff_forall_mem.mp wops4_fresh op h, List.forall_iff_forall_mem.mp wops5_fresh op h]

/-- On every device, from any memory with zero counters: every weakly fair execution of @main terminates with
    every buffer at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after wops (launchContents m c) (Proc.devRef .tc b) :=
  run_seq scopedRefs_eq scopedSems_eq defs main (fun _ => wops) main_eq (fun _ => wops_sub) m ρ (fun _ => wops_fresh)

end Cert.ReferenceIdeal.RefRun

end
-- ==== Proof.RefRunDefs.lean ====
/-
  The reference network as a composition of named pure functions of its thirteen argument arrays:
  one function per layer (five layers that differ only in which row of the stacked parameters they read)
  and one for the pooling and the output perceptron.  Every function is the composition of the program's
  own host operations, in the program's order, so the run of the program computes exactly `out`.
-/
import proofs.«142526_j3951369912896_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The source node of every edge: row 0 of the edge table. -/
def edgeSrc (a1 : IVec S2x1600000 32) : IVec S1600000 32 :=
  shapeCast _ (extractStridedSlice S1x1600000 ![0, 0] (a1) slices_S2x1600000_S1x1600000_0_0) shapeCasts_S1x1600000_S1600000

/-- The destination node of every edge: row 1 of the edge table. -/
def edgeDst (a1 : IVec S2x1600000 32) : IVec S1600000 32 :=
  shapeCast _ (extractStridedSlice S1x1600000 ![1, 0] (a1) slices_S2x1600000_S1x1600000_1_0) shapeCasts_S1x1600000_S1600000

/-- Row `k` of a stack of 64×64 matrices. -/
def matAt (k : Nat) (h : S5x64x64.Slices ![k, 0, 0] S1x64x64) (a : FVec F S5x64x64 .f32) : FVec F S64x64 .f32 :=
  shapeCast _ (extractStridedSlice S1x64x64 ![k, 0, 0] a h) shapeCasts_S1x64x64_S64x64

/-- Row `k` of a stack of 64-vectors. -/
def vecAt (k : Nat) (h : S5x64.Slices ![k, 0] S1x64) (a : FVec F S5x64 .f32) : FVec F S64 .f32 :=
  shapeCast _ (extractStridedSlice S1x64 ![k, 0] a h) shapeCasts_S1x64_S64

/-- A 64-vector repeated along the 100000 rows. -/
def rowB (b : FVec F S64 .f32) : FVec F S100000x64 .f32 :=
  broadcastInDim S100000x64 ![0, 1] bcast_S1x64_S100000x64_0_1 (broadcastInDim S1x64 ![1] bcast_S64_S1x64_1 (b))

/-- The elementwise maximum with zero. -/
def reluCore (z : FVec F S100000x64 .f32) : FVec F S100000x64 .f32 :=
  maximumf (z) (broadcastInDim S100000x64 ![] bcast_S_S100000x64 (constant (F := F) S_ .f32 0x00000000#32))

/-- The affine map `x · W + b` on every row. -/
def linCore (x : FVec F S100000x64 .f32) (W : FVec F S64x64 .f32) (B : FVec F S64 .f32) : FVec F S100000x64 .f32 :=
  addf (Host.dotGeneral dot_S100000x64_S64x64_S100000x64_1_0_0_1_n_n none (x) (W)) (rowB B)

/-- The neighbourhood sum: for every edge the source row of `x` (a negative source index wrapped by 100000),
    added into the destination row of a zero array. -/
def aggCore (x : FVec F S100000x64 .f32) (v1 v3 : IVec S1600000 32) : FVec F S100000x64 .f32 :=
  Host.scatterAdd scatter_S100000x64_S1600000x1_S1600000x64_1_0_0_1 (broadcastInDim S100000x64 ![] bcast_S_S100000x64 (constant (F := F) S_ .f32 0x00000000#32)) (broadcastInDim S1600000x1 ![0] bcast_S1600000_S1600000x1_0 (v3)) (Host.gather gather_S100000x64_S1600000x1_S1600000x64_1_0_n_n_0_1_164 (x) (broadcastInDim S1600000x1 ![0] bcast_S1600000_S1600000x1_0 (select (cmpi .slt (v1) (broadcastInDim S1600000 ![] bcast_S_S1600000 (constantI S_ 32 0#32))) (addi (v1) (broadcastInDim S1600000 ![] bcast_S_S1600000 (constantI S_ 32 100000#32))) (v1))))

/-- The neighbourhood sum from the edge table itself. -/
def aggOf (x : FVec F S100000x64 .f32) (a1 : IVec S2x1600000 32) : FVec F S100000x64 .f32 :=
  aggCore x (edgeSrc a1) (edgeDst a1)

/-- The two-layer perceptron applied to `x + agg`, before normalization. -/
def yCore (x agg : FVec F S100000x64 .f32) (W1 : FVec F S64x64 .f32) (B1 : FVec F S64 .f32) (W2 : FVec F S64x64 .f32) (B2 : FVec F S64 .f32) : FVec F S100000x64 .f32 :=
  linCore (reluCore (linCore (addf x agg) W1 B1)) W2 B2

/-- The column means: column sums divided by 100000. -/
def meanCore (y : FVec F S100000x64 .f32) : FVec F S64 .f32 :=
  Host.divf (Host.reduceAdd (y) (constant (F := F) S_ .f32 0x00000000#32) reducesTo_S100000x64_S64_d0 h_S_) (broadcastInDim S64 ![] bcast_S_S64 (constant (F := F) S_ .f32 0x47C35000#32))

/-- The deviations from the column means, the means recomputed through a 1×64 array. -/
def varDev (y : FVec F S100000x64 .f32) : FVec F S100000x64 .f32 :=
  subf (y) (broadcastInDim S100000x64 ![0, 1] bcast_S1x64_S100000x64_0_1 (Host.divf (broadcastInDim S1x64 ![1] bcast_S64_S1x64_1 (Host.reduceAdd (y) (constant (F := F) S_ .f32 0x00000000#32) reducesTo_S100000x64_S64_d0 h_S_)) (broadcastInDim S1x64 ![] bcast_S_S1x64 (constant (F := F) S_ .f32 0x47C35000#32))))

/-- The column variances, two-pass: the mean square deviation over `100000 - 0`, kept when that divisor is positive. -/
def varCore (y : FVec F S100000x64 .f32) : FVec F S64 .f32 :=
  select (broadcastInDim S64 ![] bcast_S_S64 (cmpf .ogt (subf (constant (F := F) S_ .f32 0x47C35000#32) (sitofp .f32 (constantI S_ 32 0#32))) (constant (F := F) S_ .f32 0x00000000#32))) (Host.divf (Host.reduceAdd (mulf (varDev y) (varDev y)) (constant (F := F) S_ .f32 0x00000000#32) reducesTo_S100000x64_S64_d0 h_S_) (broadcastInDim S64 ![] bcast_S_S64 (subf (constant (F := F) S_ .f32 0x47C35000#32) (sitofp .f32 (constantI S_ 32 0#32))))) (broadcastInDim S64 ![] bcast_S_S64 (id (constant (F := F) S_ .f32 0x7FC00000#32)))

/-- Normalization by the given column means and variances, scale, shift and maximum with zero. -/
def bnCore (y : FVec F S100000x64 .f32) (mean var g bt : FVec F S64 .f32) : FVec F S100000x64 .f32 :=
  reluCore (addf (mulf (mulf (rowB g) (subf (y) (rowB mean))) (rowB (Host.rsqrt (addf (var) (broadcastInDim S64 ![] bcast_S_S64 (constant (F := F) S_ .f32 0x3727C5AC#32)))))) (rowB bt))

/-- One layer on the features `x` with its own parameter arrays. -/
def layerCore (x : FVec F S100000x64 .f32) (v1 v3 : IVec S1600000 32) (W1 : FVec F S64x64 .f32) (B1 : FVec F S64 .f32) (W2 : FVec F S64x64 .f32) (B2 g bt : FVec F S64 .f32) : FVec F S100000x64 .f32 :=
  bnCore (yCore x (aggCore x v1 v3) W1 B1 W2 B2) (meanCore (yCore x (aggCore x v1 v3) W1 B1 W2 B2))
    (varCore (yCore x (aggCore x v1 v3) W1 B1 W2 B2)) g bt

/-- Layer 0 of the network on the features `x`: the parameters are the rows `0` of the stacked arrays. -/
def layer0 (x : FVec F S100000x64 .f32) (a1 : IVec S2x1600000 32) (a3 : FVec F S5x64x64 .f32) (a4 : FVec F S5x64 .f32) (a5 : FVec F S5x64x64 .f32)
    (a6 a7 a8 : FVec F S5x64 .f32) : FVec F S100000x64 .f32 :=
  layerCore x (edgeSrc a1) (edgeDst a1) (matAt 0 slices_S5x64x64_S1x64x64_0_0_0 a3) (vecAt 0 slices_S5x64_S1x64_0_0 a4) (matAt 0 slices_S5x64x64_S1x64x64_0_0_0 a5)
    (vecAt 0 slices_S5x64_S1x64_0_0 a6) (vecAt 0 slices_S5x64_S1x64_0_0 a7) (vecAt 0 slices_S5x64_S1x64_0_0 a8)

/-- Layer 1 of the network on the features `x`: the parameters are the rows `1` of the stacked arrays. -/
def layer1 (x : FVec F S100000x64 .f32) (a1 : IVec S2x1600000 32) (a3 : FVec F S5x64x64 .f32) (a4 : FVec F S5x64 .f32) (a5 : FVec F S5x64x64 .f32)
    (a6 a7 a8 : FVec F S5x64 .f32) : FVec F S100000x64 .f32 :=
  layerCore x (edgeSrc a1) (edgeDst a1) (matAt 1 slices_S5x64x64_S1x64x64_1_0_0 a3) (vecAt 1 slices_S5x64_S1x64_1_0 a4) (matAt 1 slices_S5x64x64_S1x64x64_1_0_0 a5)
    (vecAt 1 slices_S5x64_S1x64_1_0 a6) (vecAt 1 slices_S5x64_S1x64_1_0 a7) (vecAt 1 slices_S5x64_S1x64_1_0 a8)

/-- Layer 2 of the network on the features `x`: the parameters are the rows `2` of the stacked arrays. -/
def layer2 (x : FVec F S100000x64 .f32) (a1 : IVec S2x1600000 32) (a3 : FVec F S5x64x64 .f32) (a4 : FVec F S5x64 .f32) (a5 : FVec F S5x64x64 .f32)
    (a6 a7 a8 : FVec F S5x64 .f32) : FVec F S100000x64 .f32 :=
  layerCore x (edgeSrc a1) (edgeDst a1) (matAt 2 slices_S5x64x64_S1x64x64_2_0_0 a3) (vecAt 2 slices_S5x64_S1x64_2_0 a4) (matAt 2 slices_S5x64x64_S1x64x64_2_0_0 a5)
    (vecAt 2 slices_S5x64_S1x64_2_0 a6) (vecAt 2 slices_S5x64_S1x64_2_0 a7) (vecAt 2 slices_S5x64_S1x64_2_0 a8)

/-- Layer 3 of the network on the features `x`: the parameters are the rows `3` of the stacked arrays. -/
def layer3 (x : FVec F S100000x64 .f32) (a1 : IVec S2x1600000 32) (a3 : FVec F S5x64x64 .f32) (a4 : FVec F S5x64 .f32) (a5 : FVec F S5x64x64 .f32)
    (a6 a7 a8 : FVec F S5x64 .f32) : FVec F S100000x64 .f32 :=
  layerCore x (edgeSrc a1) (edgeDst a1) (matAt 3 slices_S5x64x64_S1x64x64_3_0_0 a3) (vecAt 3 slices_S5x64_S1x64_3_0 a4) (matAt 3 slices_S5x64x64_S1x64x64_3_0_0 a5)
    (vecAt 3 slices_S5x64_S1x64_3_0 a6) (vecAt 3 slices_S5x64_S1x64_3_0 a7) (vecAt 3 slices_S5x64_S1x64_3_0 a8)

/-- Layer 4 of the network on the features `x`: the parameters are the rows `4` of the stacked arrays. -/
def layer4 (x : FVec F S100000x64 .f32) (a1 : IVec S2x1600000 32) (a3 : FVec F S5x64x64 .f32) (a4 : FVec F S5x64 .f32) (a5 : FVec F S5x64x64 .f32)
    (a6 a7 a8 : FVec F S5x64 .f32) : FVec F S100000x64 .f32 :=
  layerCore x (edgeSrc a1) (edgeDst a1) (matAt 4 slices_S5x64x64_S1x64x64_4_0_0 a3) (vecAt 4 slices_S5x64_S1x64_4_0 a4) (matAt 4 slices_S5x64x64_S1x64x64_4_0_0 a5)
    (vecAt 4 slices_S5x64_S1x64_4_0 a6) (vecAt 4 slices_S5x64_S1x64_4_0 a7) (vecAt 4 slices_S5x64_S1x64_4_0 a8)

/-- The mean of the rows of `x` over each of the 128 graphs (the count at least one). -/
def poolOf (x : FVec F S100000x64 .f32) (a2 : IVec S100000 32) : FVec F S128x64 .f32 :=
  Host.divf (Host.scatterAdd scatter_S128x64_S100000x1_S100000x64_1_0_0_1 (broadcastInDim S128x64 ![] bcast_S_S128x64 (constant (F := F) S_ .f32 0x00000000#32)) (broadcastInDim S100000x1 ![0] bcast_S100000_S100000x1_0 (a2)) (x)) (broadcastInDim S128x64 ![0, 1] bcast_S128x1_S128x64_0_1 (broadcastInDim S128x1 ![0] bcast_S128_S128x1_0 (maximumf (Host.scatterAdd scatter_S128_S100000x1_S100000_n_0_0_1 (broadcastInDim S128 ![] bcast_S_S128 (constant (F := F) S_ .f32 0x00000000#32)) (broadcastInDim S100000x1 ![0] bcast_S100000_S100000x1_0 (a2)) (broadcastInDim S100000 ![] bcast_S_S100000 (constant (F := F) S_ .f32 0x3F800000#32))) (broadcastInDim S128 ![] bcast_S_S128 (constant (F := F) S_ .f32 0x3F800000#32)))))

/-- The output perceptron on the pooled rows. -/
def headCore (p : FVec F S128x64 .f32) (a9 : FVec F S64x64 .f32) (a10 : FVec F S64 .f32) (a11 : FVec F S64x10 .f32) (a12 : FVec F S10 .f32) : FVec F S128x10 .f32 :=
  addf (Host.dotGeneral dot_S128x64_S64x10_S128x10_1_0_0_1_n_n none (maximumf (addf (Host.dotGeneral dot_S128x64_S64x64_S128x64_1_0_0_1_n_n none (p) (a9)) (broadcastInDim S128x64 ![0, 1] bcast_S1x64_S128x64_0_1 (broadcastInDim S1x64 ![1] bcast_S64_S1x64_1 (a10)))) (broadcastInDim S128x64 ![] bcast_S_S128x64 (constant (F := F) S_ .f32 0x00000000#32))) (a11)) (broadcastInDim S128x10 ![0, 1] bcast_S1x10_S128x10_0_1 (broadcastInDim S1x10 ![1] bcast_S10_S1x10_1 (a12)))

/-- Pooling and the output perceptron. -/
def tail (x : FVec F S100000x64 .f32) (a2 : IVec S100000 32) (a9 : FVec F S64x64 .f32) (a10 : FVec F S64 .f32) (a11 : FVec F S64x10 .f32) (a12 : FVec F S10 .f32) : FVec F S128x10 .f32 :=
  headCore (poolOf x a2) a9 a10 a11 a12

/-- The whole network as a function of the thirteen argument arrays. -/
def out (a0 : FVec F S100000x64 .f32) (a1 : IVec S2x1600000 32) (a2 : IVec S100000 32) (a3 : FVec F S5x64x64 .f32) (a4 : FVec F S5x64 .f32)
    (a5 : FVec F S5x64x64 .f32) (a6 a7 a8 : FVec F S5x64 .f32) (a9 : FVec F S64x64 .f32) (a10 : FVec F S64 .f32) (a11 : FVec F S64x10 .f32) (a12 : FVec F S10 .f32) :
    FVec F S128x10 .f32 :=
  tail (layer4 (layer3 (layer2 (layer1 (layer0 a0 a1 a3 a4 a5 a6 a7 a8) a1 a3 a4 a5 a6 a7 a8) a1 a3 a4 a5 a6 a7 a8)
    a1 a3 a4 a5 a6 a7 a8) a1 a3 a4 a5 a6 a7 a8) a2 a9 a10 a11 a12

end Cert.ReferenceIdeal.RefRun

end
-- ==== Proof.RefRunL0.lean ====
/-
  The operations of layer 0 and what they compute from any buffer contents:
  the result buffer holds the layer function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsL0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst (constant S_ .f32 0x00000000#32),
    unary main_cst main_v11 (broadcastInDim S100000x64 ![] bcast_S_S100000x64 : (⟨S_, .f32⟩ : BufTy).Contents (Elt F) → (⟨S100000x64, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v13 main_v14 (addf : (⟨S100000x64, .f32⟩ : BufTy).Contents (Elt F) → (⟨S100000x64, .f32⟩ : BufTy).Contents (Elt F) → (⟨S100000x64, .f32⟩ : BufTy).Contents (Elt F)),
    unary main_arg3 main_v15 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v15 main_v16 rfl shapeCasts_S1x64x64_S64x64,
    binary main_v14 main_v16 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v18 ((extractStridedSlice S1x64 ![0, 0] · slices_S5x64_S1x64_0_0) : (⟨S5x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S100000x64 ![0, 1] bcast_S1x64_S100000x64_0_1 : (⟨S1x64, .f32⟩ : BufTy).Contents (Elt F) → (⟨S100000x64, .f32⟩ : BufTy).Contents (Elt F)),
    binary main_v17 main_v21 main_v22 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (TRef.of (T := ⟨S100000x64, .f32⟩) main_v22) main_call0.v0 main_call0.v1 maximumf,
    unary main_arg5 main_v24 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v24 main_v25 rfl shapeCasts_S1x64x64_S64x64,
    binary main_v23 main_v25 main_v26 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v27 ((extractStridedSlice S1x64 ![0, 0] · slices_S5x64_S1x64_0_0) : (⟨S5x64, .f32⟩ : BufTy).Contents (Elt F) → (⟨S1x64, .f32⟩ : BufTy).Contents (Elt F)),
    reshape main_v27 main_v28 rfl shapeCasts_S1x64_S64,
    unary main_v28 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v26 main_v30 main_v31 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v31 main_cst_1 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v33 (broadcastInDim S64 ![] bcast_S_S64 : (⟨S_, .f32⟩ : BufTy).Contents (Elt F) → (⟨S64, .f32⟩ : BufTy).Contents (Elt F)),
    binary main_v32 main_v33 main_v34 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (TRef.of (T := ⟨S100000x64, .f32⟩) main_v31) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (TRef.of (T := ⟨S100000x64, .f32⟩) main_v31) main_call1.v4 main_call1.v5 subf,
    TRef.binary main_call1.v5 main_call1.v5 main_call1.v6 mulf,
    TRef.unary (TRef.of (T := ⟨S_, .i32⟩) main_c_3) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1_call0.v0 id,
    TRef.unary main_call1_call0.v0 main_call1_call0.v1 (broadcastInDim S64 ![] bcast_S_S64),
    TRef.ternary main_call1.v12 main_call1.v11 main_call1_call0.v1 main_call1_call0.v2 (fun p a b => select (broadcastInDim S64 ![] bcast_S_S64 p) a b),
    unary main_arg7 main_v36 ((extractStridedSlice S1x64 ![0, 0] · slices_S5x64_S1x64_0_0) : (⟨S5x64, .f32⟩ : BufTy).Contents (Elt F) → (⟨S1x64, .f32⟩ : BufTy).Contents (Elt F)),
    reshape main_v36 main_v37 rfl shapeCasts_S1x64_S64,
    unary main_v34 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v31 main_v39 main_v40 (subf : (⟨S100000x64, .f32⟩ : BufTy).Contents (Elt F) → (⟨S100000x64, .f32⟩ : BufTy).Contents (Elt F) → (⟨S100000x64, .f32⟩ : BufTy).Contents (Elt F)),
    unary main_v37 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v42 main_v40 main_v43 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v44 (broadcastInDim S64 ![] bcast_S_S64 : (⟨S_, .f32⟩ : BufTy).Contents (Elt F) → (⟨S64, .f32⟩ : BufTy).Contents (Elt F)),
    binary main_v35 main_v44 main_v45 (addf : (⟨S64, .f32⟩ : BufTy).Contents (Elt F) → (⟨S64, .f32⟩ : BufTy).Contents (Elt F) → (⟨S64, .f32⟩ : BufTy).Contents (Elt F)),
    unary main_v45 main_v46 (Host.rsqrt : (⟨S64, .f32⟩ : BufTy).Contents (Elt F) → (⟨S64, .f32⟩ : BufTy).Contents (Elt F)),
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v43 main_v48 main_v49 (mulf : (⟨S100000x64, .f32⟩ : BufTy).Contents (Elt F) → (⟨S100000x64, .f32⟩ : BufTy).Contents (Elt F) → (⟨S100000x64, .f32⟩ : BufTy).Contents (Elt F)),
    unary main_arg8 main_v50 ((extractStridedSlice S1x64 ![0, 0] · slices_S5x64_S1x64_0_0) : (⟨S5x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v49 main_v53 main_v54 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (TRef.of (T := ⟨S100000x64, .f32⟩) main_v54) main_call2.v0 main_call2.v1 maximumf ]

/-- The buffers the operations write. -/
abbrev opsL0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_call0_cst, main_call0_v0, main_v23, main_v24, main_v25, main_v26, main_v27, main_v28, main_v29, main_v30, main_v31, main_cst_1, main_v32, main_cst_2, main_v33, main_v34, main_c_3, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v35, main_v36, main_v37, main_v38, main_v39, main_v40, main_v41, main_v42, main_v43, main_cst_4, main_v44, main_v45, main_v46, main_v47, main_v48, main_v49, main_v50, main_v51, main_v52, main_v53, main_v54, main_call2_cst, main_call2_v0, main_v55]

theorem L0_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsL0_writes : (opsL0 : List (HloOp τ sig (Elt F))).Forall fun op =>
    op.writes ⊆ (opsL0_W.map (Proc.devRef (τ := τ) .tc)).toFinset :=
  ⟨L0_wsub (y := main_v0) (by decide),
   L0_wsub (y := main_v1) (by decide),
   L0_wsub (y := main_v2) (by decide),
   L0_wsub (y := main_v3) (by decide),
   L0_wsub (y := main_c) (by decide),
   L0_wsub (y := main_v4) (by decide),
   L0_wsub (y := main_v5) (by decide),
   L0_wsub (y := main_c_0) (by decide),
   L0_wsub (y := main_v6) (by decide),
   L0_wsub (y := main_v7) (by decide),
   L0_wsub (y := main_v8) (by decide),
   L0_wsub (y := main_v9) (by decide),
   L0_wsub (y := main_v10) (by decide),
   L0_wsub (y := main_cst) (by decide),
   L0_wsub (y := main_v11) (by decide),
   L0_wsub (y := main_v12) (by decide),
   L0_wsub (y := main_v13) (by decide),
   L0_wsub (y := main_v14) (by decide),
   L0_wsub (y := main_v15) (by decide),
   L0_wsub (y := main_v16) (by decide),
   L0_wsub (y := main_v17) (by decide),
   L0_wsub (y := main_v18) (by decide),
   L0_wsub (y := main_v19) (by decide),
   L0_wsub (y := main_v20) (by decide),
   L0_wsub (y := main_v21) (by decide),
   L0_wsub (y := main_v22) (by decide),
   L0_wsub (y := main_call0_cst) (by decide),
   L0_wsub (y := main_call0_v0) (by decide),
   L0_wsub (y := main_v23) (by decide),
   L0_wsub (y := main_v24) (by decide),
   L0_wsub (y := main_v25) (by decide),
   L0_wsub (y := main_v26) (by decide),
   L0_wsub (y := main_v27) (by decide),
   L0_wsub (y := main_v28) (by decide),
   L0_wsub (y := main_v29) (by decide),
   L0_wsub (y := main_v30) (by decide),
   L0_wsub (y := main_v31) (by decide),
   L0_wsub (y := main_cst_1) (by decide),
   L0_wsub (y := main_v32) (by decide),
   L0_wsub (y := main_cst_2) (by decide),
   L0_wsub (y := main_v33) (by decide),
   L0_wsub (y := main_v34) (by decide),
   L0_wsub (y := main_c_3) (by decide),
   L0_wsub (y := main_call1_cst) (by decide),
   L0_wsub (y := main_call1_v0) (by decide),
   L0_wsub (y := main_call1_v1) (by decide),
   L0_wsub (y := main_call1_cst_0) (by decide),
   L0_wsub (y := main_call1_v2) (by decide),
   L0_wsub (y := main_call1_v3) (by decide),
   L0_wsub (y := main_call1_v4) (by decide),
   L0_wsub (y := main_call1_v5) (by decide),
   L0_wsub (y := main_call1_v6) (by decide),
   L0_wsub (y := main_call1_v7) (by decide),
   L0_wsub (y := main_call1_cst_1) (by decide),
   L0_wsub (y := main_call1_v8) (by decide),
   L0_wsub (y := main_call1_cst_2) (by decide),
   L0_wsub (y := main_call1_v9) (by decide),
   L0_wsub (y := main_call1_v10) (by decide),
   L0_wsub (y := main_call1_v11) (by decide),
   L0_wsub (y := main_call1_cst_3) (by decide),
   L0_wsub (y := main_call1_v12) (by decide),
   L0_wsub (y := main_call1_cst_4) (by decide),
   L0_wsub (y := main_call1_call0_v0) (by decide),
   L0_wsub (y := main_call1_call0_v1) (by decide),
   L0_wsub (y := main_v35) (by decide),
   L0_wsub (y := main_v36) (by decide),
   L0_wsub (y := main_v37) (by decide),
   L0_wsub (y := main_v38) (by decide),
   L0_wsub (y := main_v39) (by decide),
   L0_wsub (y := main_v40) (by decide),
   L0_wsub (y := main_v41) (by decide),
   L0_wsub (y := main_v42) (by decide),
   L0_wsub (y := main_v43) (by decide),
   L0_wsub (y := main_cst_4) (by decide),
   L0_wsub (y := main_v44) (by decide),
   L0_wsub (y := main_v45) (by decide),
   L0_wsub (y := main_v46) (by decide),
   L0_wsub (y := main_v47) (by decide),
   L0_wsub (y := main_v48) (by decide),
   L0_wsub (y := main_v49) (by decide),
   L0_wsub (y := main_v50) (by decide),
   L0_wsub (y := main_v51) (by decide),
   L0_wsub (y := main_v52) (by decide),
   L0_wsub (y := main_v53) (by decide),
   L0_wsub (y := main_v54) (by decide),
   L0_wsub (y := main_call2_cst) (by decide),
   L0_wsub (y := main_call2_v0) (by decide),
   L0_wsub (y := main_v55) (by decide)⟩

/-- A buffer the operations do not write keeps its contents. -/
theorem L0_keep (V : Valuation τ sig (Elt F)) (r : Ref sig .tc) (h : r ∉ opsL0_W) :
    after opsL0 V (Proc.devRef .tc r) = V (Proc.devRef .tc r) :=
  after_of_writes_sub opsL0 V opsL0_writes h

attribute [local irreducible] Host.gather Host.scatterAdd Host.reduceAdd Host.divf Host.rsqrt in
set_option maxRecDepth 8192 in
set_option maxHeartbeats 4000000 in
theorem L0_v1 (V : Valuation τ sig (Elt F)) :
    after opsL0 V (Proc.devRef .tc main_v1) = edgeSrc (V (Proc.devRef .tc main_arg1)) := by
  after_results_simp
  rfl

attribute [local irreducible] Host.gather Host.scatterAdd Host.reduceAdd Host.divf Host.rsqrt in
set_option maxRecDepth 8192 in
set_option maxHeartbeats 4000000 in
theorem L0_v3 (V : Valuation τ sig (Elt F)) :
    after opsL0 V (Proc.devRef .tc main_v3) = edgeDst (V (Proc.devRef .tc main_arg1)) := by
  after_results_simp
  rfl

attribute [local irreducible] Host.gather Host.scatterAdd Host.reduceAdd Host.divf Host.rsqrt in
set_option maxRecDepth 8192 in
set_option maxHeartbeats 4000000 in
theorem L0_out (V : Valuation τ sig (Elt F)) :
    after opsL0 V (Proc.devRef .tc main_v55) = layer0 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  after_results_simp
  rfl

end Cert.ReferenceIdeal.RefRun

end
-- ==== Proof.RefRunL1.lean ====
/-
  The operations of layer 1 and what they compute from any buffer contents:
  the result buffer holds the layer function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsL1 : List (HloOp τ sig (Elt F)) :=
  [ nullary main_c_5 (constantI S_ 32 0#32),
    unary main_c_5 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v55 main_v61 main_v62 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_7 (constant S_ .f32 0x00000000#32),
    unary main_cst_7 main_v63 (broadcastInDim S100000x64 ![] bcast_S_S100000x64 : (⟨S_, .f32⟩ : BufTy).Contents (Elt F) → (⟨S100000x64, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v55 main_v65 main_v66 (addf : (⟨S100000x64, .f32⟩ : BufTy).Contents (Elt F) → (⟨S100000x64, .f32⟩ : BufTy).Contents (Elt F) → (⟨S100000x64, .f32⟩ : BufTy).Contents (Elt F)),
    unary main_arg3 main_v67 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v67 main_v68 rfl shapeCasts_S1x64x64_S64x64,
    binary main_v66 main_v68 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v70 ((extractStridedSlice S1x64 ![1, 0] · slices_S5x64_S1x64_1_0) : (⟨S5x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (TRef.of (T := ⟨S100000x64, .f32⟩) main_v74) main_call3.v0 main_call3.v1 maximumf,
    unary main_arg5 main_v76 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v76 main_v77 rfl shapeCasts_S1x64x64_S64x64,
    binary main_v75 main_v77 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v79 ((extractStridedSlice S1x64 ![1, 0] · slices_S5x64_S1x64_1_0) : (⟨S5x64, .f32⟩ : BufTy).Contents (Elt F) → (⟨S1x64, .f32⟩ : BufTy).Contents (Elt F)),
    reshape main_v79 main_v80 rfl shapeCasts_S1x64_S64,
    unary main_v80 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v78 main_v82 main_v83 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v83 main_cst_8 main_v84 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v85 (broadcastInDim S64 ![] bcast_S_S64 : (⟨S_, .f32⟩ : BufTy).Contents (Elt F) → (⟨S64, .f32⟩ : BufTy).Contents (Elt F)),
    binary main_v84 main_v85 main_v86 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call4.cst (constant S_ .f32 0x00000000#32),
    TRef.binary (TRef.of (T := ⟨S100000x64, .f32⟩) main_v83) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (TRef.of (T := ⟨S100000x64, .f32⟩) main_v83) main_call4.v4 main_call4.v5 subf,
    TRef.binary main_call4.v5 main_call4.v5 main_call4.v6 mulf,
    TRef.unary (TRef.of (T := ⟨S_, .i32⟩) main_c_10) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4_call0.v0 id,
    TRef.unary main_call4_call0.v0 main_call4_call0.v1 (broadcastInDim S64 ![] bcast_S_S64),
    TRef.ternary main_call4.v12 main_call4.v11 main_call4_call0.v1 main_call4_call0.v2 (fun p a b => select (broadcastInDim S64 ![] bcast_S_S64 p) a b),
    unary main_arg7 main_v88 ((extractStridedSlice S1x64 ![1, 0] · slices_S5x64_S1x64_1_0) : (⟨S5x64, .f32⟩ : BufTy).Contents (Elt F) → (⟨S1x64, .f32⟩ : BufTy).Contents (Elt F)),
    reshape main_v88 main_v89 rfl shapeCasts_S1x64_S64,
    unary main_v86 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v83 main_v91 main_v92 (subf : (⟨S100000x64, .f32⟩ : BufTy).Contents (Elt F) → (⟨S100000x64, .f32⟩ : BufTy).Contents (Elt F) → (⟨S100000x64, .f32⟩ : BufTy).Contents (Elt F)),
    unary main_v89 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v94 main_v92 main_v95 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v96 (broadcastInDim S64 ![] bcast_S_S64 : (⟨S_, .f32⟩ : BufTy).Contents (Elt F) → (⟨S64, .f32⟩ : BufTy).Contents (Elt F)),
    binary main_v87 main_v96 main_v97 (addf : (⟨S64, .f32⟩ : BufTy).Contents (Elt F) → (⟨S64, .f32⟩ : BufTy).Contents (Elt F) → (⟨S64, .f32⟩ : BufTy).Contents (Elt F)),
    unary main_v97 main_v98 (Host.rsqrt : (⟨S64, .f32⟩ : BufTy).Contents (Elt F) → (⟨S64, .f32⟩ : BufTy).Contents (Elt F)),
    unary main_v98 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v95 main_v100 main_v101 (mulf : (⟨S100000x64, .f32⟩ : BufTy).Contents (Elt F) → (⟨S100000x64, .f32⟩ : BufTy).Contents (Elt F) → (⟨S100000x64, .f32⟩ : BufTy).Contents (Elt F)),
    unary main_arg8 main_v102 ((extractStridedSlice S1x64 ![1, 0] · slices_S5x64_S1x64_1_0) : (⟨S5x64, .f32⟩ : BufTy).Contents (Elt F) → (⟨S1x64, .f32⟩ : BufTy).Contents (Elt F)),
    reshape main_v102 main_v103 rfl shapeCasts_S1x64_S64,
    unary main_v103 main_v104 (broadcastInDim S1x64 ![1] bcast_S64_S1x64_1 : (⟨S64, .f32⟩ : BufTy).Contents (Elt F) → (⟨S1x64, .f32⟩ : BufTy).Contents (Elt F)),
    unary main_v104 main_v105 (broadcastInDim S100000x64 ![0, 1] bcast_S1x64_S100000x64_0_1 : (⟨S1x64, .f32⟩ : BufTy).Contents (Elt F) → (⟨S100000x64, .f32⟩ : BufTy).Contents (Elt F)),
    binary main_v101 main_v105 main_v106 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (TRef.of (T := ⟨S100000x64, .f32⟩) main_v106) main_call5.v0 main_call5.v1 maximumf ]

/-- The buffers the operations write. -/
abbrev opsL1_W : List (Ref sig .tc) := [main_c_5, main_v56, main_v57, main_c_6, main_v58, main_v59, main_v60, main_v61, main_v62, main_cst_7, main_v63, main_v64, main_v65, main_v66, main_v67, main_v68, main_v69, main_v70, main_v71, main_v72, main_v73, main_v74, main_call3_cst, main_call3_v0, main_v75, main_v76, main_v77, main_v78, main_v79, main_v80, main_v81, main_v82, main_v83, main_cst_8, main_v84, main_cst_9, main_v85, main_v86, main_c_10, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v87, main_v88, main_v89, main_v90, main_v91, main_v92, main_v93, main_v94, main_v95, main_cst_11, main_v96, main_v97, main_v98, main_v99, main_v100, main_v101, main_v102, main_v103, main_v104, main_v105, main_v106, main_call5_cst, main_call5_v0, main_v107]

theorem L1_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsL1_writes : (opsL1 : List (HloOp τ sig (Elt F))).Forall fun op =>
    op.writes ⊆ (opsL1_W.map (Proc.devRef (τ := τ) .tc)).toFinset :=
  ⟨L1_wsub (y := main_c_5) (by decide),
   L1_wsub (y := main_v56) (by decide),
   L1_wsub (y := main_v57) (by decide),
   L1_wsub (y := main_c_6) (by decide),
   L1_wsub (y := main_v58) (by decide),
   L1_wsub (y := main_v59) (by decide),
   L1_wsub (y := main_v60) (by decide),
   L1_wsub (y := main_v61) (by decide),
   L1_wsub (y := main_v62) (by decide),
   L1_wsub (y := main_cst_7) (by decide),
   L1_wsub (y := main_v63) (by decide),
   L1_wsub (y := main_v64) (by decide),
   L1_wsub (y := main_v65) (by decide),
   L1_wsub (y := main_v66) (by decide),
   L1_wsub (y := main_v67) (by decide),
   L1_wsub (y := main_v68) (by decide),
   L1_wsub (y := main_v69) (by decide),
   L1_wsub (y := main_v70) (by decide),
   L1_wsub (y := main_v71) (by decide),
   L1_wsub (y := main_v72) (by decide),
   L1_wsub (y := main_v73) (by decide),
   L1_wsub (y := main_v74) (by decide),
   L1_wsub (y := main_call3_cst) (by decide),
   L1_wsub (y := main_call3_v0) (by decide),
   L1_wsub (y := main_v75) (by decide),
   L1_wsub (y := main_v76) (by decide),
   L1_wsub (y := main_v77) (by decide),
   L1_wsub (y := main_v78) (by decide),
   L1_wsub (y := main_v79) (by decide),
   L1_wsub (y := main_v80) (by decide),
   L1_wsub (y := main_v81) (by decide),
   L1_wsub (y := main_v82) (by decide),
   L1_wsub (y := main_v83) (by decide),
   L1_wsub (y := main_cst_8) (by decide),
   L1_wsub (y := main_v84) (by decide),
   L1_wsub (y := main_cst_9) (by decide),
   L1_wsub (y := main_v85) (by decide),
   L1_wsub (y := main_v86) (by decide),
   L1_wsub (y := main_c_10) (by decide),
   L1_wsub (y := main_call4_cst) (by decide),
   L1_wsub (y := main_call4_v0) (by decide),
   L1_wsub (y := main_call4_v1) (by decide),
   L1_wsub (y := main_call4_cst_0) (by decide),
   L1_wsub (y := main_call4_v2) (by decide),
   L1_wsub (y := main_call4_v3) (by decide),
   L1_wsub (y := main_call4_v4) (by decide),
   L1_wsub (y := main_call4_v5) (by decide),
   L1_wsub (y := main_call4_v6) (by decide),
   L1_wsub (y := main_call4_v7) (by decide),
   L1_wsub (y := main_call4_cst_1) (by decide),
   L1_wsub (y := main_call4_v8) (by decide),
   L1_wsub (y := main_call4_cst_2) (by decide),
   L1_wsub (y := main_call4_v9) (by decide),
   L1_wsub (y := main_call4_v10) (by decide),
   L1_wsub (y := main_call4_v11) (by decide),
   L1_wsub (y := main_call4_cst_3) (by decide),
   L1_wsub (y := main_call4_v12) (by decide),
   L1_wsub (y := main_call4_cst_4) (by decide),
   L1_wsub (y := main_call4_call0_v0) (by decide),
   L1_wsub (y := main_call4_call0_v1) (by decide),
   L1_wsub (y := main_v87) (by decide),
   L1_wsub (y := main_v88) (by decide),
   L1_wsub (y := main_v89) (by decide),
   L1_wsub (y := main_v90) (by decide),
   L1_wsub (y := main_v91) (by decide),
   L1_wsub (y := main_v92) (by decide),
   L1_wsub (y := main_v93) (by decide),
   L1_wsub (y := main_v94) (by decide),
   L1_wsub (y := main_v95) (by decide),
   L1_wsub (y := main_cst_11) (by decide),
   L1_wsub (y := main_v96) (by decide),
   L1_wsub (y := main_v97) (by decide),
   L1_wsub (y := main_v98) (by decide),
   L1_wsub (y := main_v99) (by decide),
   L1_wsub (y := main_v100) (by decide),
   L1_wsub (y := main_v101) (by decide),
   L1_wsub (y := main_v102) (by decide),
   L1_wsub (y := main_v103) (by decide),
   L1_wsub (y := main_v104) (by decide),
   L1_wsub (y := main_v105) (by decide),
   L1_wsub (y := main_v106) (by decide),
   L1_wsub (y := main_call5_cst) (by decide),
   L1_wsub (y := main_call5_v0) (by decide),
   L1_wsub (y := main_v107) (by decide)⟩

/-- A buffer the operations do not write keeps its contents. -/
theorem L1_keep (V : Valuation τ sig (Elt F)) (r : Ref sig .tc) (h : r ∉ opsL1_W) :
    after opsL1 V (Proc.devRef .tc r) = V (Proc.devRef .tc r) :=
  after_of_writes_sub opsL1 V opsL1_writes h

attribute [local irreducible] Host.gather Host.scatterAdd Host.reduceAdd Host.divf Host.rsqrt in
set_option maxRecDepth 8192 in
set_option maxHeartbeats 4000000 in
theorem L1_out (V : Valuation τ sig (Elt F)) :
    after opsL1 V (Proc.devRef .tc main_v107) = layerCore (V (Proc.devRef .tc main_v55)) (V (Proc.devRef .tc main_v1)) (V (Proc.devRef .tc main_v3))
      (matAt 1 slices_S5x64x64_S1x64x64_1_0_0 (V (Proc.devRef .tc main_arg3))) (vecAt 1 slices_S5x64_S1x64_1_0 (V (Proc.devRef .tc main_arg4))) (matAt 1 slices_S5x64x64_S1x64x64_1_0_0 (V (Proc.devRef .tc main_arg5)))
      (vecAt 1 slices_S5x64_S1x64_1_0 (V (Proc.devRef .tc main_arg6))) (vecAt 1 slices_S5x64_S1x64_1_0 (V (Proc.devRef .tc main_arg7))) (vecAt 1 slices_S5x64_S1x64_1_0 (V (Proc.devRef .tc main_arg8))) := by
  after_results_simp
  rfl

end Cert.ReferenceIdeal.RefRun

end
-- ==== Proof.RefRunL2.lean ====
/-
  The operations of layer 2 and what they compute from any buffer contents:
  the result buffer holds the layer function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsL2 : List (HloOp τ sig (Elt F)) :=
  [ nullary main_c_12 (constantI S_ 32 0#32),
    unary main_c_12 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v107 main_v113 main_v114 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_14 (constant S_ .f32 0x00000000#32),
    unary main_cst_14 main_v115 (broadcastInDim S100000x64 ![] bcast_S_S100000x64 : (⟨S_, .f32⟩ : BufTy).Contents (Elt F) → (⟨S100000x64, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v107 main_v117 main_v118 (addf : (⟨S100000x64, .f32⟩ : BufTy).Contents (Elt F) → (⟨S100000x64, .f32⟩ : BufTy).Contents (Elt F) → (⟨S100000x64, .f32⟩ : BufTy).Contents (Elt F)),
    unary main_arg3 main_v119 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v119 main_v120 rfl shapeCasts_S1x64x64_S64x64,
    binary main_v118 main_v120 main_v121 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v122 ((extractStridedSlice S1x64 ![2, 0] · slices_S5x64_S1x64_2_0) : (⟨S5x64, .f32⟩ : BufTy).Contents (Elt F) → (⟨S1x64, .f32⟩ : BufTy).Contents (Elt F)),
    reshape main_v122 main_v123 rfl shapeCasts_S1x64_S64,
    unary main_v123 main_v124 (broadcastInDim S1x64 ![1] bcast_S64_S1x64_1 : (⟨S64, .f32⟩ : BufTy).Contents (Elt F) → (⟨S1x64, .f32⟩ : BufTy).Contents (Elt F)),
    unary main_v124 main_v125 (broadcastInDim S100000x64 ![0, 1] bcast_S1x64_S100000x64_0_1 : (⟨S1x64, .f32⟩ : BufTy).Contents (Elt F) → (⟨S100000x64, .f32⟩ : BufTy).Contents (Elt F)),
    binary main_v121 main_v125 main_v126 (addf : (⟨S100000x64, .f32⟩ : BufTy).Contents (Elt F) → (⟨S100000x64, .f32⟩ : BufTy).Contents (Elt F) → (⟨S100000x64, .f32⟩ : BufTy).Contents (Elt F)),
    TRef.nullary main_call6.cst (constant S_ .f32 0x00000000#32),
    TRef.unary main_call6.cst main_call6.v0 (broadcastInDim S100000x64 ![] bcast_S_S100000x64),
    TRef.binary (TRef.of (T := ⟨S100000x64, .f32⟩) main_v126) main_call6.v0 main_call6.v1 maximumf,
    unary main_arg5 main_v128 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v128 main_v129 rfl shapeCasts_S1x64x64_S64x64,
    binary main_v127 main_v129 main_v130 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v131 ((extractStridedSlice S1x64 ![2, 0] · slices_S5x64_S1x64_2_0) : (⟨S5x64, .f32⟩ : BufTy).Contents (Elt F) → (⟨S1x64, .f32⟩ : BufTy).Contents (Elt F)),
    reshape main_v131 main_v132 rfl shapeCasts_S1x64_S64,
    unary main_v132 main_v133 (broadcastInDim S1x64 ![1] bcast_S64_S1x64_1 : (⟨S64, .f32⟩ : BufTy).Contents (Elt F) → (⟨S1x64, .f32⟩ : BufTy).Contents (Elt F)),
    unary main_v133 main_v134 (broadcastInDim S100000x64 ![0, 1] bcast_S1x64_S100000x64_0_1 : (⟨S1x64, .f32⟩ : BufTy).Contents (Elt F) → (⟨S100000x64, .f32⟩ : BufTy).Contents (Elt F)),
    binary main_v130 main_v134 main_v135 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v135 main_cst_15 main_v136 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v137 (broadcastInDim S64 ![] bcast_S_S64 : (⟨S_, .f32⟩ : BufTy).Contents (Elt F) → (⟨S64, .f32⟩ : BufTy).Contents (Elt F)),
    binary main_v136 main_v137 main_v138 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    TRef.nullary main_call7.cst (constant S_ .f32 0x00000000#32),
    TRef.binary (TRef.of (T := ⟨S100000x64, .f32⟩) main_v135) main_call7.cst main_call7.v0 (fun x v => Host.reduceAdd x v reducesTo_S100000x64_S64_d0 h_S_),
    TRef.unary main_call7.v0 main_call7.v1 (broadcastInDim S1x64 ![1] bcast_S64_S1x64_1),
    TRef.nullary main_call7.cst_0 (constant S_ .f32 0x47C35000#32),
    TRef.unary main_call7.cst_0 main_call7.v2 (broadcastInDim S1x64 ![] bcast_S_S1x64),
    TRef.binary main_call7.v1 main_call7.v2 main_call7.v3 Host.divf,
    TRef.unary main_call7.v3 main_call7.v4 (broadcastInDim S100000x64 ![0, 1] bcast_S1x64_S100000x64_0_1),
    TRef.binary (TRef.of (T := ⟨S100000x64, .f32⟩) main_v135) main_call7.v4 main_call7.v5 subf,
    TRef.binary main_call7.v5 main_call7.v5 main_call7.v6 mulf,
    TRef.unary (TRef.of (T := ⟨S_, .i32⟩) main_c_17) main_call7.v7 (sitofp .f32),
    TRef.nullary main_call7.cst_1 (constant S_ .f32 0x47C35000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S100000x64_S64_d0 h_S_),
    TRef.unary main_call7.v8 main_call7.v10 (broadcastInDim S64 ![] bcast_S_S64),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7_call0.v0 id,
    TRef.unary main_call7_call0.v0 main_call7_call0.v1 (broadcastInDim S64 ![] bcast_S_S64),
    TRef.ternary main_call7.v12 main_call7.v11 main_call7_call0.v1 main_call7_call0.v2 (fun p a b => select (broadcastInDim S64 ![] bcast_S_S64 p) a b),
    unary main_arg7 main_v140 ((extractStridedSlice S1x64 ![2, 0] · slices_S5x64_S1x64_2_0) : (⟨S5x64, .f32⟩ : BufTy).Contents (Elt F) → (⟨S1x64, .f32⟩ : BufTy).Contents (Elt F)),
    reshape main_v140 main_v141 rfl shapeCasts_S1x64_S64,
    unary main_v138 main_v142 (broadcastInDim S1x64 ![1] bcast_S64_S1x64_1 : (⟨S64, .f32⟩ : BufTy).Contents (Elt F) → (⟨S1x64, .f32⟩ : BufTy).Contents (Elt F)),
    unary main_v142 main_v143 (broadcastInDim S100000x64 ![0, 1] bcast_S1x64_S100000x64_0_1 : (⟨S1x64, .f32⟩ : BufTy).Contents (Elt F) → (⟨S100000x64, .f32⟩ : BufTy).Contents (Elt F)),
    binary main_v135 main_v143 main_v144 (subf : (⟨S100000x64, .f32⟩ : BufTy).Contents (Elt F) → (⟨S100000x64, .f32⟩ : BufTy).Contents (Elt F) → (⟨S100000x64, .f32⟩ : BufTy).Contents (Elt F)),
    unary main_v141 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v146 main_v144 main_v147 (mulf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v148 (broadcastInDim S64 ![] bcast_S_S64 : (⟨S_, .f32⟩ : BufTy).Contents (Elt F) → (⟨S64, .f32⟩ : BufTy).Contents (Elt F)),
    binary main_v139 main_v148 main_v149 (addf : (⟨S64, .f32⟩ : BufTy).Contents (Elt F) → (⟨S64, .f32⟩ : BufTy).Contents (Elt F) → (⟨S64, .f32⟩ : BufTy).Contents (Elt F)),
    unary main_v149 main_v150 (Host.rsqrt : (⟨S64, .f32⟩ : BufTy).Contents (Elt F) → (⟨S64, .f32⟩ : BufTy).Contents (Elt F)),
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S100000x64 ![0, 1] bcast_S1x64_S100000x64_0_1 : (⟨S1x64, .f32⟩ : BufTy).Contents (Elt F) → (⟨S100000x64, .f32⟩ : BufTy).Contents (Elt F)),
    binary main_v147 main_v152 main_v153 (mulf : (⟨S100000x64, .f32⟩ : BufTy).Contents (Elt F) → (⟨S100000x64, .f32⟩ : BufTy).Contents (Elt F) → (⟨S100000x64, .f32⟩ : BufTy).Contents (Elt F)),
    unary main_arg8 main_v154 ((extractStridedSlice S1x64 ![2, 0] · slices_S5x64_S1x64_2_0) : (⟨S5x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S100000x64 ![0, 1] bcast_S1x64_S100000x64_0_1 : (⟨S1x64, .f32⟩ : BufTy).Contents (Elt F) → (⟨S100000x64, .f32⟩ : BufTy).Contents (Elt F)),
    binary main_v153 main_v157 main_v158 (addf : (⟨S100000x64, .f32⟩ : BufTy).Contents (Elt F) → (⟨S100000x64, .f32⟩ : BufTy).Contents (Elt F) → (⟨S100000x64, .f32⟩ : BufTy).Contents (Elt F)),
    TRef.nullary main_call8.cst (constant S_ .f32 0x00000000#32),
    TRef.unary main_call8.cst main_call8.v0 (broadcastInDim S100000x64 ![] bcast_S_S100000x64),
    TRef.binary (TRef.of (T := ⟨S100000x64, .f32⟩) main_v158) main_call8.v0 main_call8.v1 maximumf ]

/-- The buffers the operations write. -/
abbrev opsL2_W : List (Ref sig .tc) := [main_c_12, main_v108, main_v109, main_c_13, main_v110, main_v111, main_v112, main_v113, main_v114, main_cst_14, main_v115, main_v116, main_v117, main_v118, main_v119, main_v120, main_v121, main_v122, main_v123, main_v124, main_v125, main_v126, main_call6_cst, main_call6_v0, main_v127, main_v128, main_v129, main_v130, main_v131, main_v132, main_v133, main_v134, main_v135, main_cst_15, main_v136, main_cst_16, main_v137, main_v138, main_c_17, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v139, main_v140, main_v141, main_v142, main_v143, main_v144, main_v145, main_v146, main_v147, main_cst_18, main_v148, main_v149, main_v150, main_v151, main_v152, main_v153, main_v154, main_v155, main_v156, main_v157, main_v158, main_call8_cst, main_call8_v0, main_v159]

theorem L2_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsL2_writes : (opsL2 : List (HloOp τ sig (Elt F))).Forall fun op =>
    op.writes ⊆ (opsL2_W.map (Proc.devRef (τ := τ) .tc)).toFinset :=
  ⟨L2_wsub (y := main_c_12) (by decide),
   L2_wsub (y := main_v108) (by decide),
   L2_wsub (y := main_v109) (by decide),
   L2_wsub (y := main_c_13) (by decide),
   L2_wsub (y := main_v110) (by decide),
   L2_wsub (y := main_v111) (by decide),
   L2_wsub (y := main_v112) (by decide),
   L2_wsub (y := main_v113) (by decide),
   L2_wsub (y := main_v114) (by decide),
   L2_wsub (y := main_cst_14) (by decide),
   L2_wsub (y := main_v115) (by decide),
   L2_wsub (y := main_v116) (by decide),
   L2_wsub (y := main_v117) (by decide),
   L2_wsub (y := main_v118) (by decide),
   L2_wsub (y := main_v119) (by decide),
   L2_wsub (y := main_v120) (by decide),
   L2_wsub (y := main_v121) (by decide),
   L2_wsub (y := main_v122) (by decide),
   L2_wsub (y := main_v123) (by decide),
   L2_wsub (y := main_v124) (by decide),
   L2_wsub (y := main_v125) (by decide),
   L2_wsub (y := main_v126) (by decide),
   L2_wsub (y := main_call6_cst) (by decide),
   L2_wsub (y := main_call6_v0) (by decide),
   L2_wsub (y := main_v127) (by decide),
   L2_wsub (y := main_v128) (by decide),
   L2_wsub (y := main_v129) (by decide),
   L2_wsub (y := main_v130) (by decide),
   L2_wsub (y := main_v131) (by decide),
   L2_wsub (y := main_v132) (by decide),
   L2_wsub (y := main_v133) (by decide),
   L2_wsub (y := main_v134) (by decide),
   L2_wsub (y := main_v135) (by decide),
   L2_wsub (y := main_cst_15) (by decide),
   L2_wsub (y := main_v136) (by decide),
   L2_wsub (y := main_cst_16) (by decide),
   L2_wsub (y := main_v137) (by decide),
   L2_wsub (y := main_v138) (by decide),
   L2_wsub (y := main_c_17) (by decide),
   L2_wsub (y := main_call7_cst) (by decide),
   L2_wsub (y := main_call7_v0) (by decide),
   L2_wsub (y := main_call7_v1) (by decide),
   L2_wsub (y := main_call7_cst_0) (by decide),
   L2_wsub (y := main_call7_v2) (by decide),
   L2_wsub (y := main_call7_v3) (by decide),
   L2_wsub (y := main_call7_v4) (by decide),
   L2_wsub (y := main_call7_v5) (by decide),
   L2_wsub (y := main_call7_v6) (by decide),
   L2_wsub (y := main_call7_v7) (by decide),
   L2_wsub (y := main_call7_cst_1) (by decide),
   L2_wsub (y := main_call7_v8) (by decide),
   L2_wsub (y := main_call7_cst_2) (by decide),
   L2_wsub (y := main_call7_v9) (by decide),
   L2_wsub (y := main_call7_v10) (by decide),
   L2_wsub (y := main_call7_v11) (by decide),
   L2_wsub (y := main_call7_cst_3) (by decide),
   L2_wsub (y := main_call7_v12) (by decide),
   L2_wsub (y := main_call7_cst_4) (by decide),
   L2_wsub (y := main_call7_call0_v0) (by decide),
   L2_wsub (y := main_call7_call0_v1) (by decide),
   L2_wsub (y := main_v139) (by decide),
   L2_wsub (y := main_v140) (by decide),
   L2_wsub (y := main_v141) (by decide),
   L2_wsub (y := main_v142) (by decide),
   L2_wsub (y := main_v143) (by decide),
   L2_wsub (y := main_v144) (by decide),
   L2_wsub (y := main_v145) (by decide),
   L2_wsub (y := main_v146) (by decide),
   L2_wsub (y := main_v147) (by decide),
   L2_wsub (y := main_cst_18) (by decide),
   L2_wsub (y := main_v148) (by decide),
   L2_wsub (y := main_v149) (by decide),
   L2_wsub (y := main_v150) (by decide),
   L2_wsub (y := main_v151) (by decide),
   L2_wsub (y := main_v152) (by decide),
   L2_wsub (y := main_v153) (by decide),
   L2_wsub (y := main_v154) (by decide),
   L2_wsub (y := main_v155) (by decide),
   L2_wsub (y := main_v156) (by decide),
   L2_wsub (y := main_v157) (by decide),
   L2_wsub (y := main_v158) (by decide),
   L2_wsub (y := main_call8_cst) (by decide),
   L2_wsub (y := main_call8_v0) (by decide),
   L2_wsub (y := main_v159) (by decide)⟩

/-- A buffer the operations do not write keeps its contents. -/
theorem L2_keep (V : Valuation τ sig (Elt F)) (r : Ref sig .tc) (h : r ∉ opsL2_W) :
    after opsL2 V (Proc.devRef .tc r) = V (Proc.devRef .tc r) :=
  after_of_writes_sub opsL2 V opsL2_writes h

attribute [local irreducible] Host.gather Host.scatterAdd Host.reduceAdd Host.divf Host.rsqrt in
set_option maxRecDepth 8192 in
set_option maxHeartbeats 4000000 in
theorem L2_out (V : Valuation τ sig (Elt F)) :
    after opsL2 V (Proc.devRef .tc main_v159) = layerCore (V (Proc.devRef .tc main_v107)) (V (Proc.devRef .tc main_v1)) (V (Proc.devRef .tc main_v3))
      (matAt 2 slices_S5x64x64_S1x64x64_2_0_0 (V (Proc.devRef .tc main_arg3))) (vecAt 2 slices_S5x64_S1x64_2_0 (V (Proc.devRef .tc main_arg4))) (matAt 2 slices_S5x64x64_S1x64x64_2_0_0 (V (Proc.devRef .tc main_arg5)))
      (vecAt 2 slices_S5x64_S1x64_2_0 (V (Proc.devRef .tc main_arg6))) (vecAt 2 slices_S5x64_S1x64_2_0 (V (Proc.devRef .tc main_arg7))) (vecAt 2 slices_S5x64_S1x64_2_0 (V (Proc.devRef .tc main_arg8))) := by
  after_results_simp
  rfl

end Cert.ReferenceIdeal.RefRun

end
-- ==== Proof.RefRunL3.lean ====
/-
  The operations of layer 3 and what they compute from any buffer contents:
  the result buffer holds the layer function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsL3 : List (HloOp τ sig (Elt F)) :=
  [ nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v159 main_v165 main_v166 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_21 (constant S_ .f32 0x00000000#32),
    unary main_cst_21 main_v167 (broadcastInDim S100000x64 ![] bcast_S_S100000x64 : (⟨S_, .f32⟩ : BufTy).Contents (Elt F) → (⟨S100000x64, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v159 main_v169 main_v170 (addf : (⟨S100000x64, .f32⟩ : BufTy).Contents (Elt F) → (⟨S100000x64, .f32⟩ : BufTy).Contents (Elt F) → (⟨S100000x64, .f32⟩ : BufTy).Contents (Elt F)),
    unary main_arg3 main_v171 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v171 main_v172 rfl shapeCasts_S1x64x64_S64x64,
    binary main_v170 main_v172 main_v173 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v174 ((extractStridedSlice S1x64 ![3, 0] · slices_S5x64_S1x64_3_0) : (⟨S5x64, .f32⟩ : BufTy).Contents (Elt F) → (⟨S1x64, .f32⟩ : BufTy).Contents (Elt F)),
    reshape main_v174 main_v175 rfl shapeCasts_S1x64_S64,
    unary main_v175 main_v176 (broadcastInDim S1x64 ![1] bcast_S64_S1x64_1 : (⟨S64, .f32⟩ : BufTy).Contents (Elt F) → (⟨S1x64, .f32⟩ : BufTy).Contents (Elt F)),
    unary main_v176 main_v177 (broadcastInDim S100000x64 ![0, 1] bcast_S1x64_S100000x64_0_1 : (⟨S1x64, .f32⟩ : BufTy).Contents (Elt F) → (⟨S100000x64, .f32⟩ : BufTy).Contents (Elt F)),
    binary main_v173 main_v177 main_v178 (addf : (⟨S100000x64, .f32⟩ : BufTy).Contents (Elt F) → (⟨S100000x64, .f32⟩ : BufTy).Contents (Elt F) → (⟨S100000x64, .f32⟩ : BufTy).Contents (Elt F)),
    TRef.nullary main_call9.cst (constant S_ .f32 0x00000000#32),
    TRef.unary main_call9.cst main_call9.v0 (broadcastInDim S100000x64 ![] bcast_S_S100000x64),
    TRef.binary (TRef.of (T := ⟨S100000x64, .f32⟩) main_v178) main_call9.v0 main_call9.v1 maximumf,
    unary main_arg5 main_v180 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v180 main_v181 rfl shapeCasts_S1x64x64_S64x64,
    binary main_v179 main_v181 main_v182 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v183 ((extractStridedSlice S1x64 ![3, 0] · slices_S5x64_S1x64_3_0) : (⟨S5x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S100000x64 ![0, 1] bcast_S1x64_S100000x64_0_1 : (⟨S1x64, .f32⟩ : BufTy).Contents (Elt F) → (⟨S100000x64, .f32⟩ : BufTy).Contents (Elt F)),
    binary main_v182 main_v186 main_v187 (addf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v187 main_cst_22 main_v188 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v189 (broadcastInDim S64 ![] bcast_S_S64 : (⟨S_, .f32⟩ : BufTy).Contents (Elt F) → (⟨S64, .f32⟩ : BufTy).Contents (Elt F)),
    binary main_v188 main_v189 main_v190 (Host.divf : (⟨S64, .f32⟩ : BufTy).Contents (Elt F) → (⟨S64, .f32⟩ : BufTy).Contents (Elt F) → (⟨S64, .f32⟩ : BufTy).Contents (Elt F)),
    nullary main_c_24 (constantI S_ 32 0#32),
    TRef.nullary main_call10.cst (constant S_ .f32 0x00000000#32),
    TRef.binary (TRef.of (T := ⟨S100000x64, .f32⟩) main_v187) main_call10.cst main_call10.v0 (fun x v => Host.reduceAdd x v reducesTo_S100000x64_S64_d0 h_S_),
    TRef.unary main_call10.v0 main_call10.v1 (broadcastInDim S1x64 ![1] bcast_S64_S1x64_1),
    TRef.nullary main_call10.cst_0 (constant S_ .f32 0x47C35000#32),
    TRef.unary main_call10.cst_0 main_call10.v2 (broadcastInDim S1x64 ![] bcast_S_S1x64),
    TRef.binary main_call10.v1 main_call10.v2 main_call10.v3 Host.divf,
    TRef.unary main_call10.v3 main_call10.v4 (broadcastInDim S100000x64 ![0, 1] bcast_S1x64_S100000x64_0_1),
    TRef.binary (TRef.of (T := ⟨S100000x64, .f32⟩) main_v187) main_call10.v4 main_call10.v5 subf,
    TRef.binary main_call10.v5 main_call10.v5 main_call10.v6 mulf,
    TRef.unary (TRef.of (T := ⟨S_, .i32⟩) main_c_24) main_call10.v7 (sitofp .f32),
    TRef.nullary main_call10.cst_1 (constant S_ .f32 0x47C35000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S100000x64_S64_d0 h_S_),
    TRef.unary main_call10.v8 main_call10.v10 (broadcastInDim S64 ![] bcast_S_S64),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10_call0.v0 id,
    TRef.unary main_call10_call0.v0 main_call10_call0.v1 (broadcastInDim S64 ![] bcast_S_S64),
    TRef.ternary main_call10.v12 main_call10.v11 main_call10_call0.v1 main_call10_call0.v2 (fun p a b => select (broadcastInDim S64 ![] bcast_S_S64 p) a b),
    unary main_arg7 main_v192 ((extractStridedSlice S1x64 ![3, 0] · slices_S5x64_S1x64_3_0) : (⟨S5x64, .f32⟩ : BufTy).Contents (Elt F) → (⟨S1x64, .f32⟩ : BufTy).Contents (Elt F)),
    reshape main_v192 main_v193 rfl shapeCasts_S1x64_S64,
    unary main_v190 main_v194 (broadcastInDim S1x64 ![1] bcast_S64_S1x64_1 : (⟨S64, .f32⟩ : BufTy).Contents (Elt F) → (⟨S1x64, .f32⟩ : BufTy).Contents (Elt F)),
    unary main_v194 main_v195 (broadcastInDim S100000x64 ![0, 1] bcast_S1x64_S100000x64_0_1 : (⟨S1x64, .f32⟩ : BufTy).Contents (Elt F) → (⟨S100000x64, .f32⟩ : BufTy).Contents (Elt F)),
    binary main_v187 main_v195 main_v196 (subf : (⟨S100000x64, .f32⟩ : BufTy).Contents (Elt F) → (⟨S100000x64, .f32⟩ : BufTy).Contents (Elt F) → (⟨S100000x64, .f32⟩ : BufTy).Contents (Elt F)),
    unary main_v193 main_v197 (broadcastInDim S1x64 ![1] bcast_S64_S1x64_1 : (⟨S64, .f32⟩ : BufTy).Contents (Elt F) → (⟨S1x64, .f32⟩ : BufTy).Contents (Elt F)),
    unary main_v197 main_v198 (broadcastInDim S100000x64 ![0, 1] bcast_S1x64_S100000x64_0_1 : (⟨S1x64, .f32⟩ : BufTy).Contents (Elt F) → (⟨S100000x64, .f32⟩ : BufTy).Contents (Elt F)),
    binary main_v198 main_v196 main_v199 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v200 (broadcastInDim S64 ![] bcast_S_S64 : (⟨S_, .f32⟩ : BufTy).Contents (Elt F) → (⟨S64, .f32⟩ : BufTy).Contents (Elt F)),
    binary main_v191 main_v200 main_v201 (addf : (⟨S64, .f32⟩ : BufTy).Contents (Elt F) → (⟨S64, .f32⟩ : BufTy).Contents (Elt F) → (⟨S64, .f32⟩ : BufTy).Contents (Elt F)),
    unary main_v201 main_v202 (Host.rsqrt : (⟨S64, .f32⟩ : BufTy).Contents (Elt F) → (⟨S64, .f32⟩ : BufTy).Contents (Elt F)),
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S100000x64 ![0, 1] bcast_S1x64_S100000x64_0_1 : (⟨S1x64, .f32⟩ : BufTy).Contents (Elt F) → (⟨S100000x64, .f32⟩ : BufTy).Contents (Elt F)),
    binary main_v199 main_v204 main_v205 (mulf : (⟨S100000x64, .f32⟩ : BufTy).Contents (Elt F) → (⟨S100000x64, .f32⟩ : BufTy).Contents (Elt F) → (⟨S100000x64, .f32⟩ : BufTy).Contents (Elt F)),
    unary main_arg8 main_v206 ((extractStridedSlice S1x64 ![3, 0] · slices_S5x64_S1x64_3_0) : (⟨S5x64, .f32⟩ : BufTy).Contents (Elt F) → (⟨S1x64, .f32⟩ : BufTy).Contents (Elt F)),
    reshape main_v206 main_v207 rfl shapeCasts_S1x64_S64,
    unary main_v207 main_v208 (broadcastInDim S1x64 ![1] bcast_S64_S1x64_1 : (⟨S64, .f32⟩ : BufTy).Contents (Elt F) → (⟨S1x64, .f32⟩ : BufTy).Contents (Elt F)),
    unary main_v208 main_v209 (broadcastInDim S100000x64 ![0, 1] bcast_S1x64_S100000x64_0_1 : (⟨S1x64, .f32⟩ : BufTy).Contents (Elt F) → (⟨S100000x64, .f32⟩ : BufTy).Contents (Elt F)),
    binary main_v205 main_v209 main_v210 (addf : (⟨S100000x64, .f32⟩ : BufTy).Contents (Elt F) → (⟨S100000x64, .f32⟩ : BufTy).Contents (Elt F) → (⟨S100000x64, .f32⟩ : BufTy).Contents (Elt F)),
    TRef.nullary main_call11.cst (constant S_ .f32 0x00000000#32),
    TRef.unary main_call11.cst main_call11.v0 (broadcastInDim S100000x64 ![] bcast_S_S100000x64),
    TRef.binary (TRef.of (T := ⟨S100000x64, .f32⟩) main_v210) main_call11.v0 main_call11.v1 maximumf ]

/-- The buffers the operations write. -/
abbrev opsL3_W : List (Ref sig .tc) := [main_c_19, main_v160, main_v161, main_c_20, main_v162, main_v163, main_v164, main_v165, main_v166, main_cst_21, main_v167, main_v168, main_v169, main_v170, main_v171, main_v172, main_v173, main_v174, main_v175, main_v176, main_v177, main_v178, main_call9_cst, main_call9_v0, main_v179, main_v180, main_v181, main_v182, main_v183, main_v184, main_v185, main_v186, main_v187, main_cst_22, main_v188, main_cst_23, main_v189, main_v190, main_c_24, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v191, main_v192, main_v193, main_v194, main_v195, main_v196, main_v197, main_v198, main_v199, main_cst_25, main_v200, main_v201, main_v202, main_v203, main_v204, main_v205, main_v206, main_v207, main_v208, main_v209, main_v210, main_call11_cst, main_call11_v0, main_v211]

theorem L3_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsL3_writes : (opsL3 : List (HloOp τ sig (Elt F))).Forall fun op =>
    op.writes ⊆ (opsL3_W.map (Proc.devRef (τ := τ) .tc)).toFinset :=
  ⟨L3_wsub (y := main_c_19) (by decide),
   L3_wsub (y := main_v160) (by decide),
   L3_wsub (y := main_v161) (by decide),
   L3_wsub (y := main_c_20) (by decide),
   L3_wsub (y := main_v162) (by decide),
   L3_wsub (y := main_v163) (by decide),
   L3_wsub (y := main_v164) (by decide),
   L3_wsub (y := main_v165) (by decide),
   L3_wsub (y := main_v166) (by decide),
   L3_wsub (y := main_cst_21) (by decide),
   L3_wsub (y := main_v167) (by decide),
   L3_wsub (y := main_v168) (by decide),
   L3_wsub (y := main_v169) (by decide),
   L3_wsub (y := main_v170) (by decide),
   L3_wsub (y := main_v171) (by decide),
   L3_wsub (y := main_v172) (by decide),
   L3_wsub (y := main_v173) (by decide),
   L3_wsub (y := main_v174) (by decide),
   L3_wsub (y := main_v175) (by decide),
   L3_wsub (y := main_v176) (by decide),
   L3_wsub (y := main_v177) (by decide),
   L3_wsub (y := main_v178) (by decide),
   L3_wsub (y := main_call9_cst) (by decide),
   L3_wsub (y := main_call9_v0) (by decide),
   L3_wsub (y := main_v179) (by decide),
   L3_wsub (y := main_v180) (by decide),
   L3_wsub (y := main_v181) (by decide),
   L3_wsub (y := main_v182) (by decide),
   L3_wsub (y := main_v183) (by decide),
   L3_wsub (y := main_v184) (by decide),
   L3_wsub (y := main_v185) (by decide),
   L3_wsub (y := main_v186) (by decide),
   L3_wsub (y := main_v187) (by decide),
   L3_wsub (y := main_cst_22) (by decide),
   L3_wsub (y := main_v188) (by decide),
   L3_wsub (y := main_cst_23) (by decide),
   L3_wsub (y := main_v189) (by decide),
   L3_wsub (y := main_v190) (by decide),
   L3_wsub (y := main_c_24) (by decide),
   L3_wsub (y := main_call10_cst) (by decide),
   L3_wsub (y := main_call10_v0) (by decide),
   L3_wsub (y := main_call10_v1) (by decide),
   L3_wsub (y := main_call10_cst_0) (by decide),
   L3_wsub (y := main_call10_v2) (by decide),
   L3_wsub (y := main_call10_v3) (by decide),
   L3_wsub (y := main_call10_v4) (by decide),
   L3_wsub (y := main_call10_v5) (by decide),
   L3_wsub (y := main_call10_v6) (by decide),
   L3_wsub (y := main_call10_v7) (by decide),
   L3_wsub (y := main_call10_cst_1) (by decide),
   L3_wsub (y := main_call10_v8) (by decide),
   L3_wsub (y := main_call10_cst_2) (by decide),
   L3_wsub (y := main_call10_v9) (by decide),
   L3_wsub (y := main_call10_v10) (by decide),
   L3_wsub (y := main_call10_v11) (by decide),
   L3_wsub (y := main_call10_cst_3) (by decide),
   L3_wsub (y := main_call10_v12) (by decide),
   L3_wsub (y := main_call10_cst_4) (by decide),
   L3_wsub (y := main_call10_call0_v0) (by decide),
   L3_wsub (y := main_call10_call0_v1) (by decide),
   L3_wsub (y := main_v191) (by decide),
   L3_wsub (y := main_v192) (by decide),
   L3_wsub (y := main_v193) (by decide),
   L3_wsub (y := main_v194) (by decide),
   L3_wsub (y := main_v195) (by decide),
   L3_wsub (y := main_v196) (by decide),
   L3_wsub (y := main_v197) (by decide),
   L3_wsub (y := main_v198) (by decide),
   L3_wsub (y := main_v199) (by decide),
   L3_wsub (y := main_cst_25) (by decide),
   L3_wsub (y := main_v200) (by decide),
   L3_wsub (y := main_v201) (by decide),
   L3_wsub (y := main_v202) (by decide),
   L3_wsub (y := main_v203) (by decide),
   L3_wsub (y := main_v204) (by decide),
   L3_wsub (y := main_v205) (by decide),
   L3_wsub (y := main_v206) (by decide),
   L3_wsub (y := main_v207) (by decide),
   L3_wsub (y := main_v208) (by decide),
   L3_wsub (y := main_v209) (by decide),
   L3_wsub (y := main_v210) (by decide),
   L3_wsub (y := main_call11_cst) (by decide),
   L3_wsub (y := main_call11_v0) (by decide),
   L3_wsub (y := main_v211) (by decide)⟩

/-- A buffer the operations do not write keeps its contents. -/
theorem L3_keep (V : Valuation τ sig (Elt F)) (r : Ref sig .tc) (h : r ∉ opsL3_W) :
    after opsL3 V (Proc.devRef .tc r) = V (Proc.devRef .tc r) :=
  after_of_writes_sub opsL3 V opsL3_writes h

attribute [local irreducible] Host.gather Host.scatterAdd Host.reduceAdd Host.divf Host.rsqrt in
set_option maxRecDepth 8192 in
set_option maxHeartbeats 4000000 in
theorem L3_out (V : Valuation τ sig (Elt F)) :
    after opsL3 V (Proc.devRef .tc main_v211) = layerCore (V (Proc.devRef .tc main_v159)) (V (Proc.devRef .tc main_v1)) (V (Proc.devRef .tc main_v3))
      (matAt 3 slices_S5x64x64_S1x64x64_3_0_0 (V (Proc.devRef .tc main_arg3))) (vecAt 3 slices_S5x64_S1x64_3_0 (V (Proc.devRef .tc main_arg4))) (matAt 3 slices_S5x64x64_S1x64x64_3_0_0 (V (Proc.devRef .tc main_arg5)))
      (vecAt 3 slices_S5x64_S1x64_3_0 (V (Proc.devRef .tc main_arg6))) (vecAt 3 slices_S5x64_S1x64_3_0 (V (Proc.devRef .tc main_arg7))) (vecAt 3 slices_S5x64_S1x64_3_0 (V (Proc.devRef .tc main_arg8))) := by
  after_results_simp
  rfl

end Cert.ReferenceIdeal.RefRun

end
-- ==== Proof.RefRunL4.lean ====
/-
  The operations of layer 4 and what they compute from any buffer contents:
  the result buffer holds the layer function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsL4 : List (HloOp τ sig (Elt F)) :=
  [ nullary main_c_26 (constantI S_ 32 0#32),
    unary main_c_26 main_v212 (broadcastInDim S1600000 ![] bcast_S_S1600000 : (⟨S_, .i32⟩ : BufTy).Contents (Elt F) → (⟨S1600000, .i32⟩ : BufTy).Contents (Elt F)),
    binary main_v1 main_v212 main_v213 (cmpi .slt : (⟨S1600000, .i32⟩ : BufTy).Contents (Elt F) → (⟨S1600000, .i32⟩ : BufTy).Contents (Elt F) → (⟨S1600000, .i1⟩ : BufTy).Contents (Elt F)),
    nullary main_c_27 (constantI S_ 32 100000#32),
    unary main_c_27 main_v214 (broadcastInDim S1600000 ![] bcast_S_S1600000 : (⟨S_, .i32⟩ : BufTy).Contents (Elt F) → (⟨S1600000, .i32⟩ : BufTy).Contents (Elt F)),
    binary main_v1 main_v214 main_v215 (addi : (⟨S1600000, .i32⟩ : BufTy).Contents (Elt F) → (⟨S1600000, .i32⟩ : BufTy).Contents (Elt F) → (⟨S1600000, .i32⟩ : BufTy).Contents (Elt F)),
    ternary main_v213 main_v215 main_v1 main_v216 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v216 main_v217 (broadcastInDim S1600000x1 ![0] bcast_S1600000_S1600000x1_0 : (⟨S1600000, .i32⟩ : BufTy).Contents (Elt F) → (⟨S1600000x1, .i32⟩ : BufTy).Contents (Elt F)),
    binary main_v211 main_v217 main_v218 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_28 (constant S_ .f32 0x00000000#32),
    unary main_cst_28 main_v219 (broadcastInDim S100000x64 ![] bcast_S_S100000x64 : (⟨S_, .f32⟩ : BufTy).Contents (Elt F) → (⟨S100000x64, .f32⟩ : BufTy).Contents (Elt F)),
    unary main_v3 main_v220 (broadcastInDim S1600000x1 ![0] bcast_S1600000_S1600000x1_0 : (⟨S1600000, .i32⟩ : BufTy).Contents (Elt F) → (⟨S1600000x1, .i32⟩ : BufTy).Contents (Elt F)),
    ternary main_v219 main_v220 main_v218 main_v221 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v211 main_v221 main_v222 (addf : (⟨S100000x64, .f32⟩ : BufTy).Contents (Elt F) → (⟨S100000x64, .f32⟩ : BufTy).Contents (Elt F) → (⟨S100000x64, .f32⟩ : BufTy).Contents (Elt F)),
    unary main_arg3 main_v223 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v223 main_v224 rfl shapeCasts_S1x64x64_S64x64,
    binary main_v222 main_v224 main_v225 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v226 ((extractStridedSlice S1x64 ![4, 0] · slices_S5x64_S1x64_4_0) : (⟨S5x64, .f32⟩ : BufTy).Contents (Elt F) → (⟨S1x64, .f32⟩ : BufTy).Contents (Elt F)),
    reshape main_v226 main_v227 rfl shapeCasts_S1x64_S64,
    unary main_v227 main_v228 (broadcastInDim S1x64 ![1] bcast_S64_S1x64_1 : (⟨S64, .f32⟩ : BufTy).Contents (Elt F) → (⟨S1x64, .f32⟩ : BufTy).Contents (Elt F)),
    unary main_v228 main_v229 (broadcastInDim S100000x64 ![0, 1] bcast_S1x64_S100000x64_0_1 : (⟨S1x64, .f32⟩ : BufTy).Contents (Elt F) → (⟨S100000x64, .f32⟩ : BufTy).Contents (Elt F)),
    binary main_v225 main_v229 main_v230 (addf : (⟨S100000x64, .f32⟩ : BufTy).Contents (Elt F) → (⟨S100000x64, .f32⟩ : BufTy).Contents (Elt F) → (⟨S100000x64, .f32⟩ : BufTy).Contents (Elt F)),
    TRef.nullary main_call12.cst (constant S_ .f32 0x00000000#32),
    TRef.unary main_call12.cst main_call12.v0 (broadcastInDim S100000x64 ![] bcast_S_S100000x64),
    TRef.binary (TRef.of (T := ⟨S100000x64, .f32⟩) main_v230) main_call12.v0 main_call12.v1 maximumf,
    unary main_arg5 main_v232 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v232 main_v233 rfl shapeCasts_S1x64x64_S64x64,
    binary main_v231 main_v233 main_v234 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v235 ((extractStridedSlice S1x64 ![4, 0] · slices_S5x64_S1x64_4_0) : (⟨S5x64, .f32⟩ : BufTy).Contents (Elt F) → (⟨S1x64, .f32⟩ : BufTy).Contents (Elt F)),
    reshape main_v235 main_v236 rfl shapeCasts_S1x64_S64,
    unary main_v236 main_v237 (broadcastInDim S1x64 ![1] bcast_S64_S1x64_1 : (⟨S64, .f32⟩ : BufTy).Contents (Elt F) → (⟨S1x64, .f32⟩ : BufTy).Contents (Elt F)),
    unary main_v237 main_v238 (broadcastInDim S100000x64 ![0, 1] bcast_S1x64_S100000x64_0_1 : (⟨S1x64, .f32⟩ : BufTy).Contents (Elt F) → (⟨S100000x64, .f32⟩ : BufTy).Contents (Elt F)),
    binary main_v234 main_v238 main_v239 (addf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    binary main_v239 main_cst_29 main_v240 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v241 (broadcastInDim S64 ![] bcast_S_S64 : (⟨S_, .f32⟩ : BufTy).Contents (Elt F) → (⟨S64, .f32⟩ : BufTy).Contents (Elt F)),
    binary main_v240 main_v241 main_v242 (Host.divf : (⟨S64, .f32⟩ : BufTy).Contents (Elt F) → (⟨S64, .f32⟩ : BufTy).Contents (Elt F) → (⟨S64, .f32⟩ : BufTy).Contents (Elt F)),
    nullary main_c_31 (constantI S_ 32 0#32),
    TRef.nullary main_call13.cst (constant S_ .f32 0x00000000#32),
    TRef.binary (TRef.of (T := ⟨S100000x64, .f32⟩) main_v239) main_call13.cst main_call13.v0 (fun x v => Host.reduceAdd x v reducesTo_S100000x64_S64_d0 h_S_),
    TRef.unary main_call13.v0 main_call13.v1 (broadcastInDim S1x64 ![1] bcast_S64_S1x64_1),
    TRef.nullary main_call13.cst_0 (constant S_ .f32 0x47C35000#32),
    TRef.unary main_call13.cst_0 main_call13.v2 (broadcastInDim S1x64 ![] bcast_S_S1x64),
    TRef.binary main_call13.v1 main_call13.v2 main_call13.v3 Host.divf,
    TRef.unary main_call13.v3 main_call13.v4 (broadcastInDim S100000x64 ![0, 1] bcast_S1x64_S100000x64_0_1),
    TRef.binary (TRef.of (T := ⟨S100000x64, .f32⟩) main_v239) main_call13.v4 main_call13.v5 subf,
    TRef.binary main_call13.v5 main_call13.v5 main_call13.v6 mulf,
    TRef.unary (TRef.of (T := ⟨S_, .i32⟩) main_c_31) main_call13.v7 (sitofp .f32),
    TRef.nullary main_call13.cst_1 (constant S_ .f32 0x47C35000#32),
    TRef.binary main_call13.cst_1 main_call13.v7 main_call13.v8 subf,
    TRef.nullary main_call13.cst_2 (constant S_ .f32 0x00000000#32),
    TRef.binary main_call13.v6 main_call13.cst_2 main_call13.v9 (fun x v => Host.reduceAdd x v reducesTo_S100000x64_S64_d0 h_S_),
    TRef.unary main_call13.v8 main_call13.v10 (broadcastInDim S64 ![] bcast_S_S64),
    TRef.binary main_call13.v9 main_call13.v10 main_call13.v11 Host.divf,
    TRef.nullary main_call13.cst_3 (constant S_ .f32 0x00000000#32),
    TRef.binary main_call13.v8 main_call13.cst_3 main_call13.v12 (cmpf .ogt),
    TRef.nullary main_call13.cst_4 (constant S_ .f32 0x7FC00000#32),
    TRef.unary main_call13.cst_4 main_call13_call0.v0 id,
    TRef.unary main_call13_call0.v0 main_call13_call0.v1 (broadcastInDim S64 ![] bcast_S_S64),
    TRef.ternary main_call13.v12 main_call13.v11 main_call13_call0.v1 main_call13_call0.v2 (fun p a b => select (broadcastInDim S64 ![] bcast_S_S64 p) a b),
    unary main_arg7 main_v244 ((extractStridedSlice S1x64 ![4, 0] · slices_S5x64_S1x64_4_0) : (⟨S5x64, .f32⟩ : BufTy).Contents (Elt F) → (⟨S1x64, .f32⟩ : BufTy).Contents (Elt F)),
    reshape main_v244 main_v245 rfl shapeCasts_S1x64_S64,
    unary main_v242 main_v246 (broadcastInDim S1x64 ![1] bcast_S64_S1x64_1 : (⟨S64, .f32⟩ : BufTy).Contents (Elt F) → (⟨S1x64, .f32⟩ : BufTy).Contents (Elt F)),
    unary main_v246 main_v247 (broadcastInDim S100000x64 ![0, 1] bcast_S1x64_S100000x64_0_1 : (⟨S1x64, .f32⟩ : BufTy).Contents (Elt F) → (⟨S100000x64, .f32⟩ : BufTy).Contents (Elt F)),
    binary main_v239 main_v247 main_v248 (subf : (⟨S100000x64, .f32⟩ : BufTy).Contents (Elt F) → (⟨S100000x64, .f32⟩ : BufTy).Contents (Elt F) → (⟨S100000x64, .f32⟩ : BufTy).Contents (Elt F)),
    unary main_v245 main_v249 (broadcastInDim S1x64 ![1] bcast_S64_S1x64_1 : (⟨S64, .f32⟩ : BufTy).Contents (Elt F) → (⟨S1x64, .f32⟩ : BufTy).Contents (Elt F)),
    unary main_v249 main_v250 (broadcastInDim S100000x64 ![0, 1] bcast_S1x64_S100000x64_0_1 : (⟨S1x64, .f32⟩ : BufTy).Contents (Elt F) → (⟨S100000x64, .f32⟩ : BufTy).Contents (Elt F)),
    binary main_v250 main_v248 main_v251 (mulf : (⟨S100000x64, .f32⟩ : BufTy).Contents (Elt F) → (⟨S100000x64, .f32⟩ : BufTy).Contents (Elt F) → (⟨S100000x64, .f32⟩ : BufTy).Contents (Elt F)),
    nullary main_cst_32 (constant S_ .f32 0x3727C5AC#32),
    unary main_cst_32 main_v252 (broadcastInDim S64 ![] bcast_S_S64 : (⟨S_, .f32⟩ : BufTy).Contents (Elt F) → (⟨S64, .f32⟩ : BufTy).Contents (Elt F)),
    binary main_v243 main_v252 main_v253 (addf : (⟨S64, .f32⟩ : BufTy).Contents (Elt F) → (⟨S64, .f32⟩ : BufTy).Contents (Elt F) → (⟨S64, .f32⟩ : BufTy).Contents (Elt F)),
    unary main_v253 main_v254 (Host.rsqrt : (⟨S64, .f32⟩ : BufTy).Contents (Elt F) → (⟨S64, .f32⟩ : BufTy).Contents (Elt F)),
    unary main_v254 main_v255 (broadcastInDim S1x64 ![1] bcast_S64_S1x64_1 : (⟨S64, .f32⟩ : BufTy).Contents (Elt F) → (⟨S1x64, .f32⟩ : BufTy).Contents (Elt F)),
    unary main_v255 main_v256 (broadcastInDim S100000x64 ![0, 1] bcast_S1x64_S100000x64_0_1 : (⟨S1x64, .f32⟩ : BufTy).Contents (Elt F) → (⟨S100000x64, .f32⟩ : BufTy).Contents (Elt F)),
    binary main_v251 main_v256 main_v257 (mulf : (⟨S100000x64, .f32⟩ : BufTy).Contents (Elt F) → (⟨S100000x64, .f32⟩ : BufTy).Contents (Elt F) → (⟨S100000x64, .f32⟩ : BufTy).Contents (Elt F)),
    unary main_arg8 main_v258 ((extractStridedSlice S1x64 ![4, 0] · slices_S5x64_S1x64_4_0) : (⟨S5x64, .f32⟩ : BufTy).Contents (Elt F) → (⟨S1x64, .f32⟩ : BufTy).Contents (Elt F)),
    reshape main_v258 main_v259 rfl shapeCasts_S1x64_S64,
    unary main_v259 main_v260 (broadcastInDim S1x64 ![1] bcast_S64_S1x64_1 : (⟨S64, .f32⟩ : BufTy).Contents (Elt F) → (⟨S1x64, .f32⟩ : BufTy).Contents (Elt F)),
    unary main_v260 main_v261 (broadcastInDim S100000x64 ![0, 1] bcast_S1x64_S100000x64_0_1 : (⟨S1x64, .f32⟩ : BufTy).Contents (Elt F) → (⟨S100000x64, .f32⟩ : BufTy).Contents (Elt F)),
    binary main_v257 main_v261 main_v262 (addf : (⟨S100000x64, .f32⟩ : BufTy).Contents (Elt F) → (⟨S100000x64, .f32⟩ : BufTy).Contents (Elt F) → (⟨S100000x64, .f32⟩ : BufTy).Contents (Elt F)),
    TRef.nullary main_call14.cst (constant S_ .f32 0x00000000#32),
    TRef.unary main_call14.cst main_call14.v0 (broadcastInDim S100000x64 ![] bcast_S_S100000x64),
    TRef.binary (TRef.of (T := ⟨S100000x64, .f32⟩) main_v262) main_call14.v0 main_call14.v1 maximumf ]

/-- The buffers the operations write. -/
abbrev opsL4_W : List (Ref sig .tc) := [main_c_26, main_v212, main_v213, main_c_27, main_v214, main_v215, main_v216, main_v217, main_v218, main_cst_28, main_v219, main_v220, main_v221, main_v222, main_v223, main_v224, main_v225, main_v226, main_v227, main_v228, main_v229, main_v230, main_call12_cst, main_call12_v0, main_v231, main_v232, main_v233, main_v234, main_v235, main_v236, main_v237, main_v238, main_v239, main_cst_29, main_v240, main_cst_30, main_v241, main_v242, main_c_31, main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_v11, main_call13_cst_3, main_call13_v12, main_call13_cst_4, main_call13_call0_v0, main_call13_call0_v1, main_v243, main_v244, main_v245, main_v246, main_v247, main_v248, main_v249, main_v250, main_v251, main_cst_32, main_v252, main_v253, main_v254, main_v255, main_v256, main_v257, main_v258, main_v259, main_v260, main_v261, main_v262, main_call14_cst, main_call14_v0, main_v263]

theorem L4_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsL4_writes : (opsL4 : List (HloOp τ sig (Elt F))).Forall fun op =>
    op.writes ⊆ (opsL4_W.map (Proc.devRef (τ := τ) .tc)).toFinset :=
  ⟨L4_wsub (y := main_c_26) (by decide),
   L4_wsub (y := main_v212) (by decide),
   L4_wsub (y := main_v213) (by decide),
   L4_wsub (y := main_c_27) (by decide),
   L4_wsub (y := main_v214) (by decide),
   L4_wsub (y := main_v215) (by decide),
   L4_wsub (y := main_v216) (by decide),
   L4_wsub (y := main_v217) (by decide),
   L4_wsub (y := main_v218) (by decide),
   L4_wsub (y := main_cst_28) (by decide),
   L4_wsub (y := main_v219) (by decide),
   L4_wsub (y := main_v220) (by decide),
   L4_wsub (y := main_v221) (by decide),
   L4_wsub (y := main_v222) (by decide),
   L4_wsub (y := main_v223) (by decide),
   L4_wsub (y := main_v224) (by decide),
   L4_wsub (y := main_v225) (by decide),
   L4_wsub (y := main_v226) (by decide),
   L4_wsub (y := main_v227) (by decide),
   L4_wsub (y := main_v228) (by decide),
   L4_wsub (y := main_v229) (by decide),
   L4_wsub (y := main_v230) (by decide),
   L4_wsub (y := main_call12_cst) (by decide),
   L4_wsub (y := main_call12_v0) (by decide),
   L4_wsub (y := main_v231) (by decide),
   L4_wsub (y := main_v232) (by decide),
   L4_wsub (y := main_v233) (by decide),
   L4_wsub (y := main_v234) (by decide),
   L4_wsub (y := main_v235) (by decide),
   L4_wsub (y := main_v236) (by decide),
   L4_wsub (y := main_v237) (by decide),
   L4_wsub (y := main_v238) (by decide),
   L4_wsub (y := main_v239) (by decide),
   L4_wsub (y := main_cst_29) (by decide),
   L4_wsub (y := main_v240) (by decide),
   L4_wsub (y := main_cst_30) (by decide),
   L4_wsub (y := main_v241) (by decide),
   L4_wsub (y := main_v242) (by decide),
   L4_wsub (y := main_c_31) (by decide),
   L4_wsub (y := main_call13_cst) (by decide),
   L4_wsub (y := main_call13_v0) (by decide),
   L4_wsub (y := main_call13_v1) (by decide),
   L4_wsub (y := main_call13_cst_0) (by decide),
   L4_wsub (y := main_call13_v2) (by decide),
   L4_wsub (y := main_call13_v3) (by decide),
   L4_wsub (y := main_call13_v4) (by decide),
   L4_wsub (y := main_call13_v5) (by decide),
   L4_wsub (y := main_call13_v6) (by decide),
   L4_wsub (y := main_call13_v7) (by decide),
   L4_wsub (y := main_call13_cst_1) (by decide),
   L4_wsub (y := main_call13_v8) (by decide),
   L4_wsub (y := main_call13_cst_2) (by decide),
   L4_wsub (y := main_call13_v9) (by decide),
   L4_wsub (y := main_call13_v10) (by decide),
   L4_wsub (y := main_call13_v11) (by decide),
   L4_wsub (y := main_call13_cst_3) (by decide),
   L4_wsub (y := main_call13_v12) (by decide),
   L4_wsub (y := main_call13_cst_4) (by decide),
   L4_wsub (y := main_call13_call0_v0) (by decide),
   L4_wsub (y := main_call13_call0_v1) (by decide),
   L4_wsub (y := main_v243) (by decide),
   L4_wsub (y := main_v244) (by decide),
   L4_wsub (y := main_v245) (by decide),
   L4_wsub (y := main_v246) (by decide),
   L4_wsub (y := main_v247) (by decide),
   L4_wsub (y := main_v248) (by decide),
   L4_wsub (y := main_v249) (by decide),
   L4_wsub (y := main_v250) (by decide),
   L4_wsub (y := main_v251) (by decide),
   L4_wsub (y := main_cst_32) (by decide),
   L4_wsub (y := main_v252) (by decide),
   L4_wsub (y := main_v253) (by decide),
   L4_wsub (y := main_v254) (by decide),
   L4_wsub (y := main_v255) (by decide),
   L4_wsub (y := main_v256) (by decide),
   L4_wsub (y := main_v257) (by decide),
   L4_wsub (y := main_v258) (by decide),
   L4_wsub (y := main_v259) (by decide),
   L4_wsub (y := main_v260) (by decide),
   L4_wsub (y := main_v261) (by decide),
   L4_wsub (y := main_v262) (by decide),
   L4_wsub (y := main_call14_cst) (by decide),
   L4_wsub (y := main_call14_v0) (by decide),
   L4_wsub (y := main_v263) (by decide)⟩

/-- A buffer the operations do not write keeps its contents. -/
theorem L4_keep (V : Valuation τ sig (Elt F)) (r : Ref sig .tc) (h : r ∉ opsL4_W) :
    after opsL4 V (Proc.devRef .tc r) = V (Proc.devRef .tc r) :=
  after_of_writes_sub opsL4 V opsL4_writes h

attribute [local irreducible] Host.gather Host.scatterAdd Host.reduceAdd Host.divf Host.rsqrt in
set_option maxRecDepth 8192 in
set_option maxHeartbeats 4000000 in
theorem L4_out (V : Valuation τ sig (Elt F)) :
    after opsL4 V (Proc.devRef .tc main_v263) = layerCore (V (Proc.devRef .tc main_v211)) (V (Proc.devRef .tc main_v1)) (V (Proc.devRef .tc main_v3))
      (matAt 4 slices_S5x64x64_S1x64x64_4_0_0 (V (Proc.devRef .tc main_arg3))) (vecAt 4 slices_S5x64_S1x64_4_0 (V (Proc.devRef .tc main_arg4))) (matAt 4 slices_S5x64x64_S1x64x64_4_0_0 (V (Proc.devRef .tc main_arg5)))
      (vecAt 4 slices_S5x64_S1x64_4_0 (V (Proc.devRef .tc main_arg6))) (vecAt 4 slices_S5x64_S1x64_4_0 (V (Proc.devRef .tc main_arg7))) (vecAt 4 slices_S5x64_S1x64_4_0 (V (Proc.devRef .tc main_arg8))) := by
  after_results_simp
  rfl

end Cert.ReferenceIdeal.RefRun

end
-- ==== Proof.RefRunTail.lean ====
/-
  The operations of the pooling and the output perceptron and what they compute from any buffer contents:
  the result buffer holds the tail function of the buffers read, and no other buffer that matters is written.
-/
import proofs.«142526_j3951369912896_1_alg».proof.Proof.RefRunDefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev opsTail : List (HloOp τ sig (Elt F)) :=
  [ nullary main_cst_33 (constant S_ .f32 0x00000000#32),
    unary main_cst_33 main_v264 (broadcastInDim S128x64 ![] bcast_S_S128x64 : (⟨S_, .f32⟩ : BufTy).Contents (Elt F) → (⟨S128x64, .f32⟩ : BufTy).Contents (Elt F)),
    unary main_arg2 main_v265 (broadcastInDim S100000x1 ![0] bcast_S100000_S100000x1_0 : (⟨S100000, .i32⟩ : BufTy).Contents (Elt F) → (⟨S100000x1, .i32⟩ : BufTy).Contents (Elt F)),
    ternary main_v264 main_v265 main_v263 main_v266 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    nullary main_cst_34 (constant S_ .f32 0x3F800000#32),
    unary main_cst_34 main_v267 (broadcastInDim S100000 ![] bcast_S_S100000 : (⟨S_, .f32⟩ : BufTy).Contents (Elt F) → (⟨S100000, .f32⟩ : BufTy).Contents (Elt F)),
    nullary main_cst_35 (constant S_ .f32 0x00000000#32),
    unary main_cst_35 main_v268 (broadcastInDim S128 ![] bcast_S_S128 : (⟨S_, .f32⟩ : BufTy).Contents (Elt F) → (⟨S128, .f32⟩ : BufTy).Contents (Elt F)),
    unary main_arg2 main_v269 (broadcastInDim S100000x1 ![0] bcast_S100000_S100000x1_0 : (⟨S100000, .i32⟩ : BufTy).Contents (Elt F) → (⟨S100000x1, .i32⟩ : BufTy).Contents (Elt F)),
    ternary main_v268 main_v269 main_v267 main_v270 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_36 (constant S_ .f32 0x3F800000#32),
    unary main_cst_36 main_v271 (broadcastInDim S128 ![] bcast_S_S128 : (⟨S_, .f32⟩ : BufTy).Contents (Elt F) → (⟨S128, .f32⟩ : BufTy).Contents (Elt F)),
    binary main_v270 main_v271 main_v272 (maximumf : (⟨S128, .f32⟩ : BufTy).Contents (Elt F) → (⟨S128, .f32⟩ : BufTy).Contents (Elt F) → (⟨S128, .f32⟩ : BufTy).Contents (Elt F)),
    unary main_v272 main_v273 (broadcastInDim S128x1 ![0] bcast_S128_S128x1_0 : (⟨S128, .f32⟩ : BufTy).Contents (Elt F) → (⟨S128x1, .f32⟩ : BufTy).Contents (Elt F)),
    unary main_v273 main_v274 (broadcastInDim S128x64 ![0, 1] bcast_S128x1_S128x64_0_1 : (⟨S128x1, .f32⟩ : BufTy).Contents (Elt F) → (⟨S128x64, .f32⟩ : BufTy).Contents (Elt F)),
    binary main_v266 main_v274 main_v275 (Host.divf : (⟨S128x64, .f32⟩ : BufTy).Contents (Elt F) → (⟨S128x64, .f32⟩ : BufTy).Contents (Elt F) → (⟨S128x64, .f32⟩ : BufTy).Contents (Elt F)),
    binary main_v275 main_arg9 main_v276 ((fun l r => Host.dotGeneral dot_S128x64_S64x64_S128x64_1_0_0_1_n_n none l r) : (⟨S128x64, .f32⟩ : BufTy).Contents (Elt F) → (⟨S64x64, .f32⟩ : BufTy).Contents (Elt F) → (⟨S128x64, .f32⟩ : BufTy).Contents (Elt F)),
    unary main_arg10 main_v277 (broadcastInDim S1x64 ![1] bcast_S64_S1x64_1 : (⟨S64, .f32⟩ : BufTy).Contents (Elt F) → (⟨S1x64, .f32⟩ : BufTy).Contents (Elt F)),
    unary main_v277 main_v278 (broadcastInDim S128x64 ![0, 1] bcast_S1x64_S128x64_0_1 : (⟨S1x64, .f32⟩ : BufTy).Contents (Elt F) → (⟨S128x64, .f32⟩ : BufTy).Contents (Elt F)),
    binary main_v276 main_v278 main_v279 (addf : (⟨S128x64, .f32⟩ : BufTy).Contents (Elt F) → (⟨S128x64, .f32⟩ : BufTy).Contents (Elt F) → (⟨S128x64, .f32⟩ : BufTy).Contents (Elt F)),
    TRef.nullary main_call15.cst (constant S_ .f32 0x00000000#32),
    TRef.unary main_call15.cst main_call15.v0 (broadcastInDim S128x64 ![] bcast_S_S128x64),
    TRef.binary (TRef.of (T := ⟨S128x64, .f32⟩) main_v279) main_call15.v0 main_call15.v1 maximumf,
    binary main_v280 main_arg11 main_v281 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    unary main_arg12 main_v282 (broadcastInDim S1x10 ![1] bcast_S10_S1x10_1 : (⟨S10, .f32⟩ : BufTy).Contents (Elt F) → (⟨S1x10, .f32⟩ : BufTy).Contents (Elt F)),
    unary main_v282 main_v283 (broadcastInDim S128x10 ![0, 1] bcast_S1x10_S128x10_0_1 : (⟨S1x10, .f32⟩ : BufTy).Contents (Elt F) → (⟨S128x10, .f32⟩ : BufTy).Contents (Elt F)),
    binary main_v281 main_v283 main_v284 (addf : (⟨S128x10, .f32⟩ : BufTy).Contents (Elt F) → (⟨S128x10, .f32⟩ : BufTy).Contents (Elt F) → (⟨S128x10, .f32⟩ : BufTy).Contents (Elt F)) ]

/-- The buffers the operations write. -/
abbrev opsTail_W : List (Ref sig .tc) := [main_cst_33, main_v264, main_v265, main_v266, main_cst_34, main_v267, main_cst_35, main_v268, main_v269, main_v270, main_cst_36, main_v271, main_v272, main_v273, main_v274, main_v275, main_v276, main_v277, main_v278, main_v279, main_call15_cst, main_call15_v0, main_v280, main_v281, main_v282, main_v283, main_v284]

theorem Tail_wsub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
theorem opsTail_writes : (opsTail : List (HloOp τ sig (Elt F))).Forall fun op =>
    op.writes ⊆ (opsTail_W.map (Proc.devRef (τ := τ) .tc)).toFinset :=
  ⟨Tail_wsub (y := main_cst_33) (by decide),
   Tail_wsub (y := main_v264) (by decide),
   Tail_wsub (y := main_v265) (by decide),
   Tail_wsub (y := main_v266) (by decide),
   Tail_wsub (y := main_cst_34) (by decide),
   Tail_wsub (y := main_v267) (by decide),
   Tail_wsub (y := main_cst_35) (by decide),
   Tail_wsub (y := main_v268) (by decide),
   Tail_wsub (y := main_v269) (by decide),
   Tail_wsub (y := main_v270) (by decide),
   Tail_wsub (y := main_cst_36) (by decide),
   Tail_wsub (y := main_v271) (by decide),
   Tail_wsub (y := main_v272) (by decide),
   Tail_wsub (y := main_v273) (by decide),
   Tail_wsub (y := main_v274) (by decide),
   Tail_wsub (y := main_v275) (by decide),
   Tail_wsub (y := main_v276) (by decide),
   Tail_wsub (y := main_v277) (by decide),
   Tail_wsub (y := main_v278) (by decide),
   Tail_wsub (y := main_v279) (by decide),
   Tail_wsub (y := main_call15_cst) (by decide),
   Tail_wsub (y := main_call15_v0) (by decide),
   Tail_wsub (y := main_v280) (by decide),
   Tail_wsub (y := main_v281) (by decide),
   Tail_wsub (y := main_v282) (by decide),
   Tail_wsub (y := main_v283) (by decide),
   Tail_wsub (y := main_v284) (by decide)⟩

/-- A buffer the operations do not write keeps its contents. -/
theorem Tail_keep (V : Valuation τ sig (Elt F)) (r : Ref sig .tc) (h : r ∉ opsTail_W) :
    after opsTail V (Proc.devRef .tc r) = V (Proc.devRef .tc r) :=
  after_of_writes_sub opsTail V opsTail_writes h

attribute [local irreducible] Host.gather Host.scatterAdd Host.reduceAdd Host.divf Host.rsqrt in
set_option maxRecDepth 8192 in
set_option maxHeartbeats 4000000 in
theorem Tail_out (V : Valuation τ sig (Elt F)) :
    after opsTail V (Proc.devRef .tc main_v284) = tail (V (Proc.devRef .tc main_v263)) (V (Proc.devRef .tc main_arg2)) (V (Proc.devRef .tc main_arg9)) (V (Proc.devRef .tc main_arg10)) (V (Proc.devRef .tc main_arg11)) (V (Proc.devRef .tc main_arg12)) := by
  after_results_simp
  rfl

end Cert.ReferenceIdeal.RefRun

end
-- ==== Proof.RefRun.lean ====
/-
  The run of the reference program: every weakly fair execution terminates with the result buffer at `out` of the
  thirteen argument arrays' launch contents, and the argument arrays unchanged.  The operation list is read layer by
  layer: each layer's operations compute that layer's function of the previous features from any contents and write
  none of the buffers a later layer reads.
-/
import proofs.«142526_j3951369912896_1_alg».proof.Proof.RefRunMain
import proofs.«142526_j3951369912896_1_alg».proof.Proof.RefRunL0
import proofs.«142526_j3951369912896_1_alg».proof.Proof.RefRunL1
import proofs.«142526_j3951369912896_1_alg».proof.Proof.RefRunL2
import proofs.«142526_j3951369912896_1_alg».proof.Proof.RefRunL3
import proofs.«142526_j3951369912896_1_alg».proof.Proof.RefRunL4
import proofs.«142526_j3951369912896_1_alg».proof.Proof.RefRunTail
import Idealize.ShloMosaic.Lib.Pipeline.Frame
import Idealize.ShloMosaic.PureOps.Ideal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The windows' operations are the layers' operations, in the same order. -/
theorem wops_eq : (wops : List (HloOp τ sig (Elt F))) = opsL0 ++ (opsL1 ++ (opsL2 ++ (opsL3 ++ (opsL4 ++ opsTail)))) := by
  simp only [wops, wops0, wops1, wops2, wops3, wops4, wops5, opsL0, opsL1, opsL2, opsL3, opsL4, opsTail, List.cons_append, List.nil_append]

/-- The contents after layer 0's operations, then after each later layer's, then after the tail's. -/
def val1 (V0 : Valuation τ sig (Elt F)) : Valuation τ sig (Elt F) := after opsL0 V0
def val2 (V0 : Valuation τ sig (Elt F)) : Valuation τ sig (Elt F) := after opsL1 (val1 V0)
def val3 (V0 : Valuation τ sig (Elt F)) : Valuation τ sig (Elt F) := after opsL2 (val2 V0)
def val4 (V0 : Valuation τ sig (Elt F)) : Valuation τ sig (Elt F) := after opsL3 (val3 V0)
def val5 (V0 : Valuation τ sig (Elt F)) : Valuation τ sig (Elt F) := after opsL4 (val4 V0)
def val6 (V0 : Valuation τ sig (Elt F)) : Valuation τ sig (Elt F) := after opsTail (val5 V0)

theorem after_wops (V0 : Valuation τ sig (Elt F)) : after wops V0 = val6 V0 := by
  rw [wops_eq]
  simp only [StableHlo.after_append]
  rfl
theorem val1_main_arg0 (V0 : Valuation τ sig (Elt F)) : val1 V0 (Proc.devRef .tc main_arg0) = V0 (Proc.devRef .tc main_arg0) :=
  L0_keep V0 main_arg0 (by decide)
theorem val1_main_arg1 (V0 : Valuation τ sig (Elt F)) : val1 V0 (Proc.devRef .tc main_arg1) = V0 (Proc.devRef .tc main_arg1) :=
  L0_keep V0 main_arg1 (by decide)
theorem val1_main_arg2 (V0 : Valuation τ sig (Elt F)) : val1 V0 (Proc.devRef .tc main_arg2) = V0 (Proc.devRef .tc main_arg2) :=
  L0_keep V0 main_arg2 (by decide)
theorem val1_main_arg3 (V0 : Valuation τ sig (Elt F)) : val1 V0 (Proc.devRef .tc main_arg3) = V0 (Proc.devRef .tc main_arg3) :=
  L0_keep V0 main_arg3 (by decide)
theorem val1_main_arg4 (V0 : Valuation τ sig (Elt F)) : val1 V0 (Proc.devRef .tc main_arg4) = V0 (Proc.devRef .tc main_arg4) :=
  L0_keep V0 main_arg4 (by decide)
theorem val1_main_arg5 (V0 : Valuation τ sig (Elt F)) : val1 V0 (Proc.devRef .tc main_arg5) = V0 (Proc.devRef .tc main_arg5) :=
  L0_keep V0 main_arg5 (by decide)
theorem val1_main_arg6 (V0 : Valuation τ sig (Elt F)) : val1 V0 (Proc.devRef .tc main_arg6) = V0 (Proc.devRef .tc main_arg6) :=
  L0_keep V0 main_arg6 (by decide)
theorem val1_main_arg7 (V0 : Valuation τ sig (Elt F)) : val1 V0 (Proc.devRef .tc main_arg7) = V0 (Proc.devRef .tc main_arg7) :=
  L0_keep V0 main_arg7 (by decide)
theorem val1_main_arg8 (V0 : Valuation τ sig (Elt F)) : val1 V0 (Proc.devRef .tc main_arg8) = V0 (Proc.devRef .tc main_arg8) :=
  L0_keep V0 main_arg8 (by decide)
theorem val1_main_arg9 (V0 : Valuation τ sig (Elt F)) : val1 V0 (Proc.devRef .tc main_arg9) = V0 (Proc.devRef .tc main_arg9) :=
  L0_keep V0 main_arg9 (by decide)
theorem val1_main_arg10 (V0 : Valuation τ sig (Elt F)) : val1 V0 (Proc.devRef .tc main_arg10) = V0 (Proc.devRef .tc main_arg10) :=
  L0_keep V0 main_arg10 (by decide)
theorem val1_main_arg11 (V0 : Valuation τ sig (Elt F)) : val1 V0 (Proc.devRef .tc main_arg11) = V0 (Proc.devRef .tc main_arg11) :=
  L0_keep V0 main_arg11 (by decide)
theorem val1_main_arg12 (V0 : Valuation τ sig (Elt F)) : val1 V0 (Proc.devRef .tc main_arg12) = V0 (Proc.devRef .tc main_arg12) :=
  L0_keep V0 main_arg12 (by decide)
theorem val1_main_v1 (V0 : Valuation τ sig (Elt F)) : val1 V0 (Proc.devRef .tc main_v1) = edgeSrc (V0 (Proc.devRef .tc main_arg1)) := L0_v1 V0
theorem val1_main_v3 (V0 : Valuation τ sig (Elt F)) : val1 V0 (Proc.devRef .tc main_v3) = edgeDst (V0 (Proc.devRef .tc main_arg1)) := L0_v3 V0
theorem val1_x (V0 : Valuation τ sig (Elt F)) : val1 V0 (Proc.devRef .tc main_v55) = (layer0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := L0_out V0

theorem val2_main_arg0 (V0 : Valuation τ sig (Elt F)) : val2 V0 (Proc.devRef .tc main_arg0) = V0 (Proc.devRef .tc main_arg0) :=
  (L1_keep (val1 V0) main_arg0 (by decide)).trans (val1_main_arg0 V0)
theorem val2_main_arg1 (V0 : Valuation τ sig (Elt F)) : val2 V0 (Proc.devRef .tc main_arg1) = V0 (Proc.devRef .tc main_arg1) :=
  (L1_keep (val1 V0) main_arg1 (by decide)).trans (val1_main_arg1 V0)
theorem val2_main_arg2 (V0 : Valuation τ sig (Elt F)) : val2 V0 (Proc.devRef .tc main_arg2) = V0 (Proc.devRef .tc main_arg2) :=
  (L1_keep (val1 V0) main_arg2 (by decide)).trans (val1_main_arg2 V0)
theorem val2_main_arg3 (V0 : Valuation τ sig (Elt F)) : val2 V0 (Proc.devRef .tc main_arg3) = V0 (Proc.devRef .tc main_arg3) :=
  (L1_keep (val1 V0) main_arg3 (by decide)).trans (val1_main_arg3 V0)
theorem val2_main_arg4 (V0 : Valuation τ sig (Elt F)) : val2 V0 (Proc.devRef .tc main_arg4) = V0 (Proc.devRef .tc main_arg4) :=
  (L1_keep (val1 V0) main_arg4 (by decide)).trans (val1_main_arg4 V0)
theorem val2_main_arg5 (V0 : Valuation τ sig (Elt F)) : val2 V0 (Proc.devRef .tc main_arg5) = V0 (Proc.devRef .tc main_arg5) :=
  (L1_keep (val1 V0) main_arg5 (by decide)).trans (val1_main_arg5 V0)
theorem val2_main_arg6 (V0 : Valuation τ sig (Elt F)) : val2 V0 (Proc.devRef .tc main_arg6) = V0 (Proc.devRef .tc main_arg6) :=
  (L1_keep (val1 V0) main_arg6 (by decide)).trans (val1_main_arg6 V0)
theorem val2_main_arg7 (V0 : Valuation τ sig (Elt F)) : val2 V0 (Proc.devRef .tc main_arg7) = V0 (Proc.devRef .tc main_arg7) :=
  (L1_keep (val1 V0) main_arg7 (by decide)).trans (val1_main_arg7 V0)
theorem val2_main_arg8 (V0 : Valuation τ sig (Elt F)) : val2 V0 (Proc.devRef .tc main_arg8) = V0 (Proc.devRef .tc main_arg8) :=
  (L1_keep (val1 V0) main_arg8 (by decide)).trans (val1_main_arg8 V0)
theorem val2_main_arg9 (V0 : Valuation τ sig (Elt F)) : val2 V0 (Proc.devRef .tc main_arg9) = V0 (Proc.devRef .tc main_arg9) :=
  (L1_keep (val1 V0) main_arg9 (by decide)).trans (val1_main_arg9 V0)
theorem val2_main_arg10 (V0 : Valuation τ sig (Elt F)) : val2 V0 (Proc.devRef .tc main_arg10) = V0 (Proc.devRef .tc main_arg10) :=
  (L1_keep (val1 V0) main_arg10 (by decide)).trans (val1_main_arg10 V0)
theorem val2_main_arg11 (V0 : Valuation τ sig (Elt F)) : val2 V0 (Proc.devRef .tc main_arg11) = V0 (Proc.devRef .tc main_arg11) :=
  (L1_keep (val1 V0) main_arg11 (by decide)).trans (val1_main_arg11 V0)
theorem val2_main_arg12 (V0 : Valuation τ sig (Elt F)) : val2 V0 (Proc.devRef .tc main_arg12) = V0 (Proc.devRef .tc main_arg12) :=
  (L1_keep (val1 V0) main_arg12 (by decide)).trans (val1_main_arg12 V0)
theorem val2_main_v1 (V0 : Valuation τ sig (Elt F)) : val2 V0 (Proc.devRef .tc main_v1) = edgeSrc (V0 (Proc.devRef .tc main_arg1)) :=
  (L1_keep (val1 V0) main_v1 (by decide)).trans (val1_main_v1 V0)
theorem val2_main_v3 (V0 : Valuation τ sig (Elt F)) : val2 V0 (Proc.devRef .tc main_v3) = edgeDst (V0 (Proc.devRef .tc main_arg1)) :=
  (L1_keep (val1 V0) main_v3 (by decide)).trans (val1_main_v3 V0)
theorem val2_x (V0 : Valuation τ sig (Elt F)) : val2 V0 (Proc.devRef .tc main_v107) = (layer1 (layer0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val2
  rw [L1_out, val1_x, val1_main_v1, val1_main_v3, val1_main_arg3, val1_main_arg4, val1_main_arg5, val1_main_arg6, val1_main_arg7, val1_main_arg8]
  rfl

theorem val3_main_arg0 (V0 : Valuation τ sig (Elt F)) : val3 V0 (Proc.devRef .tc main_arg0) = V0 (Proc.devRef .tc main_arg0) :=
  (L2_keep (val2 V0) main_arg0 (by decide)).trans (val2_main_arg0 V0)
theorem val3_main_arg1 (V0 : Valuation τ sig (Elt F)) : val3 V0 (Proc.devRef .tc main_arg1) = V0 (Proc.devRef .tc main_arg1) :=
  (L2_keep (val2 V0) main_arg1 (by decide)).trans (val2_main_arg1 V0)
theorem val3_main_arg2 (V0 : Valuation τ sig (Elt F)) : val3 V0 (Proc.devRef .tc main_arg2) = V0 (Proc.devRef .tc main_arg2) :=
  (L2_keep (val2 V0) main_arg2 (by decide)).trans (val2_main_arg2 V0)
theorem val3_main_arg3 (V0 : Valuation τ sig (Elt F)) : val3 V0 (Proc.devRef .tc main_arg3) = V0 (Proc.devRef .tc main_arg3) :=
  (L2_keep (val2 V0) main_arg3 (by decide)).trans (val2_main_arg3 V0)
theorem val3_main_arg4 (V0 : Valuation τ sig (Elt F)) : val3 V0 (Proc.devRef .tc main_arg4) = V0 (Proc.devRef .tc main_arg4) :=
  (L2_keep (val2 V0) main_arg4 (by decide)).trans (val2_main_arg4 V0)
theorem val3_main_arg5 (V0 : Valuation τ sig (Elt F)) : val3 V0 (Proc.devRef .tc main_arg5) = V0 (Proc.devRef .tc main_arg5) :=
  (L2_keep (val2 V0) main_arg5 (by decide)).trans (val2_main_arg5 V0)
theorem val3_main_arg6 (V0 : Valuation τ sig (Elt F)) : val3 V0 (Proc.devRef .tc main_arg6) = V0 (Proc.devRef .tc main_arg6) :=
  (L2_keep (val2 V0) main_arg6 (by decide)).trans (val2_main_arg6 V0)
theorem val3_main_arg7 (V0 : Valuation τ sig (Elt F)) : val3 V0 (Proc.devRef .tc main_arg7) = V0 (Proc.devRef .tc main_arg7) :=
  (L2_keep (val2 V0) main_arg7 (by decide)).trans (val2_main_arg7 V0)
theorem val3_main_arg8 (V0 : Valuation τ sig (Elt F)) : val3 V0 (Proc.devRef .tc main_arg8) = V0 (Proc.devRef .tc main_arg8) :=
  (L2_keep (val2 V0) main_arg8 (by decide)).trans (val2_main_arg8 V0)
theorem val3_main_arg9 (V0 : Valuation τ sig (Elt F)) : val3 V0 (Proc.devRef .tc main_arg9) = V0 (Proc.devRef .tc main_arg9) :=
  (L2_keep (val2 V0) main_arg9 (by decide)).trans (val2_main_arg9 V0)
theorem val3_main_arg10 (V0 : Valuation τ sig (Elt F)) : val3 V0 (Proc.devRef .tc main_arg10) = V0 (Proc.devRef .tc main_arg10) :=
  (L2_keep (val2 V0) main_arg10 (by decide)).trans (val2_main_arg10 V0)
theorem val3_main_arg11 (V0 : Valuation τ sig (Elt F)) : val3 V0 (Proc.devRef .tc main_arg11) = V0 (Proc.devRef .tc main_arg11) :=
  (L2_keep (val2 V0) main_arg11 (by decide)).trans (val2_main_arg11 V0)
theorem val3_main_arg12 (V0 : Valuation τ sig (Elt F)) : val3 V0 (Proc.devRef .tc main_arg12) = V0 (Proc.devRef .tc main_arg12) :=
  (L2_keep (val2 V0) main_arg12 (by decide)).trans (val2_main_arg12 V0)
theorem val3_main_v1 (V0 : Valuation τ sig (Elt F)) : val3 V0 (Proc.devRef .tc main_v1) = edgeSrc (V0 (Proc.devRef .tc main_arg1)) :=
  (L2_keep (val2 V0) main_v1 (by decide)).trans (val2_main_v1 V0)
theorem val3_main_v3 (V0 : Valuation τ sig (Elt F)) : val3 V0 (Proc.devRef .tc main_v3) = edgeDst (V0 (Proc.devRef .tc main_arg1)) :=
  (L2_keep (val2 V0) main_v3 (by decide)).trans (val2_main_v3 V0)
theorem val3_x (V0 : Valuation τ sig (Elt F)) : val3 V0 (Proc.devRef .tc main_v159) = (layer2 (layer1 (layer0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val3
  rw [L2_out, val2_x, val2_main_v1, val2_main_v3, val2_main_arg3, val2_main_arg4, val2_main_arg5, val2_main_arg6, val2_main_arg7, val2_main_arg8]
  rfl

theorem val4_main_arg0 (V0 : Valuation τ sig (Elt F)) : val4 V0 (Proc.devRef .tc main_arg0) = V0 (Proc.devRef .tc main_arg0) :=
  (L3_keep (val3 V0) main_arg0 (by decide)).trans (val3_main_arg0 V0)
theorem val4_main_arg1 (V0 : Valuation τ sig (Elt F)) : val4 V0 (Proc.devRef .tc main_arg1) = V0 (Proc.devRef .tc main_arg1) :=
  (L3_keep (val3 V0) main_arg1 (by decide)).trans (val3_main_arg1 V0)
theorem val4_main_arg2 (V0 : Valuation τ sig (Elt F)) : val4 V0 (Proc.devRef .tc main_arg2) = V0 (Proc.devRef .tc main_arg2) :=
  (L3_keep (val3 V0) main_arg2 (by decide)).trans (val3_main_arg2 V0)
theorem val4_main_arg3 (V0 : Valuation τ sig (Elt F)) : val4 V0 (Proc.devRef .tc main_arg3) = V0 (Proc.devRef .tc main_arg3) :=
  (L3_keep (val3 V0) main_arg3 (by decide)).trans (val3_main_arg3 V0)
theorem val4_main_arg4 (V0 : Valuation τ sig (Elt F)) : val4 V0 (Proc.devRef .tc main_arg4) = V0 (Proc.devRef .tc main_arg4) :=
  (L3_keep (val3 V0) main_arg4 (by decide)).trans (val3_main_arg4 V0)
theorem val4_main_arg5 (V0 : Valuation τ sig (Elt F)) : val4 V0 (Proc.devRef .tc main_arg5) = V0 (Proc.devRef .tc main_arg5) :=
  (L3_keep (val3 V0) main_arg5 (by decide)).trans (val3_main_arg5 V0)
theorem val4_main_arg6 (V0 : Valuation τ sig (Elt F)) : val4 V0 (Proc.devRef .tc main_arg6) = V0 (Proc.devRef .tc main_arg6) :=
  (L3_keep (val3 V0) main_arg6 (by decide)).trans (val3_main_arg6 V0)
theorem val4_main_arg7 (V0 : Valuation τ sig (Elt F)) : val4 V0 (Proc.devRef .tc main_arg7) = V0 (Proc.devRef .tc main_arg7) :=
  (L3_keep (val3 V0) main_arg7 (by decide)).trans (val3_main_arg7 V0)
theorem val4_main_arg8 (V0 : Valuation τ sig (Elt F)) : val4 V0 (Proc.devRef .tc main_arg8) = V0 (Proc.devRef .tc main_arg8) :=
  (L3_keep (val3 V0) main_arg8 (by decide)).trans (val3_main_arg8 V0)
theorem val4_main_arg9 (V0 : Valuation τ sig (Elt F)) : val4 V0 (Proc.devRef .tc main_arg9) = V0 (Proc.devRef .tc main_arg9) :=
  (L3_keep (val3 V0) main_arg9 (by decide)).trans (val3_main_arg9 V0)
theorem val4_main_arg10 (V0 : Valuation τ sig (Elt F)) : val4 V0 (Proc.devRef .tc main_arg10) = V0 (Proc.devRef .tc main_arg10) :=
  (L3_keep (val3 V0) main_arg10 (by decide)).trans (val3_main_arg10 V0)
theorem val4_main_arg11 (V0 : Valuation τ sig (Elt F)) : val4 V0 (Proc.devRef .tc main_arg11) = V0 (Proc.devRef .tc main_arg11) :=
  (L3_keep (val3 V0) main_arg11 (by decide)).trans (val3_main_arg11 V0)
theorem val4_main_arg12 (V0 : Valuation τ sig (Elt F)) : val4 V0 (Proc.devRef .tc main_arg12) = V0 (Proc.devRef .tc main_arg12) :=
  (L3_keep (val3 V0) main_arg12 (by decide)).trans (val3_main_arg12 V0)
theorem val4_main_v1 (V0 : Valuation τ sig (Elt F)) : val4 V0 (Proc.devRef .tc main_v1) = edgeSrc (V0 (Proc.devRef .tc main_arg1)) :=
  (L3_keep (val3 V0) main_v1 (by decide)).trans (val3_main_v1 V0)
theorem val4_main_v3 (V0 : Valuation τ sig (Elt F)) : val4 V0 (Proc.devRef .tc main_v3) = edgeDst (V0 (Proc.devRef .tc main_arg1)) :=
  (L3_keep (val3 V0) main_v3 (by decide)).trans (val3_main_v3 V0)
theorem val4_x (V0 : Valuation τ sig (Elt F)) : val4 V0 (Proc.devRef .tc main_v211) = (layer3 (layer2 (layer1 (layer0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val4
  rw [L3_out, val3_x, val3_main_v1, val3_main_v3, val3_main_arg3, val3_main_arg4, val3_main_arg5, val3_main_arg6, val3_main_arg7, val3_main_arg8]
  rfl

theorem val5_main_arg0 (V0 : Valuation τ sig (Elt F)) : val5 V0 (Proc.devRef .tc main_arg0) = V0 (Proc.devRef .tc main_arg0) :=
  (L4_keep (val4 V0) main_arg0 (by decide)).trans (val4_main_arg0 V0)
theorem val5_main_arg1 (V0 : Valuation τ sig (Elt F)) : val5 V0 (Proc.devRef .tc main_arg1) = V0 (Proc.devRef .tc main_arg1) :=
  (L4_keep (val4 V0) main_arg1 (by decide)).trans (val4_main_arg1 V0)
theorem val5_main_arg2 (V0 : Valuation τ sig (Elt F)) : val5 V0 (Proc.devRef .tc main_arg2) = V0 (Proc.devRef .tc main_arg2) :=
  (L4_keep (val4 V0) main_arg2 (by decide)).trans (val4_main_arg2 V0)
theorem val5_main_arg3 (V0 : Valuation τ sig (Elt F)) : val5 V0 (Proc.devRef .tc main_arg3) = V0 (Proc.devRef .tc main_arg3) :=
  (L4_keep (val4 V0) main_arg3 (by decide)).trans (val4_main_arg3 V0)
theorem val5_main_arg4 (V0 : Valuation τ sig (Elt F)) : val5 V0 (Proc.devRef .tc main_arg4) = V0 (Proc.devRef .tc main_arg4) :=
  (L4_keep (val4 V0) main_arg4 (by decide)).trans (val4_main_arg4 V0)
theorem val5_main_arg5 (V0 : Valuation τ sig (Elt F)) : val5 V0 (Proc.devRef .tc main_arg5) = V0 (Proc.devRef .tc main_arg5) :=
  (L4_keep (val4 V0) main_arg5 (by decide)).trans (val4_main_arg5 V0)
theorem val5_main_arg6 (V0 : Valuation τ sig (Elt F)) : val5 V0 (Proc.devRef .tc main_arg6) = V0 (Proc.devRef .tc main_arg6) :=
  (L4_keep (val4 V0) main_arg6 (by decide)).trans (val4_main_arg6 V0)
theorem val5_main_arg7 (V0 : Valuation τ sig (Elt F)) : val5 V0 (Proc.devRef .tc main_arg7) = V0 (Proc.devRef .tc main_arg7) :=
  (L4_keep (val4 V0) main_arg7 (by decide)).trans (val4_main_arg7 V0)
theorem val5_main_arg8 (V0 : Valuation τ sig (Elt F)) : val5 V0 (Proc.devRef .tc main_arg8) = V0 (Proc.devRef .tc main_arg8) :=
  (L4_keep (val4 V0) main_arg8 (by decide)).trans (val4_main_arg8 V0)
theorem val5_main_arg9 (V0 : Valuation τ sig (Elt F)) : val5 V0 (Proc.devRef .tc main_arg9) = V0 (Proc.devRef .tc main_arg9) :=
  (L4_keep (val4 V0) main_arg9 (by decide)).trans (val4_main_arg9 V0)
theorem val5_main_arg10 (V0 : Valuation τ sig (Elt F)) : val5 V0 (Proc.devRef .tc main_arg10) = V0 (Proc.devRef .tc main_arg10) :=
  (L4_keep (val4 V0) main_arg10 (by decide)).trans (val4_main_arg10 V0)
theorem val5_main_arg11 (V0 : Valuation τ sig (Elt F)) : val5 V0 (Proc.devRef .tc main_arg11) = V0 (Proc.devRef .tc main_arg11) :=
  (L4_keep (val4 V0) main_arg11 (by decide)).trans (val4_main_arg11 V0)
theorem val5_main_arg12 (V0 : Valuation τ sig (Elt F)) : val5 V0 (Proc.devRef .tc main_arg12) = V0 (Proc.devRef .tc main_arg12) :=
  (L4_keep (val4 V0) main_arg12 (by decide)).trans (val4_main_arg12 V0)
theorem val5_main_v1 (V0 : Valuation τ sig (Elt F)) : val5 V0 (Proc.devRef .tc main_v1) = edgeSrc (V0 (Proc.devRef .tc main_arg1)) :=
  (L4_keep (val4 V0) main_v1 (by decide)).trans (val4_main_v1 V0)
theorem val5_main_v3 (V0 : Valuation τ sig (Elt F)) : val5 V0 (Proc.devRef .tc main_v3) = edgeDst (V0 (Proc.devRef .tc main_arg1)) :=
  (L4_keep (val4 V0) main_v3 (by decide)).trans (val4_main_v3 V0)
theorem val5_x (V0 : Valuation τ sig (Elt F)) : val5 V0 (Proc.devRef .tc main_v263) = (layer4 (layer3 (layer2 (layer1 (layer0 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  unfold val5
  rw [L4_out, val4_x, val4_main_v1, val4_main_v3, val4_main_arg3, val4_main_arg4, val4_main_arg5, val4_main_arg6, val4_main_arg7, val4_main_arg8]
  rfl

theorem val6_main_arg0 (V0 : Valuation τ sig (Elt F)) : val6 V0 (Proc.devRef .tc main_arg0) = V0 (Proc.devRef .tc main_arg0) :=
  (Tail_keep (val5 V0) main_arg0 (by decide)).trans (val5_main_arg0 V0)
theorem val6_main_arg1 (V0 : Valuation τ sig (Elt F)) : val6 V0 (Proc.devRef .tc main_arg1) = V0 (Proc.devRef .tc main_arg1) :=
  (Tail_keep (val5 V0) main_arg1 (by decide)).trans (val5_main_arg1 V0)
theorem val6_main_arg2 (V0 : Valuation τ sig (Elt F)) : val6 V0 (Proc.devRef .tc main_arg2) = V0 (Proc.devRef .tc main_arg2) :=
  (Tail_keep (val5 V0) main_arg2 (by decide)).trans (val5_main_arg2 V0)
theorem val6_main_arg3 (V0 : Valuation τ sig (Elt F)) : val6 V0 (Proc.devRef .tc main_arg3) = V0 (Proc.devRef .tc main_arg3) :=
  (Tail_keep (val5 V0) main_arg3 (by decide)).trans (val5_main_arg3 V0)
theorem val6_main_arg4 (V0 : Valuation τ sig (Elt F)) : val6 V0 (Proc.devRef .tc main_arg4) = V0 (Proc.devRef .tc main_arg4) :=
  (Tail_keep (val5 V0) main_arg4 (by decide)).trans (val5_main_arg4 V0)
theorem val6_main_arg5 (V0 : Valuation τ sig (Elt F)) : val6 V0 (Proc.devRef .tc main_arg5) = V0 (Proc.devRef .tc main_arg5) :=
  (Tail_keep (val5 V0) main_arg5 (by decide)).trans (val5_main_arg5 V0)
theorem val6_main_arg6 (V0 : Valuation τ sig (Elt F)) : val6 V0 (Proc.devRef .tc main_arg6) = V0 (Proc.devRef .tc main_arg6) :=
  (Tail_keep (val5 V0) main_arg6 (by decide)).trans (val5_main_arg6 V0)
theorem val6_main_arg7 (V0 : Valuation τ sig (Elt F)) : val6 V0 (Proc.devRef .tc main_arg7) = V0 (Proc.devRef .tc main_arg7) :=
  (Tail_keep (val5 V0) main_arg7 (by decide)).trans (val5_main_arg7 V0)
theorem val6_main_arg8 (V0 : Valuation τ sig (Elt F)) : val6 V0 (Proc.devRef .tc main_arg8) = V0 (Proc.devRef .tc main_arg8) :=
  (Tail_keep (val5 V0) main_arg8 (by decide)).trans (val5_main_arg8 V0)
theorem val6_main_arg9 (V0 : Valuation τ sig (Elt F)) : val6 V0 (Proc.devRef .tc main_arg9) = V0 (Proc.devRef .tc main_arg9) :=
  (Tail_keep (val5 V0) main_arg9 (by decide)).trans (val5_main_arg9 V0)
theorem val6_main_arg10 (V0 : Valuation τ sig (Elt F)) : val6 V0 (Proc.devRef .tc main_arg10) = V0 (Proc.devRef .tc main_arg10) :=
  (Tail_keep (val5 V0) main_arg10 (by decide)).trans (val5_main_arg10 V0)
theorem val6_main_arg11 (V0 : Valuation τ sig (Elt F)) : val6 V0 (Proc.devRef .tc main_arg11) = V0 (Proc.devRef .tc main_arg11) :=
  (Tail_keep (val5 V0) main_arg11 (by decide)).trans (val5_main_arg11 V0)
theorem val6_main_arg12 (V0 : Valuation τ sig (Elt F)) : val6 V0 (Proc.devRef .tc main_arg12) = V0 (Proc.devRef .tc main_arg12) :=
  (Tail_keep (val5 V0) main_arg12 (by decide)).trans (val5_main_arg12 V0)
theorem val6_out (V0 : Valuation τ sig (Elt F)) : val6 V0 (Proc.devRef .tc main_v284) = out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val6
  rw [Tail_out, val5_x, val5_main_arg2, val5_main_arg9, val5_main_arg10, val5_main_arg11, val5_main_arg12]
  rfl

/-- For any float values: on every device, from any memory with zero counters, every weakly fair execution of @main
    terminates with the result at `out` of the arguments' launch contents and the arguments unchanged. -/
theorem runF (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v284) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v284).trans (by rw [after_wops]; exact val6_out (launchContents m c)),
      (h c main_arg0).trans (by rw [after_wops]; exact val6_main_arg0 (launchContents m c)),
      (h c main_arg1).trans (by rw [after_wops]; exact val6_main_arg1 (launchContents m c)),
      (h c main_arg2).trans (by rw [after_wops]; exact val6_main_arg2 (launchContents m c)),
      (h c main_arg3).trans (by rw [after_wops]; exact val6_main_arg3 (launchContents m c)),
      (h c main_arg4).trans (by rw [after_wops]; exact val6_main_arg4 (launchContents m c)),
      (h c main_arg5).trans (by rw [after_wops]; exact val6_main_arg5 (launchContents m c)),
      (h c main_arg6).trans (by rw [after_wops]; exact val6_main_arg6 (launchContents m c)),
      (h c main_arg7).trans (by rw [after_wops]; exact val6_main_arg7 (launchContents m c)),
      (h c main_arg8).trans (by rw [after_wops]; exact val6_main_arg8 (launchContents m c)),
      (h c main_arg9).trans (by rw [after_wops]; exact val6_main_arg9 (launchContents m c)),
      (h c main_arg10).trans (by rw [after_wops]; exact val6_main_arg10 (launchContents m c)),
      (h c main_arg11).trans (by rw [after_wops]; exact val6_main_arg11 (launchContents m c)),
      (h c main_arg12).trans (by rw [after_wops]; exact val6_main_arg12 (launchContents m c))⟩)
    (run_after m ρ)

/-- The same at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v284) = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  runF m ρ

end Cert.ReferenceIdeal.RefRun

end
-- ==== Proof.RefReadTail.lean ====
/-
  The reference's last stretch read at an entry: the pooled rows through the two-layer output perceptron.

  An affine layer `z · W + b` at entry `(p, j)` is `∑ₖ z(p, k) · W(k, j) + b(j)`: the product is a plain `n×a` by
  `a×d` one, and the bias vector `[d]`, made a row `[1, d]` and repeated along the `n` rows, reads `b(j)` at every row.
  The clip between the two layers is the maximum with the zero word. So the stretch is, index by index, the shared
  specification's output perceptron on the pooled rows, with the bias vectors kept as rows.
-/
import proofs.«142526_j3951369912896_1_alg».proof.Proof.RefRunDefs
import proofs.«142526_j3951369912896_1_alg».proof.Proof.Layer
import proofs.«142526_j3951369912896_1_alg».proof.Proof.LibPlainDot
import Idealize.ShloMosaic.Lib.Pipeline.Value

noncomputable section

open scoped BigOperators

namespace Cert.ReferenceIdeal.RefRun

open Cert.ReferenceIdeal Idealize.ShloMosaic Idealize.ShloMosaic.ValueIdx

/-- A vector `[d]` made a row `[1, d]` reads, at `(z, k)`, the vector at `k`. -/
theorem vecRow_apply {α : Type} {d : ℕ} (h : (⟨1, ![d]⟩ : Shape).BroadcastsInDim ⟨2, ![1, d]⟩ ![1])
    (v : (⟨1, ![d]⟩ : Shape).Idx → α) (z : Fin 1) (k : Fin d) :
    broadcastInDim ⟨2, ![1, d]⟩ ![1] h v (ix2 z k) = v (ix1 k) := by
  refine broadcastInDim_apply _ h v _ (ix1 k) fun a => ?_
  match a with
  | ⟨0, _⟩ =>
    show k.val = if d = 1 then 0 else k.val
    split
    · have := k.isLt; omega
    · rfl

/-- A row `[1, d]` repeated along `n` rows reads, at `(p, k)`, the row at `(0, k)`. -/
theorem rowMat_apply {α : Type} {n d : ℕ} (h : (⟨2, ![1, d]⟩ : Shape).BroadcastsInDim ⟨2, ![n, d]⟩ ![0, 1])
    (v : (⟨2, ![1, d]⟩ : Shape).Idx → α) (p : Fin n) (k : Fin d) :
    broadcastInDim ⟨2, ![n, d]⟩ ![0, 1] h v (ix2 p k) = v (ix2 0 k) := by
  refine broadcastInDim_apply _ h v _ (ix2 0 k) fun a => ?_
  match a with
  | ⟨0, _⟩ =>
    show (0 : ℕ) = if (1 : ℕ) = 1 then 0 else p.val
    rw [if_pos rfl]
  | ⟨1, _⟩ =>
    show k.val = if d = 1 then 0 else k.val
    split
    · have := k.isLt; omega
    · rfl

/-- An affine layer `z · W + b` at entry `(p, j)`: `∑ₖ z(p, k) · W(k, j) + b(j)`. -/
theorem lin_apply {n a d : ℕ} (D : DotDims ⟨2, ![n, a]⟩ ⟨2, ![a, d]⟩ ⟨2, ![n, d]⟩) (hD : D = DotDims.plain n a d)
    (h1 : (⟨1, ![d]⟩ : Shape).BroadcastsInDim ⟨2, ![1, d]⟩ ![1])
    (h2 : (⟨2, ![1, d]⟩ : Shape).BroadcastsInDim ⟨2, ![n, d]⟩ ![0, 1])
    (z : FVec Ideal ⟨2, ![n, a]⟩ .f32) (W : FVec Ideal ⟨2, ![a, d]⟩ .f32) (b : FVec Ideal ⟨1, ![d]⟩ .f32)
    (p : Fin n) (j : Fin d) :
    addf (Host.dotGeneral D none z W) (broadcastInDim ⟨2, ![n, d]⟩ ![0, 1] h2 (broadcastInDim ⟨2, ![1, d]⟩ ![1] h1 b))
        (ix2 p j)
      = (∑ k : Fin a, z (ix2 p k) * W (ix2 k j)) + b (ix1 j) := by
  subst hD
  rw [addf_apply, rowMat_apply, vecRow_apply]
  exact congrArg (· + b (ix1 j)) (Cert.Lib.PlainDot.dotGeneral_apply none .single z W p j)

/-- The output perceptron of the reference on pooled rows `p` is the specification's, the bias vectors kept as rows. -/
theorem headCore_eq (p : Cert.Spec.Mat 128 64) (a9 : FVec Ideal S64x64 .f32) (a10 : FVec Ideal S64 .f32)
    (a11 : FVec Ideal S64x10 .f32) (a12 : FVec Ideal S10 .f32) :
    headCore (F := Ideal) p a9 a10 a11 a12
      = Cert.Spec.headOut p a9 (Cert.Spec.rowOf a10) a11 (Cert.Spec.rowOf a12) := by
  funext i
  obtain ⟨pp, q, rfl⟩ : ∃ (pp : Fin 128) (q : Fin 10), i = ix2 pp q := ⟨i 0, i 1, eq_ix2 (n0 := 128) (n1 := 10) i⟩
  unfold headCore
  refine (lin_apply dot_S128x64_S64x10_S128x10_1_0_0_1_n_n rfl _ _ _ a11 a12 pp q).trans ?_
  unfold Cert.Spec.headOut Cert.Spec.mlpRow
  refine congrArg₂ (· + ·) (Finset.sum_congr rfl fun k _ => congrArg (· * a11 (ix2 k q)) ?_) rfl
  rw [maximumf_apply]
  unfold Cert.Spec.hidden
  exact congrArg₂ max (lin_apply dot_S128x64_S64x64_S128x64_1_0_0_1_n_n rfl _ _ p a9 a10 pp k) rfl

/-- The reference's last stretch — pooling, then the output perceptron — is the specification's output perceptron on
    the pooled rows. -/
theorem tail_eq (x : Cert.Spec.Mat 100000 64) (a2 : IVec S100000 32) (a9 : FVec Ideal S64x64 .f32)
    (a10 : FVec Ideal S64 .f32) (a11 : FVec Ideal S64x10 .f32) (a12 : FVec Ideal S10 .f32) :
    tail (F := Ideal) x a2 a9 a10 a11 a12
      = Cert.Spec.headOut (poolOf (F := Ideal) x a2) a9 (Cert.Spec.rowOf a10) a11 (Cert.Spec.rowOf a12) :=
  headCore_eq (poolOf (F := Ideal) x a2) a9 a10 a11 a12

end Cert.ReferenceIdeal.RefRun

end
-- ==== Proof.RefReadLayer.lean ====
/-
  The reference network read index by index at the extended reals: each layer function is the shared layer formula
  with the two-pass variance, its weights the rows of the stacked arrays, and the tail is the shared head formula on
  the pooled rows.  The neighbourhood sum and the pooling stay named functions; nothing here looks inside them.
-/
import proofs.«142526_j3951369912896_1_alg».proof.Proof.RefRunDefs
import proofs.«142526_j3951369912896_1_alg».proof.Proof.Net
import proofs.«142526_j3951369912896_1_alg».proof.Proof.LibPlainDot
import proofs.«142526_j3951369912896_1_alg».proof.Proof.LibColumnSum
import proofs.«142526_j3951369912896_1_alg».proof.Proof.RefReadTail
import Idealize.ShloMosaic.Lib.Pipeline.Value

noncomputable section

open scoped BigOperators

namespace Cert.ReferenceIdeal.RefRun

open Cert.ReferenceIdeal Cert.ReferenceIdeal.Gen Idealize.ShloMosaic Idealize.ShloMosaic.ValueIdx

/-! ## Layout steps at an index -/

/-- A scalar repeated over any shape reads the scalar everywhere. -/
theorem bc0_apply {α : Type} {S : Shape} (h : S_.BroadcastsInDim S (![] : Fin 0 → Fin S.rank)) (c : S_.Idx → α) (i : S.Idx) :
    broadcastInDim S ![] h c i = c ix0 :=
  broadcastInDim_apply _ h c i ix0 fun a => a.elim0

/-- The host's quotient at an index. -/
theorem hdivf_apply {s : Shape} (a b : FVec Ideal s .f32) (i : s.Idx) : Host.divf a b i = Ideal.div (a i) (b i) := rfl
/-- The host's reciprocal square root at an index. -/
theorem hrsqrt_apply {s : Shape} (a : FVec Ideal s .f32) (i : s.Idx) : Host.rsqrt a i = Ideal.rsqrt (a i) := rfl

/-- A 64-vector as a 1×64 row reads the vector at the column. -/
theorem bcVecRow_apply {α : Type} (b : S64.Idx → α) (z : Fin 1) (q : Fin 64) :
    broadcastInDim S1x64 ![1] bcast_S64_S1x64_1 b (ix2 z q) = b (ix1 q) :=
  vecRow_apply bcast_S64_S1x64_1 b z q

/-- A 1×64 row repeated along 100000 rows reads the row at the column. -/
theorem bcRowMat_apply {α : Type} (v : S1x64.Idx → α) (r : Fin 100000) (q : Fin 64) :
    broadcastInDim S100000x64 ![0, 1] bcast_S1x64_S100000x64_0_1 v (ix2 r q) = v (ix2 0 q) :=
  rowMat_apply bcast_S1x64_S100000x64_0_1 v r q

theorem rowB_apply (b : FVec Ideal S64 .f32) (r : Fin 100000) (q : Fin 64) : rowB b (ix2 r q) = b (ix1 q) := by
  unfold rowB
  rw [bcRowMat_apply, bcVecRow_apply]

/-- The maximum with zero, at an entry. -/
theorem reluCore_apply (z : FVec Ideal S100000x64 .f32) (i : S100000x64.Idx) : reluCore z i = max (z i) Cert.Spec.zero32 := by
  unfold reluCore
  rw [maximumf_apply, bc0_apply]
  rfl

/-- The host's product of a 100000×64 by a 64×64 matrix, at an entry. -/
theorem dot_apply (x : FVec Ideal S100000x64 .f32) (W : FVec Ideal S64x64 .f32) (r : Fin 100000) (j : Fin 64) :
    Host.dotGeneral dot_S100000x64_S64x64_S100000x64_1_0_0_1_n_n none x W (ix2 r j) = ∑ k : Fin 64, x (ix2 r k) * W (ix2 k j) :=
  Cert.Lib.PlainDot.dotGeneral_apply (M := 100000) (K := 64) (N := 64) none .single x W r j

theorem linCore_apply (x : FVec Ideal S100000x64 .f32) (W : FVec Ideal S64x64 .f32) (B : FVec Ideal S64 .f32)
    (r : Fin 100000) (j : Fin 64) :
    linCore x W B (ix2 r j) = (∑ k : Fin 64, x (ix2 r k) * W (ix2 k j)) + B (ix1 j) := by
  unfold linCore
  rw [addf_apply, dot_apply, rowB_apply]

/-- The perceptron before normalization is the shared row formula. -/
theorem yCore_eq (x agg : FVec Ideal S100000x64 .f32) (W1 : FVec Ideal S64x64 .f32) (B1 : FVec Ideal S64 .f32)
    (W2 : FVec Ideal S64x64 .f32) (B2 : FVec Ideal S64 .f32) :
    yCore x agg W1 B1 W2 B2 = Cert.Spec.mlpOut x agg W1 (Cert.Spec.rowOf B1) W2 (Cert.Spec.rowOf B2) := by
  funext i
  obtain ⟨r, j, rfl⟩ : ∃ (r : Fin 100000) (j : Fin 64), i = ix2 r j := ⟨i 0, i 1, eq_ix2 (n0 := 100000) (n1 := 64) i⟩
  unfold yCore
  rw [linCore_apply]
  simp only [reluCore_apply, linCore_apply, addf_apply]
  rfl

/-- A column sum on the host, from zero: the sum of the column. -/
theorem colReduce_apply (y : FVec Ideal S100000x64 .f32) (j : Fin 64) :
    Host.reduceAdd y (constant (F := Ideal) S_ .f32 0x00000000#32) reducesTo_S100000x64_S64_d0 h_S_ (ix1 j)
      = ∑ r : Fin 100000, y (ix2 r j) := by
  have hR : S100000x64.Reduces [0] S64 := by decide
  show Ideal.hostReduceAdd reducesTo_S100000x64_S64_d0 y (Ideal.ofBits .f32 0x00000000#32) (ix1 j) = _
  rw [Ideal.hostReduceAdd_single _ hR, Ideal.ofBits_zero_f32, zero_add]
  exact Finset.sum_congr rfl fun k _ => congrArg y (Idealize.ShloMosaic.ValueKeepdims.lift_axis0_ix2 hR j k)

/-- The column means are the shared mean row. -/
theorem meanCore_apply (y : FVec Ideal S100000x64 .f32) (j : Fin 64) :
    meanCore y (ix1 j) = Cert.Spec.meanOf y (ix2 0 j) := by
  unfold meanCore
  show Ideal.div (Host.reduceAdd y (constant (F := Ideal) S_ .f32 0x00000000#32) reducesTo_S100000x64_S64_d0 h_S_ (ix1 j))
      (broadcastInDim S64 ![] bcast_S_S64 (constant (F := Ideal) S_ .f32 0x47C35000#32) (ix1 j)) = _
  rw [colReduce_apply, bc0_apply]
  rfl

theorem meanCore_eq (y : FVec Ideal S100000x64 .f32) : Cert.Spec.rowOf (meanCore y) = Cert.Spec.meanOf y := by
  funext i
  obtain ⟨z, j, rfl⟩ : ∃ (z : Fin 1) (j : Fin 64), i = ix2 z j := ⟨i 0, i 1, eq_ix2 (n0 := 1) (n1 := 64) i⟩
  obtain rfl : z = 0 := Subsingleton.elim _ _
  exact meanCore_apply y j

/-- The deviations inside the variance are from the same mean. -/
theorem varDev_apply (y : FVec Ideal S100000x64 .f32) (r : Fin 100000) (j : Fin 64) :
    varDev y (ix2 r j) = y (ix2 r j) - Cert.Spec.meanOf y (ix2 0 j) := by
  unfold varDev
  rw [subf_apply, bcRowMat_apply]
  show y (ix2 r j) - Ideal.div (broadcastInDim S1x64 ![1] bcast_S64_S1x64_1
      (Host.reduceAdd y (constant (F := Ideal) S_ .f32 0x00000000#32) reducesTo_S100000x64_S64_d0 h_S_) (ix2 0 j))
      (broadcastInDim S1x64 ![] bcast_S_S1x64 (constant (F := Ideal) S_ .f32 0x47C35000#32) (ix2 0 j)) = _
  rw [bcVecRow_apply, colReduce_apply, bc0_apply]
  rfl

/-- The divisor `100000 - 0` is the row count. -/
theorem cntSub : (subf (constant (F := Ideal) S_ .f32 0x47C35000#32) (sitofp .f32 (constantI S_ 32 0#32)) : FVec Ideal S_ .f32) ix0
    = Cert.Spec.cnt32 := by
  show Cert.Spec.cnt32 - (((0#32 : BitVec 32).toInt : ℝ) : EReal) = Cert.Spec.cnt32
  have h0 : (0#32 : BitVec 32).toInt = 0 := by decide
  rw [h0, Int.cast_zero, EReal.coe_zero, sub_zero]

/-- A scalar repeated over a 64-vector reads the scalar at every entry. -/
theorem bcS64_apply {α : Type} (c : S_.Idx → α) (j : Fin 64) :
    broadcastInDim S64 ![] bcast_S_S64 c (ix1 j) = c ix0 :=
  bc0_apply bcast_S_S64 c (ix1 j)

/-- The column variances are the shared two-pass variance row. -/
theorem varCore_apply (y : FVec Ideal S100000x64 .f32) (j : Fin 64) :
    varCore y (ix1 j) = Cert.Spec.varTwoPass y (ix2 0 j) := by
  have hpos : FloatOps.cmpf (F := Ideal) .ogt Cert.Spec.cnt32 ((constant (F := Ideal) S_ .f32 0x00000000#32) ix0) = 1#1 := by
    show BitVec.ofBool (decide (Ideal.ofBits .f32 0x00000000#32 < Cert.Spec.cnt32)) = 1#1
    rw [Ideal.ofBits_zero_f32, Cert.Spec.cnt32_eq]
    have h : (0 : EReal) < ((100000 : ℝ) : EReal) := EReal.coe_pos.mpr (by norm_num)
    rw [decide_eq_true h]
    rfl
  have hc : broadcastInDim S64 ![] bcast_S_S64
      (cmpf .ogt (subf (constant (F := Ideal) S_ .f32 0x47C35000#32) (sitofp .f32 (constantI S_ 32 0#32)))
        (constant (F := Ideal) S_ .f32 0x00000000#32)) (ix1 j) = 1#1 := by
    rw [bcS64_apply, cmpf_apply, cntSub]
    exact hpos
  have hd : broadcastInDim S64 ![] bcast_S_S64
      (subf (constant (F := Ideal) S_ .f32 0x47C35000#32) (sitofp .f32 (constantI S_ 32 0#32))) (ix1 j)
        = Cert.Spec.cnt32 := by
    rw [bcS64_apply, cntSub]
  unfold varCore
  rw [select_apply, hc, select_one, hdivf_apply, hd, colReduce_apply]
  simp only [mulf_apply, varDev_apply]
  rfl

theorem varCore_eq (y : FVec Ideal S100000x64 .f32) : Cert.Spec.rowOf (varCore y) = Cert.Spec.varTwoPass y := by
  funext i
  obtain ⟨z, j, rfl⟩ : ∃ (z : Fin 1) (j : Fin 64), i = ix2 z j := ⟨i 0, i 1, eq_ix2 (n0 := 1) (n1 := 64) i⟩
  obtain rfl : z = 0 := Subsingleton.elim _ _
  exact varCore_apply y j

/-- Normalization, scale, shift and the maximum with zero are the shared formula. -/
theorem bnCore_eq (y : FVec Ideal S100000x64 .f32) (mean var g bt : FVec Ideal S64 .f32) :
    bnCore y mean var g bt
      = Cert.Spec.bnOut y (Cert.Spec.rowOf mean) (Cert.Spec.rowOf var) (Cert.Spec.rowOf g) (Cert.Spec.rowOf bt) := by
  funext i
  obtain ⟨r, j, rfl⟩ : ∃ (r : Fin 100000) (j : Fin 64), i = ix2 r j := ⟨i 0, i 1, eq_ix2 (n0 := 100000) (n1 := 64) i⟩
  unfold bnCore
  rw [reluCore_apply]
  simp only [addf_apply, mulf_apply, subf_apply, rowB_apply, hrsqrt_apply, bc0_apply]
  rfl

/-- One layer is the shared layer formula with the two-pass variance. -/
theorem layerCore_eq (x : FVec Ideal S100000x64 .f32) (v1 v3 : IVec S1600000 32) (W1 : FVec Ideal S64x64 .f32)
    (B1 : FVec Ideal S64 .f32) (W2 : FVec Ideal S64x64 .f32) (B2 g bt : FVec Ideal S64 .f32) :
    layerCore x v1 v3 W1 B1 W2 B2 g bt
      = Cert.Spec.layerWith Cert.Spec.varTwoPass x (aggCore x v1 v3) W1 (Cert.Spec.rowOf B1) W2 (Cert.Spec.rowOf B2)
          (Cert.Spec.rowOf g) (Cert.Spec.rowOf bt) := by
  unfold layerCore Cert.Spec.layerWith
  rw [bnCore_eq, meanCore_eq, varCore_eq, yCore_eq]

/-! ## The rows of the stacked parameters -/

theorem matAt_eq (k : Nat) (hk : k < 5) (h : S5x64x64.Slices ![k, 0, 0] S1x64x64) (a : FVec Ideal S5x64x64 .f32) :
    matAt k h a = Cert.Spec.matAt a ⟨k, hk⟩ := by
  funext i
  obtain ⟨p, q, rfl⟩ : ∃ (p : Fin 64) (q : Fin 64), i = ix2 p q := ⟨i 0, i 1, eq_ix2 (n0 := 64) (n1 := 64) i⟩
  unfold matAt
  exact Cert.Spec.sliceMat_apply k hk a h shapeCasts_S1x64x64_S64x64 p q

theorem vecAt_eq (k : Nat) (hk : k < 5) (h : S5x64.Slices ![k, 0] S1x64) (a : FVec Ideal S5x64 .f32) :
    Cert.Spec.rowOf (vecAt k h a) = Cert.Spec.rowAt a ⟨k, hk⟩ := by
  funext i
  obtain ⟨z, q, rfl⟩ : ∃ (z : Fin 1) (q : Fin 64), i = ix2 z q := ⟨i 0, i 1, eq_ix2 (n0 := 1) (n1 := 64) i⟩
  unfold vecAt
  show shapeCast S64 (extractStridedSlice S1x64 ![k, 0] a h) shapeCasts_S1x64_S64 (ix1 q) = a (ix2 ⟨k, hk⟩ q)
  rw [Cert.Cheb.Layout.castRowVec_apply, Cert.Cheb.Layout.sliceRow_apply k hk]

theorem layer0_eq (x : FVec Ideal S100000x64 .f32) (a1 : IVec S2x1600000 32) (a3 : FVec Ideal S5x64x64 .f32)
    (a4 : FVec Ideal S5x64 .f32) (a5 : FVec Ideal S5x64x64 .f32) (a6 a7 a8 : FVec Ideal S5x64 .f32) :
    layer0 x a1 a3 a4 a5 a6 a7 a8
      = Cert.Spec.layerAt Cert.Spec.varTwoPass (fun z => aggCore z (edgeSrc a1) (edgeDst a1)) ⟨a3, a4, a5, a6, a7, a8⟩ 0 x := by
  unfold layer0
  rw [layerCore_eq, matAt_eq 0 (by decide), matAt_eq 0 (by decide), vecAt_eq 0 (by decide), vecAt_eq 0 (by decide),
    vecAt_eq 0 (by decide), vecAt_eq 0 (by decide)]
  rfl

theorem layer1_eq (x : FVec Ideal S100000x64 .f32) (a1 : IVec S2x1600000 32) (a3 : FVec Ideal S5x64x64 .f32)
    (a4 : FVec Ideal S5x64 .f32) (a5 : FVec Ideal S5x64x64 .f32) (a6 a7 a8 : FVec Ideal S5x64 .f32) :
    layer1 x a1 a3 a4 a5 a6 a7 a8
      = Cert.Spec.layerAt Cert.Spec.varTwoPass (fun z => aggCore z (edgeSrc a1) (edgeDst a1)) ⟨a3, a4, a5, a6, a7, a8⟩ 1 x := by
  unfold layer1
  rw [layerCore_eq, matAt_eq 1 (by decide), matAt_eq 1 (by decide), vecAt_eq 1 (by decide), vecAt_eq 1 (by decide),
    vecAt_eq 1 (by decide), vecAt_eq 1 (by decide)]
  rfl

theorem layer2_eq (x : FVec Ideal S100000x64 .f32) (a1 : IVec S2x1600000 32) (a3 : FVec Ideal S5x64x64 .f32)
    (a4 : FVec Ideal S5x64 .f32) (a5 : FVec Ideal S5x64x64 .f32) (a6 a7 a8 : FVec Ideal S5x64 .f32) :
    layer2 x a1 a3 a4 a5 a6 a7 a8
      = Cert.Spec.layerAt Cert.Spec.varTwoPass (fun z => aggCore z (edgeSrc a1) (edgeDst a1)) ⟨a3, a4, a5, a6, a7, a8⟩ 2 x := by
  unfold layer2
  rw [layerCore_eq, matAt_eq 2 (by decide), matAt_eq 2 (by decide), vecAt_eq 2 (by decide), vecAt_eq 2 (by decide),
    vecAt_eq 2 (by decide), vecAt_eq 2 (by decide)]
  rfl

theorem layer3_eq (x : FVec Ideal S100000x64 .f32) (a1 : IVec S2x1600000 32) (a3 : FVec Ideal S5x64x64 .f32)
    (a4 : FVec Ideal S5x64 .f32) (a5 : FVec Ideal S5x64x64 .f32) (a6 a7 a8 : FVec Ideal S5x64 .f32) :
    layer3 x a1 a3 a4 a5 a6 a7 a8
      = Cert.Spec.layerAt Cert.Spec.varTwoPass (fun z => aggCore z (edgeSrc a1) (edgeDst a1)) ⟨a3, a4, a5, a6, a7, a8⟩ 3 x := by
  unfold layer3
  rw [layerCore_eq, matAt_eq 3 (by decide), matAt_eq 3 (by decide), vecAt_eq 3 (by decide), vecAt_eq 3 (by decide),
    vecAt_eq 3 (by decide), vecAt_eq 3 (by decide)]
  rfl

theorem layer4_eq (x : FVec Ideal S100000x64 .f32) (a1 : IVec S2x1600000 32) (a3 : FVec Ideal S5x64x64 .f32)
    (a4 : FVec Ideal S5x64 .f32) (a5 : FVec Ideal S5x64x64 .f32) (a6 a7 a8 : FVec Ideal S5x64 .f32) :
    layer4 x a1 a3 a4 a5 a6 a7 a8
      = Cert.Spec.layerAt Cert.Spec.varTwoPass (fun z => aggCore z (edgeSrc a1) (edgeDst a1)) ⟨a3, a4, a5, a6, a7, a8⟩ 4 x := by
  unfold layer4
  rw [layerCore_eq, matAt_eq 4 (by decide), matAt_eq 4 (by decide), vecAt_eq 4 (by decide), vecAt_eq 4 (by decide),
    vecAt_eq 4 (by decide), vecAt_eq 4 (by decide)]
  rfl

/-! ## The whole network -/

/-- The whole reference network: the shared head formula on the pooled rows of the five shared layers. -/
theorem out_eq (a0 : FVec Ideal S100000x64 .f32) (a1 : IVec S2x1600000 32) (a2 : IVec S100000 32) (a3 : FVec Ideal S5x64x64 .f32)
    (a4 : FVec Ideal S5x64 .f32) (a5 : FVec Ideal S5x64x64 .f32) (a6 a7 a8 : FVec Ideal S5x64 .f32) (a9 : FVec Ideal S64x64 .f32)
    (a10 : FVec Ideal S64 .f32) (a11 : FVec Ideal S64x10 .f32) (a12 : FVec Ideal S10 .f32) :
    out a0 a1 a2 a3 a4 a5 a6 a7 a8 a9 a10 a11 a12
      = Cert.Spec.headOut (poolOf (F := Ideal) (Cert.Spec.feats Cert.Spec.varTwoPass
          (fun z => aggCore (F := Ideal) z (edgeSrc a1) (edgeDst a1))
          (⟨a3, a4, a5, a6, a7, a8⟩ : Cert.Spec.Weights) a0) a2) a9 (Cert.Spec.rowOf a10) a11 (Cert.Spec.rowOf a12) := by
  unfold out
  rw [tail_eq, layer4_eq, layer3_eq, layer2_eq, layer1_eq, layer0_eq]
  rfl

end Cert.ReferenceIdeal.RefRun

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FinArgs.lean ====
/-
  From the "every float input is finite" precondition to: every entry of every float argument is a real number.

  The precondition is a conjunction (a chain of one-bit `and`s) of eleven tests, one per float argument `x`:
  `all (|x| < +inf)`, i.e. the elementwise comparison of `|x|` against the f32 pattern of `+inf`, reduced by `and`
  over every axis to one bit. The conjunction being 1 makes each test 1; a reduction by `and` that is 1 met only 1s;
  and `|a| < +inf` on the extended reals excludes both infinities, so `a` is a real number.
-/
import proofs.«142526_j3951369912896_1_alg».proof.Pre_finite_inputs
import proofs.«142526_j3951369912896_1_alg».proof.Proof.LibFiniteEntry
import Idealize.ShloMosaic.Lib.ReduceAll
import Idealize.ShloMosaic.Lib.ValueIdx
import Idealize.ShloMosaic.PureOps.Ideal

noncomputable section

namespace Cert.Fin

open Idealize.ShloMosaic Cert.Pre_finite_inputs Cert.Lib.FiniteEntry

/-- One argument's test `all (|x| < +inf)` being 1: every entry of `x` is a real number. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (x : FVec Ideal s .f32)
    (e : Host.reduce IntOp.andi
          (cmpf .olt (Host.absf x) (broadcastInDim s ![] hb (constant (F := Ideal) ⟨0, ![]⟩ .f32 0x7F800000#32)))
          (constantI ⟨0, ![]⟩ 1 1#1) hr hu ValueIdx.ix0 = 1#1) :
    ∀ i : s.Idx, ∃ r : ℝ, x i = (r : EReal) :=
  fun i => entry_real hb x i (Host.reduce_andi_all _ _ hr hu ValueIdx.ix0 e i)

/-- The precondition at the extended reals: all eleven float arguments are entrywise real (in argument order;
    the two integer arguments are not constrained). -/
theorem args_real [Cert.Pre_finite_inputs.Facts]
    (a0 : FVec Ideal S100000x64 .f32) (a1 : IVec S2x1600000 32) (a2 : IVec S100000 32)
    (a3 : FVec Ideal S5x64x64 .f32) (a4 : FVec Ideal S5x64 .f32) (a5 : FVec Ideal S5x64x64 .f32)
    (a6 : FVec Ideal S5x64 .f32) (a7 : FVec Ideal S5x64 .f32) (a8 : FVec Ideal S5x64 .f32)
    (a9 : FVec Ideal S64x64 .f32) (a10 : FVec Ideal S64 .f32) (a11 : FVec Ideal S64x10 .f32)
    (a12 : FVec Ideal S10 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, ∃ r : ℝ, a12 i = (r : EReal)) := by
  have h0 := congrFun h ValueIdx.ix0
  dsimp only [fn, fn_part1, fn_part2, fn_part3, andi] at h0
  simp only [IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨all_real _ _ _ a0 e0, all_real _ _ _ a3 e3, all_real _ _ _ a4 e4, all_real _ _ _ a5 e5,
    all_real _ _ _ a6 e6, all_real _ _ _ a7 e7, all_real _ _ _ a8 e8, all_real _ _ _ a9 e9,
    all_real _ _ _ a10 e10, all_real _ _ _ a11 e11, all_real _ _ _ a12 e12⟩

end Cert.Fin

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.FinBasic.lean ====
/-
  Real numbers inside the extended reals are closed under the arithmetic a layer uses.

  "`a` is a real number" is written `∃ r : ℝ, a = (r : EReal)`. Sums, differences, products, maxima and finite sums of
  real numbers are real numbers; the quotient by a nonzero real is; the float words of `0` and of the variance guard `ε`
  are real numbers (`ε = (2²³ + 2606508) · 2⁻⁴⁰ > 0`); and the reciprocal square root of `v + ε` for a real `v ≥ 0` is
  the real number `1 / √(v + ε)`.
-/
import Idealize.ShloMosaic.PureOps.Ideal
import Idealize.ShloMosaic.PureOps.Ideal.Laws
import Mathlib.Data.EReal.Operations
import Mathlib.Data.EReal.Inv
import Mathlib.Tactic.Positivity
import Mathlib.Tactic.NormNum
import proofs.«142526_j3951369912896_1_alg».proof.Proof.LibERealSum

noncomputable section

open scoped BigOperators

namespace Cert.Fin

open Idealize.ShloMosaic

/-- The extended real `0` is the real number `0`. -/
theorem zero_real : ∃ r : ℝ, (0 : EReal) = (r : EReal) := ⟨0, EReal.coe_zero.symm⟩

/-- The float word of zero is the real number `0`. -/
theorem zero32_real : ∃ r : ℝ, Ideal.ofBits .f32 0x00000000#32 = (r : EReal) :=
  ⟨0, Ideal.ofBits_zero_f32.trans EReal.coe_zero.symm⟩

theorem add_real {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem sub_real {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

theorem mul_real {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two real numbers is one of them. -/
theorem max_real {a b : EReal} (ha : ∃ r : ℝ, a = (r : EReal)) (hb : ∃ r : ℝ, b = (r : EReal)) :
    ∃ r : ℝ, max a b = (r : EReal) := by
  rcases max_choice a b with h | h
  · rw [h]; exact ha
  · rw [h]; exact hb

/-- A finite sum of real numbers is a real number. -/
theorem sum_real {ι : Type*} [Fintype ι] (f : ι → EReal) (h : ∀ i, ∃ r : ℝ, f i = (r : EReal)) :
    ∃ r : ℝ, ∑ i, f i = (r : EReal) := by
  choose g hg using h
  exact ⟨∑ i, g i, by rw [Cert.Lib.ERealSum.coe_sum]; exact Finset.sum_congr rfl fun i _ => hg i⟩

/-- The quotient of a real number by a nonzero real number is a real number. -/
theorem div_real {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨s, hs, rfl⟩ := hb
  exact ⟨r * (1 / s), by rw [Ideal.div_coe hs, EReal.coe_mul]⟩

/-- The float word `0x3727C5AC` of the variance guard is `(2²³ + 2606508) · 2⁻⁴⁰`. -/
theorem eps32_eq : Ideal.ofBits .f32 0x3727C5AC#32 = ((10995116 * (2 : ℝ) ^ (-40 : ℤ) : ℝ) : EReal) := by
  simp [Ideal.ofBits, Ideal.ieee, -EReal.coe_mul]

/-- The variance guard is a positive real number. -/
theorem eps32_pos_real : ∃ ε : ℝ, 0 < ε ∧ Ideal.ofBits .f32 0x3727C5AC#32 = (ε : EReal) :=
  ⟨10995116 * (2 : ℝ) ^ (-40 : ℤ), by positivity, eps32_eq⟩

/-- For a real `v ≥ 0`, `rsqrt (v + ε)` is the real number `1 / √(v + ε)`. -/
theorem rsqrt_add_eps_real {a : EReal} (ha : ∃ r : ℝ, 0 ≤ r ∧ a = (r : EReal)) :
    ∃ r : ℝ, Ideal.rsqrt (a + Ideal.ofBits .f32 0x3727C5AC#32) = (r : EReal) := by
  obtain ⟨v, hv0, rfl⟩ := ha
  obtain ⟨ε, hε, he⟩ := eps32_pos_real
  have hpos : 0 < v + ε := by positivity
  rw [he, ← EReal.coe_add, Ideal.rsqrt_coe, if_neg (not_lt.mpr hpos.le), if_neg hpos.ne']
  exact ⟨_, rfl⟩

end Cert.Fin

end
-- ==== Proof.FinLayer.lean ====
/-
  One layer keeps the reals.

  A layer's perceptron `relu((x + agg) · W₁ + b₁) · W₂ + b₂` is built from finite sums, products and sums of its
  operands' entries and a maximum with `0`; the normalisation `relu(γ · (y − mean) · rsqrt(var + ε) + β)` from
  differences, products, a maximum with `0` and the reciprocal square root of `var + ε`, which for a real `var ≥ 0` and
  the positive real `ε` is the real number `1 / √(var + ε)`. So real operands give real results, entry by entry; the
  same for the head's perceptron and for the column sums.
-/
import proofs.«142526_j3951369912896_1_alg».proof.Proof.Spec
import proofs.«142526_j3951369912896_1_alg».proof.Proof.FinBasic

noncomputable section

open scoped BigOperators

namespace Cert.Fin

open Idealize.ShloMosaic Idealize.ShloMosaic.ValueIdx Cert.Spec

/-- A hidden unit of the perceptron on a real row with real weights is real. -/
theorem hidden_real {a : ℕ} (h : Fin a → EReal) (w1 : Mat a 64) (b1 : Mat 1 64) (k : Fin 64)
    (hh : ∀ k', ∃ r : ℝ, h k' = (r : EReal)) (hw1 : ∀ i, ∃ r : ℝ, w1 i = (r : EReal))
    (hb1 : ∀ i, ∃ r : ℝ, b1 i = (r : EReal)) : ∃ r : ℝ, Cert.Spec.hidden h w1 b1 k = (r : EReal) := by
  unfold Cert.Spec.hidden
  exact max_real (add_real (sum_real _ fun k' => mul_real (hh k') (hw1 _)) (hb1 _)) zero32_real

/-- An output of the perceptron on a real row with real weights is real. -/
theorem mlpRow_real {a d : ℕ} (h : Fin a → EReal) (w1 : Mat a 64) (b1 : Mat 1 64) (w2 : Mat 64 d) (b2 : Mat 1 d)
    (j : Fin d) (hh : ∀ k', ∃ r : ℝ, h k' = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal)) : ∃ r : ℝ, mlpRow h w1 b1 w2 b2 j = (r : EReal) := by
  unfold mlpRow
  exact add_real (sum_real _ fun k => mul_real (hidden_real h w1 b1 k hh hw1 hb1) (hw2 _)) (hb2 _)

/-- A layer's perceptron on entrywise real features, neighbour sums and weights is entrywise real. -/
theorem mlp_real {n : ℕ} (x agg : Mat n 64) (w1 : Mat 64 64) (b1 : Mat 1 64) (w2 : Mat 64 64) (b2 : Mat 1 64)
    (hx : ∀ i, ∃ r : ℝ, x i = (r : EReal)) (hagg : ∀ i, ∃ r : ℝ, agg i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) :
    ∀ i, ∃ r : ℝ, mlpOut x agg w1 b1 w2 b2 i = (r : EReal) := by
  intro i
  unfold mlpOut
  exact mlpRow_real _ w1 b1 w2 b2 (i 1) (fun k => add_real (hx _) (hagg _)) hw1 hb1 hw2 hb2

/-- The head's perceptron on entrywise real pooled rows and weights is entrywise real. -/
theorem head_real {n d : ℕ} (p : Mat n 64) (w1 : Mat 64 64) (b1 : Mat 1 64) (w2 : Mat 64 d) (b2 : Mat 1 d)
    (hp : ∀ i, ∃ r : ℝ, p i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) :
    ∀ i, ∃ r : ℝ, headOut p w1 b1 w2 b2 i = (r : EReal) := by
  intro i
  unfold headOut
  exact mlpRow_real _ w1 b1 w2 b2 (i 1) (fun k => hp _) hw1 hb1 hw2 hb2

/-- The column sums of an entrywise real matrix are real. -/
theorem colSum_real {n : ℕ} (y : Mat n 64) (hy : ∀ i, ∃ r : ℝ, y i = (r : EReal)) :
    ∀ i, ∃ r : ℝ, colSum y i = (r : EReal) := by
  intro i
  unfold colSum
  exact sum_real _ fun r => hy _

/-- The column sums of the squares of an entrywise real matrix are real. -/
theorem colSumSq_real {n : ℕ} (y : Mat n 64) (hy : ∀ i, ∃ r : ℝ, y i = (r : EReal)) :
    ∀ i, ∃ r : ℝ, colSumSq y i = (r : EReal) := by
  intro i
  unfold colSumSq
  exact sum_real _ fun r => mul_real (hy _) (hy _)

/-- The normalised, shifted and clipped rows of an entrywise real `y`, for real `mean`, `γ`, `β` and a real variance
    row that is not negative, are entrywise real. -/
theorem bn_real {n : ℕ} (y : Mat n 64) (mean var gamma beta : Mat 1 64)
    (hy : ∀ i, ∃ r : ℝ, y i = (r : EReal)) (hmean : ∀ i, ∃ r : ℝ, mean i = (r : EReal))
    (hvar : ∀ j : Fin 64, ∃ r : ℝ, 0 ≤ r ∧ var (ix2 0 j) = (r : EReal))
    (hg : ∀ i, ∃ r : ℝ, gamma i = (r : EReal)) (hb : ∀ i, ∃ r : ℝ, beta i = (r : EReal)) :
    ∀ i, ∃ r : ℝ, bnOut y mean var gamma beta i = (r : EReal) := by
  intro i
  unfold bnOut
  exact max_real (add_real (mul_real (mul_real (hg _) (sub_real (hy _) (hmean _)))
    (rsqrt_add_eps_real (hvar (i 1)))) (hb _)) zero32_real

end Cert.Fin

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«142526_j3951369912896_1_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.FinAggReal.lean ====
/-
  The neighbour sum keeps the reals.

  Read at entry `(i, k)`, the neighbour sum is `0` plus the sum over all edges `e` of: `x` at the edge's (wrapped and
  clamped) source row, column `k`, when the edge's destination is `i`, and `0` otherwise. Each summand is an entry of `x`
  or `0`; a finite sum of real numbers is a real number.
-/
import proofs.«142526_j3951369912896_1_alg».proof.Proof.FinAgg
import proofs.«142526_j3951369912896_1_alg».proof.Proof.FinBasic
import proofs.«142526_j3951369912896_1_alg».proof.Proof.LibEdgeAggregate

noncomputable section

open scoped BigOperators

namespace Cert.Fin

open Idealize.ShloMosaic Idealize.ShloMosaic.ValueIdx Cert.KernelIdeal Cert.KernelIdeal.Facts₀
open Cert.Lib.Rows Cert.Lib.EdgeAggregate

variable [Cert.KernelIdeal.Facts₀]

/-- The program's gather record is "rows of an `[N, 64]` matrix at an index column `[E, 1]`". -/
theorem gather_eq : gather_S100000x64_S1600000x1_S1600000x64_1_0_n_n_0_1_164
    = rowGatherDims 100000 1600000 64 gather_S100000x64_S1600000x1_S1600000x64_1_0_n_n_0_1_164_wf := rfl

/-- The program's scatter record is "update rows `[E, 64]` added onto the rows of an `[N, 64]` operand that an index
    column `[E, 1]` names". -/
theorem scatter_eq : scatter_S100000x64_S1600000x1_S1600000x64_1_0_0_1
    = rowScatterDims 100000 1600000 64 scatter_S100000x64_S1600000x1_S1600000x64_1_0_0_1_wf := rfl

/-- The neighbour sum at `(i, k)`: `0` plus the sum over the edges of the per-edge contribution. -/
theorem aggRows_apply (x : Cert.Spec.Mat 100000 64) (src dst : IVec S1600000 32) (i : Fin 100000) (k : Fin 64) :
    aggRows x src dst (ix2 i k)
      = 0 + ∑ e : Fin 1600000, edge (N := 100000) (by norm_num) 100000#32 x src dst i k e := by
  unfold aggRows
  rw [gather_eq, scatter_eq]
  exact whole_apply (by norm_num) 100000#32 gather_S100000x64_S1600000x1_S1600000x64_1_0_n_n_0_1_164_wf
    scatter_S100000x64_S1600000x1_S1600000x64_1_0_0_1_wf bcast_S_S1600000 bcast_S1600000_S1600000x1_0
    bcast_S_S100000x64 x src dst i k

/-- The neighbour sum of entrywise real features is real at entry `(a, k)`. -/
theorem agg_entry_real (x : Cert.Spec.Mat 100000 64) (src dst : IVec S1600000 32)
    (hx : ∀ i, ∃ r : ℝ, x i = (r : EReal)) (a : Fin 100000) (k : Fin 64) :
    ∃ r : ℝ, aggRows x src dst (ix2 a k) = (r : EReal) := by
  rw [aggRows_apply]
  refine add_real zero_real (sum_real _ fun e => ?_)
  unfold edge
  split
  · exact hx _
  · exact zero_real

/-- The neighbour sum of entrywise real features is entrywise real. -/
theorem agg_real (x : Cert.Spec.Mat 100000 64) (src dst : IVec S1600000 32)
    (hx : ∀ i, ∃ r : ℝ, x i = (r : EReal)) : ∀ i, ∃ r : ℝ, aggRows x src dst i = (r : EReal) := by
  intro i
  obtain ⟨r, hr⟩ := agg_entry_real x src dst hx (i 0) (i 1)
  exact ⟨r, (congrArg (aggRows x src dst) (eq_ix2 (n0 := 100000) (n1 := 64) i)).trans hr⟩

end Cert.Fin

end
-- ==== Proof.FinNet.lean ====
/-
  The five layers agree under the two variances when the inputs are real.

  A layer's weights cut out of real stacked arrays are real; the neighbour sum of real features is real; so the
  perceptron's output is real, its column mean is a real number (a real column sum over the real count `100000`), its
  two-pass variance is a non-negative real, and the normalised rows are real again. By induction over the five layers
  every layer's perceptron output is real, which is what makes the one-pass variance equal the two-pass variance.
-/
import proofs.«142526_j3951369912896_1_alg».proof.Proof.Net
import proofs.«142526_j3951369912896_1_alg».proof.Proof.FinLayer
import proofs.«142526_j3951369912896_1_alg».proof.Proof.FinAggReal

noncomputable section

namespace Cert.Fin

open Idealize.ShloMosaic Idealize.ShloMosaic.ValueIdx Cert.Spec

/-- Layer `l`'s matrix out of a real stacked array is real. -/
theorem matAt_real (a : FVec Ideal ⟨3, ![5, 64, 64]⟩ .f32) (l : Fin 5) (h : IsReal a) : IsReal (matAt a l) :=
  fun i => h (ix3 l (i 0) (i 1))

/-- Layer `l`'s row out of a real stacked array is real. -/
theorem rowAt_real (a : FVec Ideal ⟨2, ![5, 64]⟩ .f32) (l : Fin 5) (h : IsReal a) : IsReal (rowAt a l) :=
  fun i => h (ix2 l (i 1))

/-- The column means of a real matrix are real: a real column sum over the real count `100000`. -/
theorem meanOf_real {n : ℕ} (y : Mat n 64) (hy : IsReal y) : IsReal (meanOf y) :=
  fun i => div_real (colSum_real y hy i) ⟨100000, by norm_num, cnt32_eq⟩

variable [Cert.KernelIdeal.Facts₀]

/-- The perceptron of layer `l` on real features, with their neighbour sum, is real. -/
theorem layer_mlp_real (P : Weights) (src dst : IVec Cert.KernelIdeal.S1600000 32)
    (h1 : IsReal P.w1) (h2 : IsReal P.b1) (h3 : IsReal P.w2) (h4 : IsReal P.b2) (l : Fin 5) (z : Mat 100000 64)
    (hz : IsReal z) :
    IsReal (mlpOut z (aggRows z src dst) (matAt P.w1 l) (rowAt P.b1 l) (matAt P.w2 l) (rowAt P.b2 l)) :=
  mlp_real z (aggRows z src dst) (matAt P.w1 l) (rowAt P.b1 l) (matAt P.w2 l) (rowAt P.b2 l) hz
    (agg_real z src dst hz) (matAt_real P.w1 l h1) (rowAt_real P.b1 l h2) (matAt_real P.w2 l h3) (rowAt_real P.b2 l h4)

/-- A whole layer with the two-pass variance, on real features, is real. -/
theorem layerAt_real (P : Weights) (src dst : IVec Cert.KernelIdeal.S1600000 32)
    (h1 : IsReal P.w1) (h2 : IsReal P.b1) (h3 : IsReal P.w2) (h4 : IsReal P.b2) (h5 : IsReal P.gamma)
    (h6 : IsReal P.beta) (l : Fin 5) (z : Mat 100000 64) (hz : IsReal z) :
    IsReal (layerAt varTwoPass (fun z => aggRows z src dst) P l z) := by
  have hy := layer_mlp_real P src dst h1 h2 h3 h4 l z hz
  unfold layerAt layerWith
  exact bn_real _ _ _ _ _ hy (meanOf_real _ hy) (fun j => varTwoPass_real _ hy (ix2 0 j)) (rowAt_real P.gamma l h5)
    (rowAt_real P.beta l h6)

/-- The features after the five layers are the same under the one-pass and the two-pass variance, for real inputs and
    real weights. -/
theorem feats_agree (P : Weights) (x : Mat 100000 64) (src dst : IVec Cert.KernelIdeal.S1600000 32)
    (hx : IsReal x) (h1 : IsReal P.w1) (h2 : IsReal P.b1) (h3 : IsReal P.w2) (h4 : IsReal P.b2)
    (h5 : IsReal P.gamma) (h6 : IsReal P.beta) :
    feats varOnePass (fun z => aggRows z src dst) P x = feats varTwoPass (fun z => aggRows z src dst) P x :=
  feats_eq (fun z => aggRows z src dst) P x hx
    (fun l z hz => layer_mlp_real P src dst h1 h2 h3 h4 l z hz)
    (fun l z hz => layerAt_real P src dst h1 h2 h3 h4 h5 h6 l z hz)

/-- The features after the five layers, with the two-pass variance, are real for real inputs and weights. -/
theorem feats_real (P : Weights) (x : Mat 100000 64) (src dst : IVec Cert.KernelIdeal.S1600000 32)
    (hx : IsReal x) (h1 : IsReal P.w1) (h2 : IsReal P.b1) (h3 : IsReal P.w2) (h4 : IsReal P.b2)
    (h5 : IsReal P.gamma) (h6 : IsReal P.beta) :
    IsReal (feats varTwoPass (fun z => aggRows z src dst) P x) := by
  unfold feats
  exact layerAt_real P src dst h1 h2 h3 h4 h5 h6 4 _ (layerAt_real P src dst h1 h2 h3 h4 h5 h6 3 _
    (layerAt_real P src dst h1 h2 h3 h4 h5 h6 2 _ (layerAt_real P src dst h1 h2 h3 h4 h5 h6 1 _
      (layerAt_real P src dst h1 h2 h3 h4 h5 h6 0 x hx))))

end Cert.Fin

end
-- ==== Proof.FinBridge.lean ====
/-
  The two programs' host-side functions are the same functions.

  The reference's edge-source and edge-destination vectors, its neighbour sum and its mean pooling are compositions of
  the same operations, at the same shapes and with the same dimension numbers, as the other program's; the side conditions
  the two state differ only as proofs of the same propositions. So they are equal by unfolding.
-/
import proofs.«142526_j3951369912896_1_alg».proof.Proof.RefRunDefs
import proofs.«142526_j3951369912896_1_alg».proof.Proof.FinAgg
import proofs.«142526_j3951369912896_1_alg».proof.Proof.Pool

noncomputable section

namespace Cert.Fin

open Idealize.ShloMosaic

variable [Cert.KernelIdeal.Facts₀]

/-- The reference's edge sources are row 0 of the edge list. -/
theorem edgeSrc_eq (ei : IVec Cert.KernelIdeal.S2x1600000 32) :
    Cert.ReferenceIdeal.RefRun.edgeSrc ei = srcOf ei := rfl

/-- The reference's edge destinations are row 1 of the edge list. -/
theorem edgeDst_eq (ei : IVec Cert.KernelIdeal.S2x1600000 32) :
    Cert.ReferenceIdeal.RefRun.edgeDst ei = dstOf ei := rfl

/-- The reference's neighbour sum from the source and destination vectors. -/
theorem aggCore_eq (x : Cert.Spec.Mat 100000 64) (src dst : IVec Cert.KernelIdeal.S1600000 32) :
    Cert.ReferenceIdeal.RefRun.aggCore (F := Ideal) x src dst = aggRows x src dst := rfl

/-- The reference's neighbour sum from the edge list. -/
theorem aggOf_eq (x : Cert.Spec.Mat 100000 64) (ei : IVec Cert.KernelIdeal.S2x1600000 32) :
    Cert.ReferenceIdeal.RefRun.aggOf (F := Ideal) x ei = aggOf x ei := rfl

/-- The reference's mean pooling. -/
theorem poolOf_eq (x : Cert.Spec.Mat 100000 64) (b : IVec Cert.KernelIdeal.S100000 32) :
    Cert.ReferenceIdeal.RefRun.poolOf (F := Ideal) x b = poolOf x b := rfl

end Cert.Fin

end
-- ==== Proof.FinFinal.lean ====
/-
  The whole network agrees under the precondition.

  Under "every float input is finite" the features and the stacked weights are entrywise real, so the five layers give
  the same features with the one-pass and with the two-pass variance; the reference's edge vectors, neighbour sum and
  pooling are the other program's; and the head is applied to the same pooled rows with the same weights.
-/
import proofs.«142526_j3951369912896_1_alg».proof.Proof.FinArgs
import proofs.«142526_j3951369912896_1_alg».proof.Proof.FinNet
import proofs.«142526_j3951369912896_1_alg».proof.Proof.FinBridge

noncomputable section

namespace Cert.Fin

open Idealize.ShloMosaic Cert.Pre_finite_inputs

/-- Under the precondition, the network read with the reference's host functions and the two-pass variance is the
    network read with the other program's host functions and the one-pass variance. -/
theorem net_agree [Cert.KernelIdeal.Facts₀] [Cert.Pre_finite_inputs.Facts]
    (a0 : FVec Ideal S100000x64 .f32) (a1 : IVec S2x1600000 32) (a2 : IVec S100000 32)
    (a3 : FVec Ideal S5x64x64 .f32) (a4 : FVec Ideal S5x64 .f32) (a5 : FVec Ideal S5x64x64 .f32)
    (a6 : FVec Ideal S5x64 .f32) (a7 : FVec Ideal S5x64 .f32) (a8 : FVec Ideal S5x64 .f32)
    (a9 : FVec Ideal S64x64 .f32) (a10 : FVec Ideal S64 .f32) (a11 : FVec Ideal S64x10 .f32)
    (a12 : FVec Ideal S10 .f32)
    (h : Cert.Pre_finite_inputs.fn (F := Ideal) a0 a1 a2 a3 a4 a5 a6 a7 a8 a9 a10 a11 a12 = fun _ => 1#1) :
    Cert.Spec.headOut (Cert.ReferenceIdeal.RefRun.poolOf (F := Ideal)
        (Cert.Spec.feats Cert.Spec.varTwoPass
          (fun z => Cert.ReferenceIdeal.RefRun.aggCore (F := Ideal) z (Cert.ReferenceIdeal.RefRun.edgeSrc a1)
            (Cert.ReferenceIdeal.RefRun.edgeDst a1))
          (⟨a3, a4, a5, a6, a7, a8⟩ : Cert.Spec.Weights) a0) a2)
        a9 (Cert.Spec.rowOf a10) a11 (Cert.Spec.rowOf a12)
      = Cert.Spec.headOut (Cert.Fin.poolOf
        (Cert.Spec.feats Cert.Spec.varOnePass (fun z => Cert.Fin.aggRows z (Cert.Fin.srcOf a1) (Cert.Fin.dstOf a1))
          (⟨a3, a4, a5, a6, a7, a8⟩ : Cert.Spec.Weights) a0) a2)
        a9 (Cert.Spec.rowOf a10) a11 (Cert.Spec.rowOf a12) := by
  obtain ⟨r0, r3, r4, r5, r6, r7, r8, -⟩ := args_real a0 a1 a2 a3 a4 a5 a6 a7 a8 a9 a10 a11 a12 h
  have hfe := feats_agree (⟨a3, a4, a5, a6, a7, a8⟩ : Cert.Spec.Weights) a0 (srcOf a1) (dstOf a1) r0 r3 r4 r5 r6 r7 r8
  have hagg : (fun z => Cert.ReferenceIdeal.RefRun.aggCore (F := Ideal) z (Cert.ReferenceIdeal.RefRun.edgeSrc a1)
      (Cert.ReferenceIdeal.RefRun.edgeDst a1)) = (fun z => aggRows z (srcOf a1) (dstOf a1)) := rfl
  rw [hagg, poolOf_eq, hfe]

end Cert.Fin

end
-- ==== Proof.lean ====
/-
  Equivalence of a tiled five-layer graph-isomorphism network with its plain reference, on the extended reals.

  Both programs compute, layer by layer, `y = relu((x + agg(x)) · W₁ + b₁) · W₂ + b₂` on 100000 nodes of 64 features
  (`agg` the sum of the neighbours' rows over the edge list), normalise every column of `y` by its batch mean and
  variance, scale, shift and clip at zero; after five layers the rows are averaged per graph and passed through a
  two-layer head. The kernel computes `y` in ten blocks of rows, accumulates the column sums `s` and the sums of
  squares `q` block by block, and takes the variance in one pass, `q / N − (s / N)²`; the reference takes it in two
  passes, `(∑ (yᵢ − s / N)²) / N`. A block of rows of a matrix product is the same rows of the whole product, and a
  sum over ten blocks is the sum over all rows, with no condition on the entries; the two variances agree when the
  entries of `y` are real numbers, which they are at every layer because the inputs are finite, a neighbour sum of
  reals is real, and the normalisation of reals by a non-negative variance plus a positive guard is real. The
  aggregation and the pooling are the same host operations in both programs and are never opened for the equality.
  The three frames: the two kernels' are their runs through the sixteen regions; the reference's is its run with the
  result dropped. The idealization rewrote nothing, so `preserves` is trivial.
-/
import proofs.«142526_j3951369912896_1_alg».proof.Proof.Gen.Kernel
import proofs.«142526_j3951369912896_1_alg».proof.Proof.Gen.Kernel.Skeleton
import proofs.«142526_j3951369912896_1_alg».proof.Proof.Gen.Kernel.Launch
import proofs.«142526_j3951369912896_1_alg».proof.Proof.Gen.Kernel.Points
import proofs.«142526_j3951369912896_1_alg».proof.Proof.Gen.Kernel.Frame
import proofs.«142526_j3951369912896_1_alg».proof.Proof.Gen.KernelIdeal
import proofs.«142526_j3951369912896_1_alg».proof.Proof.Gen.KernelIdeal.Skeleton
import proofs.«142526_j3951369912896_1_alg».proof.Proof.Gen.KernelIdeal.Launch
import proofs.«142526_j3951369912896_1_alg».proof.Proof.Gen.KernelIdeal.Points
import proofs.«142526_j3951369912896_1_alg».proof.Proof.Gen.KernelIdeal.Frame
import proofs.«142526_j3951369912896_1_alg».proof.Proof.Gen.ReferenceIdeal
import proofs.«142526_j3951369912896_1_alg».proof.Proof.Gen.Pre_finite_inputs
import proofs.«142526_j3951369912896_1_alg».proof.Defs
import proofs.«142526_j3951369912896_1_alg».proof.Proof.KRun
import proofs.«142526_j3951369912896_1_alg».proof.Proof.KValue
import proofs.«142526_j3951369912896_1_alg».proof.Proof.KMlp0
import proofs.«142526_j3951369912896_1_alg».proof.Proof.KStats1
import proofs.«142526_j3951369912896_1_alg».proof.Proof.KBn2
import proofs.«142526_j3951369912896_1_alg».proof.Proof.KMlp3
import proofs.«142526_j3951369912896_1_alg».proof.Proof.KStats4
import proofs.«142526_j3951369912896_1_alg».proof.Proof.KBn5
import proofs.«142526_j3951369912896_1_alg».proof.Proof.KMlp6
import proofs.«142526_j3951369912896_1_alg».proof.Proof.KStats7
import proofs.«142526_j3951369912896_1_alg».proof.Proof.KBn8
import proofs.«142526_j3951369912896_1_alg».proof.Proof.KMlp9
import proofs.«142526_j3951369912896_1_alg».proof.Proof.KStats10
import proofs.«142526_j3951369912896_1_alg».proof.Proof.KBn11
import proofs.«142526_j3951369912896_1_alg».proof.Proof.KMlp12
import proofs.«142526_j3951369912896_1_alg».proof.Proof.KStats13
import proofs.«142526_j3951369912896_1_alg».proof.Proof.KBn14
import proofs.«142526_j3951369912896_1_alg».proof.Proof.KHead15
import proofs.«142526_j3951369912896_1_alg».proof.Proof.RefRun
import proofs.«142526_j3951369912896_1_alg».proof.Proof.RefReadLayer
import proofs.«142526_j3951369912896_1_alg».proof.Proof.FinFinal
import Idealize.ShloMosaic.Adequacy
import Idealize.ShloMosaic.Init

set_option maxRecDepth 16384
set_option maxHeartbeats 1600000

noncomputable section

namespace Cert.Proof

open Idealize.ShloMosaic Idealize.SL.Sem

/-- What each of the kernel's sixteen regions leaves in its output arrays. -/
theorem regions : Cert.KernelIdeal.KValue.Regions :=
  ⟨Cert.KernelIdeal.KVal.final0,
    fun V c => Cert.KernelIdeal.KVal.final1_sum V c,
    fun V c => Cert.KernelIdeal.KVal.final1_sumsq V c,
    Cert.KernelIdeal.KVal.final2,
    Cert.KernelIdeal.KVal.final3,
    fun V c => Cert.KernelIdeal.KVal.final4_sum V c,
    fun V c => Cert.KernelIdeal.KVal.final4_sumsq V c,
    Cert.KernelIdeal.KVal.final5,
    Cert.KernelIdeal.KVal.final6,
    fun V c => Cert.KernelIdeal.KVal.final7_sum V c,
    fun V c => Cert.KernelIdeal.KVal.final7_sumsq V c,
    Cert.KernelIdeal.KVal.final8,
    Cert.KernelIdeal.KVal.final9,
    fun V c => Cert.KernelIdeal.KVal.final10_sum V c,
    fun V c => Cert.KernelIdeal.KVal.final10_sumsq V c,
    Cert.KernelIdeal.KVal.final11,
    Cert.KernelIdeal.KVal.final12,
    fun V c => Cert.KernelIdeal.KVal.final13_sum V c,
    fun V c => Cert.KernelIdeal.KVal.final13_sumsq V c,
    Cert.KernelIdeal.KVal.final14,
    Cert.KernelIdeal.KVal.final15⟩

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- The kernel's run ends with the network of its arguments in the result buffer (the one-pass form); the reference's
    run ends with the same network in the two-pass form, of arguments that agree; the two forms are one function of
    finite inputs. -/
theorem algebraic : Cert.algebraic_KernelIdeal_ReferenceIdeal := by
  intro m ρ m' ρ' hpre hagree
  refine ⟨fun c => Cert.KernelIdeal.KValue.netK m c, ?_, ?_⟩
  · exact (θ_run Cert.KernelIdeal.defs _ _).mono
      (fun r h c => ⟨(h c).1.trans (Cert.KernelIdeal.KValue.value m ρ c regions), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10, e11, e12⟩ := hagree c
    rw [e0, e1, e2, e3, e4, e5, e6, e7, e8, e9, e10, e11, e12, Cert.ReferenceIdeal.RefRun.out_eq]
    exact Cert.Fin.net_agree _ _ _ _ _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
